-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.named_const.Statement Cert.KernelIdeal.κ "inv_10000" .f32 0x38D1B717#32 ((1 / 10000 : ℝ) : EReal)
  ∧ IdealRules.named_const.Statement Cert.KernelIdeal.κ "inv_10000" .f32 0x38D1B717#32 ((1 / 10000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S128 .f32) (main_arg8 : FVec F S128x1 .f32) (main_arg9 : FVec F S1 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x1 .f32 := Host.absf main_arg8
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S128x128 .f32) (main_arg5 : FVec F S128 .f32) (main_arg6 : FVec F S128 .f32) (main_arg7 : FVec F S128 .f32) (main_arg8 : FVec F S128x1 .f32) (main_arg9 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) (main_arg6 : FVec F S128 .f32) (main_arg7 : FVec F S128 .f32) (main_arg8 : FVec F S128x1 .f32) (main_arg9 : FVec F S1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x128 : Shape := ⟨2, ![1, 128]⟩
abbrev S1x1 : Shape := ⟨2, ![1, 1]⟩
abbrev S10000x1 : Shape := ⟨2, ![10000, 1]⟩
abbrev S200x10000 : Shape := ⟨2, ![200, 10000]⟩
abbrev S8x128 : Shape := ⟨2, ![8, 128]⟩
abbrev S200x128 : Shape := ⟨2, ![200, 128]⟩
abbrev S6x128 : Shape := ⟨2, ![6, 128]⟩

abbrev nBuf : Space → Nat
  | .hbm => 17
  | .vmem => 16
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S10000x128, .bf16⟩
  | .hbm, ⟨11, _⟩ => ⟨S1x128, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S1x1, .f32⟩
  | .hbm, ⟨16, _⟩ => ⟨S10000x1, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S10000x128, .bf16⟩
  | .local _ .vmem, ⟨5, _⟩ => ⟨S128x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S128x1, .f32⟩
  | .local _ .vmem, ⟨12, _⟩ => ⟨S1x1, .f32⟩
  | .local _ .vmem, ⟨13, _⟩ => ⟨S10000x1, .f32⟩
  | .local _ .vmem, ⟨14, _⟩ => ⟨S10000x128, .f32⟩
  | .local _ .vmem, ⟨15, _⟩ => ⟨S8x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_v0 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c2_i32 : BitVec 32 := 2#32
  let v42 : BitVec 32 := Scalar.muli arg0 c2_i32
  let c200_i32 : BitVec 32 := 200#32
  let v43 : BitVec 32 := Scalar.muli v42 c200_i32
  let v44 : Index := Scalar.indexCast v43
  let c0_30 : Index := 0#32
  ![v44.toNat, 0]
def k0_off2 (i : grid0.Coords) : Fin 2 → Nat :=
  let arg0 : BitVec 32 := BitVec.ofNat 32 (i 0).val
  let c2_i32_31 : BitVec 32 := 2#32
  let v48 : BitVec 32 := Scalar.muli arg0 c2_i32_31
  let c200_i32_32 : BitVec 32 := 200#32
  let v49 : BitVec 32 := Scalar.muli v48 c200_i32_32
  let c200_i32_33 : BitVec 32 := 200#32
  let v50 : BitVec 32 := Scalar.addi v49 c200_i32_33
  let v51 : Index := Scalar.indexCast v50
  let c0_34 : Index := 0#32
  ![v51.toNat, 0]
def k0_cond2 (i : grid0.Coords) : BitVec 1 :=
  let arg0 : BitVec 32 := BitVec.ofNat 32 (i 0).val
  let c24_i32 : BitVec 32 := 24#32
  let v77 : BitVec 1 := Scalar.cmpi .eq arg0 c24_i32
  let v78 : BitVec 32 := Scalar.extui v77
  let c0_i32_45 : BitVec 32 := 0#32
  let v79 : BitVec 1 := Scalar.cmpi .ne v78 c0_i32_45
  v79

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S10000x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

class Facts₀ : Prop where
  bitsLt_bf16_f32 : FTy.bits .bf16 < FTy.bits .f32
  shapeCasts_S128_S1x128 : S128.ShapeCasts S1x128
  shapeCasts_S1_S1x1 : S1.ShapeCasts S1x1
  inb_S200x10000_S200x10000_0_0 : ∀ a, (![0, 0] : Fin 2 → Nat) a + S200x10000.size a ≤ S200x10000.size a
  h_S200x10000 : 0 < S200x10000.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S128 : S1x128.ShapeCasts S128
  broadcasts_S1x128_S200x128 : S1x128.Broadcasts S200x128
  h_S200x128 : 0 < S200x128.numel
  shapeCasts_S200x128_S200x128 : S200x128.ShapeCasts S200x128
  reduces_S200x128_S128 : S200x128.Reduces [0] S128
  concatenates_S1x128_S1x128_S6x128_S8x128_d0 : Shape.Concatenates [S1x128, S1x128, S6x128] S8x128 0
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S8x128_S1x128_0_0 : ∀ a, (![0, 0] : Fin 2 → Nat) a + S1x128.size a ≤ S8x128.size a
  inb_S8x128_S1x128_1_0 : ∀ a, (![1, 0] : Fin 2 → Nat) a + S1x128.size a ≤ S8x128.size a
  broadcasts_S1x128_S10000x128 : S1x128.Broadcasts S10000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S10000x1_S10000x1_0_0 : ∀ a, (![0, 0] : Fin 2 → Nat) a + S10000x1.size a ≤ S10000x1.size a
  h_S10000x1 : 0 < S10000x1.numel
  dot_S200x10000_S10000x128_S200x128_1_0_0_1_n_n_wf : DotDims.WF S200x10000 S10000x128 S200x128 [1] [0] [0] [1] [] []
  dot_S200x128_S128x128_S200x128_1_0_0_1_n_n_wf : DotDims.WF S200x128 S128x128 S200x128 [1] [0] [0] [1] [] []
  dot_S10000x128_S128x1_S10000x1_1_0_0_1_n_n_wf : DotDims.WF S10000x128 S128x1 S10000x1 [1] [0] [0] [1] [] []
  hrank0 : 0 < grid0.rank
  k0_off1_inb : ∀ i : grid0.Coords, ∀ a, (k0_off1 i) a + S200x128.size a ≤ S10000x128.size a
  k0_off2_inb : ∀ i : grid0.Coords, ∀ a, (k0_off2 i) a + S200x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .bf16 = 32 ∨ (Rect.block (s := S10000x128) S10000x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x1.size a ≤ S128x1.size a
  hwx0_9 : ∀ i : grid0.Coords, EltTy.bits .f32 = 32 ∨ (Rect.block (s := S128x1) S128x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S10000x1.size a ≤ S10000x1.size a
  hwx0_11 : ∀ i : grid0.Coords, EltTy.bits .f32 = 32 ∨ (Rect.block (s := S10000x1) S10000x1.size (cc0_transform_11 i) (hinb0_11 i)).WholeWords (EltTy.packing .f32)

variable [Facts₀]

def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v2) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v3) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v4) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S128x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_call0_v5) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v0) S10000x1.size cc0_transform_11 reads0_11 true true 1 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k0_cond2 i == 1#1) | ⟨_ + 12, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x128 : Shape := ⟨2, ![1, 128]⟩
abbrev S_ : Shape := ⟨0, ![]⟩
abbrev S10000x1 : Shape := ⟨2, ![10000, 1]⟩
abbrev S1x1 : Shape := ⟨2, ![1, 1]⟩

abbrev nBuf : Space → Nat
  | .hbm => 73
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S10000x128, .f32⟩
  | .hbm, ⟨11, _⟩ => ⟨S10000x128, .f32⟩
  | .hbm, ⟨12, _⟩ => ⟨S1x128, .f32⟩
  | .hbm, ⟨13, _⟩ => ⟨S10000x128, .f32⟩
  | .hbm, ⟨14, _⟩ => ⟨S10000x128, .f32⟩
  | .hbm, ⟨15, _⟩ => ⟨S_, .f32⟩
  | .hbm, ⟨16, _⟩ => ⟨S10000x128, .f32⟩
  | .hbm, ⟨17, _⟩ => ⟨S10000x128, .f32⟩
  | .hbm, ⟨18, _⟩ => ⟨S10000x128, .f32⟩
  | .hbm, ⟨19, _⟩ => ⟨S1x128, .f32⟩
  | .hbm, ⟨20, _⟩ => ⟨S10000x128, .f32⟩
  | .hbm, ⟨21, _⟩ => ⟨S10000x128, .f32⟩
  | .hbm, ⟨22, _⟩ => ⟨S_, .f32⟩
  | .hbm, ⟨23, _⟩ => ⟨S128, .f32⟩
  | .hbm, ⟨24, _⟩ => ⟨S1x128, .f32⟩
  | .hbm, ⟨25, _⟩ => ⟨S_, .f32⟩
  | .hbm, ⟨26, _⟩ => ⟨S1x128, .f32⟩
  | .hbm, ⟨27, _⟩ => ⟨S1x128, .f32⟩
  | .hbm, ⟨28, _⟩ => ⟨S_, .i32⟩
  | .hbm, ⟨29, _⟩ => ⟨S_, .f32⟩
  | .hbm, ⟨30, _⟩ => ⟨S128, .f32⟩
  | .hbm, ⟨31, _⟩ => ⟨S1x128, .f32⟩
  | .hbm, ⟨32, _⟩ => ⟨S_, .f32⟩
  | .hbm, ⟨33, _⟩ => ⟨S1x128, .f32⟩
  | .hbm, ⟨34, _⟩ => ⟨S1x128, .f32⟩
  | .hbm, ⟨35, _⟩ => ⟨S10000x128, .f32⟩
  | .hbm, ⟨36, _⟩ => ⟨S10000x128, .f32⟩
  | .hbm, ⟨37, _⟩ => ⟨S10000x128, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S128, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S_, .f32⟩
  | .hbm, ⟨47, _⟩ => ⟨S_, .i1⟩
  | .hbm, ⟨48, _⟩ => ⟨S_, .f32⟩
  | .hbm, ⟨49, _⟩ => ⟨S_, .f32⟩
  | .hbm, ⟨50, _⟩ => ⟨S1x128, .f32⟩
  | .hbm, ⟨51, _⟩ => ⟨S1x128, .f32⟩
  | .hbm, ⟨52, _⟩ => ⟨S10000x128, .f32⟩
  | .hbm, ⟨53, _⟩ => ⟨S10000x128, .f32⟩
  | .hbm, ⟨54, _⟩ => ⟨S1x128, .f32⟩
  | .hbm, ⟨55, _⟩ => ⟨S10000x128, .f32⟩
  | .hbm, ⟨56, _⟩ => ⟨S10000x128, .f32⟩
  | .hbm, ⟨57, _⟩ => ⟨S_, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S10000x128, .f32⟩
  | .hbm, ⟨62, _⟩ => ⟨S10000x128, .f32⟩
  | .hbm, ⟨63, _⟩ => ⟨S1x128, .f32⟩
  | .hbm, ⟨64, _⟩ => ⟨S10000x128, .f32⟩
  | .hbm, ⟨65, _⟩ => ⟨S10000x128, .f32⟩
  | .hbm, ⟨66, _⟩ => ⟨S_, .f32⟩
  | .hbm, ⟨67, _⟩ => ⟨S10000x128, .f32⟩
  | .hbm, ⟨68, _⟩ => ⟨S10000x128, .f32⟩
  | .hbm, ⟨69, _⟩ => ⟨S10000x1, .f32⟩
  | .hbm, ⟨70, _⟩ => ⟨S1x1, .f32⟩
  | .hbm, ⟨71, _⟩ => ⟨S10000x1, .f32⟩
  | .hbm, ⟨72, _⟩ => ⟨S10000x1, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_call1_cst : Ref sig .tc := ⟨.hbm, 29, rfl⟩
abbrev main_call1_v0 : Ref sig .tc := ⟨.hbm, 30, rfl⟩
abbrev main_call1_v1 : Ref sig .tc := ⟨.hbm, 31, rfl⟩
abbrev main_call1_cst_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_cst_1 : Ref sig .tc := ⟨.hbm, 39, rfl⟩
abbrev main_call1_v8 : Ref sig .tc := ⟨.hbm, 40, rfl⟩
abbrev main_call1_cst_2 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_v12 : Ref sig .tc := ⟨.hbm, 45, rfl⟩
abbrev main_call1_cst_3 : Ref sig .tc := ⟨.hbm, 46, rfl⟩
abbrev main_call1_v13 : Ref sig .tc := ⟨.hbm, 47, rfl⟩
abbrev main_call1_cst_4 : Ref sig .tc := ⟨.hbm, 48, rfl⟩
abbrev main_call1_call0_v0 : Ref sig .tc := ⟨.hbm, 49, rfl⟩
abbrev main_call1_call0_v1 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_cst_1 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_call2_cst : Ref sig .tc := ⟨.hbm, 66, rfl⟩
abbrev main_call2_v0 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  reducesTo_S10000x128_S128_d0 : S10000x128.ReducesTo [0] S128
  h_S_ : 0 < S_.numel
  bcast_S_S1x128 : S_.BroadcastsInDim S1x128 (![] : Fin 0 → Fin S1x128.rank)
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []
  dot_S10000x128_S128x1_S10000x1_1_0_0_1_n_n_wf : DotDims.WF S10000x128 S128x1 S10000x1 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf

class Facts : Prop extends Facts₀ where

variable [Facts]
-- ==== Proof.Preserves.lean ====
/-
  The kernel multiplies the column sums by the reciprocal of the row count, printed as the named constant
  "inv_10000"; the certificate's table gives that name the rational 1/10000, which is what the two
  ledger entries (the mean and the mean of squares) state.
-/
import proofs.«123370_g29334626631814_cont_sun_c4_761_10_alg».proof.Defs

noncomputable section

namespace Cert.Proof.Bridge

open Idealize.ShloMosaic

/-- Both ledger entries: the printed word 0x38D1B717 named "inv_10000" denotes 1/10000 at the ideal instance. -/
theorem preserves : Cert.preserves_Kernel_KernelIdeal :=
  ⟨IdealRules.named_const.statement Cert.KernelIdeal.κ "inv_10000" .f32 0x38D1B717#32 ((1 / 10000 : ℝ) : EReal) rfl,
   IdealRules.named_const.statement Cert.KernelIdeal.κ "inv_10000" .f32 0x38D1B717#32 ((1 / 10000 : ℝ) : EReal) rfl⟩

end Cert.Proof.Bridge

end
-- ==== Proof.RefRun.lean ====
/-
  The reference program as a straight line of host operations: its three auxiliary functions (the rectifier, the
  column variance and the select inside it) are inlined by unfolding, so the whole of it is one list of 63
  operations, and its run ends with every buffer at the fold of those operations over the launch contents.
-/
import proofs.«123370_g29334626631814_cont_sun_c4_761_10_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F]

/-- The reference's 63 operations in order, the auxiliary functions' bodies in place of their calls. -/
abbrev ops : List (HloOp τ sig (Elt F)) :=
  [ StableHlo.binary main_arg1 main_arg0 main_v0 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    StableHlo.binary main_v0 main_arg2 main_v1 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.unary main_arg3 main_v2 (broadcastInDim S1x128 ![1] bcast_S128_S1x128_1 : (⟨S128, .f32⟩ : BufTy).Contents (Elt F) → (⟨S1x128, .f32⟩ : BufTy).Contents (Elt F)),
    StableHlo.unary main_v2 main_v3 (broadcastInDim S10000x128 ![0, 1] bcast_S1x128_S10000x128_0_1 : (⟨S1x128, .f32⟩ : BufTy).Contents (Elt F) → (⟨S10000x128, .f32⟩ : BufTy).Contents (Elt F)),
    StableHlo.binary main_v1 main_v3 main_v4 (addf : (⟨S10000x128, .f32⟩ : BufTy).Contents (Elt F) → (⟨S10000x128, .f32⟩ : BufTy).Contents (Elt F) → (⟨S10000x128, .f32⟩ : BufTy).Contents (Elt F)),
    StableHlo.TRef.nullary main_call0.cst (constant S_ .f32 0x00000000#32),
    StableHlo.TRef.unary main_call0.cst main_call0.v0 (broadcastInDim S10000x128 ![] bcast_S_S10000x128),
    StableHlo.TRef.binary (StableHlo.TRef.of main_v4 : StableHlo.TRef sig ⟨S10000x128, .f32⟩) main_call0.v0 main_call0.v1 maximumf,
    StableHlo.binary main_v5 main_arg4 main_v6 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.unary main_arg5 main_v7 (broadcastInDim S1x128 ![1] bcast_S128_S1x128_1 : (⟨S128, .f32⟩ : BufTy).Contents (Elt F) → (⟨S1x128, .f32⟩ : BufTy).Contents (Elt F)),
    StableHlo.unary main_v7 main_v8 (broadcastInDim S10000x128 ![0, 1] bcast_S1x128_S10000x128_0_1 : (⟨S1x128, .f32⟩ : BufTy).Contents (Elt F) → (⟨S10000x128, .f32⟩ : BufTy).Contents (Elt F)),
    StableHlo.binary main_v6 main_v8 main_v9 (addf : (⟨S10000x128, .f32⟩ : BufTy).Contents (Elt F) → (⟨S10000x128, .f32⟩ : BufTy).Contents (Elt F) → (⟨S10000x128, .f32⟩ : BufTy).Contents (Elt F)),
    StableHlo.nullary main_cst (constant S_ .f32 0x00000000#32),
    StableHlo.binary main_v9 main_cst main_v10 ((fun x v => Host.reduceAdd x v reducesTo_S10000x128_S128_d0 h_S_) : (⟨S10000x128, .f32⟩ : BufTy).Contents (Elt F) → (⟨S_, .f32⟩ : BufTy).Contents (Elt F) → (⟨S128, .f32⟩ : BufTy).Contents (Elt F)),
    StableHlo.unary main_v10 main_v11 (broadcastInDim S1x128 ![1] bcast_S128_S1x128_1 : (⟨S128, .f32⟩ : BufTy).Contents (Elt F) → (⟨S1x128, .f32⟩ : BufTy).Contents (Elt F)),
    StableHlo.nullary main_cst_0 (constant S_ .f32 0x461C4000#32),
    StableHlo.unary main_cst_0 main_v12 (broadcastInDim S1x128 ![] bcast_S_S1x128 : (⟨S_, .f32⟩ : BufTy).Contents (Elt F) → (⟨S1x128, .f32⟩ : BufTy).Contents (Elt F)),
    StableHlo.binary main_v11 main_v12 main_v13 (Host.divf : (⟨S1x128, .f32⟩ : BufTy).Contents (Elt F) → (⟨S1x128, .f32⟩ : BufTy).Contents (Elt F) → (⟨S1x128, .f32⟩ : BufTy).Contents (Elt F)),
    StableHlo.nullary main_c (constantI S_ 32 0#32),
    StableHlo.TRef.nullary main_call1.cst (constant S_ .f32 0x00000000#32),
    StableHlo.TRef.binary (StableHlo.TRef.of main_v9 : StableHlo.TRef sig ⟨S10000x128, .f32⟩) main_call1.cst main_call1.v0 (fun x v => Host.reduceAdd x v reducesTo_S10000x128_S128_d0 h_S_),
    StableHlo.TRef.unary main_call1.v0 main_call1.v1 (broadcastInDim S1x128 ![1] bcast_S128_S1x128_1),
    StableHlo.TRef.nullary main_call1.cst_0 (constant S_ .f32 0x461C4000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S10000x128 ![0, 1] bcast_S1x128_S10000x128_0_1),
    StableHlo.TRef.binary (StableHlo.TRef.of main_v9 : StableHlo.TRef sig ⟨S10000x128, .f32⟩) main_call1.v4 main_call1.v5 subf,
    StableHlo.TRef.binary main_call1.v5 main_call1.v5 main_call1.v6 mulf,
    StableHlo.TRef.unary (StableHlo.TRef.of main_c : StableHlo.TRef sig ⟨S_, .i32⟩) main_call1.v7 (sitofp .f32),
    StableHlo.TRef.nullary main_call1.cst_1 (constant S_ .f32 0x461C4000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S10000x128_S128_d0 h_S_),
    StableHlo.TRef.unary main_call1.v9 main_call1.v10 (broadcastInDim S1x128 ![1] bcast_S128_S1x128_1),
    StableHlo.TRef.unary main_call1.v8 main_call1.v11 (broadcastInDim S1x128 ![] bcast_S_S1x128),
    StableHlo.TRef.binary main_call1.v10 main_call1.v11 main_call1.v12 Host.divf,
    StableHlo.TRef.nullary main_call1.cst_3 (constant S_ .f32 0x00000000#32),
    StableHlo.TRef.binary main_call1.v8 main_call1.cst_3 main_call1.v13 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S1x128 ![] bcast_S_S1x128),
    StableHlo.TRef.ternary main_call1.v13 main_call1.v12 main_call1.call0.v1 main_call1.call0.v2 (fun p a b => select (broadcastInDim S1x128 ![] bcast_S_S1x128 p) a b),
    StableHlo.unary main_v13 main_v15 (broadcastInDim S10000x128 ![0, 1] bcast_S1x128_S10000x128_0_1 : (⟨S1x128, .f32⟩ : BufTy).Contents (Elt F) → (⟨S10000x128, .f32⟩ : BufTy).Contents (Elt F)),
    StableHlo.binary main_v9 main_v15 main_v16 (subf : (⟨S10000x128, .f32⟩ : BufTy).Contents (Elt F) → (⟨S10000x128, .f32⟩ : BufTy).Contents (Elt F) → (⟨S10000x128, .f32⟩ : BufTy).Contents (Elt F)),
    StableHlo.unary main_arg6 main_v17 (broadcastInDim S1x128 ![1] bcast_S128_S1x128_1 : (⟨S128, .f32⟩ : BufTy).Contents (Elt F) → (⟨S1x128, .f32⟩ : BufTy).Contents (Elt F)),
    StableHlo.unary main_v17 main_v18 (broadcastInDim S10000x128 ![0, 1] bcast_S1x128_S10000x128_0_1 : (⟨S1x128, .f32⟩ : BufTy).Contents (Elt F) → (⟨S10000x128, .f32⟩ : BufTy).Contents (Elt F)),
    StableHlo.binary main_v18 main_v16 main_v19 (mulf : (⟨S10000x128, .f32⟩ : BufTy).Contents (Elt F) → (⟨S10000x128, .f32⟩ : BufTy).Contents (Elt F) → (⟨S10000x128, .f32⟩ : BufTy).Contents (Elt F)),
    StableHlo.nullary main_cst_1 (constant S_ .f32 0x3727C5AC#32),
    StableHlo.unary main_cst_1 main_v20 (broadcastInDim S1x128 ![] bcast_S_S1x128 : (⟨S_, .f32⟩ : BufTy).Contents (Elt F) → (⟨S1x128, .f32⟩ : BufTy).Contents (Elt F)),
    StableHlo.binary main_v14 main_v20 main_v21 (addf : (⟨S1x128, .f32⟩ : BufTy).Contents (Elt F) → (⟨S1x128, .f32⟩ : BufTy).Contents (Elt F) → (⟨S1x128, .f32⟩ : BufTy).Contents (Elt F)),
    StableHlo.unary main_v21 main_v22 (Host.sqrt : (⟨S1x128, .f32⟩ : BufTy).Contents (Elt F) → (⟨S1x128, .f32⟩ : BufTy).Contents (Elt F)),
    StableHlo.unary main_v22 main_v23 (broadcastInDim S10000x128 ![0, 1] bcast_S1x128_S10000x128_0_1 : (⟨S1x128, .f32⟩ : BufTy).Contents (Elt F) → (⟨S10000x128, .f32⟩ : BufTy).Contents (Elt F)),
    StableHlo.binary main_v19 main_v23 main_v24 (Host.divf : (⟨S10000x128, .f32⟩ : BufTy).Contents (Elt F) → (⟨S10000x128, .f32⟩ : BufTy).Contents (Elt F) → (⟨S10000x128, .f32⟩ : BufTy).Contents (Elt F)),
    StableHlo.unary main_arg7 main_v25 (broadcastInDim S1x128 ![1] bcast_S128_S1x128_1 : (⟨S128, .f32⟩ : BufTy).Contents (Elt F) → (⟨S1x128, .f32⟩ : BufTy).Contents (Elt F)),
    StableHlo.unary main_v25 main_v26 (broadcastInDim S10000x128 ![0, 1] bcast_S1x128_S10000x128_0_1 : (⟨S1x128, .f32⟩ : BufTy).Contents (Elt F) → (⟨S10000x128, .f32⟩ : BufTy).Contents (Elt F)),
    StableHlo.binary main_v24 main_v26 main_v27 (addf : (⟨S10000x128, .f32⟩ : BufTy).Contents (Elt F) → (⟨S10000x128, .f32⟩ : BufTy).Contents (Elt F) → (⟨S10000x128, .f32⟩ : BufTy).Contents (Elt F)),
    StableHlo.TRef.nullary main_call2.cst (constant S_ .f32 0x00000000#32),
    StableHlo.TRef.unary main_call2.cst main_call2.v0 (broadcastInDim S10000x128 ![] bcast_S_S10000x128),
    StableHlo.TRef.binary (StableHlo.TRef.of main_v27 : StableHlo.TRef sig ⟨S10000x128, .f32⟩) main_call2.v0 main_call2.v1 maximumf,
    StableHlo.binary main_v28 main_arg8 main_v29 ((fun l r => Host.dotGeneral dot_S10000x128_S128x1_S10000x1_1_0_0_1_n_n none l r) : (⟨S10000x128, .f32⟩ : BufTy).Contents (Elt F) → (⟨S128x1, .f32⟩ : BufTy).Contents (Elt F) → (⟨S10000x1, .f32⟩ : BufTy).Contents (Elt F)),
    StableHlo.unary main_arg9 main_v30 (broadcastInDim S1x1 ![1] bcast_S1_S1x1_1 : (⟨S1, .f32⟩ : BufTy).Contents (Elt F) → (⟨S1x1, .f32⟩ : BufTy).Contents (Elt F)),
    StableHlo.unary main_v30 main_v31 (broadcastInDim S10000x1 ![0, 1] bcast_S1x1_S10000x1_0_1 : (⟨S1x1, .f32⟩ : BufTy).Contents (Elt F) → (⟨S10000x1, .f32⟩ : BufTy).Contents (Elt F)),
    StableHlo.binary main_v29 main_v31 main_v32 (addf : (⟨S10000x1, .f32⟩ : BufTy).Contents (Elt F) → (⟨S10000x1, .f32⟩ : BufTy).Contents (Elt F) → (⟨S10000x1, .f32⟩ : BufTy).Contents (Elt F)) ]

theorem main_eq (c : Dev nD) : main (F := F) c = seq ops := rfl

/-- The reference scopes no buffer and no semaphore: it launches no kernel. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub ..⟩

/-- Every weakly fair execution of the reference terminates, and each buffer ends at the fold of the 63 operations
    over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

end Cert.ReferenceIdeal.RefRun

end
-- ==== Proof.RefTerm.lean ====
/-
  What the reference computes, as one term of its ten argument arrays, in stages: the two-layer perceptron
  over the pooled neighbours, the column mean and the column variance (the variance function's select between the mean of
  squared deviations and a quiet NaN on the sign of the divisor), the normalisation, the rectifier and the
  readout.  The run's result buffer is that term, and the argument buffers are untouched.
-/
import proofs.«123370_g29334626631814_cont_sun_c4_761_10_alg».proof.Proof.RefRun

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F]

/-- The contents of an f32 buffer of shape `S`. -/
abbrev Tn (F : FTy → Type) (S : Shape) := (⟨S, .f32⟩ : BufTy).Contents (Elt F)

/-- A vector of 128 features repeated down the 10000 rows. -/
def rowsOf (v : Tn F S128) : Tn F S10000x128 :=
  broadcastInDim S10000x128 ![0, 1] bcast_S1x128_S10000x128_0_1 (broadcastInDim S1x128 ![1] bcast_S128_S1x128_1 v)

/-- The rectifier: the larger of an entry and zero. -/
def relu (x : Tn F S10000x128) : Tn F S10000x128 :=
  maximumf x (broadcastInDim S10000x128 ![] bcast_S_S10000x128 (constant S_ .f32 0x00000000#32))

/-- The pre-normalisation activations: pooled neighbours through the two linear layers with the rectifier between. -/
def feat (h : Tn F S10000x128) (A : Tn F S10000x10000) (W1 : Tn F S128x128) (b1 : Tn F S128) (W2 : Tn F S128x128) (b2 : Tn F S128) : Tn F S10000x128 :=
  addf (Host.dotGeneral dot_S10000x128_S128x128_S10000x128_1_0_0_1_n_n none
      (relu (addf (Host.dotGeneral dot_S10000x128_S128x128_S10000x128_1_0_0_1_n_n none
          (Host.dotGeneral dot_S10000x10000_S10000x128_S10000x128_1_0_0_1_n_n none A h) W1) (rowsOf b1))) W2) (rowsOf b2)

/-- The column sums over the 10000 rows divided by 10000, as a row. -/
def colMean (x : Tn F S10000x128) : Tn F S1x128 :=
  Host.divf (broadcastInDim S1x128 ![1] bcast_S128_S1x128_1 (Host.reduceAdd x (constant S_ .f32 0x00000000#32) reducesTo_S10000x128_S128_d0 h_S_))
    (broadcastInDim S1x128 ![] bcast_S_S1x128 (constant S_ .f32 0x461C4000#32))

/-- The divisor of the variance: 10000 less the (zero) degrees-of-freedom correction, converted from an integer. -/
def varDen : (⟨S_, .f32⟩ : BufTy).Contents (Elt F) :=
  subf (constant S_ .f32 0x461C4000#32) (sitofp .f32 (constantI S_ 32 0#32))

/-- The column variance as the variance function computes it. -/
def colVar (x : Tn F S10000x128) : Tn F S1x128 :=
  select (broadcastInDim S1x128 ![] bcast_S_S1x128 (cmpf .ogt (varDen (F := F)) (constant S_ .f32 0x00000000#32)))
    (Host.divf (broadcastInDim S1x128 ![1] bcast_S128_S1x128_1
        (Host.reduceAdd (mulf (subf x (broadcastInDim S10000x128 ![0, 1] bcast_S1x128_S10000x128_0_1 (colMean x)))
            (subf x (broadcastInDim S10000x128 ![0, 1] bcast_S1x128_S10000x128_0_1 (colMean x))))
          (constant S_ .f32 0x00000000#32) reducesTo_S10000x128_S128_d0 h_S_))
      (broadcastInDim S1x128 ![] bcast_S_S1x128 (varDen (F := F))))
    (broadcastInDim S1x128 ![] bcast_S_S1x128 (id (constant S_ .f32 0x7FC00000#32)))

/-- The normalised, scaled and shifted activations. -/
def normed (x : Tn F S10000x128) (gamma beta : Tn F S128) : Tn F S10000x128 :=
  addf (Host.divf (mulf (rowsOf gamma) (subf x (broadcastInDim S10000x128 ![0, 1] bcast_S1x128_S10000x128_0_1 (colMean x))))
      (broadcastInDim S10000x128 ![0, 1] bcast_S1x128_S10000x128_0_1
        (Host.sqrt (addf (colVar x) (broadcastInDim S1x128 ![] bcast_S_S1x128 (constant S_ .f32 0x3727C5AC#32))))))
    (rowsOf beta)

/-- The reference's result: the readout of the rectified normalised activations. -/
def refOut (h : Tn F S10000x128) (A : Tn F S10000x10000) (W1 : Tn F S128x128) (b1 : Tn F S128) (W2 : Tn F S128x128) (b2 gamma beta : Tn F S128)
    (Wp : Tn F S128x1) (bp : Tn F S1) : Tn F S10000x1 :=
  addf (Host.dotGeneral dot_S10000x128_S128x1_S10000x1_1_0_0_1_n_n none (relu (normed (feat h A W1 b1 W2 b2) gamma beta)) Wp)
    (broadcastInDim S10000x1 ![0, 1] bcast_S1x1_S10000x1_0_1 (broadcastInDim S1x1 ![1] bcast_S1_S1x1_1 bp))

/-- The fold of the operations at the result buffer is the staged term of the launch contents. -/
theorem after_v32 (V : Valuation τ sig (Elt F)) :
    after ops V (Proc.devRef .tc main_v32)
      = refOut (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) (V (Proc.devRef .tc main_arg7))
          (V (Proc.devRef .tc main_arg8)) (V (Proc.devRef .tc main_arg9)) := by
  after_results_simp
  rfl

/-- No operation writes an argument buffer. -/
theorem after_arg0 (V : Valuation τ sig (Elt F)) : after ops V (Proc.devRef .tc main_arg0) = V (Proc.devRef .tc main_arg0) := by
  after_results_simp
theorem after_arg1 (V : Valuation τ sig (Elt F)) : after ops V (Proc.devRef .tc main_arg1) = V (Proc.devRef .tc main_arg1) := by
  after_results_simp
theorem after_arg2 (V : Valuation τ sig (Elt F)) : after ops V (Proc.devRef .tc main_arg2) = V (Proc.devRef .tc main_arg2) := by
  after_results_simp
theorem after_arg3 (V : Valuation τ sig (Elt F)) : after ops V (Proc.devRef .tc main_arg3) = V (Proc.devRef .tc main_arg3) := by
  after_results_simp
theorem after_arg4 (V : Valuation τ sig (Elt F)) : after ops V (Proc.devRef .tc main_arg4) = V (Proc.devRef .tc main_arg4) := by
  after_results_simp
theorem after_arg5 (V : Valuation τ sig (Elt F)) : after ops V (Proc.devRef .tc main_arg5) = V (Proc.devRef .tc main_arg5) := by
  after_results_simp
theorem after_arg6 (V : Valuation τ sig (Elt F)) : after ops V (Proc.devRef .tc main_arg6) = V (Proc.devRef .tc main_arg6) := by
  after_results_simp
theorem after_arg7 (V : Valuation τ sig (Elt F)) : after ops V (Proc.devRef .tc main_arg7) = V (Proc.devRef .tc main_arg7) := by
  after_results_simp
theorem after_arg8 (V : Valuation τ sig (Elt F)) : after ops V (Proc.devRef .tc main_arg8) = V (Proc.devRef .tc main_arg8) := by
  after_results_simp
theorem after_arg9 (V : Valuation τ sig (Elt F)) : after ops V (Proc.devRef .tc main_arg9) = V (Proc.devRef .tc main_arg9) := by
  after_results_simp

/-- Every weakly fair execution of the reference terminates with the result buffer at the staged term of the
    argument arrays, and the argument arrays as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v32) = refOut (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v32).trans (after_v32 _),
      (h c main_arg0).trans (after_arg0 _),
      (h c main_arg1).trans (after_arg1 _),
      (h c main_arg2).trans (after_arg2 _),
      (h c main_arg3).trans (after_arg3 _),
      (h c main_arg4).trans (after_arg4 _),
      (h c main_arg5).trans (after_arg5 _),
      (h c main_arg6).trans (after_arg6 _),
      (h c main_arg7).trans (after_arg7 _),
      (h c main_arg8).trans (after_arg8 _),
      (h c main_arg9).trans (after_arg9 _)⟩)
    (run_all m ρ)

end Cert.ReferenceIdeal.RefRun

end
-- ==== Proof.KRuns.lean ====
import proofs.«123370_g29334626631814_cont_sun_c4_761_10_alg».proof.Proof.Gen.Kernel.Launch
import proofs.«123370_g29334626631814_cont_sun_c4_761_10_alg».proof.Proof.Gen.Kernel.Skeleton
import proofs.«123370_g29334626631814_cont_sun_c4_761_10_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional of the body: the grid coordinate is zero (the statistics are reset there). -/
abbrev cond1 (i : grid0.Coords) : Prop := (Scalar.cmpi .ne (Scalar.extui (Scalar.cmpi .eq (BitVec.ofNat 32 (i 0).val) 0#32)) 0#32) = 1#1
/-- The second: the grid coordinate is the last one (the normalisation and the readout run there). -/
abbrev cond2 (i : grid0.Coords) : Prop := k0_cond2 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val = 24 :=
  (by decide +kernel : ∀ t : Fin grid0.N, cond2 (grid0.coords t) ↔ t.val = 24)

end Cert.Kernel.Hand

end
-- ==== Proof.KArr.lean ====
import proofs.«123370_g29334626631814_cont_sun_c4_761_10_alg».proof.Proof.KRuns
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The contents of core `c`'s buffers when the region is entered: after the six host operations before it (the
    features cast to bf16, the five vectors reshaped to rows). -/
abbrev V0 (c : Dev nD) : Valuation τ sig (Elt F) := StableHlo.after hostOps0 (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- @main is the host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! ## The buffers behind the windows' arrays, one by one -/

/-- The eleven distinct buffers behind the twelve windows' arrays (the adjacency matrix is behind two of them), each
    whole at the full share. -/
theorem arrBufs0_eq (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc main_arg1) ↦{fullShare} W main_arg1) ∗ (((c.tc : Thread nD τ).loc main_call0_v0) ↦{fullShare} W main_call0_v0) ∗ (((c.tc : Thread nD τ).loc main_arg2) ↦{fullShare} W main_arg2) ∗ (((c.tc : Thread nD τ).loc main_call0_v1) ↦{fullShare} W main_call0_v1) ∗ (((c.tc : Thread nD τ).loc main_arg4) ↦{fullShare} W main_arg4) ∗ (((c.tc : Thread nD τ).loc main_call0_v2) ↦{fullShare} W main_call0_v2) ∗ (((c.tc : Thread nD τ).loc main_call0_v3) ↦{fullShare} W main_call0_v3) ∗ (((c.tc : Thread nD τ).loc main_call0_v4) ↦{fullShare} W main_call0_v4) ∗ (((c.tc : Thread nD τ).loc main_arg8) ↦{fullShare} W main_arg8) ∗ (((c.tc : Thread nD τ).loc main_call0_v5) ↦{fullShare} W main_call0_v5) ∗ (((c.tc : Thread nD τ).loc main_v0) ↦{fullShare} W main_v0)) :=
  bigSep_eq_bigSepL_of_eq [main_arg1, main_call0_v0, main_arg2, main_call0_v1, main_arg4, main_call0_v2, main_call0_v3, main_call0_v4, main_arg8, main_call0_v5, main_v0] (by decide) (by decide) _

end Cert.Kernel.Hand

end
-- ==== Proof.KRunB.lean ====
import proofs.«123370_g29334626631814_cont_sun_c4_761_10_alg».proof.Proof.KRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point that is neither the first nor the last, on any whole memrefs holding `x1 … x14`: it runs to the
    end, leaves the eleven inputs and the output buffer as they were, the activations scratch with the point's two
    blocks written over what it held, and the statistics scratch with the point's sums added. -/
noncomputable def kernelRunB (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S10000x1 .f32) (harg12 : arg12.IsWhole) (arg13 : Memref sig .tc .vmem S10000x128 .f32) (harg13 : arg13.IsWhole) (arg14 : Memref sig .tc .vmem S8x128 .f32) (harg14 : arg14.IsWhole) (hc1 : ¬cond1 i) (hc2 : ¬cond2 i)
    (x1 : Vec F S200x10000 .f32) (x2 : Vec F S200x10000 .f32) (x3 : Vec F S10000x128 .bf16) (x4 : Vec F S128x128 .f32) (x5 : Vec F S1x128 .f32) (x6 : Vec F S128x128 .f32) (x7 : Vec F S1x128 .f32) (x8 : Vec F S1x128 .f32) (x9 : Vec F S1x128 .f32) (x10 : Vec F S128x1 .f32) (x11 : Vec F S1x1 .f32) (x13 : Vec F S10000x128 .f32) (x14 : Vec F S8x128 .f32) :
    Σ' (L13 : List (View.Piece (Elt F) S10000x128 .f32)), { L14 : List (View.Piece (Elt F) S8x128 .f32) //
      ∀ (x12 : Vec F S10000x1 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12
                ∗ (arg13.view.loc (c : Thread nD τ) ↦[arg13.view.set]{fullShare} arg13.view.writes (Elt F) (harg13.unread x13) L13) ∗ (arg14.view.loc (c : Thread nD τ) ↦[arg14.view.set]{fullShare} arg14.view.writes (Elt F) (harg14.unread x14) L14)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun x12 E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
    sl_exec (disch := first | exact hc1 | exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexact H13
    iexact H14

end Cert.Kernel.Hand

end
-- ==== Proof.KRunA.lean ====
import proofs.«123370_g29334626631814_cont_sun_c4_761_10_alg».proof.Proof.KRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first point, on any whole memrefs holding `x1 … x14`: as at a middle point, but the statistics
    scratch is first overwritten with zeros, so that it ends at the first point's sums whatever it held. -/
noncomputable def kernelRunA (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S10000x1 .f32) (harg12 : arg12.IsWhole) (arg13 : Memref sig .tc .vmem S10000x128 .f32) (harg13 : arg13.IsWhole) (arg14 : Memref sig .tc .vmem S8x128 .f32) (harg14 : arg14.IsWhole) (hc1 : cond1 i) (hc2 : ¬cond2 i)
    (x1 : Vec F S200x10000 .f32) (x2 : Vec F S200x10000 .f32) (x3 : Vec F S10000x128 .bf16) (x4 : Vec F S128x128 .f32) (x5 : Vec F S1x128 .f32) (x6 : Vec F S128x128 .f32) (x7 : Vec F S1x128 .f32) (x8 : Vec F S1x128 .f32) (x9 : Vec F S1x128 .f32) (x10 : Vec F S128x1 .f32) (x11 : Vec F S1x1 .f32) (x13 : Vec F S10000x128 .f32) (x14 : Vec F S8x128 .f32) :
    Σ' (L13 : List (View.Piece (Elt F) S10000x128 .f32)), { L14 : List (View.Piece (Elt F) S8x128 .f32) //
      ∀ (x12 : Vec F S10000x1 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12
                ∗ (arg13.view.loc (c : Thread nD τ) ↦[arg13.view.set]{fullShare} arg13.view.writes (Elt F) (harg13.unread x13) L13) ∗ (arg14.view.loc (c : Thread nD τ) ↦[arg14.view.set]{fullShare} arg14.view.writes (Elt F) (harg14.unread x14) L14)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun x12 E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
    sl_exec (disch := first | exact hc1 | exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexact H13
    iexact H14

end Cert.Kernel.Hand

end
-- ==== Proof.KRunC.lean ====
import proofs.«123370_g29334626631814_cont_sun_c4_761_10_alg».proof.Proof.KRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at the last point, on any whole memrefs holding `x1 … x14`: after the point's two blocks and sums it
    reads the two statistics rows, the scale and shift vectors and the whole activations scratch, and stores the
    readout into the output buffer whole. -/
noncomputable def kernelRunC (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S10000x1 .f32) (harg12 : arg12.IsWhole) (arg13 : Memref sig .tc .vmem S10000x128 .f32) (harg13 : arg13.IsWhole) (arg14 : Memref sig .tc .vmem S8x128 .f32) (harg14 : arg14.IsWhole) (hc1 : ¬cond1 i) (hc2 : cond2 i)
    (x1 : Vec F S200x10000 .f32) (x2 : Vec F S200x10000 .f32) (x3 : Vec F S10000x128 .bf16) (x4 : Vec F S128x128 .f32) (x5 : Vec F S1x128 .f32) (x6 : Vec F S128x128 .f32) (x7 : Vec F S1x128 .f32) (x8 : Vec F S1x128 .f32) (x9 : Vec F S1x128 .f32) (x10 : Vec F S128x1 .f32) (x11 : Vec F S1x1 .f32) (x12 : Vec F S10000x1 .f32) (x13 : Vec F S10000x128 .f32) (x14 : Vec F S8x128 .f32) :
    Σ' (L12 : List (View.Piece (Elt F) S10000x1 .f32)) (L13 : List (View.Piece (Elt F) S10000x128 .f32)), { L14 : List (View.Piece (Elt F) S8x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (arg12.view.loc (c : Thread nD τ) ↦[arg12.view.set]{fullShare} arg12.view.writes (Elt F) (harg12.unread x12) L12)
                ∗ (arg13.view.loc (c : Thread nD τ) ↦[arg13.view.set]{fullShare} arg13.view.writes (Elt F) (harg13.unread x13) L13) ∗ (arg14.view.loc (c : Thread nD τ) ↦[arg14.view.set]{fullShare} arg14.view.writes (Elt F) (harg14.unread x14) L14)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
    sl_exec (disch := first | exact hc1 | exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexact H12
    isplitl [H13]
    · iexact H13
    iexact H14

end Cert.Kernel.Hand

end
-- ==== Proof.KState.lean ====
import proofs.«123370_g29334626631814_cont_sun_c4_761_10_alg».proof.Proof.KArr
import proofs.«123370_g29334626631814_cont_sun_c4_761_10_alg».proof.Proof.KRunC
import Idealize.ShloMosaic.Lib.ValueIdx
import Idealize.ShloMosaic.Lib.WritesUnit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

theorem hN : cfg0.N = 25 := N_0

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What a point computes, as terms of its blocks -/

/-- The activations of the point's first 200 rows (the even adjacency block through the perceptron). -/
def actA (c : Dev nD) (t : Fin cfg0.N) : Vec F S200x128 .f32 :=
  k0_pay4 (iblk m c 0 t) (iblk m c 2 t) (iblk m c 3 t) (iblk m c 4 t) (iblk m c 5 t) (iblk m c 6 t)
/-- The first layer of the point's second 200 rows (the odd adjacency block). -/
def preB (c : Dev nD) (t : Fin cfg0.N) : Vec F S200x128 .f32 :=
  k0_pay5 (iblk m c 1 t) (iblk m c 2 t) (iblk m c 3 t) (iblk m c 4 t)
/-- The two blocks the point stores into the activations scratch. -/
def blkA (c : Dev nD) (t : Fin cfg0.N) : Vec F S200x128 .f32 := k0_pay7 (actA m c t)
def blkB (c : Dev nD) (t : Fin cfg0.N) : Vec F S200x128 .f32 := k0_pay8 (preB m c t) (iblk m c 5 t) (iblk m c 6 t)
/-- What the point adds to the statistics: its column sums in row 0, its column sums of squares in row 1. -/
def upd (c : Dev nD) (t : Fin cfg0.N) : Vec F S8x128 .f32 := k0_pay9 (actA m c t) (preB m c t) (iblk m c 5 t) (iblk m c 6 t)

/-- The statistics scratch after point `n`: zero plus the first point's update, then each later point's added. -/
def statsAt (c : Dev nD) : (n : ℕ) → n < cfg0.N → Vec F S8x128 .f32
  | 0, h => k0_pay2 (upd m c ⟨0, h⟩) (k0_pay1 (F := F))
  | n + 1, h => k0_pay2 (upd m c ⟨n + 1, h⟩) (statsAt c n (Nat.lt_of_succ_lt h))

/-- Rows `400 t + r` and `400 t + 200 + r` of the activations. -/
def rowA (t : Fin cfg0.N) (r : Fin 200) : Fin 10000 := ⟨400 * t.val + r.val, by have := t.isLt; have := r.isLt; have := hN; omega⟩
def rowB (t : Fin cfg0.N) (r : Fin 200) : Fin 10000 := ⟨400 * t.val + 200 + r.val, by have := t.isLt; have := r.isLt; have := hN; omega⟩

/-- The activations scratch holds, in the rows of the points before `n`, the blocks those points stored. -/
def RowsOK (c : Dev nD) (n : ℕ) (xs : Vec F S10000x128 .f32) : Prop :=
  ∀ t : Fin cfg0.N, t.val < n → ∀ (r : Fin 200) (j : Fin 128),
    xs (ix2 (rowA t r) j) = blkA m c t (ix2 r j) ∧ xs (ix2 (rowB t r) j) = blkB m c t (ix2 r j)

/-- The offsets of the two stores at a point, in closed form. -/
theorem off1_eq : ∀ t : Fin cfg0.N, k0_off1 (grid0.coords t) = ![400 * t.val, 0] :=
  (by decide +kernel : ∀ t : Fin grid0.N, k0_off1 (grid0.coords t) = ![400 * t.val, 0])
theorem off2_eq : ∀ t : Fin cfg0.N, k0_off2 (grid0.coords t) = ![400 * t.val + 200, 0] :=
  (by decide +kernel : ∀ t : Fin grid0.N, k0_off2 (grid0.coords t) = ![400 * t.val + 200, 0])

/-! ## The last point's result -/

/-- Rows 0 and 1 of the statistics: the column sums and the column sums of squares. -/
def row0 (s : Vec F S8x128 .f32) : Vec F S1x128 .f32 := View.ld s (Rect.unit (s := S8x128) ![0, 0] S1x128.size inb_S8x128_S1x128_0_0)
def row1 (s : Vec F S8x128 .f32) : Vec F S1x128 .f32 := View.ld s (Rect.unit (s := S8x128) ![1, 0] S1x128.size inb_S8x128_S1x128_1_0)

/-- The activations of all 10000 rows, assembled from the 25 points' blocks: row `400 t + r` from point `t`'s first
    block when `r < 200`, from its second otherwise. -/
def xfull (c : Dev nD) : Vec F S10000x128 .f32 := fun y =>
  if h : (y 0).val % 400 < 200 then
    blkA m c ⟨(y 0).val / 400, by have := idx2_lt0 y; have := hN; omega⟩ (ix2 ⟨(y 0).val % 400, h⟩ (y 1))
  else
    blkB m c ⟨(y 0).val / 400, by have := idx2_lt0 y; have := hN; omega⟩
      (ix2 ⟨(y 0).val % 400 - 200, by have := Nat.mod_lt (y 0).val (show 0 < 400 by decide); omega⟩ (y 1))

/-- The last point. -/
def tLast : Fin cfg0.N := ⟨24, by rw [hN]; decide⟩

/-- What the last point stores into the output buffer: the normalised, rectified activations read out. -/
def outVal (c : Dev nD) : Vec F S10000x1 .f32 :=
  k0_pay3 (row0 (statsAt m c 24 tLast.isLt)) (row1 (statsAt m c 24 tLast.isLt)) (iblk m c 7 tLast) (iblk m c 8 tLast)
    (xfull m c) (iblk m c 9 tLast) (iblk m c 10 tLast)

end Cert.Kernel.Hand

end
-- ==== Proof.KPieces.lean ====
import proofs.«123370_g29334626631814_cont_sun_c4_761_10_alg».proof.Proof.KState
import Idealize.ShloMosaic.Lib.Pipeline.Value
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem hz2 : (![0, 0] : Fin 2 → Nat) = fun _ => 0 := funext fun a => by fin_cases a <;> rfl

/-- A load through the whole rectangle of a whole memref holding `x` reads `x`. -/
theorem ld_whole {S : Shape} {e : EltTy} (a : Memref sig .tc .vmem S e) (h : a.IsWhole) (x : Vec F S e)
    (off : Fin S.rank → Nat) (hoff : off = fun _ => 0) (inb : ∀ a, off a + S.size a ≤ S.size a) :
    View.ld (View.read (Elt F) a.view (h.unread x)) (Rect.unit (s := S) off S.size inb) = x := by
  rw [h.read_unread, View.ld_unit_zero (S := S) hoff]

/-! ## The statistics scratch after a point -/

/-- At a point that is not the first the statistics scratch is stored whole once, -/
theorem coverB14 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S10000x1 .f32) (harg12 : arg12.IsWhole) (arg13 : Memref sig .tc .vmem S10000x128 .f32) (harg13 : arg13.IsWhole) (arg14 : Memref sig .tc .vmem S8x128 .f32) (harg14 : arg14.IsWhole) (hc1 : ¬cond1 i) (hc2 : ¬cond2 i) (x1 : Vec F S200x10000 .f32) (x2 : Vec F S200x10000 .f32) (x3 : Vec F S10000x128 .bf16) (x4 : Vec F S128x128 .f32) (x5 : Vec F S1x128 .f32) (x6 : Vec F S128x128 .f32) (x7 : Vec F S1x128 .f32) (x8 : Vec F S1x128 .f32) (x9 : Vec F S1x128 .f32) (x10 : Vec F S128x1 .f32) (x11 : Vec F S1x1 .f32) (x13 : Vec F S10000x128 .f32) (x14 : Vec F S8x128 .f32) (y : S8x128.Idx) :
    ∃ pc ∈ (kernelRunB c i arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x13 x14).2.1, y ∈ pc.1.set :=
  View.cover_of_tiledL (kernelRunB c i arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x13 x14).2.1 S8x128.size (by sl_kernel_rfl) y

set_option maxHeartbeats 2000000 in
/-- with what it held plus the point's update. -/
theorem statsB (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S10000x1 .f32) (harg12 : arg12.IsWhole) (arg13 : Memref sig .tc .vmem S10000x128 .f32) (harg13 : arg13.IsWhole) (arg14 : Memref sig .tc .vmem S8x128 .f32) (harg14 : arg14.IsWhole) (hc1 : ¬cond1 i) (hc2 : ¬cond2 i) (x1 : Vec F S200x10000 .f32) (x2 : Vec F S200x10000 .f32) (x3 : Vec F S10000x128 .bf16) (x4 : Vec F S128x128 .f32) (x5 : Vec F S1x128 .f32) (x6 : Vec F S128x128 .f32) (x7 : Vec F S1x128 .f32) (x8 : Vec F S1x128 .f32) (x9 : Vec F S1x128 .f32) (x10 : Vec F S128x1 .f32) (x11 : Vec F S1x1 .f32) (x13 : Vec F S10000x128 .f32) (x14 : Vec F S8x128 .f32) :
    arg14.view.read (Elt F) (arg14.view.writes (Elt F) (harg14.unread x14) (kernelRunB c i arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x13 x14).2.1)
      = k0_pay2 (k0_pay9 (k0_pay4 x1 x3 x4 x5 x6 x7) (k0_pay5 x2 x3 x4 x5) x6 x7) x14 := by
  rw [View.read_writes_eq_canon _ _ _ (coverB14 c i arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x13 x14)]
  unfold kernelRunB
  dsimp only
  sl_unfold_words
  rw [View.canon_unit_zero hz2]
  simp only [View.readAt_eq_ld]
  (try rw [ld_whole arg1 harg1 x1 _ hz2 _])
  (try rw [ld_whole arg2 harg2 x2 _ hz2 _])
  (try rw [ld_whole arg3 harg3 x3 _ hz2 _])
  (try rw [ld_whole arg4 harg4 x4 _ hz2 _])
  (try rw [ld_whole arg5 harg5 x5 _ hz2 _])
  (try rw [ld_whole arg6 harg6 x6 _ hz2 _])
  (try rw [ld_whole arg7 harg7 x7 _ hz2 _])
  (try rw [ld_whole arg8 harg8 x8 _ hz2 _])
  (try rw [ld_whole arg9 harg9 x9 _ hz2 _])
  (try rw [ld_whole arg10 harg10 x10 _ hz2 _])
  (try rw [ld_whole arg11 harg11 x11 _ hz2 _])
  (try rw [ld_whole arg12 harg12 x12 _ hz2 _])
  (try rw [ld_whole arg13 harg13 x13 _ hz2 _])
  (try rw [ld_whole arg14 harg14 x14 _ hz2 _])
  try rfl

/-- At a point that is not the first the statistics scratch is stored whole once, -/
theorem coverC14 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S10000x1 .f32) (harg12 : arg12.IsWhole) (arg13 : Memref sig .tc .vmem S10000x128 .f32) (harg13 : arg13.IsWhole) (arg14 : Memref sig .tc .vmem S8x128 .f32) (harg14 : arg14.IsWhole) (hc1 : ¬cond1 i) (hc2 : cond2 i) (x1 : Vec F S200x10000 .f32) (x2 : Vec F S200x10000 .f32) (x3 : Vec F S10000x128 .bf16) (x4 : Vec F S128x128 .f32) (x5 : Vec F S1x128 .f32) (x6 : Vec F S128x128 .f32) (x7 : Vec F S1x128 .f32) (x8 : Vec F S1x128 .f32) (x9 : Vec F S1x128 .f32) (x10 : Vec F S128x1 .f32) (x11 : Vec F S1x1 .f32) (x12 : Vec F S10000x1 .f32) (x13 : Vec F S10000x128 .f32) (x14 : Vec F S8x128 .f32) (y : S8x128.Idx) :
    ∃ pc ∈ (kernelRunC c i arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x12 x13 x14).2.2.1, y ∈ pc.1.set :=
  View.cover_of_tiledL (kernelRunC c i arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x12 x13 x14).2.2.1 S8x128.size (by sl_kernel_rfl) y

set_option maxHeartbeats 2000000 in
/-- with what it held plus the point's update. -/
theorem statsC (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S10000x1 .f32) (harg12 : arg12.IsWhole) (arg13 : Memref sig .tc .vmem S10000x128 .f32) (harg13 : arg13.IsWhole) (arg14 : Memref sig .tc .vmem S8x128 .f32) (harg14 : arg14.IsWhole) (hc1 : ¬cond1 i) (hc2 : cond2 i) (x1 : Vec F S200x10000 .f32) (x2 : Vec F S200x10000 .f32) (x3 : Vec F S10000x128 .bf16) (x4 : Vec F S128x128 .f32) (x5 : Vec F S1x128 .f32) (x6 : Vec F S128x128 .f32) (x7 : Vec F S1x128 .f32) (x8 : Vec F S1x128 .f32) (x9 : Vec F S1x128 .f32) (x10 : Vec F S128x1 .f32) (x11 : Vec F S1x1 .f32) (x12 : Vec F S10000x1 .f32) (x13 : Vec F S10000x128 .f32) (x14 : Vec F S8x128 .f32) :
    arg14.view.read (Elt F) (arg14.view.writes (Elt F) (harg14.unread x14) (kernelRunC c i arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x12 x13 x14).2.2.1)
      = k0_pay2 (k0_pay9 (k0_pay4 x1 x3 x4 x5 x6 x7) (k0_pay5 x2 x3 x4 x5) x6 x7) x14 := by
  rw [View.read_writes_eq_canon _ _ _ (coverC14 c i arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x12 x13 x14)]
  unfold kernelRunC
  dsimp only
  sl_unfold_words
  rw [View.canon_unit_zero hz2]
  simp only [View.readAt_eq_ld]
  (try rw [ld_whole arg1 harg1 x1 _ hz2 _])
  (try rw [ld_whole arg2 harg2 x2 _ hz2 _])
  (try rw [ld_whole arg3 harg3 x3 _ hz2 _])
  (try rw [ld_whole arg4 harg4 x4 _ hz2 _])
  (try rw [ld_whole arg5 harg5 x5 _ hz2 _])
  (try rw [ld_whole arg6 harg6 x6 _ hz2 _])
  (try rw [ld_whole arg7 harg7 x7 _ hz2 _])
  (try rw [ld_whole arg8 harg8 x8 _ hz2 _])
  (try rw [ld_whole arg9 harg9 x9 _ hz2 _])
  (try rw [ld_whole arg10 harg10 x10 _ hz2 _])
  (try rw [ld_whole arg11 harg11 x11 _ hz2 _])
  (try rw [ld_whole arg12 harg12 x12 _ hz2 _])
  (try rw [ld_whole arg13 harg13 x13 _ hz2 _])
  (try rw [ld_whole arg14 harg14 x14 _ hz2 _])
  try rfl

/-- At the first point it is stored whole twice: zeros, then the zeros read back plus the point's update. -/
theorem coverA14 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S10000x1 .f32) (harg12 : arg12.IsWhole) (arg13 : Memref sig .tc .vmem S10000x128 .f32) (harg13 : arg13.IsWhole) (arg14 : Memref sig .tc .vmem S8x128 .f32) (harg14 : arg14.IsWhole) (hc1 : cond1 i) (hc2 : ¬cond2 i) (x1 : Vec F S200x10000 .f32) (x2 : Vec F S200x10000 .f32) (x3 : Vec F S10000x128 .bf16) (x4 : Vec F S128x128 .f32) (x5 : Vec F S1x128 .f32) (x6 : Vec F S128x128 .f32) (x7 : Vec F S1x128 .f32) (x8 : Vec F S1x128 .f32) (x9 : Vec F S1x128 .f32) (x10 : Vec F S128x1 .f32) (x11 : Vec F S1x1 .f32) (x13 : Vec F S10000x128 .f32) (x14 : Vec F S8x128 .f32) (y : S8x128.Idx) :
    ∃ pc ∈ (kernelRunA c i arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x13 x14).2.1, y ∈ pc.1.set :=
  View.cover_of_tiledL (kernelRunA c i arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x13 x14).2.1 S8x128.size (by sl_kernel_rfl) y

set_option maxHeartbeats 2000000 in
theorem statsA (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S10000x1 .f32) (harg12 : arg12.IsWhole) (arg13 : Memref sig .tc .vmem S10000x128 .f32) (harg13 : arg13.IsWhole) (arg14 : Memref sig .tc .vmem S8x128 .f32) (harg14 : arg14.IsWhole) (hc1 : cond1 i) (hc2 : ¬cond2 i) (x1 : Vec F S200x10000 .f32) (x2 : Vec F S200x10000 .f32) (x3 : Vec F S10000x128 .bf16) (x4 : Vec F S128x128 .f32) (x5 : Vec F S1x128 .f32) (x6 : Vec F S128x128 .f32) (x7 : Vec F S1x128 .f32) (x8 : Vec F S1x128 .f32) (x9 : Vec F S1x128 .f32) (x10 : Vec F S128x1 .f32) (x11 : Vec F S1x1 .f32) (x13 : Vec F S10000x128 .f32) (x14 : Vec F S8x128 .f32) :
    arg14.view.read (Elt F) (arg14.view.writes (Elt F) (harg14.unread x14) (kernelRunA c i arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x13 x14).2.1)
      = k0_pay2 (k0_pay9 (k0_pay4 x1 x3 x4 x5 x6 x7) (k0_pay5 x2 x3 x4 x5) x6 x7) (k0_pay1 (F := F)) := by
  rw [View.read_writes_eq_canon _ _ _ (coverA14 c i arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x13 x14)]
  unfold kernelRunA
  dsimp only
  sl_unfold_words
  rw [View.canon_cons_unit_zero (S := S8x128) hz2, View.readCov_unit_zero (S := S8x128) _ hz2]
  simp only [View.readAt_eq_ld]
  (try rw [ld_whole arg1 harg1 x1 _ hz2 _])
  (try rw [ld_whole arg2 harg2 x2 _ hz2 _])
  (try rw [ld_whole arg3 harg3 x3 _ hz2 _])
  (try rw [ld_whole arg4 harg4 x4 _ hz2 _])
  (try rw [ld_whole arg5 harg5 x5 _ hz2 _])
  (try rw [ld_whole arg6 harg6 x6 _ hz2 _])
  (try rw [ld_whole arg7 harg7 x7 _ hz2 _])
  (try rw [ld_whole arg8 harg8 x8 _ hz2 _])
  (try rw [ld_whole arg9 harg9 x9 _ hz2 _])
  (try rw [ld_whole arg10 harg10 x10 _ hz2 _])
  (try rw [ld_whole arg11 harg11 x11 _ hz2 _])
  (try rw [ld_whole arg12 harg12 x12 _ hz2 _])
  (try rw [ld_whole arg13 harg13 x13 _ hz2 _])
  (try rw [ld_whole arg14 harg14 x14 _ hz2 _])
  try rfl

end Cert.Kernel.Hand

end
-- ==== Proof.KPieces2.lean ====
import proofs.«123370_g29334626631814_cont_sun_c4_761_10_alg».proof.Proof.KPieces
import Idealize.ShloMosaic.Lib.WritesUnit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! ## The activations scratch after a point: its two blocks written over what it held -/

set_option maxHeartbeats 2000000 in
/-- Row `400 t + 200 + r` reads the second block's row `r`; -/
theorem rowsA_inB (c : Dev nD) (t : Fin cfg0.N) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S10000x1 .f32) (harg12 : arg12.IsWhole) (arg13 : Memref sig .tc .vmem S10000x128 .f32) (harg13 : arg13.IsWhole) (arg14 : Memref sig .tc .vmem S8x128 .f32) (harg14 : arg14.IsWhole) (hc1 : cond1 (grid0.coords t)) (hc2 : ¬cond2 (grid0.coords t)) (x1 : Vec F S200x10000 .f32) (x2 : Vec F S200x10000 .f32) (x3 : Vec F S10000x128 .bf16) (x4 : Vec F S128x128 .f32) (x5 : Vec F S1x128 .f32) (x6 : Vec F S128x128 .f32) (x7 : Vec F S1x128 .f32) (x8 : Vec F S1x128 .f32) (x9 : Vec F S1x128 .f32) (x10 : Vec F S128x1 .f32) (x11 : Vec F S1x1 .f32) (x13 : Vec F S10000x128 .f32) (x14 : Vec F S8x128 .f32) (r : Fin 200) (j : Fin 128) :
    arg13.view.read (Elt F) (arg13.view.writes (Elt F) (harg13.unread x13) (kernelRunA c (grid0.coords t) arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x13 x14).1) (ix2 (rowB t r) j) = (k0_pay8 (k0_pay5 x2 x3 x4 x5) x6 x7) (ix2 r j) := by
  unfold kernelRunA
  dsimp only
  refine (View.read_writes_cons_rows_of_mem arg13.view (harg13.unread x13) _ _ _ (ix2 (rowB t r) j) (ix2 r j) (off2_eq t) rfl rfl).trans ?_
  sl_unfold_words
  simp only [View.readAt_eq_ld]
  (try rw [ld_whole arg1 harg1 x1 _ hz2 _])
  (try rw [ld_whole arg2 harg2 x2 _ hz2 _])
  (try rw [ld_whole arg3 harg3 x3 _ hz2 _])
  (try rw [ld_whole arg4 harg4 x4 _ hz2 _])
  (try rw [ld_whole arg5 harg5 x5 _ hz2 _])
  (try rw [ld_whole arg6 harg6 x6 _ hz2 _])
  (try rw [ld_whole arg7 harg7 x7 _ hz2 _])
  (try rw [ld_whole arg8 harg8 x8 _ hz2 _])
  (try rw [ld_whole arg9 harg9 x9 _ hz2 _])
  (try rw [ld_whole arg10 harg10 x10 _ hz2 _])
  (try rw [ld_whole arg11 harg11 x11 _ hz2 _])
  (try rw [ld_whole arg12 harg12 x12 _ hz2 _])
  (try rw [ld_whole arg13 harg13 x13 _ hz2 _])
  (try rw [ld_whole arg14 harg14 x14 _ hz2 _])
  try rfl

set_option maxHeartbeats 2000000 in
/-- row `400 t + r` the first block's row `r`; -/
theorem rowsA_inA (c : Dev nD) (t : Fin cfg0.N) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S10000x1 .f32) (harg12 : arg12.IsWhole) (arg13 : Memref sig .tc .vmem S10000x128 .f32) (harg13 : arg13.IsWhole) (arg14 : Memref sig .tc .vmem S8x128 .f32) (harg14 : arg14.IsWhole) (hc1 : cond1 (grid0.coords t)) (hc2 : ¬cond2 (grid0.coords t)) (x1 : Vec F S200x10000 .f32) (x2 : Vec F S200x10000 .f32) (x3 : Vec F S10000x128 .bf16) (x4 : Vec F S128x128 .f32) (x5 : Vec F S1x128 .f32) (x6 : Vec F S128x128 .f32) (x7 : Vec F S1x128 .f32) (x8 : Vec F S1x128 .f32) (x9 : Vec F S1x128 .f32) (x10 : Vec F S128x1 .f32) (x11 : Vec F S1x1 .f32) (x13 : Vec F S10000x128 .f32) (x14 : Vec F S8x128 .f32) (r : Fin 200) (j : Fin 128) :
    arg13.view.read (Elt F) (arg13.view.writes (Elt F) (harg13.unread x13) (kernelRunA c (grid0.coords t) arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x13 x14).1) (ix2 (rowA t r) j) = (k0_pay7 (k0_pay4 x1 x3 x4 x5 x6 x7)) (ix2 r j) := by
  unfold kernelRunA
  dsimp only
  refine (View.read_writes_cons_rows_of_not_mem arg13.view (harg13.unread x13) _ _ _ (ix2 (rowA t r) j) (off2_eq t) (W := 200) rfl
    (Or.inl (by show 400 * t.val + r.val < 400 * t.val + 200; have := r.isLt; omega))).trans ?_
  refine (View.read_writes_cons_rows_of_mem arg13.view (harg13.unread x13) _ _ _ (ix2 (rowA t r) j) (ix2 r j) (off1_eq t) rfl rfl).trans ?_
  sl_unfold_words
  simp only [View.readAt_eq_ld]
  (try rw [ld_whole arg1 harg1 x1 _ hz2 _])
  (try rw [ld_whole arg2 harg2 x2 _ hz2 _])
  (try rw [ld_whole arg3 harg3 x3 _ hz2 _])
  (try rw [ld_whole arg4 harg4 x4 _ hz2 _])
  (try rw [ld_whole arg5 harg5 x5 _ hz2 _])
  (try rw [ld_whole arg6 harg6 x6 _ hz2 _])
  (try rw [ld_whole arg7 harg7 x7 _ hz2 _])
  (try rw [ld_whole arg8 harg8 x8 _ hz2 _])
  (try rw [ld_whole arg9 harg9 x9 _ hz2 _])
  (try rw [ld_whole arg10 harg10 x10 _ hz2 _])
  (try rw [ld_whole arg11 harg11 x11 _ hz2 _])
  (try rw [ld_whole arg12 harg12 x12 _ hz2 _])
  (try rw [ld_whole arg13 harg13 x13 _ hz2 _])
  (try rw [ld_whole arg14 harg14 x14 _ hz2 _])
  try rfl

set_option maxHeartbeats 2000000 in
/-- a row outside the point's 400 rows what the scratch held. -/
theorem rowsA_out (c : Dev nD) (t : Fin cfg0.N) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S10000x1 .f32) (harg12 : arg12.IsWhole) (arg13 : Memref sig .tc .vmem S10000x128 .f32) (harg13 : arg13.IsWhole) (arg14 : Memref sig .tc .vmem S8x128 .f32) (harg14 : arg14.IsWhole) (hc1 : cond1 (grid0.coords t)) (hc2 : ¬cond2 (grid0.coords t)) (x1 : Vec F S200x10000 .f32) (x2 : Vec F S200x10000 .f32) (x3 : Vec F S10000x128 .bf16) (x4 : Vec F S128x128 .f32) (x5 : Vec F S1x128 .f32) (x6 : Vec F S128x128 .f32) (x7 : Vec F S1x128 .f32) (x8 : Vec F S1x128 .f32) (x9 : Vec F S1x128 .f32) (x10 : Vec F S128x1 .f32) (x11 : Vec F S1x1 .f32) (x13 : Vec F S10000x128 .f32) (x14 : Vec F S8x128 .f32) (y : S10000x128.Idx)
    (h : (y 0).val < 400 * t.val ∨ 400 * t.val + 400 ≤ (y 0).val) :
    arg13.view.read (Elt F) (arg13.view.writes (Elt F) (harg13.unread x13) (kernelRunA c (grid0.coords t) arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x13 x14).1) y = x13 y := by
  unfold kernelRunA
  dsimp only
  refine (View.read_writes_cons_rows_of_not_mem arg13.view (harg13.unread x13) _ _ _ y (off2_eq t) (W := 200) rfl (by omega)).trans ?_
  refine (View.read_writes_cons_rows_of_not_mem arg13.view (harg13.unread x13) _ _ _ y (off1_eq t) (W := 200) rfl (by omega)).trans ?_
  rw [View.writes_nil]
  exact congrFun (harg13.read_unread x13) y

set_option maxHeartbeats 2000000 in
/-- Row `400 t + 200 + r` reads the second block's row `r`; -/
theorem rowsB_inB (c : Dev nD) (t : Fin cfg0.N) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S10000x1 .f32) (harg12 : arg12.IsWhole) (arg13 : Memref sig .tc .vmem S10000x128 .f32) (harg13 : arg13.IsWhole) (arg14 : Memref sig .tc .vmem S8x128 .f32) (harg14 : arg14.IsWhole) (hc1 : ¬cond1 (grid0.coords t)) (hc2 : ¬cond2 (grid0.coords t)) (x1 : Vec F S200x10000 .f32) (x2 : Vec F S200x10000 .f32) (x3 : Vec F S10000x128 .bf16) (x4 : Vec F S128x128 .f32) (x5 : Vec F S1x128 .f32) (x6 : Vec F S128x128 .f32) (x7 : Vec F S1x128 .f32) (x8 : Vec F S1x128 .f32) (x9 : Vec F S1x128 .f32) (x10 : Vec F S128x1 .f32) (x11 : Vec F S1x1 .f32) (x13 : Vec F S10000x128 .f32) (x14 : Vec F S8x128 .f32) (r : Fin 200) (j : Fin 128) :
    arg13.view.read (Elt F) (arg13.view.writes (Elt F) (harg13.unread x13) (kernelRunB c (grid0.coords t) arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x13 x14).1) (ix2 (rowB t r) j) = (k0_pay8 (k0_pay5 x2 x3 x4 x5) x6 x7) (ix2 r j) := by
  unfold kernelRunB
  dsimp only
  refine (View.read_writes_cons_rows_of_mem arg13.view (harg13.unread x13) _ _ _ (ix2 (rowB t r) j) (ix2 r j) (off2_eq t) rfl rfl).trans ?_
  sl_unfold_words
  simp only [View.readAt_eq_ld]
  (try rw [ld_whole arg1 harg1 x1 _ hz2 _])
  (try rw [ld_whole arg2 harg2 x2 _ hz2 _])
  (try rw [ld_whole arg3 harg3 x3 _ hz2 _])
  (try rw [ld_whole arg4 harg4 x4 _ hz2 _])
  (try rw [ld_whole arg5 harg5 x5 _ hz2 _])
  (try rw [ld_whole arg6 harg6 x6 _ hz2 _])
  (try rw [ld_whole arg7 harg7 x7 _ hz2 _])
  (try rw [ld_whole arg8 harg8 x8 _ hz2 _])
  (try rw [ld_whole arg9 harg9 x9 _ hz2 _])
  (try rw [ld_whole arg10 harg10 x10 _ hz2 _])
  (try rw [ld_whole arg11 harg11 x11 _ hz2 _])
  (try rw [ld_whole arg12 harg12 x12 _ hz2 _])
  (try rw [ld_whole arg13 harg13 x13 _ hz2 _])
  (try rw [ld_whole arg14 harg14 x14 _ hz2 _])
  try rfl

set_option maxHeartbeats 2000000 in
/-- row `400 t + r` the first block's row `r`; -/
theorem rowsB_inA (c : Dev nD) (t : Fin cfg0.N) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S10000x1 .f32) (harg12 : arg12.IsWhole) (arg13 : Memref sig .tc .vmem S10000x128 .f32) (harg13 : arg13.IsWhole) (arg14 : Memref sig .tc .vmem S8x128 .f32) (harg14 : arg14.IsWhole) (hc1 : ¬cond1 (grid0.coords t)) (hc2 : ¬cond2 (grid0.coords t)) (x1 : Vec F S200x10000 .f32) (x2 : Vec F S200x10000 .f32) (x3 : Vec F S10000x128 .bf16) (x4 : Vec F S128x128 .f32) (x5 : Vec F S1x128 .f32) (x6 : Vec F S128x128 .f32) (x7 : Vec F S1x128 .f32) (x8 : Vec F S1x128 .f32) (x9 : Vec F S1x128 .f32) (x10 : Vec F S128x1 .f32) (x11 : Vec F S1x1 .f32) (x13 : Vec F S10000x128 .f32) (x14 : Vec F S8x128 .f32) (r : Fin 200) (j : Fin 128) :
    arg13.view.read (Elt F) (arg13.view.writes (Elt F) (harg13.unread x13) (kernelRunB c (grid0.coords t) arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x13 x14).1) (ix2 (rowA t r) j) = (k0_pay7 (k0_pay4 x1 x3 x4 x5 x6 x7)) (ix2 r j) := by
  unfold kernelRunB
  dsimp only
  refine (View.read_writes_cons_rows_of_not_mem arg13.view (harg13.unread x13) _ _ _ (ix2 (rowA t r) j) (off2_eq t) (W := 200) rfl
    (Or.inl (by show 400 * t.val + r.val < 400 * t.val + 200; have := r.isLt; omega))).trans ?_
  refine (View.read_writes_cons_rows_of_mem arg13.view (harg13.unread x13) _ _ _ (ix2 (rowA t r) j) (ix2 r j) (off1_eq t) rfl rfl).trans ?_
  sl_unfold_words
  simp only [View.readAt_eq_ld]
  (try rw [ld_whole arg1 harg1 x1 _ hz2 _])
  (try rw [ld_whole arg2 harg2 x2 _ hz2 _])
  (try rw [ld_whole arg3 harg3 x3 _ hz2 _])
  (try rw [ld_whole arg4 harg4 x4 _ hz2 _])
  (try rw [ld_whole arg5 harg5 x5 _ hz2 _])
  (try rw [ld_whole arg6 harg6 x6 _ hz2 _])
  (try rw [ld_whole arg7 harg7 x7 _ hz2 _])
  (try rw [ld_whole arg8 harg8 x8 _ hz2 _])
  (try rw [ld_whole arg9 harg9 x9 _ hz2 _])
  (try rw [ld_whole arg10 harg10 x10 _ hz2 _])
  (try rw [ld_whole arg11 harg11 x11 _ hz2 _])
  (try rw [ld_whole arg12 harg12 x12 _ hz2 _])
  (try rw [ld_whole arg13 harg13 x13 _ hz2 _])
  (try rw [ld_whole arg14 harg14 x14 _ hz2 _])
  try rfl

set_option maxHeartbeats 2000000 in
/-- a row outside the point's 400 rows what the scratch held. -/
theorem rowsB_out (c : Dev nD) (t : Fin cfg0.N) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S10000x1 .f32) (harg12 : arg12.IsWhole) (arg13 : Memref sig .tc .vmem S10000x128 .f32) (harg13 : arg13.IsWhole) (arg14 : Memref sig .tc .vmem S8x128 .f32) (harg14 : arg14.IsWhole) (hc1 : ¬cond1 (grid0.coords t)) (hc2 : ¬cond2 (grid0.coords t)) (x1 : Vec F S200x10000 .f32) (x2 : Vec F S200x10000 .f32) (x3 : Vec F S10000x128 .bf16) (x4 : Vec F S128x128 .f32) (x5 : Vec F S1x128 .f32) (x6 : Vec F S128x128 .f32) (x7 : Vec F S1x128 .f32) (x8 : Vec F S1x128 .f32) (x9 : Vec F S1x128 .f32) (x10 : Vec F S128x1 .f32) (x11 : Vec F S1x1 .f32) (x13 : Vec F S10000x128 .f32) (x14 : Vec F S8x128 .f32) (y : S10000x128.Idx)
    (h : (y 0).val < 400 * t.val ∨ 400 * t.val + 400 ≤ (y 0).val) :
    arg13.view.read (Elt F) (arg13.view.writes (Elt F) (harg13.unread x13) (kernelRunB c (grid0.coords t) arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x13 x14).1) y = x13 y := by
  unfold kernelRunB
  dsimp only
  refine (View.read_writes_cons_rows_of_not_mem arg13.view (harg13.unread x13) _ _ _ y (off2_eq t) (W := 200) rfl (by omega)).trans ?_
  refine (View.read_writes_cons_rows_of_not_mem arg13.view (harg13.unread x13) _ _ _ y (off1_eq t) (W := 200) rfl (by omega)).trans ?_
  rw [View.writes_nil]
  exact congrFun (harg13.read_unread x13) y

set_option maxHeartbeats 2000000 in
/-- Row `400 t + 200 + r` reads the second block's row `r`; -/
theorem rowsC_inB (c : Dev nD) (t : Fin cfg0.N) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S10000x1 .f32) (harg12 : arg12.IsWhole) (arg13 : Memref sig .tc .vmem S10000x128 .f32) (harg13 : arg13.IsWhole) (arg14 : Memref sig .tc .vmem S8x128 .f32) (harg14 : arg14.IsWhole) (hc1 : ¬cond1 (grid0.coords t)) (hc2 : cond2 (grid0.coords t)) (x1 : Vec F S200x10000 .f32) (x2 : Vec F S200x10000 .f32) (x3 : Vec F S10000x128 .bf16) (x4 : Vec F S128x128 .f32) (x5 : Vec F S1x128 .f32) (x6 : Vec F S128x128 .f32) (x7 : Vec F S1x128 .f32) (x8 : Vec F S1x128 .f32) (x9 : Vec F S1x128 .f32) (x10 : Vec F S128x1 .f32) (x11 : Vec F S1x1 .f32) (x12 : Vec F S10000x1 .f32) (x13 : Vec F S10000x128 .f32) (x14 : Vec F S8x128 .f32) (r : Fin 200) (j : Fin 128) :
    arg13.view.read (Elt F) (arg13.view.writes (Elt F) (harg13.unread x13) (kernelRunC c (grid0.coords t) arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x12 x13 x14).2.1) (ix2 (rowB t r) j) = (k0_pay8 (k0_pay5 x2 x3 x4 x5) x6 x7) (ix2 r j) := by
  unfold kernelRunC
  dsimp only
  refine (View.read_writes_cons_rows_of_mem arg13.view (harg13.unread x13) _ _ _ (ix2 (rowB t r) j) (ix2 r j) (off2_eq t) rfl rfl).trans ?_
  sl_unfold_words
  simp only [View.readAt_eq_ld]
  (try rw [ld_whole arg1 harg1 x1 _ hz2 _])
  (try rw [ld_whole arg2 harg2 x2 _ hz2 _])
  (try rw [ld_whole arg3 harg3 x3 _ hz2 _])
  (try rw [ld_whole arg4 harg4 x4 _ hz2 _])
  (try rw [ld_whole arg5 harg5 x5 _ hz2 _])
  (try rw [ld_whole arg6 harg6 x6 _ hz2 _])
  (try rw [ld_whole arg7 harg7 x7 _ hz2 _])
  (try rw [ld_whole arg8 harg8 x8 _ hz2 _])
  (try rw [ld_whole arg9 harg9 x9 _ hz2 _])
  (try rw [ld_whole arg10 harg10 x10 _ hz2 _])
  (try rw [ld_whole arg11 harg11 x11 _ hz2 _])
  (try rw [ld_whole arg12 harg12 x12 _ hz2 _])
  (try rw [ld_whole arg13 harg13 x13 _ hz2 _])
  (try rw [ld_whole arg14 harg14 x14 _ hz2 _])
  try rfl

set_option maxHeartbeats 2000000 in
/-- row `400 t + r` the first block's row `r`; -/
theorem rowsC_inA (c : Dev nD) (t : Fin cfg0.N) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S10000x1 .f32) (harg12 : arg12.IsWhole) (arg13 : Memref sig .tc .vmem S10000x128 .f32) (harg13 : arg13.IsWhole) (arg14 : Memref sig .tc .vmem S8x128 .f32) (harg14 : arg14.IsWhole) (hc1 : ¬cond1 (grid0.coords t)) (hc2 : cond2 (grid0.coords t)) (x1 : Vec F S200x10000 .f32) (x2 : Vec F S200x10000 .f32) (x3 : Vec F S10000x128 .bf16) (x4 : Vec F S128x128 .f32) (x5 : Vec F S1x128 .f32) (x6 : Vec F S128x128 .f32) (x7 : Vec F S1x128 .f32) (x8 : Vec F S1x128 .f32) (x9 : Vec F S1x128 .f32) (x10 : Vec F S128x1 .f32) (x11 : Vec F S1x1 .f32) (x12 : Vec F S10000x1 .f32) (x13 : Vec F S10000x128 .f32) (x14 : Vec F S8x128 .f32) (r : Fin 200) (j : Fin 128) :
    arg13.view.read (Elt F) (arg13.view.writes (Elt F) (harg13.unread x13) (kernelRunC c (grid0.coords t) arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x12 x13 x14).2.1) (ix2 (rowA t r) j) = (k0_pay7 (k0_pay4 x1 x3 x4 x5 x6 x7)) (ix2 r j) := by
  unfold kernelRunC
  dsimp only
  refine (View.read_writes_cons_rows_of_not_mem arg13.view (harg13.unread x13) _ _ _ (ix2 (rowA t r) j) (off2_eq t) (W := 200) rfl
    (Or.inl (by show 400 * t.val + r.val < 400 * t.val + 200; have := r.isLt; omega))).trans ?_
  refine (View.read_writes_cons_rows_of_mem arg13.view (harg13.unread x13) _ _ _ (ix2 (rowA t r) j) (ix2 r j) (off1_eq t) rfl rfl).trans ?_
  sl_unfold_words
  simp only [View.readAt_eq_ld]
  (try rw [ld_whole arg1 harg1 x1 _ hz2 _])
  (try rw [ld_whole arg2 harg2 x2 _ hz2 _])
  (try rw [ld_whole arg3 harg3 x3 _ hz2 _])
  (try rw [ld_whole arg4 harg4 x4 _ hz2 _])
  (try rw [ld_whole arg5 harg5 x5 _ hz2 _])
  (try rw [ld_whole arg6 harg6 x6 _ hz2 _])
  (try rw [ld_whole arg7 harg7 x7 _ hz2 _])
  (try rw [ld_whole arg8 harg8 x8 _ hz2 _])
  (try rw [ld_whole arg9 harg9 x9 _ hz2 _])
  (try rw [ld_whole arg10 harg10 x10 _ hz2 _])
  (try rw [ld_whole arg11 harg11 x11 _ hz2 _])
  (try rw [ld_whole arg12 harg12 x12 _ hz2 _])
  (try rw [ld_whole arg13 harg13 x13 _ hz2 _])
  (try rw [ld_whole arg14 harg14 x14 _ hz2 _])
  try rfl

set_option maxHeartbeats 2000000 in
/-- a row outside the point's 400 rows what the scratch held. -/
theorem rowsC_out (c : Dev nD) (t : Fin cfg0.N) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S10000x1 .f32) (harg12 : arg12.IsWhole) (arg13 : Memref sig .tc .vmem S10000x128 .f32) (harg13 : arg13.IsWhole) (arg14 : Memref sig .tc .vmem S8x128 .f32) (harg14 : arg14.IsWhole) (hc1 : ¬cond1 (grid0.coords t)) (hc2 : cond2 (grid0.coords t)) (x1 : Vec F S200x10000 .f32) (x2 : Vec F S200x10000 .f32) (x3 : Vec F S10000x128 .bf16) (x4 : Vec F S128x128 .f32) (x5 : Vec F S1x128 .f32) (x6 : Vec F S128x128 .f32) (x7 : Vec F S1x128 .f32) (x8 : Vec F S1x128 .f32) (x9 : Vec F S1x128 .f32) (x10 : Vec F S128x1 .f32) (x11 : Vec F S1x1 .f32) (x12 : Vec F S10000x1 .f32) (x13 : Vec F S10000x128 .f32) (x14 : Vec F S8x128 .f32) (y : S10000x128.Idx)
    (h : (y 0).val < 400 * t.val ∨ 400 * t.val + 400 ≤ (y 0).val) :
    arg13.view.read (Elt F) (arg13.view.writes (Elt F) (harg13.unread x13) (kernelRunC c (grid0.coords t) arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x12 x13 x14).2.1) y = x13 y := by
  unfold kernelRunC
  dsimp only
  refine (View.read_writes_cons_rows_of_not_mem arg13.view (harg13.unread x13) _ _ _ y (off2_eq t) (W := 200) rfl (by omega)).trans ?_
  refine (View.read_writes_cons_rows_of_not_mem arg13.view (harg13.unread x13) _ _ _ y (off1_eq t) (W := 200) rfl (by omega)).trans ?_
  rw [View.writes_nil]
  exact congrFun (harg13.read_unread x13) y

end Cert.Kernel.Hand

end
-- ==== Proof.KPieces3.lean ====
import proofs.«123370_g29334626631814_cont_sun_c4_761_10_alg».proof.Proof.KPieces2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! ## The output buffer after the last point -/

/-- The last point stores the output buffer whole, once, -/
theorem coverC12 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S10000x1 .f32) (harg12 : arg12.IsWhole) (arg13 : Memref sig .tc .vmem S10000x128 .f32) (harg13 : arg13.IsWhole) (arg14 : Memref sig .tc .vmem S8x128 .f32) (harg14 : arg14.IsWhole) (hc1 : ¬cond1 i) (hc2 : cond2 i) (x1 : Vec F S200x10000 .f32) (x2 : Vec F S200x10000 .f32) (x3 : Vec F S10000x128 .bf16) (x4 : Vec F S128x128 .f32) (x5 : Vec F S1x128 .f32) (x6 : Vec F S128x128 .f32) (x7 : Vec F S1x128 .f32) (x8 : Vec F S1x128 .f32) (x9 : Vec F S1x128 .f32) (x10 : Vec F S128x1 .f32) (x11 : Vec F S1x1 .f32) (x12 : Vec F S10000x1 .f32) (x13 : Vec F S10000x128 .f32) (x14 : Vec F S8x128 .f32) (y : S10000x1.Idx) :
    ∃ pc ∈ (kernelRunC c i arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x12 x13 x14).1, y ∈ pc.1.set :=
  View.cover_of_tiledL (kernelRunC c i arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x12 x13 x14).1 S10000x1.size (by sl_kernel_rfl) y

/-- The statistics pieces of the last point, read as one array: what the scratch held plus the point's update. -/
theorem canonC14 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S10000x1 .f32) (harg12 : arg12.IsWhole) (arg13 : Memref sig .tc .vmem S10000x128 .f32) (harg13 : arg13.IsWhole) (arg14 : Memref sig .tc .vmem S8x128 .f32) (harg14 : arg14.IsWhole) (hc1 : ¬cond1 i) (hc2 : cond2 i) (x1 : Vec F S200x10000 .f32) (x2 : Vec F S200x10000 .f32) (x3 : Vec F S10000x128 .bf16) (x4 : Vec F S128x128 .f32) (x5 : Vec F S1x128 .f32) (x6 : Vec F S128x128 .f32) (x7 : Vec F S1x128 .f32) (x8 : Vec F S1x128 .f32) (x9 : Vec F S1x128 .f32) (x10 : Vec F S128x1 .f32) (x11 : Vec F S1x1 .f32) (x12 : Vec F S10000x1 .f32) (x13 : Vec F S10000x128 .f32) (x14 : Vec F S8x128 .f32) :
    View.canon (kernelRunC c i arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x12 x13 x14).2.2.1 = k0_pay2 (k0_pay9 (k0_pay4 x1 x3 x4 x5 x6 x7) (k0_pay5 x2 x3 x4 x5) x6 x7) x14 :=
  (View.read_writes_eq_canon arg14.view (harg14.unread x14) _ (coverC14 c i arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x12 x13 x14)).symm.trans (statsC c i arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x12 x13 x14)

set_option maxHeartbeats 4000000 in
/-- with the readout of: the two statistics rows as the point leaves them, the scale and shift vectors, the
    activations scratch as the point leaves it, the readout weights and bias. -/
theorem outC (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S10000x1 .f32) (harg12 : arg12.IsWhole) (arg13 : Memref sig .tc .vmem S10000x128 .f32) (harg13 : arg13.IsWhole) (arg14 : Memref sig .tc .vmem S8x128 .f32) (harg14 : arg14.IsWhole) (hc1 : ¬cond1 i) (hc2 : cond2 i) (x1 : Vec F S200x10000 .f32) (x2 : Vec F S200x10000 .f32) (x3 : Vec F S10000x128 .bf16) (x4 : Vec F S128x128 .f32) (x5 : Vec F S1x128 .f32) (x6 : Vec F S128x128 .f32) (x7 : Vec F S1x128 .f32) (x8 : Vec F S1x128 .f32) (x9 : Vec F S1x128 .f32) (x10 : Vec F S128x1 .f32) (x11 : Vec F S1x1 .f32) (x12 : Vec F S10000x1 .f32) (x13 : Vec F S10000x128 .f32) (x14 : Vec F S8x128 .f32) :
    arg12.view.read (Elt F) (arg12.view.writes (Elt F) (harg12.unread x12) (kernelRunC c i arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x12 x13 x14).1)
      = k0_pay3 (row0 (k0_pay2 (k0_pay9 (k0_pay4 x1 x3 x4 x5 x6 x7) (k0_pay5 x2 x3 x4 x5) x6 x7) x14)) (row1 (k0_pay2 (k0_pay9 (k0_pay4 x1 x3 x4 x5 x6 x7) (k0_pay5 x2 x3 x4 x5) x6 x7) x14)) x8 x9
          (arg13.view.read (Elt F) (arg13.view.writes (Elt F) (harg13.unread x13) (kernelRunC c i arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x12 x13 x14).2.1)) x10 x11 := by
  rw [View.read_writes_eq_canon _ _ _ (coverC12 c i arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x12 x13 x14)]
  have hcan := canonC14 c i arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x12 x13 x14
  unfold kernelRunC at hcan ⊢
  dsimp only at hcan ⊢
  rw [View.canon_unit_zero hz2]
  unfold kernelRunC.sl.v80 kernelRunC.sl.v82 kernelRunC.sl.v100
  simp only [View.readCov_eq_canon', hcan, View.readAt_eq_ld]
  (try rw [ld_whole arg8 harg8 x8 _ hz2 _])
  (try rw [ld_whole arg9 harg9 x9 _ hz2 _])
  (try rw [ld_whole arg10 harg10 x10 _ hz2 _])
  (try rw [ld_whole arg11 harg11 x11 _ hz2 _])
  rw [View.ld_unit_zero (S := S10000x128) hz2]
  try rfl

end Cert.Kernel.Hand

end
-- ==== Proof.KSplit.lean ====
import proofs.«123370_g29334626631814_cont_sun_c4_761_10_alg».proof.Proof.KArr

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The adjacency buffer's full share as its two halves, the other ten buffers as they are. -/
theorem split_core (c : Dev nD) (W : (b : Ref sig .tc) → Buf (Elt F) ((c.tc : Thread nD τ).loc b)) :
    (iprop((((c.tc : Thread nD τ).loc main_arg1) ↦{fullShare} W main_arg1) ∗ (((c.tc : Thread nD τ).loc main_call0_v0) ↦{fullShare} W main_call0_v0) ∗ (((c.tc : Thread nD τ).loc main_arg2) ↦{fullShare} W main_arg2) ∗ (((c.tc : Thread nD τ).loc main_call0_v1) ↦{fullShare} W main_call0_v1) ∗ (((c.tc : Thread nD τ).loc main_arg4) ↦{fullShare} W main_arg4) ∗ (((c.tc : Thread nD τ).loc main_call0_v2) ↦{fullShare} W main_call0_v2) ∗ (((c.tc : Thread nD τ).loc main_call0_v3) ↦{fullShare} W main_call0_v3) ∗ (((c.tc : Thread nD τ).loc main_call0_v4) ↦{fullShare} W main_call0_v4) ∗ (((c.tc : Thread nD τ).loc main_arg8) ↦{fullShare} W main_arg8) ∗ (((c.tc : Thread nD τ).loc main_call0_v5) ↦{fullShare} W main_call0_v5) ∗ (((c.tc : Thread nD τ).loc main_v0) ↦{fullShare} W main_v0)) : sProp 𝕄)
      ⊢ iprop((((c.tc : Thread nD τ).loc main_arg1) ↦{fullShare.left} W main_arg1) ∗ (((c.tc : Thread nD τ).loc main_arg1) ↦{fullShare.right} W main_arg1) ∗ (((c.tc : Thread nD τ).loc main_call0_v0) ↦{fullShare} W main_call0_v0) ∗ (((c.tc : Thread nD τ).loc main_arg2) ↦{fullShare} W main_arg2) ∗ (((c.tc : Thread nD τ).loc main_call0_v1) ↦{fullShare} W main_call0_v1) ∗ (((c.tc : Thread nD τ).loc main_arg4) ↦{fullShare} W main_arg4) ∗ (((c.tc : Thread nD τ).loc main_call0_v2) ↦{fullShare} W main_call0_v2) ∗ (((c.tc : Thread nD τ).loc main_call0_v3) ↦{fullShare} W main_call0_v3) ∗ (((c.tc : Thread nD τ).loc main_call0_v4) ↦{fullShare} W main_call0_v4) ∗ (((c.tc : Thread nD τ).loc main_arg8) ↦{fullShare} W main_arg8) ∗ (((c.tc : Thread nD τ).loc main_call0_v5) ↦{fullShare} W main_call0_v5) ∗ (((c.tc : Thread nD τ).loc main_v0) ↦{fullShare} W main_v0)) := by
  iintro ⟨HA, H2, H3, H4, H5, H6, H7, H8, H9, H10, H11⟩
  ihave HA := (pointsTo_share (PosShare.mem_left_op_right fullShare)).1 $$ HA
  icases HA with ⟨Ha, Hb⟩
  isplitl [Ha]; · iexact Ha
  isplitl [Hb]; · iexact Hb
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

end Cert.Kernel.Hand

end
-- ==== Proof.KLaunch.lean ====
import proofs.«123370_g29334626631814_cont_sun_c4_761_10_alg».proof.Proof.KSplit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch, for windows that share an array -/

set_option maxHeartbeats 4000000 in
/-- The adjacency matrix is handed to the kernel through two windows (its even and its odd row blocks): the buffer's
    full share is dealt to them as its two halves; every other array goes whole to its one window. -/
theorem hsplit (dats : (p : Fin 1) → (c : Dev nD) → Dat τ (Elt F) Unit ℕ (UR sig nD τ) ℕ (cfgs p) c) (c : Dev nD)
    (hA : ∀ w, (dats 0 c).A w = V m c (Pipeline.arrRef spec0 w))
    (hq0 : (dats 0 c).q 0 = fullShare.left) (hq1 : (dats 0 c).q 1 = fullShare.right)
    (hq : ∀ w : Fin 12, w ≠ 0 → w ≠ 1 → (dats 0 c).q w = fullShare) :
    (Pipeline.arrBufs spec0 c (V m c) : sProp 𝕄) ⊢ (dats 0 c).arrays ((dats 0 c).arrAt · 0) := by
  rw [arrBufs0_eq]
  unfold Dat.arrays
  rw [bigSep_W0]
  beta_reduce
  have e : ∀ w : Fin 12, ((dats 0 c).arrAt w 0) = V m c (Pipeline.arrRef spec0 w) := fun w => hA w
  have s0 : (dats 0 c).share 0 = fullShare.left := by unfold Dat.share; rw [hq0]; rfl
  have s1 : (dats 0 c).share 1 = fullShare.right := by unfold Dat.share; rw [hq1]; rfl
  have sw : ∀ w : Fin 12, w ≠ 0 → w ≠ 1 → (dats 0 c).share w = fullShare := fun w h0 h1 => by
    unfold Dat.share; rw [hq w h0 h1]; exact ite_self _
  rw [e 0, e 1, e 2, e 3, e 4, e 5, e 6, e 7, e 8, e 9, e 10, e 11, s0, s1,
    sw 2 (by decide) (by decide), sw 3 (by decide) (by decide), sw 4 (by decide) (by decide), sw 5 (by decide) (by decide),
    sw 6 (by decide) (by decide), sw 7 (by decide) (by decide), sw 8 (by decide) (by decide), sw 9 (by decide) (by decide),
    sw 10 (by decide) (by decide), sw 11 (by decide) (by decide),
    (arr_whole0 0).set_eq_univ, (arr_whole0 2).set_eq_univ, (arr_whole0 3).set_eq_univ,
    (arr_whole0 4).set_eq_univ, (arr_whole0 5).set_eq_univ, (arr_whole0 6).set_eq_univ, (arr_whole0 7).set_eq_univ,
    (arr_whole0 8).set_eq_univ, (arr_whole0 9).set_eq_univ, (arr_whole0 10).set_eq_univ, (arr_whole0 11).set_eq_univ]
  exact split_core c (V m c)

/-- The proof's resource algebra: one copy of the rounds library's, the pipeline's. -/
abbrev EP : Emb (UR sig nD τ) (MT nD τ sig Unit (Elt F) ℕ (UR sig nD τ) ℕ) := emb₁

/-- The unscoped buffers no window stages: the features, the four vectors and the readout bias before their casts and
    reshapes. -/
abbrev restRefs : Finset (Ref sig .tc) := Pipeline.restRefs sig spec0

set_option backward.isDefEq.respectTransparency.types false in
/-- THE LAUNCH for this kernel's layout — two input windows on one array: for any proof data that holds the adjacency
    matrix's two windows at the two halves of the full share and every other array whole, owes nothing, whose arrays are
    the region-entry contents, whose invariant the kernel's two scratch buffers (at anything) yield before the first
    point and which yields them back after the last: every weakly fair execution of @main terminates with each windowed
    array at what the write-backs leave and every other unscoped buffer as the region found it. -/
theorem run_shared (dats : (p : Fin 1) → (c : Dev nD) → Dat τ (Elt F) Unit ℕ (UR sig nD τ) ℕ (cfgs p) c)
    (hbody : ∀ c, Pipeline.BodyObligationLoose (dats 0 c) (defs₀ (F := F)) Variants.none () Set.univ)
    (howed : ∀ c t, (dats 0 c).owed t = 0)
    (hA : ∀ c w, (dats 0 c).A w = V m c (Pipeline.arrRef spec0 w))
    (hq0 : ∀ c, (dats 0 c).q 0 = fullShare.left) (hq1 : ∀ c, (dats 0 c).q 1 = fullShare.right)
    (hq : ∀ c, ∀ w : Fin 12, w ≠ 0 → w ≠ 1 → (dats 0 c).q w = fullShare)
    (hin : ∀ c, (Pipeline.scopedRest spec0 c : sProp 𝕄) ⊢ (dats 0 c).Φ 0)
    (hout : ∀ c, (dats 0 c).Φ (Fin.last cfg0.N) ⊢ (Pipeline.scopedRest spec0 c : sProp 𝕄)) :
    θ_run defs (onTc (τ := τ) (main (F := F))) (s₀ m ρ) (fun r => ∀ c : Dev nD,
      (∀ w, r.2.mem ((spec0 w).arr.view.loc (c.tc : Thread nD τ)) = (dats 0 c).arrAt w cfg0.N)
      ∧ ∀ b ∈ restRefs, r.2.mem ((c.tc : Thread nD τ).loc b) = V m c b) :=
  Pipeline.θ_run_region_noSem_shared cfgs dats () cellOf_inj (0 : Fin 1) winFacts₀0 EP defs₀ Variants.none m ρ main
    (hbody := hbody) (hne := block_pos0) (harr := arr_whole0) (hstage := stage_whole0) (howed := howed)
    (u₀ := initOf (Pipeline.cells cfgs cellOf_inj) (Pipeline.launchToks cfgs cellOf_inj)) (hu₀ := BI.Entails.refl _)
    (V := V m) (hmain := hmain m Variants.none)
    (hsplit := fun c => hsplit m dats c (hA c) (hq0 c) (hq1 c) (hq c))
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => (show iprop(emp ∗ Pipeline.scopedRest spec0 c) ⊢ (Pipeline.scopedRest spec0 c : sProp 𝕄) from by
      iintro ⟨-, H⟩; iexact H).trans (hin c))
    (hout := fun c => (hout c).trans (by iintro H; isplitr; · iempintro
                                         iexact H))
    (QY := fun c s => ∀ b ∈ restRefs, s.mem ((c.tc : Thread nD τ).loc b) = V m c b)
    (hY := fun c s' => by
      iintro ⟨-, HU, HSI⟩
      unfold Pipeline.unscopedRest
      imodintro
      iapply (pointsTo_read_all restRefs (fun b => (c.tc : Thread nD τ).loc b) (V m c) s')
      isplitl [HU] <;> iassumption)
    (hQ := fun s h c => h c)

end Cert.Kernel.Hand

end
-- ==== Proof.KRows.lean ====
import proofs.«123370_g29334626631814_cont_sun_c4_761_10_alg».proof.Proof.KPieces3
import proofs.«123370_g29334626631814_cont_sun_c4_761_10_alg».proof.Proof.KLaunch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- The kernel's two scratch buffers: the activations and the statistics. -/
abbrev scM0 : Memref sig .tc .vmem S10000x128 .f32 := Memref.whole cc0_scratch0
abbrev scM1 : Memref sig .tc .vmem S8x128 .f32 := Memref.whole cc0_scratch1

/-! ## The rows of the activations scratch, point by point -/

/-- One point further: the rows of the earlier points are untouched, the point's own 400 rows hold its two blocks. -/
theorem rowsOK_stepA (c : Dev nD) (t : Fin cfg0.N) (hc1 : cond1 (grid0.coords t)) (hc2 : ¬cond2 (grid0.coords t)) (xs : Vec F S10000x128 .f32) (s : Vec F S8x128 .f32)
    (hxs : RowsOK m c t.val xs) :
    RowsOK m c (t.val + 1) (scM0.view.read (Elt F) (scM0.view.writes (Elt F) ((Memref.isWhole_whole cc0_scratch0).unread xs) (kernelRunA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) scM0 (Memref.isWhole_whole _) scM1 (Memref.isWhole_whole _) hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) xs s).1)) := by
  intro t' ht' r j
  by_cases hlt : t'.val < t.val
  · have hA := rowsA_out c t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) scM0 (Memref.isWhole_whole _) scM1 (Memref.isWhole_whole _) hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) xs s (ix2 (rowA t' r) j)
      (Or.inl (by show 400 * t'.val + r.val < 400 * t.val; have := r.isLt; omega))
    have hB := rowsA_out c t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) scM0 (Memref.isWhole_whole _) scM1 (Memref.isWhole_whole _) hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) xs s (ix2 (rowB t' r) j)
      (Or.inl (by show 400 * t'.val + 200 + r.val < 400 * t.val; have := r.isLt; omega))
    exact ⟨hA.trans (hxs t' hlt r j).1, hB.trans (hxs t' hlt r j).2⟩
  · obtain rfl : t' = t := Fin.ext (by omega)
    exact ⟨rowsA_inA c t' (win0_0.stage (cfg0.slots t' 0)) (hstage0_0 ((cfg0.slots t' 0).cast nbuf0_0)) (win0_1.stage (cfg0.slots t' 1)) (hstage0_1 ((cfg0.slots t' 1).cast nbuf0_1)) (win0_2.stage (cfg0.slots t' 2)) (hstage0_2 ((cfg0.slots t' 2).cast nbuf0_2)) (win0_3.stage (cfg0.slots t' 3)) (hstage0_3 ((cfg0.slots t' 3).cast nbuf0_3)) (win0_4.stage (cfg0.slots t' 4)) (hstage0_4 ((cfg0.slots t' 4).cast nbuf0_4)) (win0_5.stage (cfg0.slots t' 5)) (hstage0_5 ((cfg0.slots t' 5).cast nbuf0_5)) (win0_6.stage (cfg0.slots t' 6)) (hstage0_6 ((cfg0.slots t' 6).cast nbuf0_6)) (win0_7.stage (cfg0.slots t' 7)) (hstage0_7 ((cfg0.slots t' 7).cast nbuf0_7)) (win0_8.stage (cfg0.slots t' 8)) (hstage0_8 ((cfg0.slots t' 8).cast nbuf0_8)) (win0_9.stage (cfg0.slots t' 9)) (hstage0_9 ((cfg0.slots t' 9).cast nbuf0_9)) (win0_10.stage (cfg0.slots t' 10)) (hstage0_10 ((cfg0.slots t' 10).cast nbuf0_10)) (win0_11.stage (cfg0.slots t' 11)) (hstage0_11 ((cfg0.slots t' 11).cast nbuf0_11)) scM0 (Memref.isWhole_whole _) scM1 (Memref.isWhole_whole _) hc1 hc2 (iblk m c 0 t') (iblk m c 1 t') (iblk m c 2 t') (iblk m c 3 t') (iblk m c 4 t') (iblk m c 5 t') (iblk m c 6 t') (iblk m c 7 t') (iblk m c 8 t') (iblk m c 9 t') (iblk m c 10 t') xs s r j,
      rowsA_inB c t' (win0_0.stage (cfg0.slots t' 0)) (hstage0_0 ((cfg0.slots t' 0).cast nbuf0_0)) (win0_1.stage (cfg0.slots t' 1)) (hstage0_1 ((cfg0.slots t' 1).cast nbuf0_1)) (win0_2.stage (cfg0.slots t' 2)) (hstage0_2 ((cfg0.slots t' 2).cast nbuf0_2)) (win0_3.stage (cfg0.slots t' 3)) (hstage0_3 ((cfg0.slots t' 3).cast nbuf0_3)) (win0_4.stage (cfg0.slots t' 4)) (hstage0_4 ((cfg0.slots t' 4).cast nbuf0_4)) (win0_5.stage (cfg0.slots t' 5)) (hstage0_5 ((cfg0.slots t' 5).cast nbuf0_5)) (win0_6.stage (cfg0.slots t' 6)) (hstage0_6 ((cfg0.slots t' 6).cast nbuf0_6)) (win0_7.stage (cfg0.slots t' 7)) (hstage0_7 ((cfg0.slots t' 7).cast nbuf0_7)) (win0_8.stage (cfg0.slots t' 8)) (hstage0_8 ((cfg0.slots t' 8).cast nbuf0_8)) (win0_9.stage (cfg0.slots t' 9)) (hstage0_9 ((cfg0.slots t' 9).cast nbuf0_9)) (win0_10.stage (cfg0.slots t' 10)) (hstage0_10 ((cfg0.slots t' 10).cast nbuf0_10)) (win0_11.stage (cfg0.slots t' 11)) (hstage0_11 ((cfg0.slots t' 11).cast nbuf0_11)) scM0 (Memref.isWhole_whole _) scM1 (Memref.isWhole_whole _) hc1 hc2 (iblk m c 0 t') (iblk m c 1 t') (iblk m c 2 t') (iblk m c 3 t') (iblk m c 4 t') (iblk m c 5 t') (iblk m c 6 t') (iblk m c 7 t') (iblk m c 8 t') (iblk m c 9 t') (iblk m c 10 t') xs s r j⟩

/-- One point further: the rows of the earlier points are untouched, the point's own 400 rows hold its two blocks. -/
theorem rowsOK_stepB (c : Dev nD) (t : Fin cfg0.N) (hc1 : ¬cond1 (grid0.coords t)) (hc2 : ¬cond2 (grid0.coords t)) (xs : Vec F S10000x128 .f32) (s : Vec F S8x128 .f32)
    (hxs : RowsOK m c t.val xs) :
    RowsOK m c (t.val + 1) (scM0.view.read (Elt F) (scM0.view.writes (Elt F) ((Memref.isWhole_whole cc0_scratch0).unread xs) (kernelRunB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) scM0 (Memref.isWhole_whole _) scM1 (Memref.isWhole_whole _) hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) xs s).1)) := by
  intro t' ht' r j
  by_cases hlt : t'.val < t.val
  · have hA := rowsB_out c t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) scM0 (Memref.isWhole_whole _) scM1 (Memref.isWhole_whole _) hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) xs s (ix2 (rowA t' r) j)
      (Or.inl (by show 400 * t'.val + r.val < 400 * t.val; have := r.isLt; omega))
    have hB := rowsB_out c t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) scM0 (Memref.isWhole_whole _) scM1 (Memref.isWhole_whole _) hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) xs s (ix2 (rowB t' r) j)
      (Or.inl (by show 400 * t'.val + 200 + r.val < 400 * t.val; have := r.isLt; omega))
    exact ⟨hA.trans (hxs t' hlt r j).1, hB.trans (hxs t' hlt r j).2⟩
  · obtain rfl : t' = t := Fin.ext (by omega)
    exact ⟨rowsB_inA c t' (win0_0.stage (cfg0.slots t' 0)) (hstage0_0 ((cfg0.slots t' 0).cast nbuf0_0)) (win0_1.stage (cfg0.slots t' 1)) (hstage0_1 ((cfg0.slots t' 1).cast nbuf0_1)) (win0_2.stage (cfg0.slots t' 2)) (hstage0_2 ((cfg0.slots t' 2).cast nbuf0_2)) (win0_3.stage (cfg0.slots t' 3)) (hstage0_3 ((cfg0.slots t' 3).cast nbuf0_3)) (win0_4.stage (cfg0.slots t' 4)) (hstage0_4 ((cfg0.slots t' 4).cast nbuf0_4)) (win0_5.stage (cfg0.slots t' 5)) (hstage0_5 ((cfg0.slots t' 5).cast nbuf0_5)) (win0_6.stage (cfg0.slots t' 6)) (hstage0_6 ((cfg0.slots t' 6).cast nbuf0_6)) (win0_7.stage (cfg0.slots t' 7)) (hstage0_7 ((cfg0.slots t' 7).cast nbuf0_7)) (win0_8.stage (cfg0.slots t' 8)) (hstage0_8 ((cfg0.slots t' 8).cast nbuf0_8)) (win0_9.stage (cfg0.slots t' 9)) (hstage0_9 ((cfg0.slots t' 9).cast nbuf0_9)) (win0_10.stage (cfg0.slots t' 10)) (hstage0_10 ((cfg0.slots t' 10).cast nbuf0_10)) (win0_11.stage (cfg0.slots t' 11)) (hstage0_11 ((cfg0.slots t' 11).cast nbuf0_11)) scM0 (Memref.isWhole_whole _) scM1 (Memref.isWhole_whole _) hc1 hc2 (iblk m c 0 t') (iblk m c 1 t') (iblk m c 2 t') (iblk m c 3 t') (iblk m c 4 t') (iblk m c 5 t') (iblk m c 6 t') (iblk m c 7 t') (iblk m c 8 t') (iblk m c 9 t') (iblk m c 10 t') xs s r j,
      rowsB_inB c t' (win0_0.stage (cfg0.slots t' 0)) (hstage0_0 ((cfg0.slots t' 0).cast nbuf0_0)) (win0_1.stage (cfg0.slots t' 1)) (hstage0_1 ((cfg0.slots t' 1).cast nbuf0_1)) (win0_2.stage (cfg0.slots t' 2)) (hstage0_2 ((cfg0.slots t' 2).cast nbuf0_2)) (win0_3.stage (cfg0.slots t' 3)) (hstage0_3 ((cfg0.slots t' 3).cast nbuf0_3)) (win0_4.stage (cfg0.slots t' 4)) (hstage0_4 ((cfg0.slots t' 4).cast nbuf0_4)) (win0_5.stage (cfg0.slots t' 5)) (hstage0_5 ((cfg0.slots t' 5).cast nbuf0_5)) (win0_6.stage (cfg0.slots t' 6)) (hstage0_6 ((cfg0.slots t' 6).cast nbuf0_6)) (win0_7.stage (cfg0.slots t' 7)) (hstage0_7 ((cfg0.slots t' 7).cast nbuf0_7)) (win0_8.stage (cfg0.slots t' 8)) (hstage0_8 ((cfg0.slots t' 8).cast nbuf0_8)) (win0_9.stage (cfg0.slots t' 9)) (hstage0_9 ((cfg0.slots t' 9).cast nbuf0_9)) (win0_10.stage (cfg0.slots t' 10)) (hstage0_10 ((cfg0.slots t' 10).cast nbuf0_10)) (win0_11.stage (cfg0.slots t' 11)) (hstage0_11 ((cfg0.slots t' 11).cast nbuf0_11)) scM0 (Memref.isWhole_whole _) scM1 (Memref.isWhole_whole _) hc1 hc2 (iblk m c 0 t') (iblk m c 1 t') (iblk m c 2 t') (iblk m c 3 t') (iblk m c 4 t') (iblk m c 5 t') (iblk m c 6 t') (iblk m c 7 t') (iblk m c 8 t') (iblk m c 9 t') (iblk m c 10 t') xs s r j⟩

/-- One point further: the rows of the earlier points are untouched, the point's own 400 rows hold its two blocks. -/
theorem rowsOK_stepC (c : Dev nD) (t : Fin cfg0.N) (hc1 : ¬cond1 (grid0.coords t)) (hc2 : cond2 (grid0.coords t)) (x12 : Vec F S10000x1 .f32) (xs : Vec F S10000x128 .f32) (s : Vec F S8x128 .f32)
    (hxs : RowsOK m c t.val xs) :
    RowsOK m c (t.val + 1) (scM0.view.read (Elt F) (scM0.view.writes (Elt F) ((Memref.isWhole_whole cc0_scratch0).unread xs) (kernelRunC c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) scM0 (Memref.isWhole_whole _) scM1 (Memref.isWhole_whole _) hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) x12 xs s).2.1)) := by
  intro t' ht' r j
  by_cases hlt : t'.val < t.val
  · have hA := rowsC_out c t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) scM0 (Memref.isWhole_whole _) scM1 (Memref.isWhole_whole _) hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) x12 xs s (ix2 (rowA t' r) j)
      (Or.inl (by show 400 * t'.val + r.val < 400 * t.val; have := r.isLt; omega))
    have hB := rowsC_out c t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) scM0 (Memref.isWhole_whole _) scM1 (Memref.isWhole_whole _) hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) x12 xs s (ix2 (rowB t' r) j)
      (Or.inl (by show 400 * t'.val + 200 + r.val < 400 * t.val; have := r.isLt; omega))
    exact ⟨hA.trans (hxs t' hlt r j).1, hB.trans (hxs t' hlt r j).2⟩
  · obtain rfl : t' = t := Fin.ext (by omega)
    exact ⟨rowsC_inA c t' (win0_0.stage (cfg0.slots t' 0)) (hstage0_0 ((cfg0.slots t' 0).cast nbuf0_0)) (win0_1.stage (cfg0.slots t' 1)) (hstage0_1 ((cfg0.slots t' 1).cast nbuf0_1)) (win0_2.stage (cfg0.slots t' 2)) (hstage0_2 ((cfg0.slots t' 2).cast nbuf0_2)) (win0_3.stage (cfg0.slots t' 3)) (hstage0_3 ((cfg0.slots t' 3).cast nbuf0_3)) (win0_4.stage (cfg0.slots t' 4)) (hstage0_4 ((cfg0.slots t' 4).cast nbuf0_4)) (win0_5.stage (cfg0.slots t' 5)) (hstage0_5 ((cfg0.slots t' 5).cast nbuf0_5)) (win0_6.stage (cfg0.slots t' 6)) (hstage0_6 ((cfg0.slots t' 6).cast nbuf0_6)) (win0_7.stage (cfg0.slots t' 7)) (hstage0_7 ((cfg0.slots t' 7).cast nbuf0_7)) (win0_8.stage (cfg0.slots t' 8)) (hstage0_8 ((cfg0.slots t' 8).cast nbuf0_8)) (win0_9.stage (cfg0.slots t' 9)) (hstage0_9 ((cfg0.slots t' 9).cast nbuf0_9)) (win0_10.stage (cfg0.slots t' 10)) (hstage0_10 ((cfg0.slots t' 10).cast nbuf0_10)) (win0_11.stage (cfg0.slots t' 11)) (hstage0_11 ((cfg0.slots t' 11).cast nbuf0_11)) scM0 (Memref.isWhole_whole _) scM1 (Memref.isWhole_whole _) hc1 hc2 (iblk m c 0 t') (iblk m c 1 t') (iblk m c 2 t') (iblk m c 3 t') (iblk m c 4 t') (iblk m c 5 t') (iblk m c 6 t') (iblk m c 7 t') (iblk m c 8 t') (iblk m c 9 t') (iblk m c 10 t') x12 xs s r j,
      rowsC_inB c t' (win0_0.stage (cfg0.slots t' 0)) (hstage0_0 ((cfg0.slots t' 0).cast nbuf0_0)) (win0_1.stage (cfg0.slots t' 1)) (hstage0_1 ((cfg0.slots t' 1).cast nbuf0_1)) (win0_2.stage (cfg0.slots t' 2)) (hstage0_2 ((cfg0.slots t' 2).cast nbuf0_2)) (win0_3.stage (cfg0.slots t' 3)) (hstage0_3 ((cfg0.slots t' 3).cast nbuf0_3)) (win0_4.stage (cfg0.slots t' 4)) (hstage0_4 ((cfg0.slots t' 4).cast nbuf0_4)) (win0_5.stage (cfg0.slots t' 5)) (hstage0_5 ((cfg0.slots t' 5).cast nbuf0_5)) (win0_6.stage (cfg0.slots t' 6)) (hstage0_6 ((cfg0.slots t' 6).cast nbuf0_6)) (win0_7.stage (cfg0.slots t' 7)) (hstage0_7 ((cfg0.slots t' 7).cast nbuf0_7)) (win0_8.stage (cfg0.slots t' 8)) (hstage0_8 ((cfg0.slots t' 8).cast nbuf0_8)) (win0_9.stage (cfg0.slots t' 9)) (hstage0_9 ((cfg0.slots t' 9).cast nbuf0_9)) (win0_10.stage (cfg0.slots t' 10)) (hstage0_10 ((cfg0.slots t' 10).cast nbuf0_10)) (win0_11.stage (cfg0.slots t' 11)) (hstage0_11 ((cfg0.slots t' 11).cast nbuf0_11)) scM0 (Memref.isWhole_whole _) scM1 (Memref.isWhole_whole _) hc1 hc2 (iblk m c 0 t') (iblk m c 1 t') (iblk m c 2 t') (iblk m c 3 t') (iblk m c 4 t') (iblk m c 5 t') (iblk m c 6 t') (iblk m c 7 t') (iblk m c 8 t') (iblk m c 9 t') (iblk m c 10 t') x12 xs s r j⟩

/-- Once all 25 points have stored their blocks the scratch is the assembled activations. -/
theorem eq_xfull_of_rowsOK (c : Dev nD) (xs : Vec F S10000x128 .f32) (h : RowsOK m c 25 xs) : xs = xfull m c := by
  funext y
  obtain ⟨p, q, rfl⟩ : ∃ (p : Fin 10000) (q : Fin 128), y = ix2 p q := ⟨y 0, y 1, eq_ix2 y⟩
  have hp := p.isLt
  have hN' := hN
  unfold xfull
  by_cases hr : p.val % 400 < 200
  · rw [dif_pos (show ((ix2 p q : S10000x128.Idx) 0).val % 400 < 200 from hr)]
    have := (h ⟨p.val / 400, by omega⟩ (by show p.val / 400 < 25; omega) ⟨p.val % 400, hr⟩ q).1
    refine Eq.trans (congrArg xs (funext fun a => ?_)) this
    match a with
    | ⟨0, _⟩ => exact Fin.ext (by show p.val = 400 * (p.val / 400) + p.val % 400; omega)
    | ⟨1, _⟩ => rfl
  · rw [dif_neg (show ¬((ix2 p q : S10000x128.Idx) 0).val % 400 < 200 from hr)]
    have hm := Nat.mod_lt p.val (show 0 < 400 by decide)
    have := (h ⟨p.val / 400, by omega⟩ (by show p.val / 400 < 25; omega) ⟨p.val % 400 - 200, by omega⟩ q).2
    refine Eq.trans (congrArg xs (funext fun a => ?_)) this
    match a with
    | ⟨0, _⟩ => exact Fin.ext (by show p.val = 400 * (p.val / 400) + 200 + (p.val % 400 - 200); omega)
    | ⟨1, _⟩ => rfl

end Cert.Kernel.Hand

end
-- ==== Proof.KDat.lean ====
import proofs.«123370_g29334626631814_cont_sun_c4_761_10_alg».proof.Proof.KRows

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The invariant: what the two scratch buffers hold between points -/

/-- Before the first point the scratch buffers hold anything; after point `n` the activations scratch holds the blocks
    of the points up to `n` in their rows (the later rows anything) and the statistics scratch the sums so far. -/
def PhiS (c : Dev nD) : (n : ℕ) → n ≤ cfg0.N → sProp 𝕄
  | 0, _ => Pipeline.scopedRest spec0 c
  | n + 1, hn => iprop(∃ xs : Vec F S10000x128 .f32, ⌜RowsOK m c (n + 1) xs⌝
      ∗ owns (c : Thread nD τ) scM0 fullShare xs ∗ owns (c : Thread nD τ) scM1 fullShare (statsAt m c n hn))

theorem PhiS_zero (c : Dev nD) (n : ℕ) (h : n ≤ cfg0.N) (hz : n = 0) : PhiS m c n h = Pipeline.scopedRest spec0 c := by
  subst hz; rfl
theorem PhiS_succ (c : Dev nD) (n : ℕ) (hn : n < cfg0.N) :
    PhiS m c (n + 1) hn = iprop(∃ xs : Vec F S10000x128 .f32, ⌜RowsOK m c (n + 1) xs⌝
      ∗ owns (c : Thread nD τ) scM0 fullShare xs ∗ owns (c : Thread nD τ) scM1 fullShare (statsAt m c n hn)) := rfl
theorem PhiS_pos (c : Dev nD) (n : ℕ) (h : n ≤ cfg0.N) (hz : n ≠ 0) :
    PhiS m c n h = iprop(∃ xs : Vec F S10000x128 .f32, ⌜RowsOK m c n xs⌝
      ∗ owns (c : Thread nD τ) scM0 fullShare xs ∗ owns (c : Thread nD τ) scM1 fullShare (statsAt m c (n - 1) (by omega))) := by
  cases n with
  | zero => exact absurd rfl hz
  | succ n => rfl

/-- The scoped rest is the two scratch buffers, each whole at some contents. -/
theorem PhiS0_eq (c : Dev nD) :
    (Pipeline.scopedRest spec0 c : sProp 𝕄)
      = iprop((∃ d, owns (c : Thread nD τ) scM0 fullShare d) ∗ (∃ d, owns (c : Thread nD τ) scM1 fullShare d)) := by
  rw [scopedRest0_eq]; simp only [scM0, scM1, owns_whole]; try rfl

theorem statsAt_zero (c : Dev nD) (t : Fin cfg0.N) (h0 : t.val = 0) :
    statsAt m c t.val t.isLt = k0_pay2 (k0_pay9 (k0_pay4 (iblk m c 0 t) (iblk m c 2 t) (iblk m c 3 t) (iblk m c 4 t) (iblk m c 5 t) (iblk m c 6 t)) (k0_pay5 (iblk m c 1 t) (iblk m c 2 t) (iblk m c 3 t) (iblk m c 4 t)) (iblk m c 5 t) (iblk m c 6 t)) (k0_pay1 (F := F)) := by
  obtain ⟨n, hn⟩ := t
  cases n with
  | zero => rfl
  | succ n => exact absurd h0 (by simp)
theorem statsAt_pos (c : Dev nD) (t : Fin cfg0.N) (h0 : t.val ≠ 0) :
    statsAt m c t.val t.isLt = k0_pay2 (k0_pay9 (k0_pay4 (iblk m c 0 t) (iblk m c 2 t) (iblk m c 3 t) (iblk m c 4 t) (iblk m c 5 t) (iblk m c 6 t)) (k0_pay5 (iblk m c 1 t) (iblk m c 2 t) (iblk m c 3 t) (iblk m c 4 t)) (iblk m c 5 t) (iblk m c 6 t)) (statsAt m c (t.val - 1) (by have := t.isLt; omega)) := by
  obtain ⟨n, hn⟩ := t
  cases n with
  | zero => exact absurd rfl h0
  | succ n => rfl

/-! ## The proof data -/

/-- The arrays as the region finds them; after the body each input's buffer at its block, the output's at the readout
    (the last point's store; idle before); the adjacency matrix's two windows at the two halves of its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outVal m c
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after_11 (c : Dev nD) (t : Fin cfg0.N) : (dats m 0 c).after 11 t = outVal m c := by dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem leaves_0 (c : Dev nD) (t : Fin cfg0.N) :
    (dats m 0 c).leavesExact 0 t = owns (c : Thread nD τ) (win0_0.stage (cfg0.slots t 0)) fullShare (iblk m c 0 t) := by
  unfold Dat.leavesExact; rw [show cfg0.idle 0 (cfg0.grid.coords t) = false from rfl, after_0]
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem leaves_1 (c : Dev nD) (t : Fin cfg0.N) :
    (dats m 0 c).leavesExact 1 t = owns (c : Thread nD τ) (win0_1.stage (cfg0.slots t 1)) fullShare (iblk m c 1 t) := by
  unfold Dat.leavesExact; rw [show cfg0.idle 1 (cfg0.grid.coords t) = false from rfl, after_1]
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem leaves_2 (c : Dev nD) (t : Fin cfg0.N) :
    (dats m 0 c).leavesExact 2 t = owns (c : Thread nD τ) (win0_2.stage (cfg0.slots t 2)) fullShare (iblk m c 2 t) := by
  unfold Dat.leavesExact; rw [show cfg0.idle 2 (cfg0.grid.coords t) = false from rfl, after_2]
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem leaves_3 (c : Dev nD) (t : Fin cfg0.N) :
    (dats m 0 c).leavesExact 3 t = owns (c : Thread nD τ) (win0_3.stage (cfg0.slots t 3)) fullShare (iblk m c 3 t) := by
  unfold Dat.leavesExact; rw [show cfg0.idle 3 (cfg0.grid.coords t) = false from rfl, after_3]
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem leaves_4 (c : Dev nD) (t : Fin cfg0.N) :
    (dats m 0 c).leavesExact 4 t = owns (c : Thread nD τ) (win0_4.stage (cfg0.slots t 4)) fullShare (iblk m c 4 t) := by
  unfold Dat.leavesExact; rw [show cfg0.idle 4 (cfg0.grid.coords t) = false from rfl, after_4]
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem leaves_5 (c : Dev nD) (t : Fin cfg0.N) :
    (dats m 0 c).leavesExact 5 t = owns (c : Thread nD τ) (win0_5.stage (cfg0.slots t 5)) fullShare (iblk m c 5 t) := by
  unfold Dat.leavesExact; rw [show cfg0.idle 5 (cfg0.grid.coords t) = false from rfl, after_5]
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  ((dats m 0 c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem leaves_6 (c : Dev nD) (t : Fin cfg0.N) :
    (dats m 0 c).leavesExact 6 t = owns (c : Thread nD τ) (win0_6.stage (cfg0.slots t 6)) fullShare (iblk m c 6 t) := by
  unfold Dat.leavesExact; rw [show cfg0.idle 6 (cfg0.grid.coords t) = false from rfl, after_6]
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  ((dats m 0 c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)
theorem leaves_7 (c : Dev nD) (t : Fin cfg0.N) :
    (dats m 0 c).leavesExact 7 t = owns (c : Thread nD τ) (win0_7.stage (cfg0.slots t 7)) fullShare (iblk m c 7 t) := by
  unfold Dat.leavesExact; rw [show cfg0.idle 7 (cfg0.grid.coords t) = false from rfl, after_7]
theorem after_8 (c : Dev nD) (t : Fin cfg0.N) : (dats m 0 c).after 8 t = iblk m c 8 t := by dsimp only [dats]
theorem before_8 (c : Dev nD) (t : Fin cfg0.N) (d) : (dats m 0 c).before 8 t d = iblk m c 8 t :=
  ((dats m 0 c).before_in_eq_fetched 8 rfl (fun _ => rfl) (fun _ _ _ => rfl)
    (fun t => by rw [after_8]; unfold Dat.blockOf iblk; rw [A_eq]; try rfl) t d).trans
    (by unfold Dat.fetched Dat.blockOf iblk; rw [A_eq]; try rfl)
theorem leaves_8 (c : Dev nD) (t : Fin cfg0.N) :
    (dats m 0 c).leavesExact 8 t = owns (c : Thread nD τ) (win0_8.stage (cfg0.slots t 8)) fullShare (iblk m c 8 t) := by
  unfold Dat.leavesExact; rw [show cfg0.idle 8 (cfg0.grid.coords t) = false from rfl, after_8]
theorem after_9 (c : Dev nD) (t : Fin cfg0.N) : (dats m 0 c).after 9 t = iblk m c 9 t := by dsimp only [dats]
theorem before_9 (c : Dev nD) (t : Fin cfg0.N) (d) : (dats m 0 c).before 9 t d = iblk m c 9 t :=
  ((dats m 0 c).before_in_eq_fetched 9 rfl (fun _ => rfl) (fun _ _ _ => rfl)
    (fun t => by rw [after_9]; unfold Dat.blockOf iblk; rw [A_eq]; try rfl) t d).trans
    (by unfold Dat.fetched Dat.blockOf iblk; rw [A_eq]; try rfl)
theorem leaves_9 (c : Dev nD) (t : Fin cfg0.N) :
    (dats m 0 c).leavesExact 9 t = owns (c : Thread nD τ) (win0_9.stage (cfg0.slots t 9)) fullShare (iblk m c 9 t) := by
  unfold Dat.leavesExact; rw [show cfg0.idle 9 (cfg0.grid.coords t) = false from rfl, after_9]
theorem after_10 (c : Dev nD) (t : Fin cfg0.N) : (dats m 0 c).after 10 t = iblk m c 10 t := by dsimp only [dats]
theorem before_10 (c : Dev nD) (t : Fin cfg0.N) (d) : (dats m 0 c).before 10 t d = iblk m c 10 t :=
  ((dats m 0 c).before_in_eq_fetched 10 rfl (fun _ => rfl) (fun _ _ _ => rfl)
    (fun t => by rw [after_10]; unfold Dat.blockOf iblk; rw [A_eq]; try rfl) t d).trans
    (by unfold Dat.fetched Dat.blockOf iblk; rw [A_eq]; try rfl)
theorem leaves_10 (c : Dev nD) (t : Fin cfg0.N) :
    (dats m 0 c).leavesExact 10 t = owns (c : Thread nD τ) (win0_10.stage (cfg0.slots t 10)) fullShare (iblk m c 10 t) := by
  unfold Dat.leavesExact; rw [show cfg0.idle 10 (cfg0.grid.coords t) = false from rfl, after_10]

/-- The output window is idle and not written back away from the last point, live at it. -/
theorem idle11 : ∀ t : Fin cfg0.N, ¬cond2 (grid0.coords t) → cfg0.idle 11 (grid0.coords t) = true := by decide +kernel
theorem noFlush11 : ∀ t : Fin cfg0.N, ¬cond2 (grid0.coords t) → (cfg0.win 11).flush t = false := by decide +kernel
theorem live11 : ∀ t : Fin cfg0.N, cond2 (grid0.coords t) → cfg0.idle 11 (grid0.coords t) = false := by decide +kernel
theorem leaves_11_live (c : Dev nD) (t : Fin cfg0.N) (h : cond2 (grid0.coords t)) :
    (dats m 0 c).leavesExact 11 t = owns (c : Thread nD τ) (win0_11.stage (cfg0.slots t 11)) fullShare (outVal m c) := by
  unfold Dat.leavesExact; rw [live11 t h, after_11]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 16000000 in
/-- The body at any point: the inputs' buffers hold their blocks; which of the three cases the point is in is read off its
    position; the case's run applies; the rows and the statistics advance by the point's step. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [show (dats m 0 c).owesAt () t.succ = (dats m 0 c).owesAt () t.castSucc from rfl]
  rw [show (dats m 0 c).Φ t.succ = PhiS m c (t.val + 1) t.isLt from rfl, PhiS_succ]
  rw [leaves_0 m c t, leaves_1 m c t, leaves_2 m c t, leaves_3 m c t, leaves_4 m c t, leaves_5 m c t, leaves_6 m c t, leaves_7 m c t, leaves_8 m c t, leaves_9 m c t, leaves_10 m c t]
  have hN' : t.val < 25 := lt_of_lt_of_eq t.isLt hN
  by_cases h0 : t.val = 0
  · have h24 : ¬t.val = 24 := by omega
    have hc1 : cond1 (grid0.coords t) := (hcond1 t).mpr h0
    have hc2 : ¬cond2 (grid0.coords t) := fun h => h24 ((hcond2 t).mp h)
    rw [Dat.leavesExact_idle (dats m 0 c) 11 t (idle11 t hc2) (noFlush11 t hc2)]
    rw [PhiS_castSucc m c t, PhiS_zero m c _ _ h0, PhiS0_eq]
    iintro ⟨⟨⟨%xs, HS0⟩, ⟨%s, HS1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    have hxs : RowsOK m c t.val xs := fun t' ht' => absurd ht' (by omega)
    iapply ((kernelRunA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) scM0 (Memref.isWhole_whole _) scM1 (Memref.isWhole_whole _) hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) xs s).2.2 ((dats m 0 c).before 11 t d11) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    isplitl [HS1]; · iexact HS1
    iintro ⟨H0, H1, H2, H3, H4, H5, H6, H7, H8, H9, H10, H11, HS0, HS1⟩
    isplitl [HS0 HS1]
    · iexists (scM0.view.read (Elt F) (scM0.view.writes (Elt F) ((Memref.isWhole_whole cc0_scratch0).unread xs) (kernelRunA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) scM0 (Memref.isWhole_whole _) scM1 (Memref.isWhole_whole _) hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) xs s).1))
      isplitr
      · ipureintro; exact rowsOK_stepA m c t hc1 hc2 xs s hxs
      isplitl [HS0]
      · unfold owns; iexists _; isplitr
        swap; · iexact HS0
        ipureintro; rfl
      · unfold owns; iexists _; isplitr
        swap; · iexact HS1
        ipureintro
        exact (statsA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) scM0 (Memref.isWhole_whole _) scM1 (Memref.isWhole_whole _) hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) xs s).trans (statsAt_zero m c t h0).symm
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexists d11; iexact H11
  · by_cases h24 : t.val = 24
    · obtain rfl : t = tLast := Fin.ext (by rw [h24]; rfl)
      have hc1 : ¬cond1 (grid0.coords tLast) := fun h => h0 ((hcond1 tLast).mp h)
      have hc2 : cond2 (grid0.coords tLast) := (hcond2 tLast).mpr h24
      rw [leaves_11_live m c tLast hc2]
      rw [PhiS_castSucc m c tLast, PhiS_pos m c _ _ h0]
      iintro ⟨⟨%xs, %hxs, HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRunC c (grid0.coords tLast) (win0_0.stage (cfg0.slots tLast 0)) (hstage0_0 ((cfg0.slots tLast 0).cast nbuf0_0)) (win0_1.stage (cfg0.slots tLast 1)) (hstage0_1 ((cfg0.slots tLast 1).cast nbuf0_1)) (win0_2.stage (cfg0.slots tLast 2)) (hstage0_2 ((cfg0.slots tLast 2).cast nbuf0_2)) (win0_3.stage (cfg0.slots tLast 3)) (hstage0_3 ((cfg0.slots tLast 3).cast nbuf0_3)) (win0_4.stage (cfg0.slots tLast 4)) (hstage0_4 ((cfg0.slots tLast 4).cast nbuf0_4)) (win0_5.stage (cfg0.slots tLast 5)) (hstage0_5 ((cfg0.slots tLast 5).cast nbuf0_5)) (win0_6.stage (cfg0.slots tLast 6)) (hstage0_6 ((cfg0.slots tLast 6).cast nbuf0_6)) (win0_7.stage (cfg0.slots tLast 7)) (hstage0_7 ((cfg0.slots tLast 7).cast nbuf0_7)) (win0_8.stage (cfg0.slots tLast 8)) (hstage0_8 ((cfg0.slots tLast 8).cast nbuf0_8)) (win0_9.stage (cfg0.slots tLast 9)) (hstage0_9 ((cfg0.slots tLast 9).cast nbuf0_9)) (win0_10.stage (cfg0.slots tLast 10)) (hstage0_10 ((cfg0.slots tLast 10).cast nbuf0_10)) (win0_11.stage (cfg0.slots tLast 11)) (hstage0_11 ((cfg0.slots tLast 11).cast nbuf0_11)) scM0 (Memref.isWhole_whole _) scM1 (Memref.isWhole_whole _) hc1 hc2 (iblk m c 0 tLast) (iblk m c 1 tLast) (iblk m c 2 tLast) (iblk m c 3 tLast) (iblk m c 4 tLast) (iblk m c 5 tLast) (iblk m c 6 tLast) (iblk m c 7 tLast) (iblk m c 8 tLast) (iblk m c 9 tLast) (iblk m c 10 tLast) ((dats m 0 c).before 11 tLast d11) xs (statsAt m c (tLast.val - 1) (by have := tLast.isLt; omega))).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      isplitl [HS1]; · iexact HS1
      iintro ⟨H0, H1, H2, H3, H4, H5, H6, H7, H8, H9, H10, H11, HS0, HS1⟩
      isplitl [HS0 HS1]
      · iexists (scM0.view.read (Elt F) (scM0.view.writes (Elt F) ((Memref.isWhole_whole cc0_scratch0).unread xs) (kernelRunC c (grid0.coords tLast) (win0_0.stage (cfg0.slots tLast 0)) (hstage0_0 ((cfg0.slots tLast 0).cast nbuf0_0)) (win0_1.stage (cfg0.slots tLast 1)) (hstage0_1 ((cfg0.slots tLast 1).cast nbuf0_1)) (win0_2.stage (cfg0.slots tLast 2)) (hstage0_2 ((cfg0.slots tLast 2).cast nbuf0_2)) (win0_3.stage (cfg0.slots tLast 3)) (hstage0_3 ((cfg0.slots tLast 3).cast nbuf0_3)) (win0_4.stage (cfg0.slots tLast 4)) (hstage0_4 ((cfg0.slots tLast 4).cast nbuf0_4)) (win0_5.stage (cfg0.slots tLast 5)) (hstage0_5 ((cfg0.slots tLast 5).cast nbuf0_5)) (win0_6.stage (cfg0.slots tLast 6)) (hstage0_6 ((cfg0.slots tLast 6).cast nbuf0_6)) (win0_7.stage (cfg0.slots tLast 7)) (hstage0_7 ((cfg0.slots tLast 7).cast nbuf0_7)) (win0_8.stage (cfg0.slots tLast 8)) (hstage0_8 ((cfg0.slots tLast 8).cast nbuf0_8)) (win0_9.stage (cfg0.slots tLast 9)) (hstage0_9 ((cfg0.slots tLast 9).cast nbuf0_9)) (win0_10.stage (cfg0.slots tLast 10)) (hstage0_10 ((cfg0.slots tLast 10).cast nbuf0_10)) (win0_11.stage (cfg0.slots tLast 11)) (hstage0_11 ((cfg0.slots tLast 11).cast nbuf0_11)) scM0 (Memref.isWhole_whole _) scM1 (Memref.isWhole_whole _) hc1 hc2 (iblk m c 0 tLast) (iblk m c 1 tLast) (iblk m c 2 tLast) (iblk m c 3 tLast) (iblk m c 4 tLast) (iblk m c 5 tLast) (iblk m c 6 tLast) (iblk m c 7 tLast) (iblk m c 8 tLast) (iblk m c 9 tLast) (iblk m c 10 tLast) ((dats m 0 c).before 11 tLast d11) xs (statsAt m c (tLast.val - 1) (by have := tLast.isLt; omega))).2.1))
        isplitr
        · ipureintro; exact rowsOK_stepC m c tLast hc1 hc2 ((dats m 0 c).before 11 tLast d11) xs (statsAt m c (tLast.val - 1) (by have := tLast.isLt; omega)) hxs
        isplitl [HS0]
        · unfold owns; iexists _; isplitr
          swap; · iexact HS0
          ipureintro; rfl
        · unfold owns; iexists _; isplitr
          swap; · iexact HS1
          ipureintro
          exact (statsC c (grid0.coords tLast) (win0_0.stage (cfg0.slots tLast 0)) (hstage0_0 ((cfg0.slots tLast 0).cast nbuf0_0)) (win0_1.stage (cfg0.slots tLast 1)) (hstage0_1 ((cfg0.slots tLast 1).cast nbuf0_1)) (win0_2.stage (cfg0.slots tLast 2)) (hstage0_2 ((cfg0.slots tLast 2).cast nbuf0_2)) (win0_3.stage (cfg0.slots tLast 3)) (hstage0_3 ((cfg0.slots tLast 3).cast nbuf0_3)) (win0_4.stage (cfg0.slots tLast 4)) (hstage0_4 ((cfg0.slots tLast 4).cast nbuf0_4)) (win0_5.stage (cfg0.slots tLast 5)) (hstage0_5 ((cfg0.slots tLast 5).cast nbuf0_5)) (win0_6.stage (cfg0.slots tLast 6)) (hstage0_6 ((cfg0.slots tLast 6).cast nbuf0_6)) (win0_7.stage (cfg0.slots tLast 7)) (hstage0_7 ((cfg0.slots tLast 7).cast nbuf0_7)) (win0_8.stage (cfg0.slots tLast 8)) (hstage0_8 ((cfg0.slots tLast 8).cast nbuf0_8)) (win0_9.stage (cfg0.slots tLast 9)) (hstage0_9 ((cfg0.slots tLast 9).cast nbuf0_9)) (win0_10.stage (cfg0.slots tLast 10)) (hstage0_10 ((cfg0.slots tLast 10).cast nbuf0_10)) (win0_11.stage (cfg0.slots tLast 11)) (hstage0_11 ((cfg0.slots tLast 11).cast nbuf0_11)) scM0 (Memref.isWhole_whole _) scM1 (Memref.isWhole_whole _) hc1 hc2 (iblk m c 0 tLast) (iblk m c 1 tLast) (iblk m c 2 tLast) (iblk m c 3 tLast) (iblk m c 4 tLast) (iblk m c 5 tLast) (iblk m c 6 tLast) (iblk m c 7 tLast) (iblk m c 8 tLast) (iblk m c 9 tLast) (iblk m c 10 tLast) ((dats m 0 c).before 11 tLast d11) xs (statsAt m c (tLast.val - 1) (by have := tLast.isLt; omega))).trans (statsAt_pos m c tLast h0).symm
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      unfold owns; iexists _; isplitr
      swap; · iexact H11
      ipureintro
      have h25 : RowsOK m c 25 (scM0.view.read (Elt F) (scM0.view.writes (Elt F) ((Memref.isWhole_whole cc0_scratch0).unread xs) (kernelRunC c (grid0.coords tLast) (win0_0.stage (cfg0.slots tLast 0)) (hstage0_0 ((cfg0.slots tLast 0).cast nbuf0_0)) (win0_1.stage (cfg0.slots tLast 1)) (hstage0_1 ((cfg0.slots tLast 1).cast nbuf0_1)) (win0_2.stage (cfg0.slots tLast 2)) (hstage0_2 ((cfg0.slots tLast 2).cast nbuf0_2)) (win0_3.stage (cfg0.slots tLast 3)) (hstage0_3 ((cfg0.slots tLast 3).cast nbuf0_3)) (win0_4.stage (cfg0.slots tLast 4)) (hstage0_4 ((cfg0.slots tLast 4).cast nbuf0_4)) (win0_5.stage (cfg0.slots tLast 5)) (hstage0_5 ((cfg0.slots tLast 5).cast nbuf0_5)) (win0_6.stage (cfg0.slots tLast 6)) (hstage0_6 ((cfg0.slots tLast 6).cast nbuf0_6)) (win0_7.stage (cfg0.slots tLast 7)) (hstage0_7 ((cfg0.slots tLast 7).cast nbuf0_7)) (win0_8.stage (cfg0.slots tLast 8)) (hstage0_8 ((cfg0.slots tLast 8).cast nbuf0_8)) (win0_9.stage (cfg0.slots tLast 9)) (hstage0_9 ((cfg0.slots tLast 9).cast nbuf0_9)) (win0_10.stage (cfg0.slots tLast 10)) (hstage0_10 ((cfg0.slots tLast 10).cast nbuf0_10)) (win0_11.stage (cfg0.slots tLast 11)) (hstage0_11 ((cfg0.slots tLast 11).cast nbuf0_11)) scM0 (Memref.isWhole_whole _) scM1 (Memref.isWhole_whole _) hc1 hc2 (iblk m c 0 tLast) (iblk m c 1 tLast) (iblk m c 2 tLast) (iblk m c 3 tLast) (iblk m c 4 tLast) (iblk m c 5 tLast) (iblk m c 6 tLast) (iblk m c 7 tLast) (iblk m c 8 tLast) (iblk m c 9 tLast) (iblk m c 10 tLast) ((dats m 0 c).before 11 tLast d11) xs (statsAt m c (tLast.val - 1) (by have := tLast.isLt; omega))).2.1)) := rowsOK_stepC m c tLast hc1 hc2 ((dats m 0 c).before 11 tLast d11) xs (statsAt m c (tLast.val - 1) (by have := tLast.isLt; omega)) hxs
      refine (outC c (grid0.coords tLast) (win0_0.stage (cfg0.slots tLast 0)) (hstage0_0 ((cfg0.slots tLast 0).cast nbuf0_0)) (win0_1.stage (cfg0.slots tLast 1)) (hstage0_1 ((cfg0.slots tLast 1).cast nbuf0_1)) (win0_2.stage (cfg0.slots tLast 2)) (hstage0_2 ((cfg0.slots tLast 2).cast nbuf0_2)) (win0_3.stage (cfg0.slots tLast 3)) (hstage0_3 ((cfg0.slots tLast 3).cast nbuf0_3)) (win0_4.stage (cfg0.slots tLast 4)) (hstage0_4 ((cfg0.slots tLast 4).cast nbuf0_4)) (win0_5.stage (cfg0.slots tLast 5)) (hstage0_5 ((cfg0.slots tLast 5).cast nbuf0_5)) (win0_6.stage (cfg0.slots tLast 6)) (hstage0_6 ((cfg0.slots tLast 6).cast nbuf0_6)) (win0_7.stage (cfg0.slots tLast 7)) (hstage0_7 ((cfg0.slots tLast 7).cast nbuf0_7)) (win0_8.stage (cfg0.slots tLast 8)) (hstage0_8 ((cfg0.slots tLast 8).cast nbuf0_8)) (win0_9.stage (cfg0.slots tLast 9)) (hstage0_9 ((cfg0.slots tLast 9).cast nbuf0_9)) (win0_10.stage (cfg0.slots tLast 10)) (hstage0_10 ((cfg0.slots tLast 10).cast nbuf0_10)) (win0_11.stage (cfg0.slots tLast 11)) (hstage0_11 ((cfg0.slots tLast 11).cast nbuf0_11)) scM0 (Memref.isWhole_whole _) scM1 (Memref.isWhole_whole _) hc1 hc2 (iblk m c 0 tLast) (iblk m c 1 tLast) (iblk m c 2 tLast) (iblk m c 3 tLast) (iblk m c 4 tLast) (iblk m c 5 tLast) (iblk m c 6 tLast) (iblk m c 7 tLast) (iblk m c 8 tLast) (iblk m c 9 tLast) (iblk m c 10 tLast) ((dats m 0 c).before 11 tLast d11) xs (statsAt m c (tLast.val - 1) (by have := tLast.isLt; omega))).trans ?_
      rw [eq_xfull_of_rowsOK m c _ h25, ← statsAt_pos m c tLast h0]
      rfl
    · have hc1 : ¬cond1 (grid0.coords t) := fun h => h0 ((hcond1 t).mp h)
      have hc2 : ¬cond2 (grid0.coords t) := fun h => h24 ((hcond2 t).mp h)
      rw [Dat.leavesExact_idle (dats m 0 c) 11 t (idle11 t hc2) (noFlush11 t hc2)]
      rw [PhiS_castSucc m c t, PhiS_pos m c _ _ h0]
      iintro ⟨⟨%xs, %hxs, HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRunB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) scM0 (Memref.isWhole_whole _) scM1 (Memref.isWhole_whole _) hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) xs (statsAt m c (t.val - 1) (by have := t.isLt; omega))).2.2 ((dats m 0 c).before 11 t d11) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      isplitl [HS1]; · iexact HS1
      iintro ⟨H0, H1, H2, H3, H4, H5, H6, H7, H8, H9, H10, H11, HS0, HS1⟩
      isplitl [HS0 HS1]
      · iexists (scM0.view.read (Elt F) (scM0.view.writes (Elt F) ((Memref.isWhole_whole cc0_scratch0).unread xs) (kernelRunB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) scM0 (Memref.isWhole_whole _) scM1 (Memref.isWhole_whole _) hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) xs (statsAt m c (t.val - 1) (by have := t.isLt; omega))).1))
        isplitr
        · ipureintro; exact rowsOK_stepB m c t hc1 hc2 xs (statsAt m c (t.val - 1) (by have := t.isLt; omega)) hxs
        isplitl [HS0]
        · unfold owns; iexists _; isplitr
          swap; · iexact HS0
          ipureintro; rfl
        · unfold owns; iexists _; isplitr
          swap; · iexact HS1
          ipureintro
          exact (statsB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) scM0 (Memref.isWhole_whole _) scM1 (Memref.isWhole_whole _) hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) xs (statsAt m c (t.val - 1) (by have := t.isLt; omega))).trans (statsAt_pos m c t h0).symm
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists d11; iexact H11

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KBlocks.lean ====
/-
  Each window's block at a grid point, read at an index, is an entry of an argument array.  The two adjacency
  windows take the 200-row blocks at block rows 2t and 2t+1, that is rows 400t + r and 400t + 200 + r; every other
  window takes its whole array at every point.  Before the region the host narrows the features to bf16 (the
  identity at the extended reals) and turns the five vectors into one-row matrices, so those windows' arrays are
  the argument vectors read at the column.
-/
import proofs.«123370_g29334626631814_cont_sun_c4_761_10_alg».proof.Proof.KState
import Idealize.ShloMosaic.Lib.StableHlo.Run
import Idealize.ShloMosaic.Lib.Pipeline.Value
import Idealize.ShloMosaic.Lib.ValueLayout
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL.Sem
open Idealize.ShloMosaic.StableHlo
open Idealize.ShloMosaic.ValueIdx

variable {F : FTy → Type} [FloatOps F]

variable (m : (ℓ : Loc nD τ sig) → Buf (Elt F) ℓ)

/-! ## The arrays the region finds -/

/-- No host operation writes the adjacency matrix, the weight matrices or the readout weights. -/
theorem V_arg1 (c : Dev nD) : V m c main_arg1 = m ((c : Thread nD τ).loc main_arg1) := by
  dsimp only [V, V0, hostOps0]
  after_results
theorem V_arg2 (c : Dev nD) : V m c main_arg2 = m ((c : Thread nD τ).loc main_arg2) := by
  dsimp only [V, V0, hostOps0]
  after_results
theorem V_arg4 (c : Dev nD) : V m c main_arg4 = m ((c : Thread nD τ).loc main_arg4) := by
  dsimp only [V, V0, hostOps0]
  after_results
theorem V_arg8 (c : Dev nD) : V m c main_arg8 = m ((c : Thread nD τ).loc main_arg8) := by
  dsimp only [V, V0, hostOps0]
  after_results

/-- The features as the region finds them: the argument narrowed to bf16. -/
theorem V_v0 (c : Dev nD) :
    (V m c main_call0_v0 : Vec F S10000x128 .bf16)
      = truncf .bf16 (m ((c : Thread nD τ).loc main_arg0) : Vec F S10000x128 .f32) Facts₀.bitsLt_bf16_f32 := by
  dsimp only [V, V0, hostOps0]
  after_results
  rfl

/-- The five vectors as the region finds them: each argument vector as a one-row matrix. -/
theorem V_v1 (c : Dev nD) :
    (V m c main_call0_v1 : Vec F S1x128 .f32)
      = shapeCast S1x128 (m ((c : Thread nD τ).loc main_arg3) : Vec F S128 .f32) Facts₀.shapeCasts_S128_S1x128 := by
  dsimp only [V, V0, hostOps0]
  after_results
  rfl
theorem V_v2 (c : Dev nD) :
    (V m c main_call0_v2 : Vec F S1x128 .f32)
      = shapeCast S1x128 (m ((c : Thread nD τ).loc main_arg5) : Vec F S128 .f32) Facts₀.shapeCasts_S128_S1x128 := by
  dsimp only [V, V0, hostOps0]
  after_results
  rfl
theorem V_v3 (c : Dev nD) :
    (V m c main_call0_v3 : Vec F S1x128 .f32)
      = shapeCast S1x128 (m ((c : Thread nD τ).loc main_arg6) : Vec F S128 .f32) Facts₀.shapeCasts_S128_S1x128 := by
  dsimp only [V, V0, hostOps0]
  after_results
  rfl
theorem V_v4 (c : Dev nD) :
    (V m c main_call0_v4 : Vec F S1x128 .f32)
      = shapeCast S1x128 (m ((c : Thread nD τ).loc main_arg7) : Vec F S128 .f32) Facts₀.shapeCasts_S128_S1x128 := by
  dsimp only [V, V0, hostOps0]
  after_results
  rfl
theorem V_v5 (c : Dev nD) :
    (V m c main_call0_v5 : Vec F S1x1 .f32)
      = shapeCast S1x1 (m ((c : Thread nD τ).loc main_arg9) : Vec F S1 .f32) Facts₀.shapeCasts_S1_S1x1 := by
  dsimp only [V, V0, hostOps0]
  after_results
  rfl

/-! ## The two adjacency windows -/

/-- Window 0 at point `t` is the adjacency rows `400 t + r`. -/
theorem iblk0_apply (c : Dev nD) (t : Fin cfg0.N) (r : Fin 200) (k : Fin 10000) :
    (iblk m c 0 t : Vec F S200x10000 .f32) (ix2 r k) = m ((c : Thread nD τ).loc main_arg1) (ix2 (rowA t r) k) := by
  have hi : ∀ t : Fin cfg0.N, win0_0.index t 0 = 2 * t.val ∧ win0_0.index t 1 = 0 :=
    (by decide +kernel : ∀ t : Fin grid0.N, win0_0.index t 0 = 2 * t.val ∧ win0_0.index t 1 = 0)
  unfold iblk
  rw [View.read_apply]
  show V m c main_arg1 _ = m (c.tc.loc main_arg1) _
  rw [V_arg1]
  congr 1
  funext a
  apply Fin.ext
  match a with
  | ⟨0, _⟩ => show win0_0.index t 0 * 200 + 1 * r.val = 400 * t.val + r.val; rw [(hi t).1]; omega
  | ⟨1, _⟩ => show win0_0.index t 1 * 10000 + 1 * k.val = k.val; rw [(hi t).2]; omega

/-- Window 1 at point `t` is the adjacency rows `400 t + 200 + r`. -/
theorem iblk1_apply (c : Dev nD) (t : Fin cfg0.N) (r : Fin 200) (k : Fin 10000) :
    (iblk m c 1 t : Vec F S200x10000 .f32) (ix2 r k) = m ((c : Thread nD τ).loc main_arg1) (ix2 (rowB t r) k) := by
  have hi : ∀ t : Fin cfg0.N, win0_1.index t 0 = 2 * t.val + 1 ∧ win0_1.index t 1 = 0 :=
    (by decide +kernel : ∀ t : Fin grid0.N, win0_1.index t 0 = 2 * t.val + 1 ∧ win0_1.index t 1 = 0)
  unfold iblk
  rw [View.read_apply]
  show V m c main_arg1 _ = m (c.tc.loc main_arg1) _
  rw [V_arg1]
  congr 1
  funext a
  apply Fin.ext
  match a with
  | ⟨0, _⟩ => show win0_1.index t 0 * 200 + 1 * r.val = 400 * t.val + 200 + r.val; rw [(hi t).1]; omega
  | ⟨1, _⟩ => show win0_1.index t 1 * 10000 + 1 * k.val = k.val; rw [(hi t).2]; omega

/-! ## The whole-array windows over untouched arguments -/

/-- Window 3 is the first weight matrix, whole. -/
theorem iblk3_eq (c : Dev nD) (t : Fin cfg0.N) :
    (iblk m c 3 t : Vec F S128x128 .f32) = m ((c : Thread nD τ).loc main_arg2) := by
  have hi : ∀ t : Fin cfg0.N, win0_3.index t 0 = 0 ∧ win0_3.index t 1 = 0 :=
    (by decide +kernel : ∀ t : Fin grid0.N, win0_3.index t 0 = 0 ∧ win0_3.index t 1 = 0)
  funext y
  unfold iblk
  rw [View.read_apply]
  show V m c main_arg2 _ = m (c.tc.loc main_arg2) y
  rw [V_arg2]
  congr 1
  funext a
  apply Fin.ext
  match a with
  | ⟨0, _⟩ => show win0_3.index t 0 * 128 + 1 * (y 0).val = (y 0).val; rw [(hi t).1]; omega
  | ⟨1, _⟩ => show win0_3.index t 1 * 128 + 1 * (y 1).val = (y 1).val; rw [(hi t).2]; omega

/-- Window 5 is the second weight matrix, whole. -/
theorem iblk5_eq (c : Dev nD) (t : Fin cfg0.N) :
    (iblk m c 5 t : Vec F S128x128 .f32) = m ((c : Thread nD τ).loc main_arg4) := by
  have hi : ∀ t : Fin cfg0.N, win0_5.index t 0 = 0 ∧ win0_5.index t 1 = 0 :=
    (by decide +kernel : ∀ t : Fin grid0.N, win0_5.index t 0 = 0 ∧ win0_5.index t 1 = 0)
  funext y
  unfold iblk
  rw [View.read_apply]
  show V m c main_arg4 _ = m (c.tc.loc main_arg4) y
  rw [V_arg4]
  congr 1
  funext a
  apply Fin.ext
  match a with
  | ⟨0, _⟩ => show win0_5.index t 0 * 128 + 1 * (y 0).val = (y 0).val; rw [(hi t).1]; omega
  | ⟨1, _⟩ => show win0_5.index t 1 * 128 + 1 * (y 1).val = (y 1).val; rw [(hi t).2]; omega

/-- Window 9 is the readout weights, whole. -/
theorem iblk9_eq (c : Dev nD) (t : Fin cfg0.N) :
    (iblk m c 9 t : Vec F S128x1 .f32) = m ((c : Thread nD τ).loc main_arg8) := by
  have hi : ∀ t : Fin cfg0.N, win0_9.index t 0 = 0 ∧ win0_9.index t 1 = 0 :=
    (by decide +kernel : ∀ t : Fin grid0.N, win0_9.index t 0 = 0 ∧ win0_9.index t 1 = 0)
  funext y
  unfold iblk
  rw [View.read_apply]
  show V m c main_arg8 _ = m (c.tc.loc main_arg8) y
  rw [V_arg8]
  congr 1
  funext a
  apply Fin.ext
  match a with
  | ⟨0, _⟩ => show win0_9.index t 0 * 128 + 1 * (y 0).val = (y 0).val; rw [(hi t).1]; omega
  | ⟨1, _⟩ => show win0_9.index t 1 * 1 + 1 * (y 1).val = (y 1).val; rw [(hi t).2]; omega

theorem iblk3_apply (c : Dev nD) (t : Fin cfg0.N) (e d : Fin 128) :
    (iblk m c 3 t : Vec F S128x128 .f32) (ix2 e d) = m ((c : Thread nD τ).loc main_arg2) (ix2 e d) := by
  rw [iblk3_eq]
theorem iblk5_apply (c : Dev nD) (t : Fin cfg0.N) (d j : Fin 128) :
    (iblk m c 5 t : Vec F S128x128 .f32) (ix2 d j) = m ((c : Thread nD τ).loc main_arg4) (ix2 d j) := by
  rw [iblk5_eq]
theorem iblk9_apply (c : Dev nD) (t : Fin cfg0.N) (j : Fin 128) :
    (iblk m c 9 t : Vec F S128x1 .f32) (ix2 j (0 : Fin 1)) = m ((c : Thread nD τ).loc main_arg8) (ix2 j (0 : Fin 1)) := by
  rw [iblk9_eq]

/-! ## The one-row windows over the reshaped vectors -/

/-- Window 4 is the first bias as a row. -/
theorem iblk4_apply (c : Dev nD) (t : Fin cfg0.N) (j : Fin 128) :
    (iblk m c 4 t : Vec F S1x128 .f32) (ix2 (0 : Fin 1) j) = m ((c : Thread nD τ).loc main_arg3) (ix1 j) := by
  have hi : ∀ t : Fin cfg0.N, win0_4.index t 0 = 0 ∧ win0_4.index t 1 = 0 :=
    (by decide +kernel : ∀ t : Fin grid0.N, win0_4.index t 0 = 0 ∧ win0_4.index t 1 = 0)
  unfold iblk
  rw [View.read_apply]
  show V m c main_call0_v1 _ = m (c.tc.loc main_arg3) (ix1 j)
  rw [V_v1]
  refine (congrArg _ (?_ : _ = ix2 (0 : Fin 1) j)).trans (shapeCast_a_1a_apply _ _ (0 : Fin 1) j)
  funext a
  apply Fin.ext
  match a with
  | ⟨0, _⟩ => show win0_4.index t 0 * 1 + 1 * 0 = 0; rw [(hi t).1]
  | ⟨1, _⟩ => show win0_4.index t 1 * 128 + 1 * j.val = j.val; rw [(hi t).2]; omega

/-- Window 6 is the second bias as a row. -/
theorem iblk6_apply (c : Dev nD) (t : Fin cfg0.N) (j : Fin 128) :
    (iblk m c 6 t : Vec F S1x128 .f32) (ix2 (0 : Fin 1) j) = m ((c : Thread nD τ).loc main_arg5) (ix1 j) := by
  have hi : ∀ t : Fin cfg0.N, win0_6.index t 0 = 0 ∧ win0_6.index t 1 = 0 :=
    (by decide +kernel : ∀ t : Fin grid0.N, win0_6.index t 0 = 0 ∧ win0_6.index t 1 = 0)
  unfold iblk
  rw [View.read_apply]
  show V m c main_call0_v2 _ = m (c.tc.loc main_arg5) (ix1 j)
  rw [V_v2]
  refine (congrArg _ (?_ : _ = ix2 (0 : Fin 1) j)).trans (shapeCast_a_1a_apply _ _ (0 : Fin 1) j)
  funext a
  apply Fin.ext
  match a with
  | ⟨0, _⟩ => show win0_6.index t 0 * 1 + 1 * 0 = 0; rw [(hi t).1]
  | ⟨1, _⟩ => show win0_6.index t 1 * 128 + 1 * j.val = j.val; rw [(hi t).2]; omega

/-- Window 7 is the scale as a row. -/
theorem iblk7_apply (c : Dev nD) (t : Fin cfg0.N) (j : Fin 128) :
    (iblk m c 7 t : Vec F S1x128 .f32) (ix2 (0 : Fin 1) j) = m ((c : Thread nD τ).loc main_arg6) (ix1 j) := by
  have hi : ∀ t : Fin cfg0.N, win0_7.index t 0 = 0 ∧ win0_7.index t 1 = 0 :=
    (by decide +kernel : ∀ t : Fin grid0.N, win0_7.index t 0 = 0 ∧ win0_7.index t 1 = 0)
  unfold iblk
  rw [View.read_apply]
  show V m c main_call0_v3 _ = m (c.tc.loc main_arg6) (ix1 j)
  rw [V_v3]
  refine (congrArg _ (?_ : _ = ix2 (0 : Fin 1) j)).trans (shapeCast_a_1a_apply _ _ (0 : Fin 1) j)
  funext a
  apply Fin.ext
  match a with
  | ⟨0, _⟩ => show win0_7.index t 0 * 1 + 1 * 0 = 0; rw [(hi t).1]
  | ⟨1, _⟩ => show win0_7.index t 1 * 128 + 1 * j.val = j.val; rw [(hi t).2]; omega

/-- Window 8 is the shift as a row. -/
theorem iblk8_apply (c : Dev nD) (t : Fin cfg0.N) (j : Fin 128) :
    (iblk m c 8 t : Vec F S1x128 .f32) (ix2 (0 : Fin 1) j) = m ((c : Thread nD τ).loc main_arg7) (ix1 j) := by
  have hi : ∀ t : Fin cfg0.N, win0_8.index t 0 = 0 ∧ win0_8.index t 1 = 0 :=
    (by decide +kernel : ∀ t : Fin grid0.N, win0_8.index t 0 = 0 ∧ win0_8.index t 1 = 0)
  unfold iblk
  rw [View.read_apply]
  show V m c main_call0_v4 _ = m (c.tc.loc main_arg7) (ix1 j)
  rw [V_v4]
  refine (congrArg _ (?_ : _ = ix2 (0 : Fin 1) j)).trans (shapeCast_a_1a_apply _ _ (0 : Fin 1) j)
  funext a
  apply Fin.ext
  match a with
  | ⟨0, _⟩ => show win0_8.index t 0 * 1 + 1 * 0 = 0; rw [(hi t).1]
  | ⟨1, _⟩ => show win0_8.index t 1 * 128 + 1 * j.val = j.val; rw [(hi t).2]; omega

/-- Window 10 is the readout bias as a one-by-one matrix. -/
theorem iblk10_apply (c : Dev nD) (t : Fin cfg0.N) :
    (iblk m c 10 t : Vec F S1x1 .f32) (ix2 (0 : Fin 1) (0 : Fin 1)) = m ((c : Thread nD τ).loc main_arg9) (ix1 (0 : Fin 1)) := by
  have hi : ∀ t : Fin cfg0.N, win0_10.index t 0 = 0 ∧ win0_10.index t 1 = 0 :=
    (by decide +kernel : ∀ t : Fin grid0.N, win0_10.index t 0 = 0 ∧ win0_10.index t 1 = 0)
  unfold iblk
  rw [View.read_apply]
  show V m c main_call0_v5 _ = m (c.tc.loc main_arg9) (ix1 (0 : Fin 1))
  rw [V_v5]
  refine (congrArg _ (?_ : _ = ix2 (0 : Fin 1) (0 : Fin 1))).trans (shapeCast_a_1a_apply _ _ (0 : Fin 1) (0 : Fin 1))
  funext a
  apply Fin.ext
  match a with
  | ⟨0, _⟩ => show win0_10.index t 0 * 1 + 1 * 0 = 0; rw [(hi t).1]
  | ⟨1, _⟩ => show win0_10.index t 1 * 1 + 1 * 0 = 0; rw [(hi t).2]

end Cert.Kernel.Hand

/-! ## The features window, at the extended reals -/

namespace Cert.Kernel.Hand

open Cert.Kernel Cert.Kernel.Gen
open Idealize.ShloMosaic Idealize.ShloMosaic.TcCoe Idealize.ShloMosaic.Tactic
open Idealize.SL.Sem
open Idealize.ShloMosaic.StableHlo
open Idealize.ShloMosaic.ValueIdx

/-- Window 2 is the features, whole; the narrowing to bf16 is the identity at the extended reals. -/
theorem iblk2_apply (m : (ℓ : Loc nD τ sig) → Buf (Elt Ideal) ℓ) (c : Dev nD) (t : Fin cfg0.N) (k : Fin 10000) (e : Fin 128) :
    ((iblk m c 2 t : Vec Ideal S10000x128 .bf16) (ix2 k e) : EReal)
      = (m ((c : Thread nD τ).loc main_arg0) : Vec Ideal S10000x128 .f32) (ix2 k e) := by
  have hi : ∀ t : Fin cfg0.N, win0_2.index t 0 = 0 ∧ win0_2.index t 1 = 0 :=
    (by decide +kernel : ∀ t : Fin grid0.N, win0_2.index t 0 = 0 ∧ win0_2.index t 1 = 0)
  unfold iblk
  rw [View.read_apply]
  show (V m c main_call0_v0 : Vec Ideal S10000x128 .bf16) _ = _
  rw [V_v0]
  show (m (c.tc.loc main_arg0) : Vec Ideal S10000x128 .f32) _ = (m (c.tc.loc main_arg0) : Vec Ideal S10000x128 .f32) (ix2 k e)
  congr 1
  funext a
  apply Fin.ext
  match a with
  | ⟨0, _⟩ => show win0_2.index t 0 * 10000 + 1 * k.val = k.val; rw [(hi t).1]; omega
  | ⟨1, _⟩ => show win0_2.index t 1 * 128 + 1 * e.val = e.val; rw [(hi t).2]; omega

end Cert.Kernel.Hand

end
-- ==== Proof.KRest.lean ====
/-
  The six argument arrays no window stages — the features before their narrowing, and the five vectors before
  their reshaping — are untouched by the host operations before the region and bypass the region itself; and the
  windows whose arrays are argument or result buffers, named by their window index.
-/
import proofs.«123370_g29334626631814_cont_sun_c4_761_10_alg».proof.Proof.KBlocks
import Idealize.ShloMosaic.Lib.Pipeline.Frame
import Idealize.ShloMosaic.Lib.StableHlo.Run
import Idealize.ShloMosaic.Lib.Pipeline.Value
import Idealize.ShloMosaic.Lib.ValueLayout
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL.Sem
open Idealize.ShloMosaic.StableHlo
open Idealize.ShloMosaic.ValueIdx

variable {F : FTy → Type} [FloatOps F]

variable (m : (ℓ : Loc nD τ sig) → Buf (Elt F) ℓ)

/-! ## The unwindowed arguments when the region is entered -/

/-- The host operations before the region read these six arrays and write none of them. -/
theorem V_arg0 (c : Dev nD) : V m c main_arg0 = m ((c : Thread nD τ).loc main_arg0) := by
  dsimp only [V, V0, hostOps0]
  after_results
theorem V_arg3 (c : Dev nD) : V m c main_arg3 = m ((c : Thread nD τ).loc main_arg3) := by
  dsimp only [V, V0, hostOps0]
  after_results
theorem V_arg5 (c : Dev nD) : V m c main_arg5 = m ((c : Thread nD τ).loc main_arg5) := by
  dsimp only [V, V0, hostOps0]
  after_results
theorem V_arg6 (c : Dev nD) : V m c main_arg6 = m ((c : Thread nD τ).loc main_arg6) := by
  dsimp only [V, V0, hostOps0]
  after_results
theorem V_arg7 (c : Dev nD) : V m c main_arg7 = m ((c : Thread nD τ).loc main_arg7) := by
  dsimp only [V, V0, hostOps0]
  after_results
theorem V_arg9 (c : Dev nD) : V m c main_arg9 = m ((c : Thread nD τ).loc main_arg9) := by
  dsimp only [V, V0, hostOps0]
  after_results

/-! ## They bypass the region -/

/-- Each is unscoped and is no window's array. -/
theorem mem_rest_arg0 : main_arg0 ∈ Pipeline.restRefs sig spec0 :=
  Pipeline.mem_restRefs_of main_arg0 rfl (by decide)
theorem mem_rest_arg3 : main_arg3 ∈ Pipeline.restRefs sig spec0 :=
  Pipeline.mem_restRefs_of main_arg3 rfl (by decide)
theorem mem_rest_arg5 : main_arg5 ∈ Pipeline.restRefs sig spec0 :=
  Pipeline.mem_restRefs_of main_arg5 rfl (by decide)
theorem mem_rest_arg6 : main_arg6 ∈ Pipeline.restRefs sig spec0 :=
  Pipeline.mem_restRefs_of main_arg6 rfl (by decide)
theorem mem_rest_arg7 : main_arg7 ∈ Pipeline.restRefs sig spec0 :=
  Pipeline.mem_restRefs_of main_arg7 rfl (by decide)
theorem mem_rest_arg9 : main_arg9 ∈ Pipeline.restRefs sig spec0 :=
  Pipeline.mem_restRefs_of main_arg9 rfl (by decide)

/-! ## The windows over argument and result buffers -/

theorem arrRef_0 : Pipeline.arrRef spec0 0 = main_arg1 := rfl
theorem arrRef_1 : Pipeline.arrRef spec0 1 = main_arg1 := rfl
theorem arrRef_3 : Pipeline.arrRef spec0 3 = main_arg2 := rfl
theorem arrRef_5 : Pipeline.arrRef spec0 5 = main_arg4 := rfl
theorem arrRef_9 : Pipeline.arrRef spec0 9 = main_arg8 := rfl
theorem arrRef_11 : Pipeline.arrRef spec0 11 = main_v0 := rfl

end Cert.Kernel.Hand

end
-- ==== Proof.KFinal0.lean ====
/-
  The output array after the run.  The output window's one block is the whole [10000,1] array and it is written
  back at the last grid point only; so, whatever the proof data, the array ends holding what the last point left in
  the window's staging buffer.
-/
import proofs.«123370_g29334626631814_cont_sun_c4_761_10_alg».proof.Proof.KState
import Idealize.ShloMosaic.Lib.Pipeline.Value
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The output array ends holding what the last point leaves: the last point is the only one that writes the
    window back, its block is read through zero offsets and covers every index. -/
theorem arrAt11_of (c : Dev nD) (dat : Dat τ (Elt F) Unit ℕ (UR sig nD τ) ℕ cfg0 c) (X : Vec F S10000x1 .f32)
    (h : dat.after 11 tLast = X) : dat.arrAt 11 cfg0.N = X := by
  refine dat.arrAt_eq_of_cover 11 X (fun t hf => ?_) (fun i => ⟨tLast, (flush0_11 tLast).mpr rfl, ?_⟩)
  · have h24 : t.val = 24 := by have := (flush0_11 t).mp hf; have := t.isLt; have := hN; omega
    obtain rfl : t = tLast := Fin.ext h24
    show (cfg0.win 11).cut (grid0.coords tLast) (dat.after 11 tLast) = _
    rw [h]
    have hz' : (fun a => win0_11.index tLast a * main_v0.ty.shape.size a) = fun _ => 0 :=
      funext fun a => by fin_cases a <;> decide +kernel
    exact (Memref.read_access_unit_zero (Elt F) main_v0 hz' (fun a => by rw [congrFun hz' a]; simp) X).symm
  · show i ∈ ((View.whole main_v0).slice (win0_11.rect tLast)).set
    rw [View.set_slice_whole, Rect.mem_set_unit]
    intro a
    have h0 : (i 0 : Nat) < 10000 := (i 0).isLt
    have h1 : (i 1 : Nat) < 1 := (i 1).isLt
    match a with
    | ⟨0, _⟩ =>
      show win0_11.index tLast 0 * win0_11.size 0 ≤ (i 0 : Nat)
        ∧ (i 0 : Nat) < win0_11.index tLast 0 * win0_11.size 0 + win0_11.xsize (grid0.coords tLast) 0
      rw [show win0_11.index tLast 0 * win0_11.size 0 = 0 from by decide +kernel,
        show win0_11.xsize (grid0.coords tLast) 0 = 10000 from by decide +kernel]
      omega
    | ⟨1, _⟩ =>
      show win0_11.index tLast 1 * win0_11.size 1 ≤ (i 1 : Nat)
        ∧ (i 1 : Nat) < win0_11.index tLast 1 * win0_11.size 1 + win0_11.xsize (grid0.coords tLast) 1
      rw [show win0_11.index tLast 1 * win0_11.size 1 = 0 from by decide +kernel,
        show win0_11.xsize (grid0.coords tLast) 1 = 1 from by decide +kernel]
      omega

end Cert.Kernel.Hand

end
-- ==== Proof.KFrame.lean ====
import proofs.«123370_g29334626631814_cont_sun_c4_761_10_alg».proof.Proof.KDat
import proofs.«123370_g29334626631814_cont_sun_c4_761_10_alg».proof.Proof.KRest
import proofs.«123370_g29334626631814_cont_sun_c4_761_10_alg».proof.Proof.KFinal0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- What the launch hands the region — the two scratch buffers at anything — is the invariant before the first point. -/
theorem hin (c : Dev nD) : (Pipeline.scopedRest spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch buffers back, their contents forgotten. -/
theorem hout (c : Dev nD) : (dats m 0 c).Φ (Fin.last cfg0.N) ⊢ (Pipeline.scopedRest spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last, hN]; decide), PhiS0_eq]
  iintro ⟨%xs, -, H0, H1⟩
  isplitl [H0]
  · iexists _; iexact H0
  iexists _; iexact H1

/-- What a run ends with: each windowed array at what the write-backs leave, every other unscoped buffer as the region
    found it. -/
def RunPost (r : PUnit × MemSt nD τ sig (Elt F)) : Prop :=
  ∀ c : Dev nD, (∀ w, r.2.mem ((spec0 w).arr.view.loc (c.tc : Thread nD τ)) = (dats m 0 c).arrAt w cfg0.N)
    ∧ ∀ b ∈ restRefs, r.2.mem ((c.tc : Thread nD τ).loc b) = V m c b

/-- Every weakly fair execution of the kernel program terminates, faulting nowhere, in such a state. -/
theorem run_main : θ_run defs (onTc (τ := τ) (main (F := F))) (s₀ m ρ) (RunPost m) :=
  run_shared m ρ (dats m) (fun c => (body_obligation m c).loose) (fun _ _ => rfl) (A_eq m) (fun _ => rfl) (fun _ => rfl)
    (fun c w h0 h1 => by fin_cases w <;> first | exact absurd rfl h0 | exact absurd rfl h1 | rfl) (hin m) (hout m)

/-- The argument arrays end as they began: the four the kernel windows are inputs, never written back; the six it does
    not window are bypassed. -/
theorem frame_of_post (r : PUnit × MemSt nD τ sig (Elt F)) (h : RunPost m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  ⟨((h c).2 main_arg0 mem_rest_arg0).trans (V_arg0 m c),
    ((h c).1 0).trans (((dats m 0 c).arrAt_in 0 rfl _).trans ((A_eq m c 0).trans (V_arg1 m c))),
    ((h c).1 3).trans (((dats m 0 c).arrAt_in 3 rfl _).trans ((A_eq m c 3).trans (V_arg2 m c))),
    ((h c).2 main_arg3 mem_rest_arg3).trans (V_arg3 m c),
    ((h c).1 5).trans (((dats m 0 c).arrAt_in 5 rfl _).trans ((A_eq m c 5).trans (V_arg4 m c))),
    ((h c).2 main_arg5 mem_rest_arg5).trans (V_arg5 m c),
    ((h c).2 main_arg6 mem_rest_arg6).trans (V_arg6 m c),
    ((h c).2 main_arg7 mem_rest_arg7).trans (V_arg7 m c),
    ((h c).1 9).trans (((dats m 0 c).arrAt_in 9 rfl _).trans ((A_eq m c 9).trans (V_arg8 m c))),
    ((h c).2 main_arg9 mem_rest_arg9).trans (V_arg9 m c)⟩

/-- The result array ends at the readout the last point stores: its one write-back covers it. -/
theorem final_out (c : Dev nD) : (dats m 0 c).arrAt 11 cfg0.N = outVal m c :=
  arrAt11_of c (dats m 0 c) (outVal m c) (after_11 m c tLast)

end Cert.Kernel.Hand

end
-- ==== Proof.KIRuns.lean ====
import proofs.«123370_g29334626631814_cont_sun_c4_761_10_alg».proof.Proof.Gen.KernelIdeal.Launch
import proofs.«123370_g29334626631814_cont_sun_c4_761_10_alg».proof.Proof.Gen.KernelIdeal.Skeleton
import proofs.«123370_g29334626631814_cont_sun_c4_761_10_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The first conditional of the body: the grid coordinate is zero (the statistics are reset there). -/
abbrev cond1 (i : grid0.Coords) : Prop := (Scalar.cmpi .ne (Scalar.extui (Scalar.cmpi .eq (BitVec.ofNat 32 (i 0).val) 0#32)) 0#32) = 1#1
/-- The second: the grid coordinate is the last one (the normalisation and the readout run there). -/
abbrev cond2 (i : grid0.Coords) : Prop := k0_cond2 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val = 24 :=
  (by decide +kernel : ∀ t : Fin grid0.N, cond2 (grid0.coords t) ↔ t.val = 24)

end Cert.KernelIdeal.Hand

end
-- ==== Proof.KIArr.lean ====
import proofs.«123370_g29334626631814_cont_sun_c4_761_10_alg».proof.Proof.KIRuns
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main around the region -/

/-- The contents of core `c`'s buffers when the region is entered: after the six host operations before it (the
    features cast to bf16, the five vectors reshaped to rows). -/
abbrev V0 (c : Dev nD) : Valuation τ sig (Elt F) := StableHlo.after hostOps0 (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- @main is the host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! ## The buffers behind the windows' arrays, one by one -/

/-- The eleven distinct buffers behind the twelve windows' arrays (the adjacency matrix is behind two of them), each
    whole at the full share. -/
theorem arrBufs0_eq (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc main_arg1) ↦{fullShare} W main_arg1) ∗ (((c.tc : Thread nD τ).loc main_call0_v0) ↦{fullShare} W main_call0_v0) ∗ (((c.tc : Thread nD τ).loc main_arg2) ↦{fullShare} W main_arg2) ∗ (((c.tc : Thread nD τ).loc main_call0_v1) ↦{fullShare} W main_call0_v1) ∗ (((c.tc : Thread nD τ).loc main_arg4) ↦{fullShare} W main_arg4) ∗ (((c.tc : Thread nD τ).loc main_call0_v2) ↦{fullShare} W main_call0_v2) ∗ (((c.tc : Thread nD τ).loc main_call0_v3) ↦{fullShare} W main_call0_v3) ∗ (((c.tc : Thread nD τ).loc main_call0_v4) ↦{fullShare} W main_call0_v4) ∗ (((c.tc : Thread nD τ).loc main_arg8) ↦{fullShare} W main_arg8) ∗ (((c.tc : Thread nD τ).loc main_call0_v5) ↦{fullShare} W main_call0_v5) ∗ (((c.tc : Thread nD τ).loc main_v0) ↦{fullShare} W main_v0)) :=
  bigSep_eq_bigSepL_of_eq [main_arg1, main_call0_v0, main_arg2, main_call0_v1, main_arg4, main_call0_v2, main_call0_v3, main_call0_v4, main_arg8, main_call0_v5, main_v0] (by decide) (by decide) _

end Cert.KernelIdeal.Hand

end
-- ==== Proof.KIRunB.lean ====
import proofs.«123370_g29334626631814_cont_sun_c4_761_10_alg».proof.Proof.KIRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at a point that is neither the first nor the last, on any whole memrefs holding `x1 … x14`: it runs to the
    end, leaves the eleven inputs and the output buffer as they were, the activations scratch with the point's two
    blocks written over what it held, and the statistics scratch with the point's sums added. -/
noncomputable def kernelRunB (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S10000x1 .f32) (harg12 : arg12.IsWhole) (arg13 : Memref sig .tc .vmem S10000x128 .f32) (harg13 : arg13.IsWhole) (arg14 : Memref sig .tc .vmem S8x128 .f32) (harg14 : arg14.IsWhole) (hc1 : ¬cond1 i) (hc2 : ¬cond2 i)
    (x1 : Vec F S200x10000 .f32) (x2 : Vec F S200x10000 .f32) (x3 : Vec F S10000x128 .bf16) (x4 : Vec F S128x128 .f32) (x5 : Vec F S1x128 .f32) (x6 : Vec F S128x128 .f32) (x7 : Vec F S1x128 .f32) (x8 : Vec F S1x128 .f32) (x9 : Vec F S1x128 .f32) (x10 : Vec F S128x1 .f32) (x11 : Vec F S1x1 .f32) (x13 : Vec F S10000x128 .f32) (x14 : Vec F S8x128 .f32) :
    Σ' (L13 : List (View.Piece (Elt F) S10000x128 .f32)), { L14 : List (View.Piece (Elt F) S8x128 .f32) //
      ∀ (x12 : Vec F S10000x1 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12
                ∗ (arg13.view.loc (c : Thread nD τ) ↦[arg13.view.set]{fullShare} arg13.view.writes (Elt F) (harg13.unread x13) L13) ∗ (arg14.view.loc (c : Thread nD τ) ↦[arg14.view.set]{fullShare} arg14.view.writes (Elt F) (harg14.unread x14) L14)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun x12 E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
    sl_exec (disch := first | exact hc1 | exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexact H13
    iexact H14

end Cert.KernelIdeal.Hand

end
-- ==== Proof.KIRunA.lean ====
import proofs.«123370_g29334626631814_cont_sun_c4_761_10_alg».proof.Proof.KIRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at the first point, on any whole memrefs holding `x1 … x14`: as at a middle point, but the statistics
    scratch is first overwritten with zeros, so that it ends at the first point's sums whatever it held. -/
noncomputable def kernelRunA (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S10000x1 .f32) (harg12 : arg12.IsWhole) (arg13 : Memref sig .tc .vmem S10000x128 .f32) (harg13 : arg13.IsWhole) (arg14 : Memref sig .tc .vmem S8x128 .f32) (harg14 : arg14.IsWhole) (hc1 : cond1 i) (hc2 : ¬cond2 i)
    (x1 : Vec F S200x10000 .f32) (x2 : Vec F S200x10000 .f32) (x3 : Vec F S10000x128 .bf16) (x4 : Vec F S128x128 .f32) (x5 : Vec F S1x128 .f32) (x6 : Vec F S128x128 .f32) (x7 : Vec F S1x128 .f32) (x8 : Vec F S1x128 .f32) (x9 : Vec F S1x128 .f32) (x10 : Vec F S128x1 .f32) (x11 : Vec F S1x1 .f32) (x13 : Vec F S10000x128 .f32) (x14 : Vec F S8x128 .f32) :
    Σ' (L13 : List (View.Piece (Elt F) S10000x128 .f32)), { L14 : List (View.Piece (Elt F) S8x128 .f32) //
      ∀ (x12 : Vec F S10000x1 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12
                ∗ (arg13.view.loc (c : Thread nD τ) ↦[arg13.view.set]{fullShare} arg13.view.writes (Elt F) (harg13.unread x13) L13) ∗ (arg14.view.loc (c : Thread nD τ) ↦[arg14.view.set]{fullShare} arg14.view.writes (Elt F) (harg14.unread x14) L14)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun x12 E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
    sl_exec (disch := first | exact hc1 | exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexact H13
    iexact H14

end Cert.KernelIdeal.Hand

end
-- ==== Proof.KIRunC.lean ====
import proofs.«123370_g29334626631814_cont_sun_c4_761_10_alg».proof.Proof.KIRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The body at the last point, on any whole memrefs holding `x1 … x14`: after the point's two blocks and sums it
    reads the two statistics rows, the scale and shift vectors and the whole activations scratch, and stores the
    readout into the output buffer whole. -/
noncomputable def kernelRunC (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S10000x1 .f32) (harg12 : arg12.IsWhole) (arg13 : Memref sig .tc .vmem S10000x128 .f32) (harg13 : arg13.IsWhole) (arg14 : Memref sig .tc .vmem S8x128 .f32) (harg14 : arg14.IsWhole) (hc1 : ¬cond1 i) (hc2 : cond2 i)
    (x1 : Vec F S200x10000 .f32) (x2 : Vec F S200x10000 .f32) (x3 : Vec F S10000x128 .bf16) (x4 : Vec F S128x128 .f32) (x5 : Vec F S1x128 .f32) (x6 : Vec F S128x128 .f32) (x7 : Vec F S1x128 .f32) (x8 : Vec F S1x128 .f32) (x9 : Vec F S1x128 .f32) (x10 : Vec F S128x1 .f32) (x11 : Vec F S1x1 .f32) (x12 : Vec F S10000x1 .f32) (x13 : Vec F S10000x128 .f32) (x14 : Vec F S8x128 .f32) :
    Σ' (L12 : List (View.Piece (Elt F) S10000x1 .f32)) (L13 : List (View.Piece (Elt F) S10000x128 .f32)), { L14 : List (View.Piece (Elt F) S8x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (arg12.view.loc (c : Thread nD τ) ↦[arg12.view.set]{fullShare} arg12.view.writes (Elt F) (harg12.unread x12) L12)
                ∗ (arg13.view.loc (c : Thread nD τ) ↦[arg13.view.set]{fullShare} arg13.view.writes (Elt F) (harg13.unread x13) L13) ∗ (arg14.view.loc (c : Thread nD τ) ↦[arg14.view.set]{fullShare} arg14.view.writes (Elt F) (harg14.unread x14) L14)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
    sl_exec (disch := first | exact hc1 | exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexact H12
    isplitl [H13]
    · iexact H13
    iexact H14

end Cert.KernelIdeal.Hand

end
-- ==== Proof.KIState.lean ====
import proofs.«123370_g29334626631814_cont_sun_c4_761_10_alg».proof.Proof.KIArr
import proofs.«123370_g29334626631814_cont_sun_c4_761_10_alg».proof.Proof.KIRunC
import Idealize.ShloMosaic.Lib.ValueIdx
import Idealize.ShloMosaic.Lib.WritesUnit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.ValueIdx

variable (m : (ℓ : Loc nD τ sig) → Buf (Elt F) ℓ) (ρ : Dev nD → PrngReg)

theorem hN : cfg0.N = 25 := N_0

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What a point computes, as terms of its blocks -/

/-- The activations of the point's first 200 rows (the even adjacency block through the perceptron). -/
def actA (c : Dev nD) (t : Fin cfg0.N) : Vec F S200x128 .f32 :=
  k0_pay4 (iblk m c 0 t) (iblk m c 2 t) (iblk m c 3 t) (iblk m c 4 t) (iblk m c 5 t) (iblk m c 6 t)
/-- The first layer of the point's second 200 rows (the odd adjacency block). -/
def preB (c : Dev nD) (t : Fin cfg0.N) : Vec F S200x128 .f32 :=
  k0_pay5 (iblk m c 1 t) (iblk m c 2 t) (iblk m c 3 t) (iblk m c 4 t)
/-- The two blocks the point stores into the activations scratch. -/
def blkA (c : Dev nD) (t : Fin cfg0.N) : Vec F S200x128 .f32 := k0_pay7 (actA m c t)
def blkB (c : Dev nD) (t : Fin cfg0.N) : Vec F S200x128 .f32 := k0_pay8 (preB m c t) (iblk m c 5 t) (iblk m c 6 t)
/-- What the point adds to the statistics: its column sums in row 0, its column sums of squares in row 1. -/
def upd (c : Dev nD) (t : Fin cfg0.N) : Vec F S8x128 .f32 := k0_pay9 (actA m c t) (preB m c t) (iblk m c 5 t) (iblk m c 6 t)

/-- The statistics scratch after point `n`: zero plus the first point's update, then each later point's added. -/
def statsAt (c : Dev nD) : (n : ℕ) → n < cfg0.N → Vec F S8x128 .f32
  | 0, h => k0_pay2 (upd m c ⟨0, h⟩) (k0_pay1 (F := F))
  | n + 1, h => k0_pay2 (upd m c ⟨n + 1, h⟩) (statsAt c n (Nat.lt_of_succ_lt h))

/-- Rows `400 t + r` and `400 t + 200 + r` of the activations. -/
def rowA (t : Fin cfg0.N) (r : Fin 200) : Fin 10000 := ⟨400 * t.val + r.val, by have := t.isLt; have := r.isLt; have := hN; omega⟩
def rowB (t : Fin cfg0.N) (r : Fin 200) : Fin 10000 := ⟨400 * t.val + 200 + r.val, by have := t.isLt; have := r.isLt; have := hN; omega⟩

/-- The activations scratch holds, in the rows of the points before `n`, the blocks those points stored. -/
def RowsOK (c : Dev nD) (n : ℕ) (xs : Vec F S10000x128 .f32) : Prop :=
  ∀ t : Fin cfg0.N, t.val < n → ∀ (r : Fin 200) (j : Fin 128),
    xs (ix2 (rowA t r) j) = blkA m c t (ix2 r j) ∧ xs (ix2 (rowB t r) j) = blkB m c t (ix2 r j)

/-- The offsets of the two stores at a point, in closed form. -/
theorem off1_eq : ∀ t : Fin cfg0.N, k0_off1 (grid0.coords t) = ![400 * t.val, 0] :=
  (by decide +kernel : ∀ t : Fin grid0.N, k0_off1 (grid0.coords t) = ![400 * t.val, 0])
theorem off2_eq : ∀ t : Fin cfg0.N, k0_off2 (grid0.coords t) = ![400 * t.val + 200, 0] :=
  (by decide +kernel : ∀ t : Fin grid0.N, k0_off2 (grid0.coords t) = ![400 * t.val + 200, 0])

/-! ## The last point's result -/

/-- Rows 0 and 1 of the statistics: the column sums and the column sums of squares. -/
def row0 (s : Vec F S8x128 .f32) : Vec F S1x128 .f32 := View.ld s (Rect.unit (s := S8x128) ![0, 0] S1x128.size inb_S8x128_S1x128_0_0)
def row1 (s : Vec F S8x128 .f32) : Vec F S1x128 .f32 := View.ld s (Rect.unit (s := S8x128) ![1, 0] S1x128.size inb_S8x128_S1x128_1_0)

/-- The activations of all 10000 rows, assembled from the 25 points' blocks: row `400 t + r` from point `t`'s first
    block when `r < 200`, from its second otherwise. -/
def xfull (c : Dev nD) : Vec F S10000x128 .f32 := fun y =>
  if h : (y 0).val % 400 < 200 then
    blkA m c ⟨(y 0).val / 400, by have := idx2_lt0 y; have := hN; omega⟩ (ix2 ⟨(y 0).val % 400, h⟩ (y 1))
  else
    blkB m c ⟨(y 0).val / 400, by have := idx2_lt0 y; have := hN; omega⟩
      (ix2 ⟨(y 0).val % 400 - 200, by have := Nat.mod_lt (y 0).val (show 0 < 400 by decide); omega⟩ (y 1))

/-- The last point. -/
def tLast : Fin cfg0.N := ⟨24, by rw [hN]; decide⟩

/-- What the last point stores into the output buffer: the normalised, rectified activations read out. -/
def outVal (c : Dev nD) : Vec F S10000x1 .f32 :=
  k0_pay3 (row0 (statsAt m c 24 tLast.isLt)) (row1 (statsAt m c 24 tLast.isLt)) (iblk m c 7 tLast) (iblk m c 8 tLast)
    (xfull m c) (iblk m c 9 tLast) (iblk m c 10 tLast)

end Cert.KernelIdeal.Hand

end
-- ==== Proof.KIPieces.lean ====
import proofs.«123370_g29334626631814_cont_sun_c4_761_10_alg».proof.Proof.KIState
import Idealize.ShloMosaic.Lib.Pipeline.Value
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.ValueIdx

theorem hz2 : (![0, 0] : Fin 2 → Nat) = fun _ => 0 := funext fun a => by fin_cases a <;> rfl

/-- A load through the whole rectangle of a whole memref holding `x` reads `x`. -/
theorem ld_whole {S : Shape} {e : EltTy} (a : Memref sig .tc .vmem S e) (h : a.IsWhole) (x : Vec F S e)
    (off : Fin S.rank → Nat) (hoff : off = fun _ => 0) (inb : ∀ a, off a + S.size a ≤ S.size a) :
    View.ld (View.read (Elt F) a.view (h.unread x)) (Rect.unit (s := S) off S.size inb) = x := by
  rw [h.read_unread, View.ld_unit_zero (S := S) hoff]

/-! ## The statistics scratch after a point -/

/-- At a point that is not the first the statistics scratch is stored whole once, -/
theorem coverB14 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S10000x1 .f32) (harg12 : arg12.IsWhole) (arg13 : Memref sig .tc .vmem S10000x128 .f32) (harg13 : arg13.IsWhole) (arg14 : Memref sig .tc .vmem S8x128 .f32) (harg14 : arg14.IsWhole) (hc1 : ¬cond1 i) (hc2 : ¬cond2 i) (x1 : Vec F S200x10000 .f32) (x2 : Vec F S200x10000 .f32) (x3 : Vec F S10000x128 .bf16) (x4 : Vec F S128x128 .f32) (x5 : Vec F S1x128 .f32) (x6 : Vec F S128x128 .f32) (x7 : Vec F S1x128 .f32) (x8 : Vec F S1x128 .f32) (x9 : Vec F S1x128 .f32) (x10 : Vec F S128x1 .f32) (x11 : Vec F S1x1 .f32) (x13 : Vec F S10000x128 .f32) (x14 : Vec F S8x128 .f32) (y : S8x128.Idx) :
    ∃ pc ∈ (kernelRunB c i arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x13 x14).2.1, y ∈ pc.1.set :=
  View.cover_of_tiledL (kernelRunB c i arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x13 x14).2.1 S8x128.size (by sl_kernel_rfl) y

set_option maxHeartbeats 2000000 in
/-- with what it held plus the point's update. -/
theorem statsB (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S10000x1 .f32) (harg12 : arg12.IsWhole) (arg13 : Memref sig .tc .vmem S10000x128 .f32) (harg13 : arg13.IsWhole) (arg14 : Memref sig .tc .vmem S8x128 .f32) (harg14 : arg14.IsWhole) (hc1 : ¬cond1 i) (hc2 : ¬cond2 i) (x1 : Vec F S200x10000 .f32) (x2 : Vec F S200x10000 .f32) (x3 : Vec F S10000x128 .bf16) (x4 : Vec F S128x128 .f32) (x5 : Vec F S1x128 .f32) (x6 : Vec F S128x128 .f32) (x7 : Vec F S1x128 .f32) (x8 : Vec F S1x128 .f32) (x9 : Vec F S1x128 .f32) (x10 : Vec F S128x1 .f32) (x11 : Vec F S1x1 .f32) (x13 : Vec F S10000x128 .f32) (x14 : Vec F S8x128 .f32) :
    arg14.view.read (Elt F) (arg14.view.writes (Elt F) (harg14.unread x14) (kernelRunB c i arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x13 x14).2.1)
      = k0_pay2 (k0_pay9 (k0_pay4 x1 x3 x4 x5 x6 x7) (k0_pay5 x2 x3 x4 x5) x6 x7) x14 := by
  rw [View.read_writes_eq_canon _ _ _ (coverB14 c i arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x13 x14)]
  unfold kernelRunB
  dsimp only
  sl_unfold_words
  rw [View.canon_unit_zero hz2]
  simp only [View.readAt_eq_ld]
  (try rw [ld_whole arg1 harg1 x1 _ hz2 _])
  (try rw [ld_whole arg2 harg2 x2 _ hz2 _])
  (try rw [ld_whole arg3 harg3 x3 _ hz2 _])
  (try rw [ld_whole arg4 harg4 x4 _ hz2 _])
  (try rw [ld_whole arg5 harg5 x5 _ hz2 _])
  (try rw [ld_whole arg6 harg6 x6 _ hz2 _])
  (try rw [ld_whole arg7 harg7 x7 _ hz2 _])
  (try rw [ld_whole arg8 harg8 x8 _ hz2 _])
  (try rw [ld_whole arg9 harg9 x9 _ hz2 _])
  (try rw [ld_whole arg10 harg10 x10 _ hz2 _])
  (try rw [ld_whole arg11 harg11 x11 _ hz2 _])
  (try rw [ld_whole arg12 harg12 x12 _ hz2 _])
  (try rw [ld_whole arg13 harg13 x13 _ hz2 _])
  (try rw [ld_whole arg14 harg14 x14 _ hz2 _])
  rfl

/-- At a point that is not the first the statistics scratch is stored whole once, -/
theorem coverC14 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S10000x1 .f32) (harg12 : arg12.IsWhole) (arg13 : Memref sig .tc .vmem S10000x128 .f32) (harg13 : arg13.IsWhole) (arg14 : Memref sig .tc .vmem S8x128 .f32) (harg14 : arg14.IsWhole) (hc1 : ¬cond1 i) (hc2 : cond2 i) (x1 : Vec F S200x10000 .f32) (x2 : Vec F S200x10000 .f32) (x3 : Vec F S10000x128 .bf16) (x4 : Vec F S128x128 .f32) (x5 : Vec F S1x128 .f32) (x6 : Vec F S128x128 .f32) (x7 : Vec F S1x128 .f32) (x8 : Vec F S1x128 .f32) (x9 : Vec F S1x128 .f32) (x10 : Vec F S128x1 .f32) (x11 : Vec F S1x1 .f32) (x12 : Vec F S10000x1 .f32) (x13 : Vec F S10000x128 .f32) (x14 : Vec F S8x128 .f32) (y : S8x128.Idx) :
    ∃ pc ∈ (kernelRunC c i arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x12 x13 x14).2.2.1, y ∈ pc.1.set :=
  View.cover_of_tiledL (kernelRunC c i arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x12 x13 x14).2.2.1 S8x128.size (by sl_kernel_rfl) y

set_option maxHeartbeats 2000000 in
/-- with what it held plus the point's update. -/
theorem statsC (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S10000x1 .f32) (harg12 : arg12.IsWhole) (arg13 : Memref sig .tc .vmem S10000x128 .f32) (harg13 : arg13.IsWhole) (arg14 : Memref sig .tc .vmem S8x128 .f32) (harg14 : arg14.IsWhole) (hc1 : ¬cond1 i) (hc2 : cond2 i) (x1 : Vec F S200x10000 .f32) (x2 : Vec F S200x10000 .f32) (x3 : Vec F S10000x128 .bf16) (x4 : Vec F S128x128 .f32) (x5 : Vec F S1x128 .f32) (x6 : Vec F S128x128 .f32) (x7 : Vec F S1x128 .f32) (x8 : Vec F S1x128 .f32) (x9 : Vec F S1x128 .f32) (x10 : Vec F S128x1 .f32) (x11 : Vec F S1x1 .f32) (x12 : Vec F S10000x1 .f32) (x13 : Vec F S10000x128 .f32) (x14 : Vec F S8x128 .f32) :
    arg14.view.read (Elt F) (arg14.view.writes (Elt F) (harg14.unread x14) (kernelRunC c i arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x12 x13 x14).2.2.1)
      = k0_pay2 (k0_pay9 (k0_pay4 x1 x3 x4 x5 x6 x7) (k0_pay5 x2 x3 x4 x5) x6 x7) x14 := by
  rw [View.read_writes_eq_canon _ _ _ (coverC14 c i arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x12 x13 x14)]
  unfold kernelRunC
  dsimp only
  sl_unfold_words
  rw [View.canon_unit_zero hz2]
  simp only [View.readAt_eq_ld]
  (try rw [ld_whole arg1 harg1 x1 _ hz2 _])
  (try rw [ld_whole arg2 harg2 x2 _ hz2 _])
  (try rw [ld_whole arg3 harg3 x3 _ hz2 _])
  (try rw [ld_whole arg4 harg4 x4 _ hz2 _])
  (try rw [ld_whole arg5 harg5 x5 _ hz2 _])
  (try rw [ld_whole arg6 harg6 x6 _ hz2 _])
  (try rw [ld_whole arg7 harg7 x7 _ hz2 _])
  (try rw [ld_whole arg8 harg8 x8 _ hz2 _])
  (try rw [ld_whole arg9 harg9 x9 _ hz2 _])
  (try rw [ld_whole arg10 harg10 x10 _ hz2 _])
  (try rw [ld_whole arg11 harg11 x11 _ hz2 _])
  (try rw [ld_whole arg12 harg12 x12 _ hz2 _])
  (try rw [ld_whole arg13 harg13 x13 _ hz2 _])
  (try rw [ld_whole arg14 harg14 x14 _ hz2 _])
  rfl

/-- At the first point it is stored whole twice: zeros, then the zeros read back plus the point's update. -/
theorem coverA14 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S10000x1 .f32) (harg12 : arg12.IsWhole) (arg13 : Memref sig .tc .vmem S10000x128 .f32) (harg13 : arg13.IsWhole) (arg14 : Memref sig .tc .vmem S8x128 .f32) (harg14 : arg14.IsWhole) (hc1 : cond1 i) (hc2 : ¬cond2 i) (x1 : Vec F S200x10000 .f32) (x2 : Vec F S200x10000 .f32) (x3 : Vec F S10000x128 .bf16) (x4 : Vec F S128x128 .f32) (x5 : Vec F S1x128 .f32) (x6 : Vec F S128x128 .f32) (x7 : Vec F S1x128 .f32) (x8 : Vec F S1x128 .f32) (x9 : Vec F S1x128 .f32) (x10 : Vec F S128x1 .f32) (x11 : Vec F S1x1 .f32) (x13 : Vec F S10000x128 .f32) (x14 : Vec F S8x128 .f32) (y : S8x128.Idx) :
    ∃ pc ∈ (kernelRunA c i arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x13 x14).2.1, y ∈ pc.1.set :=
  View.cover_of_tiledL (kernelRunA c i arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x13 x14).2.1 S8x128.size (by sl_kernel_rfl) y

set_option maxHeartbeats 2000000 in
theorem statsA (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S10000x1 .f32) (harg12 : arg12.IsWhole) (arg13 : Memref sig .tc .vmem S10000x128 .f32) (harg13 : arg13.IsWhole) (arg14 : Memref sig .tc .vmem S8x128 .f32) (harg14 : arg14.IsWhole) (hc1 : cond1 i) (hc2 : ¬cond2 i) (x1 : Vec F S200x10000 .f32) (x2 : Vec F S200x10000 .f32) (x3 : Vec F S10000x128 .bf16) (x4 : Vec F S128x128 .f32) (x5 : Vec F S1x128 .f32) (x6 : Vec F S128x128 .f32) (x7 : Vec F S1x128 .f32) (x8 : Vec F S1x128 .f32) (x9 : Vec F S1x128 .f32) (x10 : Vec F S128x1 .f32) (x11 : Vec F S1x1 .f32) (x13 : Vec F S10000x128 .f32) (x14 : Vec F S8x128 .f32) :
    arg14.view.read (Elt F) (arg14.view.writes (Elt F) (harg14.unread x14) (kernelRunA c i arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x13 x14).2.1)
      = k0_pay2 (k0_pay9 (k0_pay4 x1 x3 x4 x5 x6 x7) (k0_pay5 x2 x3 x4 x5) x6 x7) (k0_pay1 (F := F)) := by
  rw [View.read_writes_eq_canon _ _ _ (coverA14 c i arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x13 x14)]
  unfold kernelRunA
  dsimp only
  sl_unfold_words
  rw [View.canon_cons_unit_zero (S := S8x128) hz2, View.readCov_unit_zero (S := S8x128) _ hz2]
  simp only [View.readAt_eq_ld]
  (try rw [ld_whole arg1 harg1 x1 _ hz2 _])
  (try rw [ld_whole arg2 harg2 x2 _ hz2 _])
  (try rw [ld_whole arg3 harg3 x3 _ hz2 _])
  (try rw [ld_whole arg4 harg4 x4 _ hz2 _])
  (try rw [ld_whole arg5 harg5 x5 _ hz2 _])
  (try rw [ld_whole arg6 harg6 x6 _ hz2 _])
  (try rw [ld_whole arg7 harg7 x7 _ hz2 _])
  (try rw [ld_whole arg8 harg8 x8 _ hz2 _])
  (try rw [ld_whole arg9 harg9 x9 _ hz2 _])
  (try rw [ld_whole arg10 harg10 x10 _ hz2 _])
  (try rw [ld_whole arg11 harg11 x11 _ hz2 _])
  (try rw [ld_whole arg12 harg12 x12 _ hz2 _])
  (try rw [ld_whole arg13 harg13 x13 _ hz2 _])
  (try rw [ld_whole arg14 harg14 x14 _ hz2 _])
  rfl

end Cert.KernelIdeal.Hand

end
-- ==== Proof.KIPieces2.lean ====
import proofs.«123370_g29334626631814_cont_sun_c4_761_10_alg».proof.Proof.KIPieces
import Idealize.ShloMosaic.Lib.WritesUnit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.ValueIdx

/-! ## The activations scratch after a point: its two blocks written over what it held -/

set_option maxHeartbeats 2000000 in
/-- Row `400 t + 200 + r` reads the second block's row `r`; -/
theorem rowsA_inB (c : Dev nD) (t : Fin cfg0.N) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S10000x1 .f32) (harg12 : arg12.IsWhole) (arg13 : Memref sig .tc .vmem S10000x128 .f32) (harg13 : arg13.IsWhole) (arg14 : Memref sig .tc .vmem S8x128 .f32) (harg14 : arg14.IsWhole) (hc1 : cond1 (grid0.coords t)) (hc2 : ¬cond2 (grid0.coords t)) (x1 : Vec F S200x10000 .f32) (x2 : Vec F S200x10000 .f32) (x3 : Vec F S10000x128 .bf16) (x4 : Vec F S128x128 .f32) (x5 : Vec F S1x128 .f32) (x6 : Vec F S128x128 .f32) (x7 : Vec F S1x128 .f32) (x8 : Vec F S1x128 .f32) (x9 : Vec F S1x128 .f32) (x10 : Vec F S128x1 .f32) (x11 : Vec F S1x1 .f32) (x13 : Vec F S10000x128 .f32) (x14 : Vec F S8x128 .f32) (r : Fin 200) (j : Fin 128) :
    arg13.view.read (Elt F) (arg13.view.writes (Elt F) (harg13.unread x13) (kernelRunA c (grid0.coords t) arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x13 x14).1) (ix2 (rowB t r) j) = (k0_pay8 (k0_pay5 x2 x3 x4 x5) x6 x7) (ix2 r j) := by
  unfold kernelRunA
  dsimp only
  refine (View.read_writes_cons_rows_of_mem arg13.view (harg13.unread x13) _ _ _ (ix2 (rowB t r) j) (ix2 r j) (off2_eq t) rfl rfl).trans ?_
  sl_unfold_words
  simp only [View.readAt_eq_ld]
  (try rw [ld_whole arg1 harg1 x1 _ hz2 _])
  (try rw [ld_whole arg2 harg2 x2 _ hz2 _])
  (try rw [ld_whole arg3 harg3 x3 _ hz2 _])
  (try rw [ld_whole arg4 harg4 x4 _ hz2 _])
  (try rw [ld_whole arg5 harg5 x5 _ hz2 _])
  (try rw [ld_whole arg6 harg6 x6 _ hz2 _])
  (try rw [ld_whole arg7 harg7 x7 _ hz2 _])
  (try rw [ld_whole arg8 harg8 x8 _ hz2 _])
  (try rw [ld_whole arg9 harg9 x9 _ hz2 _])
  (try rw [ld_whole arg10 harg10 x10 _ hz2 _])
  (try rw [ld_whole arg11 harg11 x11 _ hz2 _])
  (try rw [ld_whole arg12 harg12 x12 _ hz2 _])
  (try rw [ld_whole arg13 harg13 x13 _ hz2 _])
  (try rw [ld_whole arg14 harg14 x14 _ hz2 _])
  rfl

set_option maxHeartbeats 2000000 in
/-- row `400 t + r` the first block's row `r`; -/
theorem rowsA_inA (c : Dev nD) (t : Fin cfg0.N) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S10000x1 .f32) (harg12 : arg12.IsWhole) (arg13 : Memref sig .tc .vmem S10000x128 .f32) (harg13 : arg13.IsWhole) (arg14 : Memref sig .tc .vmem S8x128 .f32) (harg14 : arg14.IsWhole) (hc1 : cond1 (grid0.coords t)) (hc2 : ¬cond2 (grid0.coords t)) (x1 : Vec F S200x10000 .f32) (x2 : Vec F S200x10000 .f32) (x3 : Vec F S10000x128 .bf16) (x4 : Vec F S128x128 .f32) (x5 : Vec F S1x128 .f32) (x6 : Vec F S128x128 .f32) (x7 : Vec F S1x128 .f32) (x8 : Vec F S1x128 .f32) (x9 : Vec F S1x128 .f32) (x10 : Vec F S128x1 .f32) (x11 : Vec F S1x1 .f32) (x13 : Vec F S10000x128 .f32) (x14 : Vec F S8x128 .f32) (r : Fin 200) (j : Fin 128) :
    arg13.view.read (Elt F) (arg13.view.writes (Elt F) (harg13.unread x13) (kernelRunA c (grid0.coords t) arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x13 x14).1) (ix2 (rowA t r) j) = (k0_pay7 (k0_pay4 x1 x3 x4 x5 x6 x7)) (ix2 r j) := by
  unfold kernelRunA
  dsimp only
  refine (View.read_writes_cons_rows_of_not_mem arg13.view (harg13.unread x13) _ _ _ (ix2 (rowA t r) j) (off2_eq t) (W := 200) rfl
    (Or.inl (by show 400 * t.val + r.val < 400 * t.val + 200; have := r.isLt; omega))).trans ?_
  refine (View.read_writes_cons_rows_of_mem arg13.view (harg13.unread x13) _ _ _ (ix2 (rowA t r) j) (ix2 r j) (off1_eq t) rfl rfl).trans ?_
  sl_unfold_words
  simp only [View.readAt_eq_ld]
  (try rw [ld_whole arg1 harg1 x1 _ hz2 _])
  (try rw [ld_whole arg2 harg2 x2 _ hz2 _])
  (try rw [ld_whole arg3 harg3 x3 _ hz2 _])
  (try rw [ld_whole arg4 harg4 x4 _ hz2 _])
  (try rw [ld_whole arg5 harg5 x5 _ hz2 _])
  (try rw [ld_whole arg6 harg6 x6 _ hz2 _])
  (try rw [ld_whole arg7 harg7 x7 _ hz2 _])
  (try rw [ld_whole arg8 harg8 x8 _ hz2 _])
  (try rw [ld_whole arg9 harg9 x9 _ hz2 _])
  (try rw [ld_whole arg10 harg10 x10 _ hz2 _])
  (try rw [ld_whole arg11 harg11 x11 _ hz2 _])
  (try rw [ld_whole arg12 harg12 x12 _ hz2 _])
  (try rw [ld_whole arg13 harg13 x13 _ hz2 _])
  (try rw [ld_whole arg14 harg14 x14 _ hz2 _])
  rfl

set_option maxHeartbeats 2000000 in
/-- a row outside the point's 400 rows what the scratch held. -/
theorem rowsA_out (c : Dev nD) (t : Fin cfg0.N) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S10000x1 .f32) (harg12 : arg12.IsWhole) (arg13 : Memref sig .tc .vmem S10000x128 .f32) (harg13 : arg13.IsWhole) (arg14 : Memref sig .tc .vmem S8x128 .f32) (harg14 : arg14.IsWhole) (hc1 : cond1 (grid0.coords t)) (hc2 : ¬cond2 (grid0.coords t)) (x1 : Vec F S200x10000 .f32) (x2 : Vec F S200x10000 .f32) (x3 : Vec F S10000x128 .bf16) (x4 : Vec F S128x128 .f32) (x5 : Vec F S1x128 .f32) (x6 : Vec F S128x128 .f32) (x7 : Vec F S1x128 .f32) (x8 : Vec F S1x128 .f32) (x9 : Vec F S1x128 .f32) (x10 : Vec F S128x1 .f32) (x11 : Vec F S1x1 .f32) (x13 : Vec F S10000x128 .f32) (x14 : Vec F S8x128 .f32) (y : S10000x128.Idx)
    (h : (y 0).val < 400 * t.val ∨ 400 * t.val + 400 ≤ (y 0).val) :
    arg13.view.read (Elt F) (arg13.view.writes (Elt F) (harg13.unread x13) (kernelRunA c (grid0.coords t) arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x13 x14).1) y = x13 y := by
  unfold kernelRunA
  dsimp only
  refine (View.read_writes_cons_rows_of_not_mem arg13.view (harg13.unread x13) _ _ _ y (off2_eq t) (W := 200) rfl (by omega)).trans ?_
  refine (View.read_writes_cons_rows_of_not_mem arg13.view (harg13.unread x13) _ _ _ y (off1_eq t) (W := 200) rfl (by omega)).trans ?_
  rw [View.writes_nil]
  exact congrFun (harg13.read_unread x13) y

set_option maxHeartbeats 2000000 in
/-- Row `400 t + 200 + r` reads the second block's row `r`; -/
theorem rowsB_inB (c : Dev nD) (t : Fin cfg0.N) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S10000x1 .f32) (harg12 : arg12.IsWhole) (arg13 : Memref sig .tc .vmem S10000x128 .f32) (harg13 : arg13.IsWhole) (arg14 : Memref sig .tc .vmem S8x128 .f32) (harg14 : arg14.IsWhole) (hc1 : ¬cond1 (grid0.coords t)) (hc2 : ¬cond2 (grid0.coords t)) (x1 : Vec F S200x10000 .f32) (x2 : Vec F S200x10000 .f32) (x3 : Vec F S10000x128 .bf16) (x4 : Vec F S128x128 .f32) (x5 : Vec F S1x128 .f32) (x6 : Vec F S128x128 .f32) (x7 : Vec F S1x128 .f32) (x8 : Vec F S1x128 .f32) (x9 : Vec F S1x128 .f32) (x10 : Vec F S128x1 .f32) (x11 : Vec F S1x1 .f32) (x13 : Vec F S10000x128 .f32) (x14 : Vec F S8x128 .f32) (r : Fin 200) (j : Fin 128) :
    arg13.view.read (Elt F) (arg13.view.writes (Elt F) (harg13.unread x13) (kernelRunB c (grid0.coords t) arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x13 x14).1) (ix2 (rowB t r) j) = (k0_pay8 (k0_pay5 x2 x3 x4 x5) x6 x7) (ix2 r j) := by
  unfold kernelRunB
  dsimp only
  refine (View.read_writes_cons_rows_of_mem arg13.view (harg13.unread x13) _ _ _ (ix2 (rowB t r) j) (ix2 r j) (off2_eq t) rfl rfl).trans ?_
  sl_unfold_words
  simp only [View.readAt_eq_ld]
  (try rw [ld_whole arg1 harg1 x1 _ hz2 _])
  (try rw [ld_whole arg2 harg2 x2 _ hz2 _])
  (try rw [ld_whole arg3 harg3 x3 _ hz2 _])
  (try rw [ld_whole arg4 harg4 x4 _ hz2 _])
  (try rw [ld_whole arg5 harg5 x5 _ hz2 _])
  (try rw [ld_whole arg6 harg6 x6 _ hz2 _])
  (try rw [ld_whole arg7 harg7 x7 _ hz2 _])
  (try rw [ld_whole arg8 harg8 x8 _ hz2 _])
  (try rw [ld_whole arg9 harg9 x9 _ hz2 _])
  (try rw [ld_whole arg10 harg10 x10 _ hz2 _])
  (try rw [ld_whole arg11 harg11 x11 _ hz2 _])
  (try rw [ld_whole arg12 harg12 x12 _ hz2 _])
  (try rw [ld_whole arg13 harg13 x13 _ hz2 _])
  (try rw [ld_whole arg14 harg14 x14 _ hz2 _])
  rfl

set_option maxHeartbeats 2000000 in
/-- row `400 t + r` the first block's row `r`; -/
theorem rowsB_inA (c : Dev nD) (t : Fin cfg0.N) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S10000x1 .f32) (harg12 : arg12.IsWhole) (arg13 : Memref sig .tc .vmem S10000x128 .f32) (harg13 : arg13.IsWhole) (arg14 : Memref sig .tc .vmem S8x128 .f32) (harg14 : arg14.IsWhole) (hc1 : ¬cond1 (grid0.coords t)) (hc2 : ¬cond2 (grid0.coords t)) (x1 : Vec F S200x10000 .f32) (x2 : Vec F S200x10000 .f32) (x3 : Vec F S10000x128 .bf16) (x4 : Vec F S128x128 .f32) (x5 : Vec F S1x128 .f32) (x6 : Vec F S128x128 .f32) (x7 : Vec F S1x128 .f32) (x8 : Vec F S1x128 .f32) (x9 : Vec F S1x128 .f32) (x10 : Vec F S128x1 .f32) (x11 : Vec F S1x1 .f32) (x13 : Vec F S10000x128 .f32) (x14 : Vec F S8x128 .f32) (r : Fin 200) (j : Fin 128) :
    arg13.view.read (Elt F) (arg13.view.writes (Elt F) (harg13.unread x13) (kernelRunB c (grid0.coords t) arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x13 x14).1) (ix2 (rowA t r) j) = (k0_pay7 (k0_pay4 x1 x3 x4 x5 x6 x7)) (ix2 r j) := by
  unfold kernelRunB
  dsimp only
  refine (View.read_writes_cons_rows_of_not_mem arg13.view (harg13.unread x13) _ _ _ (ix2 (rowA t r) j) (off2_eq t) (W := 200) rfl
    (Or.inl (by show 400 * t.val + r.val < 400 * t.val + 200; have := r.isLt; omega))).trans ?_
  refine (View.read_writes_cons_rows_of_mem arg13.view (harg13.unread x13) _ _ _ (ix2 (rowA t r) j) (ix2 r j) (off1_eq t) rfl rfl).trans ?_
  sl_unfold_words
  simp only [View.readAt_eq_ld]
  (try rw [ld_whole arg1 harg1 x1 _ hz2 _])
  (try rw [ld_whole arg2 harg2 x2 _ hz2 _])
  (try rw [ld_whole arg3 harg3 x3 _ hz2 _])
  (try rw [ld_whole arg4 harg4 x4 _ hz2 _])
  (try rw [ld_whole arg5 harg5 x5 _ hz2 _])
  (try rw [ld_whole arg6 harg6 x6 _ hz2 _])
  (try rw [ld_whole arg7 harg7 x7 _ hz2 _])
  (try rw [ld_whole arg8 harg8 x8 _ hz2 _])
  (try rw [ld_whole arg9 harg9 x9 _ hz2 _])
  (try rw [ld_whole arg10 harg10 x10 _ hz2 _])
  (try rw [ld_whole arg11 harg11 x11 _ hz2 _])
  (try rw [ld_whole arg12 harg12 x12 _ hz2 _])
  (try rw [ld_whole arg13 harg13 x13 _ hz2 _])
  (try rw [ld_whole arg14 harg14 x14 _ hz2 _])
  rfl

set_option maxHeartbeats 2000000 in
/-- a row outside the point's 400 rows what the scratch held. -/
theorem rowsB_out (c : Dev nD) (t : Fin cfg0.N) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S10000x1 .f32) (harg12 : arg12.IsWhole) (arg13 : Memref sig .tc .vmem S10000x128 .f32) (harg13 : arg13.IsWhole) (arg14 : Memref sig .tc .vmem S8x128 .f32) (harg14 : arg14.IsWhole) (hc1 : ¬cond1 (grid0.coords t)) (hc2 : ¬cond2 (grid0.coords t)) (x1 : Vec F S200x10000 .f32) (x2 : Vec F S200x10000 .f32) (x3 : Vec F S10000x128 .bf16) (x4 : Vec F S128x128 .f32) (x5 : Vec F S1x128 .f32) (x6 : Vec F S128x128 .f32) (x7 : Vec F S1x128 .f32) (x8 : Vec F S1x128 .f32) (x9 : Vec F S1x128 .f32) (x10 : Vec F S128x1 .f32) (x11 : Vec F S1x1 .f32) (x13 : Vec F S10000x128 .f32) (x14 : Vec F S8x128 .f32) (y : S10000x128.Idx)
    (h : (y 0).val < 400 * t.val ∨ 400 * t.val + 400 ≤ (y 0).val) :
    arg13.view.read (Elt F) (arg13.view.writes (Elt F) (harg13.unread x13) (kernelRunB c (grid0.coords t) arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x13 x14).1) y = x13 y := by
  unfold kernelRunB
  dsimp only
  refine (View.read_writes_cons_rows_of_not_mem arg13.view (harg13.unread x13) _ _ _ y (off2_eq t) (W := 200) rfl (by omega)).trans ?_
  refine (View.read_writes_cons_rows_of_not_mem arg13.view (harg13.unread x13) _ _ _ y (off1_eq t) (W := 200) rfl (by omega)).trans ?_
  rw [View.writes_nil]
  exact congrFun (harg13.read_unread x13) y

set_option maxHeartbeats 2000000 in
/-- Row `400 t + 200 + r` reads the second block's row `r`; -/
theorem rowsC_inB (c : Dev nD) (t : Fin cfg0.N) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S10000x1 .f32) (harg12 : arg12.IsWhole) (arg13 : Memref sig .tc .vmem S10000x128 .f32) (harg13 : arg13.IsWhole) (arg14 : Memref sig .tc .vmem S8x128 .f32) (harg14 : arg14.IsWhole) (hc1 : ¬cond1 (grid0.coords t)) (hc2 : cond2 (grid0.coords t)) (x1 : Vec F S200x10000 .f32) (x2 : Vec F S200x10000 .f32) (x3 : Vec F S10000x128 .bf16) (x4 : Vec F S128x128 .f32) (x5 : Vec F S1x128 .f32) (x6 : Vec F S128x128 .f32) (x7 : Vec F S1x128 .f32) (x8 : Vec F S1x128 .f32) (x9 : Vec F S1x128 .f32) (x10 : Vec F S128x1 .f32) (x11 : Vec F S1x1 .f32) (x12 : Vec F S10000x1 .f32) (x13 : Vec F S10000x128 .f32) (x14 : Vec F S8x128 .f32) (r : Fin 200) (j : Fin 128) :
    arg13.view.read (Elt F) (arg13.view.writes (Elt F) (harg13.unread x13) (kernelRunC c (grid0.coords t) arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x12 x13 x14).2.1) (ix2 (rowB t r) j) = (k0_pay8 (k0_pay5 x2 x3 x4 x5) x6 x7) (ix2 r j) := by
  unfold kernelRunC
  dsimp only
  refine (View.read_writes_cons_rows_of_mem arg13.view (harg13.unread x13) _ _ _ (ix2 (rowB t r) j) (ix2 r j) (off2_eq t) rfl rfl).trans ?_
  sl_unfold_words
  simp only [View.readAt_eq_ld]
  (try rw [ld_whole arg1 harg1 x1 _ hz2 _])
  (try rw [ld_whole arg2 harg2 x2 _ hz2 _])
  (try rw [ld_whole arg3 harg3 x3 _ hz2 _])
  (try rw [ld_whole arg4 harg4 x4 _ hz2 _])
  (try rw [ld_whole arg5 harg5 x5 _ hz2 _])
  (try rw [ld_whole arg6 harg6 x6 _ hz2 _])
  (try rw [ld_whole arg7 harg7 x7 _ hz2 _])
  (try rw [ld_whole arg8 harg8 x8 _ hz2 _])
  (try rw [ld_whole arg9 harg9 x9 _ hz2 _])
  (try rw [ld_whole arg10 harg10 x10 _ hz2 _])
  (try rw [ld_whole arg11 harg11 x11 _ hz2 _])
  (try rw [ld_whole arg12 harg12 x12 _ hz2 _])
  (try rw [ld_whole arg13 harg13 x13 _ hz2 _])
  (try rw [ld_whole arg14 harg14 x14 _ hz2 _])
  rfl

set_option maxHeartbeats 2000000 in
/-- row `400 t + r` the first block's row `r`; -/
theorem rowsC_inA (c : Dev nD) (t : Fin cfg0.N) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S10000x1 .f32) (harg12 : arg12.IsWhole) (arg13 : Memref sig .tc .vmem S10000x128 .f32) (harg13 : arg13.IsWhole) (arg14 : Memref sig .tc .vmem S8x128 .f32) (harg14 : arg14.IsWhole) (hc1 : ¬cond1 (grid0.coords t)) (hc2 : cond2 (grid0.coords t)) (x1 : Vec F S200x10000 .f32) (x2 : Vec F S200x10000 .f32) (x3 : Vec F S10000x128 .bf16) (x4 : Vec F S128x128 .f32) (x5 : Vec F S1x128 .f32) (x6 : Vec F S128x128 .f32) (x7 : Vec F S1x128 .f32) (x8 : Vec F S1x128 .f32) (x9 : Vec F S1x128 .f32) (x10 : Vec F S128x1 .f32) (x11 : Vec F S1x1 .f32) (x12 : Vec F S10000x1 .f32) (x13 : Vec F S10000x128 .f32) (x14 : Vec F S8x128 .f32) (r : Fin 200) (j : Fin 128) :
    arg13.view.read (Elt F) (arg13.view.writes (Elt F) (harg13.unread x13) (kernelRunC c (grid0.coords t) arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x12 x13 x14).2.1) (ix2 (rowA t r) j) = (k0_pay7 (k0_pay4 x1 x3 x4 x5 x6 x7)) (ix2 r j) := by
  unfold kernelRunC
  dsimp only
  refine (View.read_writes_cons_rows_of_not_mem arg13.view (harg13.unread x13) _ _ _ (ix2 (rowA t r) j) (off2_eq t) (W := 200) rfl
    (Or.inl (by show 400 * t.val + r.val < 400 * t.val + 200; have := r.isLt; omega))).trans ?_
  refine (View.read_writes_cons_rows_of_mem arg13.view (harg13.unread x13) _ _ _ (ix2 (rowA t r) j) (ix2 r j) (off1_eq t) rfl rfl).trans ?_
  sl_unfold_words
  simp only [View.readAt_eq_ld]
  (try rw [ld_whole arg1 harg1 x1 _ hz2 _])
  (try rw [ld_whole arg2 harg2 x2 _ hz2 _])
  (try rw [ld_whole arg3 harg3 x3 _ hz2 _])
  (try rw [ld_whole arg4 harg4 x4 _ hz2 _])
  (try rw [ld_whole arg5 harg5 x5 _ hz2 _])
  (try rw [ld_whole arg6 harg6 x6 _ hz2 _])
  (try rw [ld_whole arg7 harg7 x7 _ hz2 _])
  (try rw [ld_whole arg8 harg8 x8 _ hz2 _])
  (try rw [ld_whole arg9 harg9 x9 _ hz2 _])
  (try rw [ld_whole arg10 harg10 x10 _ hz2 _])
  (try rw [ld_whole arg11 harg11 x11 _ hz2 _])
  (try rw [ld_whole arg12 harg12 x12 _ hz2 _])
  (try rw [ld_whole arg13 harg13 x13 _ hz2 _])
  (try rw [ld_whole arg14 harg14 x14 _ hz2 _])
  rfl

set_option maxHeartbeats 2000000 in
/-- a row outside the point's 400 rows what the scratch held. -/
theorem rowsC_out (c : Dev nD) (t : Fin cfg0.N) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S10000x1 .f32) (harg12 : arg12.IsWhole) (arg13 : Memref sig .tc .vmem S10000x128 .f32) (harg13 : arg13.IsWhole) (arg14 : Memref sig .tc .vmem S8x128 .f32) (harg14 : arg14.IsWhole) (hc1 : ¬cond1 (grid0.coords t)) (hc2 : cond2 (grid0.coords t)) (x1 : Vec F S200x10000 .f32) (x2 : Vec F S200x10000 .f32) (x3 : Vec F S10000x128 .bf16) (x4 : Vec F S128x128 .f32) (x5 : Vec F S1x128 .f32) (x6 : Vec F S128x128 .f32) (x7 : Vec F S1x128 .f32) (x8 : Vec F S1x128 .f32) (x9 : Vec F S1x128 .f32) (x10 : Vec F S128x1 .f32) (x11 : Vec F S1x1 .f32) (x12 : Vec F S10000x1 .f32) (x13 : Vec F S10000x128 .f32) (x14 : Vec F S8x128 .f32) (y : S10000x128.Idx)
    (h : (y 0).val < 400 * t.val ∨ 400 * t.val + 400 ≤ (y 0).val) :
    arg13.view.read (Elt F) (arg13.view.writes (Elt F) (harg13.unread x13) (kernelRunC c (grid0.coords t) arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x12 x13 x14).2.1) y = x13 y := by
  unfold kernelRunC
  dsimp only
  refine (View.read_writes_cons_rows_of_not_mem arg13.view (harg13.unread x13) _ _ _ y (off2_eq t) (W := 200) rfl (by omega)).trans ?_
  refine (View.read_writes_cons_rows_of_not_mem arg13.view (harg13.unread x13) _ _ _ y (off1_eq t) (W := 200) rfl (by omega)).trans ?_
  rw [View.writes_nil]
  exact congrFun (harg13.read_unread x13) y

end Cert.KernelIdeal.Hand

end
-- ==== Proof.KIPieces3.lean ====
import proofs.«123370_g29334626631814_cont_sun_c4_761_10_alg».proof.Proof.KIPieces2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.ValueIdx

/-! ## The output buffer after the last point -/

/-- The last point stores the output buffer whole, once, -/
theorem coverC12 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S10000x1 .f32) (harg12 : arg12.IsWhole) (arg13 : Memref sig .tc .vmem S10000x128 .f32) (harg13 : arg13.IsWhole) (arg14 : Memref sig .tc .vmem S8x128 .f32) (harg14 : arg14.IsWhole) (hc1 : ¬cond1 i) (hc2 : cond2 i) (x1 : Vec F S200x10000 .f32) (x2 : Vec F S200x10000 .f32) (x3 : Vec F S10000x128 .bf16) (x4 : Vec F S128x128 .f32) (x5 : Vec F S1x128 .f32) (x6 : Vec F S128x128 .f32) (x7 : Vec F S1x128 .f32) (x8 : Vec F S1x128 .f32) (x9 : Vec F S1x128 .f32) (x10 : Vec F S128x1 .f32) (x11 : Vec F S1x1 .f32) (x12 : Vec F S10000x1 .f32) (x13 : Vec F S10000x128 .f32) (x14 : Vec F S8x128 .f32) (y : S10000x1.Idx) :
    ∃ pc ∈ (kernelRunC c i arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x12 x13 x14).1, y ∈ pc.1.set :=
  View.cover_of_tiledL (kernelRunC c i arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x12 x13 x14).1 S10000x1.size (by sl_kernel_rfl) y

/-- The statistics pieces of the last point, read as one array: what the scratch held plus the point's update. -/
theorem canonC14 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S10000x1 .f32) (harg12 : arg12.IsWhole) (arg13 : Memref sig .tc .vmem S10000x128 .f32) (harg13 : arg13.IsWhole) (arg14 : Memref sig .tc .vmem S8x128 .f32) (harg14 : arg14.IsWhole) (hc1 : ¬cond1 i) (hc2 : cond2 i) (x1 : Vec F S200x10000 .f32) (x2 : Vec F S200x10000 .f32) (x3 : Vec F S10000x128 .bf16) (x4 : Vec F S128x128 .f32) (x5 : Vec F S1x128 .f32) (x6 : Vec F S128x128 .f32) (x7 : Vec F S1x128 .f32) (x8 : Vec F S1x128 .f32) (x9 : Vec F S1x128 .f32) (x10 : Vec F S128x1 .f32) (x11 : Vec F S1x1 .f32) (x12 : Vec F S10000x1 .f32) (x13 : Vec F S10000x128 .f32) (x14 : Vec F S8x128 .f32) :
    View.canon (kernelRunC c i arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x12 x13 x14).2.2.1 = k0_pay2 (k0_pay9 (k0_pay4 x1 x3 x4 x5 x6 x7) (k0_pay5 x2 x3 x4 x5) x6 x7) x14 :=
  (View.read_writes_eq_canon arg14.view (harg14.unread x14) _ (coverC14 c i arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x12 x13 x14)).symm.trans (statsC c i arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x12 x13 x14)

set_option maxHeartbeats 4000000 in
/-- with the readout of: the two statistics rows as the point leaves them, the scale and shift vectors, the
    activations scratch as the point leaves it, the readout weights and bias. -/
theorem outC (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S10000x1 .f32) (harg12 : arg12.IsWhole) (arg13 : Memref sig .tc .vmem S10000x128 .f32) (harg13 : arg13.IsWhole) (arg14 : Memref sig .tc .vmem S8x128 .f32) (harg14 : arg14.IsWhole) (hc1 : ¬cond1 i) (hc2 : cond2 i) (x1 : Vec F S200x10000 .f32) (x2 : Vec F S200x10000 .f32) (x3 : Vec F S10000x128 .bf16) (x4 : Vec F S128x128 .f32) (x5 : Vec F S1x128 .f32) (x6 : Vec F S128x128 .f32) (x7 : Vec F S1x128 .f32) (x8 : Vec F S1x128 .f32) (x9 : Vec F S1x128 .f32) (x10 : Vec F S128x1 .f32) (x11 : Vec F S1x1 .f32) (x12 : Vec F S10000x1 .f32) (x13 : Vec F S10000x128 .f32) (x14 : Vec F S8x128 .f32) :
    arg12.view.read (Elt F) (arg12.view.writes (Elt F) (harg12.unread x12) (kernelRunC c i arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x12 x13 x14).1)
      = k0_pay3 (row0 (k0_pay2 (k0_pay9 (k0_pay4 x1 x3 x4 x5 x6 x7) (k0_pay5 x2 x3 x4 x5) x6 x7) x14)) (row1 (k0_pay2 (k0_pay9 (k0_pay4 x1 x3 x4 x5 x6 x7) (k0_pay5 x2 x3 x4 x5) x6 x7) x14)) x8 x9
          (arg13.view.read (Elt F) (arg13.view.writes (Elt F) (harg13.unread x13) (kernelRunC c i arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x12 x13 x14).2.1)) x10 x11 := by
  rw [View.read_writes_eq_canon _ _ _ (coverC12 c i arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x12 x13 x14)]
  have hcan := canonC14 c i arg1 harg1 arg2 harg2 arg3 harg3 arg4 harg4 arg5 harg5 arg6 harg6 arg7 harg7 arg8 harg8 arg9 harg9 arg10 harg10 arg11 harg11 arg12 harg12 arg13 harg13 arg14 harg14 hc1 hc2 x1 x2 x3 x4 x5 x6 x7 x8 x9 x10 x11 x12 x13 x14
  unfold kernelRunC at hcan ⊢
  dsimp only at hcan ⊢
  rw [View.canon_unit_zero hz2]
  unfold kernelRunC.sl.v80 kernelRunC.sl.v82 kernelRunC.sl.v100
  simp only [View.readCov_eq_canon', hcan, View.readAt_eq_ld]
  (try rw [ld_whole arg8 harg8 x8 _ hz2 _])
  (try rw [ld_whole arg9 harg9 x9 _ hz2 _])
  (try rw [ld_whole arg10 harg10 x10 _ hz2 _])
  (try rw [ld_whole arg11 harg11 x11 _ hz2 _])
  rw [View.ld_unit_zero (S := S10000x128) hz2]
  rfl

end Cert.KernelIdeal.Hand

end
-- ==== Proof.KISplit.lean ====
import proofs.«123370_g29334626631814_cont_sun_c4_761_10_alg».proof.Proof.KIArr

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The adjacency buffer's full share as its two halves, the other ten buffers as they are. -/
theorem split_core (c : Dev nD) (W : (b : Ref sig .tc) → Buf (Elt F) ((c.tc : Thread nD τ).loc b)) :
    (iprop((((c.tc : Thread nD τ).loc main_arg1) ↦{fullShare} W main_arg1) ∗ (((c.tc : Thread nD τ).loc main_call0_v0) ↦{fullShare} W main_call0_v0) ∗ (((c.tc : Thread nD τ).loc main_arg2) ↦{fullShare} W main_arg2) ∗ (((c.tc : Thread nD τ).loc main_call0_v1) ↦{fullShare} W main_call0_v1) ∗ (((c.tc : Thread nD τ).loc main_arg4) ↦{fullShare} W main_arg4) ∗ (((c.tc : Thread nD τ).loc main_call0_v2) ↦{fullShare} W main_call0_v2) ∗ (((c.tc : Thread nD τ).loc main_call0_v3) ↦{fullShare} W main_call0_v3) ∗ (((c.tc : Thread nD τ).loc main_call0_v4) ↦{fullShare} W main_call0_v4) ∗ (((c.tc : Thread nD τ).loc main_arg8) ↦{fullShare} W main_arg8) ∗ (((c.tc : Thread nD τ).loc main_call0_v5) ↦{fullShare} W main_call0_v5) ∗ (((c.tc : Thread nD τ).loc main_v0) ↦{fullShare} W main_v0)) : sProp 𝕄)
      ⊢ iprop((((c.tc : Thread nD τ).loc main_arg1) ↦{fullShare.left} W main_arg1) ∗ (((c.tc : Thread nD τ).loc main_arg1) ↦{fullShare.right} W main_arg1) ∗ (((c.tc : Thread nD τ).loc main_call0_v0) ↦{fullShare} W main_call0_v0) ∗ (((c.tc : Thread nD τ).loc main_arg2) ↦{fullShare} W main_arg2) ∗ (((c.tc : Thread nD τ).loc main_call0_v1) ↦{fullShare} W main_call0_v1) ∗ (((c.tc : Thread nD τ).loc main_arg4) ↦{fullShare} W main_arg4) ∗ (((c.tc : Thread nD τ).loc main_call0_v2) ↦{fullShare} W main_call0_v2) ∗ (((c.tc : Thread nD τ).loc main_call0_v3) ↦{fullShare} W main_call0_v3) ∗ (((c.tc : Thread nD τ).loc main_call0_v4) ↦{fullShare} W main_call0_v4) ∗ (((c.tc : Thread nD τ).loc main_arg8) ↦{fullShare} W main_arg8) ∗ (((c.tc : Thread nD τ).loc main_call0_v5) ↦{fullShare} W main_call0_v5) ∗ (((c.tc : Thread nD τ).loc main_v0) ↦{fullShare} W main_v0)) := by
  iintro ⟨HA, H2, H3, H4, H5, H6, H7, H8, H9, H10, H11⟩
  ihave HA := (pointsTo_share (PosShare.mem_left_op_right fullShare)).1 $$ HA
  icases HA with ⟨Ha, Hb⟩
  isplitl [Ha]; · iexact Ha
  isplitl [Hb]; · iexact Hb
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

end Cert.KernelIdeal.Hand

end
-- ==== Proof.KILaunch.lean ====
import proofs.«123370_g29334626631814_cont_sun_c4_761_10_alg».proof.Proof.KISplit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The launch, for windows that share an array -/

set_option maxHeartbeats 4000000 in
/-- The adjacency matrix is handed to the kernel through two windows (its even and its odd row blocks): the buffer's
    full share is dealt to them as its two halves; every other array goes whole to its one window. -/
theorem hsplit (dats : (p : Fin 1) → (c : Dev nD) → Dat τ (Elt F) Unit ℕ (UR sig nD τ) ℕ (cfgs p) c) (c : Dev nD)
    (hA : ∀ w, (dats 0 c).A w = V m c (Pipeline.arrRef spec0 w))
    (hq0 : (dats 0 c).q 0 = fullShare.left) (hq1 : (dats 0 c).q 1 = fullShare.right)
    (hq : ∀ w : Fin 12, w ≠ 0 → w ≠ 1 → (dats 0 c).q w = fullShare) :
    (Pipeline.arrBufs spec0 c (V m c) : sProp 𝕄) ⊢ (dats 0 c).arrays ((dats 0 c).arrAt · 0) := by
  rw [arrBufs0_eq]
  unfold Dat.arrays
  rw [bigSep_W0]
  beta_reduce
  have e : ∀ w : Fin 12, ((dats 0 c).arrAt w 0) = V m c (Pipeline.arrRef spec0 w) := fun w => hA w
  have s0 : (dats 0 c).share 0 = fullShare.left := by unfold Dat.share; rw [hq0]; rfl
  have s1 : (dats 0 c).share 1 = fullShare.right := by unfold Dat.share; rw [hq1]; rfl
  have sw : ∀ w : Fin 12, w ≠ 0 → w ≠ 1 → (dats 0 c).share w = fullShare := fun w h0 h1 => by
    unfold Dat.share; rw [hq w h0 h1]; exact ite_self _
  rw [e 0, e 1, e 2, e 3, e 4, e 5, e 6, e 7, e 8, e 9, e 10, e 11, s0, s1,
    sw 2 (by decide) (by decide), sw 3 (by decide) (by decide), sw 4 (by decide) (by decide), sw 5 (by decide) (by decide),
    sw 6 (by decide) (by decide), sw 7 (by decide) (by decide), sw 8 (by decide) (by decide), sw 9 (by decide) (by decide),
    sw 10 (by decide) (by decide), sw 11 (by decide) (by decide),
    (arr_whole0 0).set_eq_univ, (arr_whole0 2).set_eq_univ, (arr_whole0 3).set_eq_univ,
    (arr_whole0 4).set_eq_univ, (arr_whole0 5).set_eq_univ, (arr_whole0 6).set_eq_univ, (arr_whole0 7).set_eq_univ,
    (arr_whole0 8).set_eq_univ, (arr_whole0 9).set_eq_univ, (arr_whole0 10).set_eq_univ, (arr_whole0 11).set_eq_univ]
  exact split_core c (V m c)

/-- The proof's resource algebra: one copy of the rounds library's, the pipeline's. -/
abbrev EP : Emb (UR sig nD τ) (MT nD τ sig Unit (Elt F) ℕ (UR sig nD τ) ℕ) := emb₁

/-- The unscoped buffers no window stages: the features, the four vectors and the readout bias before their casts and
    reshapes. -/
abbrev restRefs : Finset (Ref sig .tc) := Pipeline.restRefs sig spec0

set_option backward.isDefEq.respectTransparency.types false in
/-- THE LAUNCH for this kernel's layout — two input windows on one array: for any proof data that holds the adjacency
    matrix's two windows at the two halves of the full share and every other array whole, owes nothing, whose arrays are
    the region-entry contents, whose invariant the kernel's two scratch buffers (at anything) yield before the first
    point and which yields them back after the last: every weakly fair execution of @main terminates with each windowed
    array at what the write-backs leave and every other unscoped buffer as the region found it. -/
theorem run_shared (dats : (p : Fin 1) → (c : Dev nD) → Dat τ (Elt F) Unit ℕ (UR sig nD τ) ℕ (cfgs p) c)
    (hbody : ∀ c, Pipeline.BodyObligationLoose (dats 0 c) (defs₀ (F := F)) Variants.none () Set.univ)
    (howed : ∀ c t, (dats 0 c).owed t = 0)
    (hA : ∀ c w, (dats 0 c).A w = V m c (Pipeline.arrRef spec0 w))
    (hq0 : ∀ c, (dats 0 c).q 0 = fullShare.left) (hq1 : ∀ c, (dats 0 c).q 1 = fullShare.right)
    (hq : ∀ c, ∀ w : Fin 12, w ≠ 0 → w ≠ 1 → (dats 0 c).q w = fullShare)
    (hin : ∀ c, (Pipeline.scopedRest spec0 c : sProp 𝕄) ⊢ (dats 0 c).Φ 0)
    (hout : ∀ c, (dats 0 c).Φ (Fin.last cfg0.N) ⊢ (Pipeline.scopedRest spec0 c : sProp 𝕄)) :
    θ_run defs (onTc (τ := τ) (main (F := F))) (s₀ m ρ) (fun r => ∀ c : Dev nD,
      (∀ w, r.2.mem ((spec0 w).arr.view.loc (c.tc : Thread nD τ)) = (dats 0 c).arrAt w cfg0.N)
      ∧ ∀ b ∈ restRefs, r.2.mem ((c.tc : Thread nD τ).loc b) = V m c b) :=
  Pipeline.θ_run_region_noSem_shared cfgs dats () cellOf_inj (0 : Fin 1) winFacts₀0 EP defs₀ Variants.none m ρ main
    (hbody := hbody) (hne := block_pos0) (harr := arr_whole0) (hstage := stage_whole0) (howed := howed)
    (u₀ := initOf (Pipeline.cells cfgs cellOf_inj) (Pipeline.launchToks cfgs cellOf_inj)) (hu₀ := BI.Entails.refl _)
    (V := V m) (hmain := hmain m Variants.none)
    (hsplit := fun c => hsplit m dats c (hA c) (hq0 c) (hq1 c) (hq c))
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => (show iprop(emp ∗ Pipeline.scopedRest spec0 c) ⊢ (Pipeline.scopedRest spec0 c : sProp 𝕄) from by
      iintro ⟨-, H⟩; iexact H).trans (hin c))
    (hout := fun c => (hout c).trans (by iintro H; isplitr; · iempintro
                                         iexact H))
    (QY := fun c s => ∀ b ∈ restRefs, s.mem ((c.tc : Thread nD τ).loc b) = V m c b)
    (hY := fun c s' => by
      iintro ⟨-, HU, HSI⟩
      unfold Pipeline.unscopedRest
      imodintro
      iapply (pointsTo_read_all restRefs (fun b => (c.tc : Thread nD τ).loc b) (V m c) s')
      isplitl [HU] <;> iassumption)
    (hQ := fun s h c => h c)

end Cert.KernelIdeal.Hand

end
-- ==== Proof.KIRows.lean ====
import proofs.«123370_g29334626631814_cont_sun_c4_761_10_alg».proof.Proof.KIPieces3
import proofs.«123370_g29334626631814_cont_sun_c4_761_10_alg».proof.Proof.KILaunch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- The kernel's two scratch buffers: the activations and the statistics. -/
abbrev scM0 : Memref sig .tc .vmem S10000x128 .f32 := Memref.whole cc0_scratch0
abbrev scM1 : Memref sig .tc .vmem S8x128 .f32 := Memref.whole cc0_scratch1

/-! ## The rows of the activations scratch, point by point -/

/-- One point further: the rows of the earlier points are untouched, the point's own 400 rows hold its two blocks. -/
theorem rowsOK_stepA (c : Dev nD) (t : Fin cfg0.N) (hc1 : cond1 (grid0.coords t)) (hc2 : ¬cond2 (grid0.coords t)) (xs : Vec F S10000x128 .f32) (s : Vec F S8x128 .f32)
    (hxs : RowsOK m c t.val xs) :
    RowsOK m c (t.val + 1) (scM0.view.read (Elt F) (scM0.view.writes (Elt F) ((Memref.isWhole_whole cc0_scratch0).unread xs) (kernelRunA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) scM0 (Memref.isWhole_whole _) scM1 (Memref.isWhole_whole _) hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) xs s).1)) := by
  intro t' ht' r j
  by_cases hlt : t'.val < t.val
  · have hA := rowsA_out c t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) scM0 (Memref.isWhole_whole _) scM1 (Memref.isWhole_whole _) hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) xs s (ix2 (rowA t' r) j)
      (Or.inl (by show 400 * t'.val + r.val < 400 * t.val; have := r.isLt; omega))
    have hB := rowsA_out c t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) scM0 (Memref.isWhole_whole _) scM1 (Memref.isWhole_whole _) hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) xs s (ix2 (rowB t' r) j)
      (Or.inl (by show 400 * t'.val + 200 + r.val < 400 * t.val; have := r.isLt; omega))
    exact ⟨hA.trans (hxs t' hlt r j).1, hB.trans (hxs t' hlt r j).2⟩
  · obtain rfl : t' = t := Fin.ext (by omega)
    exact ⟨rowsA_inA c t' (win0_0.stage (cfg0.slots t' 0)) (hstage0_0 ((cfg0.slots t' 0).cast nbuf0_0)) (win0_1.stage (cfg0.slots t' 1)) (hstage0_1 ((cfg0.slots t' 1).cast nbuf0_1)) (win0_2.stage (cfg0.slots t' 2)) (hstage0_2 ((cfg0.slots t' 2).cast nbuf0_2)) (win0_3.stage (cfg0.slots t' 3)) (hstage0_3 ((cfg0.slots t' 3).cast nbuf0_3)) (win0_4.stage (cfg0.slots t' 4)) (hstage0_4 ((cfg0.slots t' 4).cast nbuf0_4)) (win0_5.stage (cfg0.slots t' 5)) (hstage0_5 ((cfg0.slots t' 5).cast nbuf0_5)) (win0_6.stage (cfg0.slots t' 6)) (hstage0_6 ((cfg0.slots t' 6).cast nbuf0_6)) (win0_7.stage (cfg0.slots t' 7)) (hstage0_7 ((cfg0.slots t' 7).cast nbuf0_7)) (win0_8.stage (cfg0.slots t' 8)) (hstage0_8 ((cfg0.slots t' 8).cast nbuf0_8)) (win0_9.stage (cfg0.slots t' 9)) (hstage0_9 ((cfg0.slots t' 9).cast nbuf0_9)) (win0_10.stage (cfg0.slots t' 10)) (hstage0_10 ((cfg0.slots t' 10).cast nbuf0_10)) (win0_11.stage (cfg0.slots t' 11)) (hstage0_11 ((cfg0.slots t' 11).cast nbuf0_11)) scM0 (Memref.isWhole_whole _) scM1 (Memref.isWhole_whole _) hc1 hc2 (iblk m c 0 t') (iblk m c 1 t') (iblk m c 2 t') (iblk m c 3 t') (iblk m c 4 t') (iblk m c 5 t') (iblk m c 6 t') (iblk m c 7 t') (iblk m c 8 t') (iblk m c 9 t') (iblk m c 10 t') xs s r j,
      rowsA_inB c t' (win0_0.stage (cfg0.slots t' 0)) (hstage0_0 ((cfg0.slots t' 0).cast nbuf0_0)) (win0_1.stage (cfg0.slots t' 1)) (hstage0_1 ((cfg0.slots t' 1).cast nbuf0_1)) (win0_2.stage (cfg0.slots t' 2)) (hstage0_2 ((cfg0.slots t' 2).cast nbuf0_2)) (win0_3.stage (cfg0.slots t' 3)) (hstage0_3 ((cfg0.slots t' 3).cast nbuf0_3)) (win0_4.stage (cfg0.slots t' 4)) (hstage0_4 ((cfg0.slots t' 4).cast nbuf0_4)) (win0_5.stage (cfg0.slots t' 5)) (hstage0_5 ((cfg0.slots t' 5).cast nbuf0_5)) (win0_6.stage (cfg0.slots t' 6)) (hstage0_6 ((cfg0.slots t' 6).cast nbuf0_6)) (win0_7.stage (cfg0.slots t' 7)) (hstage0_7 ((cfg0.slots t' 7).cast nbuf0_7)) (win0_8.stage (cfg0.slots t' 8)) (hstage0_8 ((cfg0.slots t' 8).cast nbuf0_8)) (win0_9.stage (cfg0.slots t' 9)) (hstage0_9 ((cfg0.slots t' 9).cast nbuf0_9)) (win0_10.stage (cfg0.slots t' 10)) (hstage0_10 ((cfg0.slots t' 10).cast nbuf0_10)) (win0_11.stage (cfg0.slots t' 11)) (hstage0_11 ((cfg0.slots t' 11).cast nbuf0_11)) scM0 (Memref.isWhole_whole _) scM1 (Memref.isWhole_whole _) hc1 hc2 (iblk m c 0 t') (iblk m c 1 t') (iblk m c 2 t') (iblk m c 3 t') (iblk m c 4 t') (iblk m c 5 t') (iblk m c 6 t') (iblk m c 7 t') (iblk m c 8 t') (iblk m c 9 t') (iblk m c 10 t') xs s r j⟩

/-- One point further: the rows of the earlier points are untouched, the point's own 400 rows hold its two blocks. -/
theorem rowsOK_stepB (c : Dev nD) (t : Fin cfg0.N) (hc1 : ¬cond1 (grid0.coords t)) (hc2 : ¬cond2 (grid0.coords t)) (xs : Vec F S10000x128 .f32) (s : Vec F S8x128 .f32)
    (hxs : RowsOK m c t.val xs) :
    RowsOK m c (t.val + 1) (scM0.view.read (Elt F) (scM0.view.writes (Elt F) ((Memref.isWhole_whole cc0_scratch0).unread xs) (kernelRunB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) scM0 (Memref.isWhole_whole _) scM1 (Memref.isWhole_whole _) hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) xs s).1)) := by
  intro t' ht' r j
  by_cases hlt : t'.val < t.val
  · have hA := rowsB_out c t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) scM0 (Memref.isWhole_whole _) scM1 (Memref.isWhole_whole _) hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) xs s (ix2 (rowA t' r) j)
      (Or.inl (by show 400 * t'.val + r.val < 400 * t.val; have := r.isLt; omega))
    have hB := rowsB_out c t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) scM0 (Memref.isWhole_whole _) scM1 (Memref.isWhole_whole _) hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) xs s (ix2 (rowB t' r) j)
      (Or.inl (by show 400 * t'.val + 200 + r.val < 400 * t.val; have := r.isLt; omega))
    exact ⟨hA.trans (hxs t' hlt r j).1, hB.trans (hxs t' hlt r j).2⟩
  · obtain rfl : t' = t := Fin.ext (by omega)
    exact ⟨rowsB_inA c t' (win0_0.stage (cfg0.slots t' 0)) (hstage0_0 ((cfg0.slots t' 0).cast nbuf0_0)) (win0_1.stage (cfg0.slots t' 1)) (hstage0_1 ((cfg0.slots t' 1).cast nbuf0_1)) (win0_2.stage (cfg0.slots t' 2)) (hstage0_2 ((cfg0.slots t' 2).cast nbuf0_2)) (win0_3.stage (cfg0.slots t' 3)) (hstage0_3 ((cfg0.slots t' 3).cast nbuf0_3)) (win0_4.stage (cfg0.slots t' 4)) (hstage0_4 ((cfg0.slots t' 4).cast nbuf0_4)) (win0_5.stage (cfg0.slots t' 5)) (hstage0_5 ((cfg0.slots t' 5).cast nbuf0_5)) (win0_6.stage (cfg0.slots t' 6)) (hstage0_6 ((cfg0.slots t' 6).cast nbuf0_6)) (win0_7.stage (cfg0.slots t' 7)) (hstage0_7 ((cfg0.slots t' 7).cast nbuf0_7)) (win0_8.stage (cfg0.slots t' 8)) (hstage0_8 ((cfg0.slots t' 8).cast nbuf0_8)) (win0_9.stage (cfg0.slots t' 9)) (hstage0_9 ((cfg0.slots t' 9).cast nbuf0_9)) (win0_10.stage (cfg0.slots t' 10)) (hstage0_10 ((cfg0.slots t' 10).cast nbuf0_10)) (win0_11.stage (cfg0.slots t' 11)) (hstage0_11 ((cfg0.slots t' 11).cast nbuf0_11)) scM0 (Memref.isWhole_whole _) scM1 (Memref.isWhole_whole _) hc1 hc2 (iblk m c 0 t') (iblk m c 1 t') (iblk m c 2 t') (iblk m c 3 t') (iblk m c 4 t') (iblk m c 5 t') (iblk m c 6 t') (iblk m c 7 t') (iblk m c 8 t') (iblk m c 9 t') (iblk m c 10 t') xs s r j,
      rowsB_inB c t' (win0_0.stage (cfg0.slots t' 0)) (hstage0_0 ((cfg0.slots t' 0).cast nbuf0_0)) (win0_1.stage (cfg0.slots t' 1)) (hstage0_1 ((cfg0.slots t' 1).cast nbuf0_1)) (win0_2.stage (cfg0.slots t' 2)) (hstage0_2 ((cfg0.slots t' 2).cast nbuf0_2)) (win0_3.stage (cfg0.slots t' 3)) (hstage0_3 ((cfg0.slots t' 3).cast nbuf0_3)) (win0_4.stage (cfg0.slots t' 4)) (hstage0_4 ((cfg0.slots t' 4).cast nbuf0_4)) (win0_5.stage (cfg0.slots t' 5)) (hstage0_5 ((cfg0.slots t' 5).cast nbuf0_5)) (win0_6.stage (cfg0.slots t' 6)) (hstage0_6 ((cfg0.slots t' 6).cast nbuf0_6)) (win0_7.stage (cfg0.slots t' 7)) (hstage0_7 ((cfg0.slots t' 7).cast nbuf0_7)) (win0_8.stage (cfg0.slots t' 8)) (hstage0_8 ((cfg0.slots t' 8).cast nbuf0_8)) (win0_9.stage (cfg0.slots t' 9)) (hstage0_9 ((cfg0.slots t' 9).cast nbuf0_9)) (win0_10.stage (cfg0.slots t' 10)) (hstage0_10 ((cfg0.slots t' 10).cast nbuf0_10)) (win0_11.stage (cfg0.slots t' 11)) (hstage0_11 ((cfg0.slots t' 11).cast nbuf0_11)) scM0 (Memref.isWhole_whole _) scM1 (Memref.isWhole_whole _) hc1 hc2 (iblk m c 0 t') (iblk m c 1 t') (iblk m c 2 t') (iblk m c 3 t') (iblk m c 4 t') (iblk m c 5 t') (iblk m c 6 t') (iblk m c 7 t') (iblk m c 8 t') (iblk m c 9 t') (iblk m c 10 t') xs s r j⟩

/-- One point further: the rows of the earlier points are untouched, the point's own 400 rows hold its two blocks. -/
theorem rowsOK_stepC (c : Dev nD) (t : Fin cfg0.N) (hc1 : ¬cond1 (grid0.coords t)) (hc2 : cond2 (grid0.coords t)) (x12 : Vec F S10000x1 .f32) (xs : Vec F S10000x128 .f32) (s : Vec F S8x128 .f32)
    (hxs : RowsOK m c t.val xs) :
    RowsOK m c (t.val + 1) (scM0.view.read (Elt F) (scM0.view.writes (Elt F) ((Memref.isWhole_whole cc0_scratch0).unread xs) (kernelRunC c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) scM0 (Memref.isWhole_whole _) scM1 (Memref.isWhole_whole _) hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) x12 xs s).2.1)) := by
  intro t' ht' r j
  by_cases hlt : t'.val < t.val
  · have hA := rowsC_out c t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) scM0 (Memref.isWhole_whole _) scM1 (Memref.isWhole_whole _) hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) x12 xs s (ix2 (rowA t' r) j)
      (Or.inl (by show 400 * t'.val + r.val < 400 * t.val; have := r.isLt; omega))
    have hB := rowsC_out c t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) scM0 (Memref.isWhole_whole _) scM1 (Memref.isWhole_whole _) hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) x12 xs s (ix2 (rowB t' r) j)
      (Or.inl (by show 400 * t'.val + 200 + r.val < 400 * t.val; have := r.isLt; omega))
    exact ⟨hA.trans (hxs t' hlt r j).1, hB.trans (hxs t' hlt r j).2⟩
  · obtain rfl : t' = t := Fin.ext (by omega)
    exact ⟨rowsC_inA c t' (win0_0.stage (cfg0.slots t' 0)) (hstage0_0 ((cfg0.slots t' 0).cast nbuf0_0)) (win0_1.stage (cfg0.slots t' 1)) (hstage0_1 ((cfg0.slots t' 1).cast nbuf0_1)) (win0_2.stage (cfg0.slots t' 2)) (hstage0_2 ((cfg0.slots t' 2).cast nbuf0_2)) (win0_3.stage (cfg0.slots t' 3)) (hstage0_3 ((cfg0.slots t' 3).cast nbuf0_3)) (win0_4.stage (cfg0.slots t' 4)) (hstage0_4 ((cfg0.slots t' 4).cast nbuf0_4)) (win0_5.stage (cfg0.slots t' 5)) (hstage0_5 ((cfg0.slots t' 5).cast nbuf0_5)) (win0_6.stage (cfg0.slots t' 6)) (hstage0_6 ((cfg0.slots t' 6).cast nbuf0_6)) (win0_7.stage (cfg0.slots t' 7)) (hstage0_7 ((cfg0.slots t' 7).cast nbuf0_7)) (win0_8.stage (cfg0.slots t' 8)) (hstage0_8 ((cfg0.slots t' 8).cast nbuf0_8)) (win0_9.stage (cfg0.slots t' 9)) (hstage0_9 ((cfg0.slots t' 9).cast nbuf0_9)) (win0_10.stage (cfg0.slots t' 10)) (hstage0_10 ((cfg0.slots t' 10).cast nbuf0_10)) (win0_11.stage (cfg0.slots t' 11)) (hstage0_11 ((cfg0.slots t' 11).cast nbuf0_11)) scM0 (Memref.isWhole_whole _) scM1 (Memref.isWhole_whole _) hc1 hc2 (iblk m c 0 t') (iblk m c 1 t') (iblk m c 2 t') (iblk m c 3 t') (iblk m c 4 t') (iblk m c 5 t') (iblk m c 6 t') (iblk m c 7 t') (iblk m c 8 t') (iblk m c 9 t') (iblk m c 10 t') x12 xs s r j,
      rowsC_inB c t' (win0_0.stage (cfg0.slots t' 0)) (hstage0_0 ((cfg0.slots t' 0).cast nbuf0_0)) (win0_1.stage (cfg0.slots t' 1)) (hstage0_1 ((cfg0.slots t' 1).cast nbuf0_1)) (win0_2.stage (cfg0.slots t' 2)) (hstage0_2 ((cfg0.slots t' 2).cast nbuf0_2)) (win0_3.stage (cfg0.slots t' 3)) (hstage0_3 ((cfg0.slots t' 3).cast nbuf0_3)) (win0_4.stage (cfg0.slots t' 4)) (hstage0_4 ((cfg0.slots t' 4).cast nbuf0_4)) (win0_5.stage (cfg0.slots t' 5)) (hstage0_5 ((cfg0.slots t' 5).cast nbuf0_5)) (win0_6.stage (cfg0.slots t' 6)) (hstage0_6 ((cfg0.slots t' 6).cast nbuf0_6)) (win0_7.stage (cfg0.slots t' 7)) (hstage0_7 ((cfg0.slots t' 7).cast nbuf0_7)) (win0_8.stage (cfg0.slots t' 8)) (hstage0_8 ((cfg0.slots t' 8).cast nbuf0_8)) (win0_9.stage (cfg0.slots t' 9)) (hstage0_9 ((cfg0.slots t' 9).cast nbuf0_9)) (win0_10.stage (cfg0.slots t' 10)) (hstage0_10 ((cfg0.slots t' 10).cast nbuf0_10)) (win0_11.stage (cfg0.slots t' 11)) (hstage0_11 ((cfg0.slots t' 11).cast nbuf0_11)) scM0 (Memref.isWhole_whole _) scM1 (Memref.isWhole_whole _) hc1 hc2 (iblk m c 0 t') (iblk m c 1 t') (iblk m c 2 t') (iblk m c 3 t') (iblk m c 4 t') (iblk m c 5 t') (iblk m c 6 t') (iblk m c 7 t') (iblk m c 8 t') (iblk m c 9 t') (iblk m c 10 t') x12 xs s r j⟩

/-- Once all 25 points have stored their blocks the scratch is the assembled activations. -/
theorem eq_xfull_of_rowsOK (c : Dev nD) (xs : Vec F S10000x128 .f32) (h : RowsOK m c 25 xs) : xs = xfull m c := by
  funext y
  obtain ⟨p, q, rfl⟩ : ∃ (p : Fin 10000) (q : Fin 128), y = ix2 p q := ⟨y 0, y 1, eq_ix2 y⟩
  have hp := p.isLt
  have hN' := hN
  unfold xfull
  by_cases hr : p.val % 400 < 200
  · rw [dif_pos (show ((ix2 p q : S10000x128.Idx) 0).val % 400 < 200 from hr)]
    have := (h ⟨p.val / 400, by omega⟩ (by show p.val / 400 < 25; omega) ⟨p.val % 400, hr⟩ q).1
    refine Eq.trans (congrArg xs (funext fun a => ?_)) this
    match a with
    | ⟨0, _⟩ => exact Fin.ext (by show p.val = 400 * (p.val / 400) + p.val % 400; omega)
    | ⟨1, _⟩ => rfl
  · rw [dif_neg (show ¬((ix2 p q : S10000x128.Idx) 0).val % 400 < 200 from hr)]
    have hm := Nat.mod_lt p.val (show 0 < 400 by decide)
    have := (h ⟨p.val / 400, by omega⟩ (by show p.val / 400 < 25; omega) ⟨p.val % 400 - 200, by omega⟩ q).2
    refine Eq.trans (congrArg xs (funext fun a => ?_)) this
    match a with
    | ⟨0, _⟩ => exact Fin.ext (by show p.val = 400 * (p.val / 400) + 200 + (p.val % 400 - 200); omega)
    | ⟨1, _⟩ => rfl

end Cert.KernelIdeal.Hand

end
-- ==== Proof.KIDat.lean ====
import proofs.«123370_g29334626631814_cont_sun_c4_761_10_alg».proof.Proof.KIRows

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The invariant: what the two scratch buffers hold between points -/

/-- Before the first point the scratch buffers hold anything; after point `n` the activations scratch holds the blocks
    of the points up to `n` in their rows (the later rows anything) and the statistics scratch the sums so far. -/
def PhiS (c : Dev nD) : (n : ℕ) → n ≤ cfg0.N → sProp 𝕄
  | 0, _ => Pipeline.scopedRest spec0 c
  | n + 1, hn => iprop(∃ xs : Vec F S10000x128 .f32, ⌜RowsOK m c (n + 1) xs⌝
      ∗ owns (c : Thread nD τ) scM0 fullShare xs ∗ owns (c : Thread nD τ) scM1 fullShare (statsAt m c n hn))

theorem PhiS_zero (c : Dev nD) (n : ℕ) (h : n ≤ cfg0.N) (hz : n = 0) : PhiS m c n h = Pipeline.scopedRest spec0 c := by
  subst hz; rfl
theorem PhiS_succ (c : Dev nD) (n : ℕ) (hn : n < cfg0.N) :
    PhiS m c (n + 1) hn = iprop(∃ xs : Vec F S10000x128 .f32, ⌜RowsOK m c (n + 1) xs⌝
      ∗ owns (c : Thread nD τ) scM0 fullShare xs ∗ owns (c : Thread nD τ) scM1 fullShare (statsAt m c n hn)) := rfl
theorem PhiS_pos (c : Dev nD) (n : ℕ) (h : n ≤ cfg0.N) (hz : n ≠ 0) :
    PhiS m c n h = iprop(∃ xs : Vec F S10000x128 .f32, ⌜RowsOK m c n xs⌝
      ∗ owns (c : Thread nD τ) scM0 fullShare xs ∗ owns (c : Thread nD τ) scM1 fullShare (statsAt m c (n - 1) (by omega))) := by
  cases n with
  | zero => exact absurd rfl hz
  | succ n => rfl

/-- The scoped rest is the two scratch buffers, each whole at some contents. -/
theorem PhiS0_eq (c : Dev nD) :
    (Pipeline.scopedRest spec0 c : sProp 𝕄)
      = iprop((∃ d, owns (c : Thread nD τ) scM0 fullShare d) ∗ (∃ d, owns (c : Thread nD τ) scM1 fullShare d)) := by
  rw [scopedRest0_eq]; simp only [scM0, scM1, owns_whole]; try rfl

theorem statsAt_zero (c : Dev nD) (t : Fin cfg0.N) (h0 : t.val = 0) :
    statsAt m c t.val t.isLt = k0_pay2 (k0_pay9 (k0_pay4 (iblk m c 0 t) (iblk m c 2 t) (iblk m c 3 t) (iblk m c 4 t) (iblk m c 5 t) (iblk m c 6 t)) (k0_pay5 (iblk m c 1 t) (iblk m c 2 t) (iblk m c 3 t) (iblk m c 4 t)) (iblk m c 5 t) (iblk m c 6 t)) (k0_pay1 (F := F)) := by
  obtain ⟨n, hn⟩ := t
  cases n with
  | zero => rfl
  | succ n => exact absurd h0 (by simp)
theorem statsAt_pos (c : Dev nD) (t : Fin cfg0.N) (h0 : t.val ≠ 0) :
    statsAt m c t.val t.isLt = k0_pay2 (k0_pay9 (k0_pay4 (iblk m c 0 t) (iblk m c 2 t) (iblk m c 3 t) (iblk m c 4 t) (iblk m c 5 t) (iblk m c 6 t)) (k0_pay5 (iblk m c 1 t) (iblk m c 2 t) (iblk m c 3 t) (iblk m c 4 t)) (iblk m c 5 t) (iblk m c 6 t)) (statsAt m c (t.val - 1) (by have := t.isLt; omega)) := by
  obtain ⟨n, hn⟩ := t
  cases n with
  | zero => exact absurd rfl h0
  | succ n => rfl

/-! ## The proof data -/

/-- The arrays as the region finds them; after the body each input's buffer at its block, the output's at the readout
    (the last point's store; idle before); the adjacency matrix's two windows at the two halves of its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outVal m c
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after_11 (c : Dev nD) (t : Fin cfg0.N) : (dats m 0 c).after 11 t = outVal m c := by dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem leaves_0 (c : Dev nD) (t : Fin cfg0.N) :
    (dats m 0 c).leavesExact 0 t = owns (c : Thread nD τ) (win0_0.stage (cfg0.slots t 0)) fullShare (iblk m c 0 t) := by
  unfold Dat.leavesExact; rw [show cfg0.idle 0 (cfg0.grid.coords t) = false from rfl, after_0]
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem leaves_1 (c : Dev nD) (t : Fin cfg0.N) :
    (dats m 0 c).leavesExact 1 t = owns (c : Thread nD τ) (win0_1.stage (cfg0.slots t 1)) fullShare (iblk m c 1 t) := by
  unfold Dat.leavesExact; rw [show cfg0.idle 1 (cfg0.grid.coords t) = false from rfl, after_1]
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem leaves_2 (c : Dev nD) (t : Fin cfg0.N) :
    (dats m 0 c).leavesExact 2 t = owns (c : Thread nD τ) (win0_2.stage (cfg0.slots t 2)) fullShare (iblk m c 2 t) := by
  unfold Dat.leavesExact; rw [show cfg0.idle 2 (cfg0.grid.coords t) = false from rfl, after_2]
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem leaves_3 (c : Dev nD) (t : Fin cfg0.N) :
    (dats m 0 c).leavesExact 3 t = owns (c : Thread nD τ) (win0_3.stage (cfg0.slots t 3)) fullShare (iblk m c 3 t) := by
  unfold Dat.leavesExact; rw [show cfg0.idle 3 (cfg0.grid.coords t) = false from rfl, after_3]
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem leaves_4 (c : Dev nD) (t : Fin cfg0.N) :
    (dats m 0 c).leavesExact 4 t = owns (c : Thread nD τ) (win0_4.stage (cfg0.slots t 4)) fullShare (iblk m c 4 t) := by
  unfold Dat.leavesExact; rw [show cfg0.idle 4 (cfg0.grid.coords t) = false from rfl, after_4]
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem leaves_5 (c : Dev nD) (t : Fin cfg0.N) :
    (dats m 0 c).leavesExact 5 t = owns (c : Thread nD τ) (win0_5.stage (cfg0.slots t 5)) fullShare (iblk m c 5 t) := by
  unfold Dat.leavesExact; rw [show cfg0.idle 5 (cfg0.grid.coords t) = false from rfl, after_5]
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  ((dats m 0 c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem leaves_6 (c : Dev nD) (t : Fin cfg0.N) :
    (dats m 0 c).leavesExact 6 t = owns (c : Thread nD τ) (win0_6.stage (cfg0.slots t 6)) fullShare (iblk m c 6 t) := by
  unfold Dat.leavesExact; rw [show cfg0.idle 6 (cfg0.grid.coords t) = false from rfl, after_6]
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  ((dats m 0 c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)
theorem leaves_7 (c : Dev nD) (t : Fin cfg0.N) :
    (dats m 0 c).leavesExact 7 t = owns (c : Thread nD τ) (win0_7.stage (cfg0.slots t 7)) fullShare (iblk m c 7 t) := by
  unfold Dat.leavesExact; rw [show cfg0.idle 7 (cfg0.grid.coords t) = false from rfl, after_7]
theorem after_8 (c : Dev nD) (t : Fin cfg0.N) : (dats m 0 c).after 8 t = iblk m c 8 t := by dsimp only [dats]
theorem before_8 (c : Dev nD) (t : Fin cfg0.N) (d) : (dats m 0 c).before 8 t d = iblk m c 8 t :=
  ((dats m 0 c).before_in_eq_fetched 8 rfl (fun _ => rfl) (fun _ _ _ => rfl)
    (fun t => by rw [after_8]; unfold Dat.blockOf iblk; rw [A_eq]; try rfl) t d).trans
    (by unfold Dat.fetched Dat.blockOf iblk; rw [A_eq]; try rfl)
theorem leaves_8 (c : Dev nD) (t : Fin cfg0.N) :
    (dats m 0 c).leavesExact 8 t = owns (c : Thread nD τ) (win0_8.stage (cfg0.slots t 8)) fullShare (iblk m c 8 t) := by
  unfold Dat.leavesExact; rw [show cfg0.idle 8 (cfg0.grid.coords t) = false from rfl, after_8]
theorem after_9 (c : Dev nD) (t : Fin cfg0.N) : (dats m 0 c).after 9 t = iblk m c 9 t := by dsimp only [dats]
theorem before_9 (c : Dev nD) (t : Fin cfg0.N) (d) : (dats m 0 c).before 9 t d = iblk m c 9 t :=
  ((dats m 0 c).before_in_eq_fetched 9 rfl (fun _ => rfl) (fun _ _ _ => rfl)
    (fun t => by rw [after_9]; unfold Dat.blockOf iblk; rw [A_eq]; try rfl) t d).trans
    (by unfold Dat.fetched Dat.blockOf iblk; rw [A_eq]; try rfl)
theorem leaves_9 (c : Dev nD) (t : Fin cfg0.N) :
    (dats m 0 c).leavesExact 9 t = owns (c : Thread nD τ) (win0_9.stage (cfg0.slots t 9)) fullShare (iblk m c 9 t) := by
  unfold Dat.leavesExact; rw [show cfg0.idle 9 (cfg0.grid.coords t) = false from rfl, after_9]
theorem after_10 (c : Dev nD) (t : Fin cfg0.N) : (dats m 0 c).after 10 t = iblk m c 10 t := by dsimp only [dats]
theorem before_10 (c : Dev nD) (t : Fin cfg0.N) (d) : (dats m 0 c).before 10 t d = iblk m c 10 t :=
  ((dats m 0 c).before_in_eq_fetched 10 rfl (fun _ => rfl) (fun _ _ _ => rfl)
    (fun t => by rw [after_10]; unfold Dat.blockOf iblk; rw [A_eq]; try rfl) t d).trans
    (by unfold Dat.fetched Dat.blockOf iblk; rw [A_eq]; try rfl)
theorem leaves_10 (c : Dev nD) (t : Fin cfg0.N) :
    (dats m 0 c).leavesExact 10 t = owns (c : Thread nD τ) (win0_10.stage (cfg0.slots t 10)) fullShare (iblk m c 10 t) := by
  unfold Dat.leavesExact; rw [show cfg0.idle 10 (cfg0.grid.coords t) = false from rfl, after_10]

/-- The output window is idle and not written back away from the last point, live at it. -/
theorem idle11 : ∀ t : Fin cfg0.N, ¬cond2 (grid0.coords t) → cfg0.idle 11 (grid0.coords t) = true := by decide +kernel
theorem noFlush11 : ∀ t : Fin cfg0.N, ¬cond2 (grid0.coords t) → (cfg0.win 11).flush t = false := by decide +kernel
theorem live11 : ∀ t : Fin cfg0.N, cond2 (grid0.coords t) → cfg0.idle 11 (grid0.coords t) = false := by decide +kernel
theorem leaves_11_live (c : Dev nD) (t : Fin cfg0.N) (h : cond2 (grid0.coords t)) :
    (dats m 0 c).leavesExact 11 t = owns (c : Thread nD τ) (win0_11.stage (cfg0.slots t 11)) fullShare (outVal m c) := by
  unfold Dat.leavesExact; rw [live11 t h, after_11]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 16000000 in
/-- The body at any point: the inputs' buffers hold their blocks; which of the three cases the point is in is read off its
    position; the case's run applies; the rows and the statistics advance by the point's step. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [show (dats m 0 c).owesAt () t.succ = (dats m 0 c).owesAt () t.castSucc from rfl]
  rw [show (dats m 0 c).Φ t.succ = PhiS m c (t.val + 1) t.isLt from rfl, PhiS_succ]
  rw [leaves_0 m c t, leaves_1 m c t, leaves_2 m c t, leaves_3 m c t, leaves_4 m c t, leaves_5 m c t, leaves_6 m c t, leaves_7 m c t, leaves_8 m c t, leaves_9 m c t, leaves_10 m c t]
  have hN' : t.val < 25 := lt_of_lt_of_eq t.isLt hN
  by_cases h0 : t.val = 0
  · have h24 : ¬t.val = 24 := by omega
    have hc1 : cond1 (grid0.coords t) := (hcond1 t).mpr h0
    have hc2 : ¬cond2 (grid0.coords t) := fun h => h24 ((hcond2 t).mp h)
    rw [Dat.leavesExact_idle (dats m 0 c) 11 t (idle11 t hc2) (noFlush11 t hc2)]
    rw [PhiS_castSucc m c t, PhiS_zero m c _ _ h0, PhiS0_eq]
    iintro ⟨⟨⟨%xs, HS0⟩, ⟨%s, HS1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    have hxs : RowsOK m c t.val xs := fun t' ht' => absurd ht' (by omega)
    iapply ((kernelRunA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) scM0 (Memref.isWhole_whole _) scM1 (Memref.isWhole_whole _) hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) xs s).2.2 ((dats m 0 c).before 11 t d11) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    isplitl [HS1]; · iexact HS1
    iintro ⟨H0, H1, H2, H3, H4, H5, H6, H7, H8, H9, H10, H11, HS0, HS1⟩
    isplitl [HS0 HS1]
    · iexists (scM0.view.read (Elt F) (scM0.view.writes (Elt F) ((Memref.isWhole_whole cc0_scratch0).unread xs) (kernelRunA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) scM0 (Memref.isWhole_whole _) scM1 (Memref.isWhole_whole _) hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) xs s).1))
      isplitr
      · ipureintro; exact rowsOK_stepA m c t hc1 hc2 xs s hxs
      isplitl [HS0]
      · unfold owns; iexists _; isplitr
        swap; · iexact HS0
        ipureintro; rfl
      · unfold owns; iexists _; isplitr
        swap; · iexact HS1
        ipureintro
        exact (statsA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) scM0 (Memref.isWhole_whole _) scM1 (Memref.isWhole_whole _) hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) xs s).trans (statsAt_zero m c t h0).symm
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexists d11; iexact H11
  · by_cases h24 : t.val = 24
    · obtain rfl : t = tLast := Fin.ext (by rw [h24]; rfl)
      have hc1 : ¬cond1 (grid0.coords tLast) := fun h => h0 ((hcond1 tLast).mp h)
      have hc2 : cond2 (grid0.coords tLast) := (hcond2 tLast).mpr h24
      rw [leaves_11_live m c tLast hc2]
      rw [PhiS_castSucc m c tLast, PhiS_pos m c _ _ h0]
      iintro ⟨⟨%xs, %hxs, HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRunC c (grid0.coords tLast) (win0_0.stage (cfg0.slots tLast 0)) (hstage0_0 ((cfg0.slots tLast 0).cast nbuf0_0)) (win0_1.stage (cfg0.slots tLast 1)) (hstage0_1 ((cfg0.slots tLast 1).cast nbuf0_1)) (win0_2.stage (cfg0.slots tLast 2)) (hstage0_2 ((cfg0.slots tLast 2).cast nbuf0_2)) (win0_3.stage (cfg0.slots tLast 3)) (hstage0_3 ((cfg0.slots tLast 3).cast nbuf0_3)) (win0_4.stage (cfg0.slots tLast 4)) (hstage0_4 ((cfg0.slots tLast 4).cast nbuf0_4)) (win0_5.stage (cfg0.slots tLast 5)) (hstage0_5 ((cfg0.slots tLast 5).cast nbuf0_5)) (win0_6.stage (cfg0.slots tLast 6)) (hstage0_6 ((cfg0.slots tLast 6).cast nbuf0_6)) (win0_7.stage (cfg0.slots tLast 7)) (hstage0_7 ((cfg0.slots tLast 7).cast nbuf0_7)) (win0_8.stage (cfg0.slots tLast 8)) (hstage0_8 ((cfg0.slots tLast 8).cast nbuf0_8)) (win0_9.stage (cfg0.slots tLast 9)) (hstage0_9 ((cfg0.slots tLast 9).cast nbuf0_9)) (win0_10.stage (cfg0.slots tLast 10)) (hstage0_10 ((cfg0.slots tLast 10).cast nbuf0_10)) (win0_11.stage (cfg0.slots tLast 11)) (hstage0_11 ((cfg0.slots tLast 11).cast nbuf0_11)) scM0 (Memref.isWhole_whole _) scM1 (Memref.isWhole_whole _) hc1 hc2 (iblk m c 0 tLast) (iblk m c 1 tLast) (iblk m c 2 tLast) (iblk m c 3 tLast) (iblk m c 4 tLast) (iblk m c 5 tLast) (iblk m c 6 tLast) (iblk m c 7 tLast) (iblk m c 8 tLast) (iblk m c 9 tLast) (iblk m c 10 tLast) ((dats m 0 c).before 11 tLast d11) xs (statsAt m c (tLast.val - 1) (by have := tLast.isLt; omega))).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      isplitl [HS1]; · iexact HS1
      iintro ⟨H0, H1, H2, H3, H4, H5, H6, H7, H8, H9, H10, H11, HS0, HS1⟩
      isplitl [HS0 HS1]
      · iexists (scM0.view.read (Elt F) (scM0.view.writes (Elt F) ((Memref.isWhole_whole cc0_scratch0).unread xs) (kernelRunC c (grid0.coords tLast) (win0_0.stage (cfg0.slots tLast 0)) (hstage0_0 ((cfg0.slots tLast 0).cast nbuf0_0)) (win0_1.stage (cfg0.slots tLast 1)) (hstage0_1 ((cfg0.slots tLast 1).cast nbuf0_1)) (win0_2.stage (cfg0.slots tLast 2)) (hstage0_2 ((cfg0.slots tLast 2).cast nbuf0_2)) (win0_3.stage (cfg0.slots tLast 3)) (hstage0_3 ((cfg0.slots tLast 3).cast nbuf0_3)) (win0_4.stage (cfg0.slots tLast 4)) (hstage0_4 ((cfg0.slots tLast 4).cast nbuf0_4)) (win0_5.stage (cfg0.slots tLast 5)) (hstage0_5 ((cfg0.slots tLast 5).cast nbuf0_5)) (win0_6.stage (cfg0.slots tLast 6)) (hstage0_6 ((cfg0.slots tLast 6).cast nbuf0_6)) (win0_7.stage (cfg0.slots tLast 7)) (hstage0_7 ((cfg0.slots tLast 7).cast nbuf0_7)) (win0_8.stage (cfg0.slots tLast 8)) (hstage0_8 ((cfg0.slots tLast 8).cast nbuf0_8)) (win0_9.stage (cfg0.slots tLast 9)) (hstage0_9 ((cfg0.slots tLast 9).cast nbuf0_9)) (win0_10.stage (cfg0.slots tLast 10)) (hstage0_10 ((cfg0.slots tLast 10).cast nbuf0_10)) (win0_11.stage (cfg0.slots tLast 11)) (hstage0_11 ((cfg0.slots tLast 11).cast nbuf0_11)) scM0 (Memref.isWhole_whole _) scM1 (Memref.isWhole_whole _) hc1 hc2 (iblk m c 0 tLast) (iblk m c 1 tLast) (iblk m c 2 tLast) (iblk m c 3 tLast) (iblk m c 4 tLast) (iblk m c 5 tLast) (iblk m c 6 tLast) (iblk m c 7 tLast) (iblk m c 8 tLast) (iblk m c 9 tLast) (iblk m c 10 tLast) ((dats m 0 c).before 11 tLast d11) xs (statsAt m c (tLast.val - 1) (by have := tLast.isLt; omega))).2.1))
        isplitr
        · ipureintro; exact rowsOK_stepC m c tLast hc1 hc2 ((dats m 0 c).before 11 tLast d11) xs (statsAt m c (tLast.val - 1) (by have := tLast.isLt; omega)) hxs
        isplitl [HS0]
        · unfold owns; iexists _; isplitr
          swap; · iexact HS0
          ipureintro; rfl
        · unfold owns; iexists _; isplitr
          swap; · iexact HS1
          ipureintro
          exact (statsC c (grid0.coords tLast) (win0_0.stage (cfg0.slots tLast 0)) (hstage0_0 ((cfg0.slots tLast 0).cast nbuf0_0)) (win0_1.stage (cfg0.slots tLast 1)) (hstage0_1 ((cfg0.slots tLast 1).cast nbuf0_1)) (win0_2.stage (cfg0.slots tLast 2)) (hstage0_2 ((cfg0.slots tLast 2).cast nbuf0_2)) (win0_3.stage (cfg0.slots tLast 3)) (hstage0_3 ((cfg0.slots tLast 3).cast nbuf0_3)) (win0_4.stage (cfg0.slots tLast 4)) (hstage0_4 ((cfg0.slots tLast 4).cast nbuf0_4)) (win0_5.stage (cfg0.slots tLast 5)) (hstage0_5 ((cfg0.slots tLast 5).cast nbuf0_5)) (win0_6.stage (cfg0.slots tLast 6)) (hstage0_6 ((cfg0.slots tLast 6).cast nbuf0_6)) (win0_7.stage (cfg0.slots tLast 7)) (hstage0_7 ((cfg0.slots tLast 7).cast nbuf0_7)) (win0_8.stage (cfg0.slots tLast 8)) (hstage0_8 ((cfg0.slots tLast 8).cast nbuf0_8)) (win0_9.stage (cfg0.slots tLast 9)) (hstage0_9 ((cfg0.slots tLast 9).cast nbuf0_9)) (win0_10.stage (cfg0.slots tLast 10)) (hstage0_10 ((cfg0.slots tLast 10).cast nbuf0_10)) (win0_11.stage (cfg0.slots tLast 11)) (hstage0_11 ((cfg0.slots tLast 11).cast nbuf0_11)) scM0 (Memref.isWhole_whole _) scM1 (Memref.isWhole_whole _) hc1 hc2 (iblk m c 0 tLast) (iblk m c 1 tLast) (iblk m c 2 tLast) (iblk m c 3 tLast) (iblk m c 4 tLast) (iblk m c 5 tLast) (iblk m c 6 tLast) (iblk m c 7 tLast) (iblk m c 8 tLast) (iblk m c 9 tLast) (iblk m c 10 tLast) ((dats m 0 c).before 11 tLast d11) xs (statsAt m c (tLast.val - 1) (by have := tLast.isLt; omega))).trans (statsAt_pos m c tLast h0).symm
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      unfold owns; iexists _; isplitr
      swap; · iexact H11
      ipureintro
      have h25 : RowsOK m c 25 (scM0.view.read (Elt F) (scM0.view.writes (Elt F) ((Memref.isWhole_whole cc0_scratch0).unread xs) (kernelRunC c (grid0.coords tLast) (win0_0.stage (cfg0.slots tLast 0)) (hstage0_0 ((cfg0.slots tLast 0).cast nbuf0_0)) (win0_1.stage (cfg0.slots tLast 1)) (hstage0_1 ((cfg0.slots tLast 1).cast nbuf0_1)) (win0_2.stage (cfg0.slots tLast 2)) (hstage0_2 ((cfg0.slots tLast 2).cast nbuf0_2)) (win0_3.stage (cfg0.slots tLast 3)) (hstage0_3 ((cfg0.slots tLast 3).cast nbuf0_3)) (win0_4.stage (cfg0.slots tLast 4)) (hstage0_4 ((cfg0.slots tLast 4).cast nbuf0_4)) (win0_5.stage (cfg0.slots tLast 5)) (hstage0_5 ((cfg0.slots tLast 5).cast nbuf0_5)) (win0_6.stage (cfg0.slots tLast 6)) (hstage0_6 ((cfg0.slots tLast 6).cast nbuf0_6)) (win0_7.stage (cfg0.slots tLast 7)) (hstage0_7 ((cfg0.slots tLast 7).cast nbuf0_7)) (win0_8.stage (cfg0.slots tLast 8)) (hstage0_8 ((cfg0.slots tLast 8).cast nbuf0_8)) (win0_9.stage (cfg0.slots tLast 9)) (hstage0_9 ((cfg0.slots tLast 9).cast nbuf0_9)) (win0_10.stage (cfg0.slots tLast 10)) (hstage0_10 ((cfg0.slots tLast 10).cast nbuf0_10)) (win0_11.stage (cfg0.slots tLast 11)) (hstage0_11 ((cfg0.slots tLast 11).cast nbuf0_11)) scM0 (Memref.isWhole_whole _) scM1 (Memref.isWhole_whole _) hc1 hc2 (iblk m c 0 tLast) (iblk m c 1 tLast) (iblk m c 2 tLast) (iblk m c 3 tLast) (iblk m c 4 tLast) (iblk m c 5 tLast) (iblk m c 6 tLast) (iblk m c 7 tLast) (iblk m c 8 tLast) (iblk m c 9 tLast) (iblk m c 10 tLast) ((dats m 0 c).before 11 tLast d11) xs (statsAt m c (tLast.val - 1) (by have := tLast.isLt; omega))).2.1)) := rowsOK_stepC m c tLast hc1 hc2 ((dats m 0 c).before 11 tLast d11) xs (statsAt m c (tLast.val - 1) (by have := tLast.isLt; omega)) hxs
      refine (outC c (grid0.coords tLast) (win0_0.stage (cfg0.slots tLast 0)) (hstage0_0 ((cfg0.slots tLast 0).cast nbuf0_0)) (win0_1.stage (cfg0.slots tLast 1)) (hstage0_1 ((cfg0.slots tLast 1).cast nbuf0_1)) (win0_2.stage (cfg0.slots tLast 2)) (hstage0_2 ((cfg0.slots tLast 2).cast nbuf0_2)) (win0_3.stage (cfg0.slots tLast 3)) (hstage0_3 ((cfg0.slots tLast 3).cast nbuf0_3)) (win0_4.stage (cfg0.slots tLast 4)) (hstage0_4 ((cfg0.slots tLast 4).cast nbuf0_4)) (win0_5.stage (cfg0.slots tLast 5)) (hstage0_5 ((cfg0.slots tLast 5).cast nbuf0_5)) (win0_6.stage (cfg0.slots tLast 6)) (hstage0_6 ((cfg0.slots tLast 6).cast nbuf0_6)) (win0_7.stage (cfg0.slots tLast 7)) (hstage0_7 ((cfg0.slots tLast 7).cast nbuf0_7)) (win0_8.stage (cfg0.slots tLast 8)) (hstage0_8 ((cfg0.slots tLast 8).cast nbuf0_8)) (win0_9.stage (cfg0.slots tLast 9)) (hstage0_9 ((cfg0.slots tLast 9).cast nbuf0_9)) (win0_10.stage (cfg0.slots tLast 10)) (hstage0_10 ((cfg0.slots tLast 10).cast nbuf0_10)) (win0_11.stage (cfg0.slots tLast 11)) (hstage0_11 ((cfg0.slots tLast 11).cast nbuf0_11)) scM0 (Memref.isWhole_whole _) scM1 (Memref.isWhole_whole _) hc1 hc2 (iblk m c 0 tLast) (iblk m c 1 tLast) (iblk m c 2 tLast) (iblk m c 3 tLast) (iblk m c 4 tLast) (iblk m c 5 tLast) (iblk m c 6 tLast) (iblk m c 7 tLast) (iblk m c 8 tLast) (iblk m c 9 tLast) (iblk m c 10 tLast) ((dats m 0 c).before 11 tLast d11) xs (statsAt m c (tLast.val - 1) (by have := tLast.isLt; omega))).trans ?_
      rw [eq_xfull_of_rowsOK m c _ h25, ← statsAt_pos m c tLast h0]
      rfl
    · have hc1 : ¬cond1 (grid0.coords t) := fun h => h0 ((hcond1 t).mp h)
      have hc2 : ¬cond2 (grid0.coords t) := fun h => h24 ((hcond2 t).mp h)
      rw [Dat.leavesExact_idle (dats m 0 c) 11 t (idle11 t hc2) (noFlush11 t hc2)]
      rw [PhiS_castSucc m c t, PhiS_pos m c _ _ h0]
      iintro ⟨⟨%xs, %hxs, HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRunB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) scM0 (Memref.isWhole_whole _) scM1 (Memref.isWhole_whole _) hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) xs (statsAt m c (t.val - 1) (by have := t.isLt; omega))).2.2 ((dats m 0 c).before 11 t d11) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      isplitl [HS1]; · iexact HS1
      iintro ⟨H0, H1, H2, H3, H4, H5, H6, H7, H8, H9, H10, H11, HS0, HS1⟩
      isplitl [HS0 HS1]
      · iexists (scM0.view.read (Elt F) (scM0.view.writes (Elt F) ((Memref.isWhole_whole cc0_scratch0).unread xs) (kernelRunB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) scM0 (Memref.isWhole_whole _) scM1 (Memref.isWhole_whole _) hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) xs (statsAt m c (t.val - 1) (by have := t.isLt; omega))).1))
        isplitr
        · ipureintro; exact rowsOK_stepB m c t hc1 hc2 xs (statsAt m c (t.val - 1) (by have := t.isLt; omega)) hxs
        isplitl [HS0]
        · unfold owns; iexists _; isplitr
          swap; · iexact HS0
          ipureintro; rfl
        · unfold owns; iexists _; isplitr
          swap; · iexact HS1
          ipureintro
          exact (statsB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) scM0 (Memref.isWhole_whole _) scM1 (Memref.isWhole_whole _) hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) xs (statsAt m c (t.val - 1) (by have := t.isLt; omega))).trans (statsAt_pos m c t h0).symm
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists d11; iexact H11

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KIBlocks.lean ====
/-
  Each window's block at a grid point, read at an index, is an entry of an argument array.  The two adjacency
  windows take the 200-row blocks at block rows 2t and 2t+1, that is rows 400t + r and 400t + 200 + r; every other
  window takes its whole array at every point.  Before the region the host narrows the features to bf16 (the
  identity at the extended reals) and turns the five vectors into one-row matrices, so those windows' arrays are
  the argument vectors read at the column.
-/
import proofs.«123370_g29334626631814_cont_sun_c4_761_10_alg».proof.Proof.KIState
import Idealize.ShloMosaic.Lib.StableHlo.Run
import Idealize.ShloMosaic.Lib.Pipeline.Value
import Idealize.ShloMosaic.Lib.ValueLayout
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.StableHlo
open Idealize.ShloMosaic.ValueIdx

variable {F : FTy → Type} [FloatOps F] [Named F]

variable (m : (ℓ : Loc nD τ sig) → Buf (Elt F) ℓ)

/-! ## The arrays the region finds -/

/-- No host operation writes the adjacency matrix, the weight matrices or the readout weights. -/
theorem V_arg1 (c : Dev nD) : V m c main_arg1 = m ((c : Thread nD τ).loc main_arg1) := by
  dsimp only [V, V0, hostOps0]
  after_results
theorem V_arg2 (c : Dev nD) : V m c main_arg2 = m ((c : Thread nD τ).loc main_arg2) := by
  dsimp only [V, V0, hostOps0]
  after_results
theorem V_arg4 (c : Dev nD) : V m c main_arg4 = m ((c : Thread nD τ).loc main_arg4) := by
  dsimp only [V, V0, hostOps0]
  after_results
theorem V_arg8 (c : Dev nD) : V m c main_arg8 = m ((c : Thread nD τ).loc main_arg8) := by
  dsimp only [V, V0, hostOps0]
  after_results

/-- The features as the region finds them: the argument narrowed to bf16. -/
theorem V_v0 (c : Dev nD) :
    (V m c main_call0_v0 : Vec F S10000x128 .bf16)
      = truncf .bf16 (m ((c : Thread nD τ).loc main_arg0) : Vec F S10000x128 .f32) Facts₀.bitsLt_bf16_f32 := by
  dsimp only [V, V0, hostOps0]
  after_results
  rfl

/-- The five vectors as the region finds them: each argument vector as a one-row matrix. -/
theorem V_v1 (c : Dev nD) :
    (V m c main_call0_v1 : Vec F S1x128 .f32)
      = shapeCast S1x128 (m ((c : Thread nD τ).loc main_arg3) : Vec F S128 .f32) Facts₀.shapeCasts_S128_S1x128 := by
  dsimp only [V, V0, hostOps0]
  after_results
  rfl
theorem V_v2 (c : Dev nD) :
    (V m c main_call0_v2 : Vec F S1x128 .f32)
      = shapeCast S1x128 (m ((c : Thread nD τ).loc main_arg5) : Vec F S128 .f32) Facts₀.shapeCasts_S128_S1x128 := by
  dsimp only [V, V0, hostOps0]
  after_results
  rfl
theorem V_v3 (c : Dev nD) :
    (V m c main_call0_v3 : Vec F S1x128 .f32)
      = shapeCast S1x128 (m ((c : Thread nD τ).loc main_arg6) : Vec F S128 .f32) Facts₀.shapeCasts_S128_S1x128 := by
  dsimp only [V, V0, hostOps0]
  after_results
  rfl
theorem V_v4 (c : Dev nD) :
    (V m c main_call0_v4 : Vec F S1x128 .f32)
      = shapeCast S1x128 (m ((c : Thread nD τ).loc main_arg7) : Vec F S128 .f32) Facts₀.shapeCasts_S128_S1x128 := by
  dsimp only [V, V0, hostOps0]
  after_results
  rfl
theorem V_v5 (c : Dev nD) :
    (V m c main_call0_v5 : Vec F S1x1 .f32)
      = shapeCast S1x1 (m ((c : Thread nD τ).loc main_arg9) : Vec F S1 .f32) Facts₀.shapeCasts_S1_S1x1 := by
  dsimp only [V, V0, hostOps0]
  after_results
  rfl

/-! ## The two adjacency windows -/

/-- Window 0 at point `t` is the adjacency rows `400 t + r`. -/
theorem iblk0_apply (c : Dev nD) (t : Fin cfg0.N) (r : Fin 200) (k : Fin 10000) :
    (iblk m c 0 t : Vec F S200x10000 .f32) (ix2 r k) = m ((c : Thread nD τ).loc main_arg1) (ix2 (rowA t r) k) := by
  have hi : ∀ t : Fin cfg0.N, win0_0.index t 0 = 2 * t.val ∧ win0_0.index t 1 = 0 :=
    (by decide +kernel : ∀ t : Fin grid0.N, win0_0.index t 0 = 2 * t.val ∧ win0_0.index t 1 = 0)
  unfold iblk
  rw [View.read_apply]
  show V m c main_arg1 _ = m (c.tc.loc main_arg1) _
  rw [V_arg1]
  congr 1
  funext a
  apply Fin.ext
  match a with
  | ⟨0, _⟩ => show win0_0.index t 0 * 200 + 1 * r.val = 400 * t.val + r.val; rw [(hi t).1]; omega
  | ⟨1, _⟩ => show win0_0.index t 1 * 10000 + 1 * k.val = k.val; rw [(hi t).2]; omega

/-- Window 1 at point `t` is the adjacency rows `400 t + 200 + r`. -/
theorem iblk1_apply (c : Dev nD) (t : Fin cfg0.N) (r : Fin 200) (k : Fin 10000) :
    (iblk m c 1 t : Vec F S200x10000 .f32) (ix2 r k) = m ((c : Thread nD τ).loc main_arg1) (ix2 (rowB t r) k) := by
  have hi : ∀ t : Fin cfg0.N, win0_1.index t 0 = 2 * t.val + 1 ∧ win0_1.index t 1 = 0 :=
    (by decide +kernel : ∀ t : Fin grid0.N, win0_1.index t 0 = 2 * t.val + 1 ∧ win0_1.index t 1 = 0)
  unfold iblk
  rw [View.read_apply]
  show V m c main_arg1 _ = m (c.tc.loc main_arg1) _
  rw [V_arg1]
  congr 1
  funext a
  apply Fin.ext
  match a with
  | ⟨0, _⟩ => show win0_1.index t 0 * 200 + 1 * r.val = 400 * t.val + 200 + r.val; rw [(hi t).1]; omega
  | ⟨1, _⟩ => show win0_1.index t 1 * 10000 + 1 * k.val = k.val; rw [(hi t).2]; omega

/-! ## The whole-array windows over untouched arguments -/

/-- Window 3 is the first weight matrix, whole. -/
theorem iblk3_eq (c : Dev nD) (t : Fin cfg0.N) :
    (iblk m c 3 t : Vec F S128x128 .f32) = m ((c : Thread nD τ).loc main_arg2) := by
  have hi : ∀ t : Fin cfg0.N, win0_3.index t 0 = 0 ∧ win0_3.index t 1 = 0 :=
    (by decide +kernel : ∀ t : Fin grid0.N, win0_3.index t 0 = 0 ∧ win0_3.index t 1 = 0)
  funext y
  unfold iblk
  rw [View.read_apply]
  show V m c main_arg2 _ = m (c.tc.loc main_arg2) y
  rw [V_arg2]
  congr 1
  funext a
  apply Fin.ext
  match a with
  | ⟨0, _⟩ => show win0_3.index t 0 * 128 + 1 * (y 0).val = (y 0).val; rw [(hi t).1]; omega
  | ⟨1, _⟩ => show win0_3.index t 1 * 128 + 1 * (y 1).val = (y 1).val; rw [(hi t).2]; omega

/-- Window 5 is the second weight matrix, whole. -/
theorem iblk5_eq (c : Dev nD) (t : Fin cfg0.N) :
    (iblk m c 5 t : Vec F S128x128 .f32) = m ((c : Thread nD τ).loc main_arg4) := by
  have hi : ∀ t : Fin cfg0.N, win0_5.index t 0 = 0 ∧ win0_5.index t 1 = 0 :=
    (by decide +kernel : ∀ t : Fin grid0.N, win0_5.index t 0 = 0 ∧ win0_5.index t 1 = 0)
  funext y
  unfold iblk
  rw [View.read_apply]
  show V m c main_arg4 _ = m (c.tc.loc main_arg4) y
  rw [V_arg4]
  congr 1
  funext a
  apply Fin.ext
  match a with
  | ⟨0, _⟩ => show win0_5.index t 0 * 128 + 1 * (y 0).val = (y 0).val; rw [(hi t).1]; omega
  | ⟨1, _⟩ => show win0_5.index t 1 * 128 + 1 * (y 1).val = (y 1).val; rw [(hi t).2]; omega

/-- Window 9 is the readout weights, whole. -/
theorem iblk9_eq (c : Dev nD) (t : Fin cfg0.N) :
    (iblk m c 9 t : Vec F S128x1 .f32) = m ((c : Thread nD τ).loc main_arg8) := by
  have hi : ∀ t : Fin cfg0.N, win0_9.index t 0 = 0 ∧ win0_9.index t 1 = 0 :=
    (by decide +kernel : ∀ t : Fin grid0.N, win0_9.index t 0 = 0 ∧ win0_9.index t 1 = 0)
  funext y
  unfold iblk
  rw [View.read_apply]
  show V m c main_arg8 _ = m (c.tc.loc main_arg8) y
  rw [V_arg8]
  congr 1
  funext a
  apply Fin.ext
  match a with
  | ⟨0, _⟩ => show win0_9.index t 0 * 128 + 1 * (y 0).val = (y 0).val; rw [(hi t).1]; omega
  | ⟨1, _⟩ => show win0_9.index t 1 * 1 + 1 * (y 1).val = (y 1).val; rw [(hi t).2]; omega

theorem iblk3_apply (c : Dev nD) (t : Fin cfg0.N) (e d : Fin 128) :
    (iblk m c 3 t : Vec F S128x128 .f32) (ix2 e d) = m ((c : Thread nD τ).loc main_arg2) (ix2 e d) := by
  rw [iblk3_eq]
theorem iblk5_apply (c : Dev nD) (t : Fin cfg0.N) (d j : Fin 128) :
    (iblk m c 5 t : Vec F S128x128 .f32) (ix2 d j) = m ((c : Thread nD τ).loc main_arg4) (ix2 d j) := by
  rw [iblk5_eq]
theorem iblk9_apply (c : Dev nD) (t : Fin cfg0.N) (j : Fin 128) :
    (iblk m c 9 t : Vec F S128x1 .f32) (ix2 j (0 : Fin 1)) = m ((c : Thread nD τ).loc main_arg8) (ix2 j (0 : Fin 1)) := by
  rw [iblk9_eq]

/-! ## The one-row windows over the reshaped vectors -/

/-- Window 4 is the first bias as a row. -/
theorem iblk4_apply (c : Dev nD) (t : Fin cfg0.N) (j : Fin 128) :
    (iblk m c 4 t : Vec F S1x128 .f32) (ix2 (0 : Fin 1) j) = m ((c : Thread nD τ).loc main_arg3) (ix1 j) := by
  have hi : ∀ t : Fin cfg0.N, win0_4.index t 0 = 0 ∧ win0_4.index t 1 = 0 :=
    (by decide +kernel : ∀ t : Fin grid0.N, win0_4.index t 0 = 0 ∧ win0_4.index t 1 = 0)
  unfold iblk
  rw [View.read_apply]
  show V m c main_call0_v1 _ = m (c.tc.loc main_arg3) (ix1 j)
  rw [V_v1]
  refine (congrArg _ (?_ : _ = ix2 (0 : Fin 1) j)).trans (shapeCast_a_1a_apply _ _ (0 : Fin 1) j)
  funext a
  apply Fin.ext
  match a with
  | ⟨0, _⟩ => show win0_4.index t 0 * 1 + 1 * 0 = 0; rw [(hi t).1]
  | ⟨1, _⟩ => show win0_4.index t 1 * 128 + 1 * j.val = j.val; rw [(hi t).2]; omega

/-- Window 6 is the second bias as a row. -/
theorem iblk6_apply (c : Dev nD) (t : Fin cfg0.N) (j : Fin 128) :
    (iblk m c 6 t : Vec F S1x128 .f32) (ix2 (0 : Fin 1) j) = m ((c : Thread nD τ).loc main_arg5) (ix1 j) := by
  have hi : ∀ t : Fin cfg0.N, win0_6.index t 0 = 0 ∧ win0_6.index t 1 = 0 :=
    (by decide +kernel : ∀ t : Fin grid0.N, win0_6.index t 0 = 0 ∧ win0_6.index t 1 = 0)
  unfold iblk
  rw [View.read_apply]
  show V m c main_call0_v2 _ = m (c.tc.loc main_arg5) (ix1 j)
  rw [V_v2]
  refine (congrArg _ (?_ : _ = ix2 (0 : Fin 1) j)).trans (shapeCast_a_1a_apply _ _ (0 : Fin 1) j)
  funext a
  apply Fin.ext
  match a with
  | ⟨0, _⟩ => show win0_6.index t 0 * 1 + 1 * 0 = 0; rw [(hi t).1]
  | ⟨1, _⟩ => show win0_6.index t 1 * 128 + 1 * j.val = j.val; rw [(hi t).2]; omega

/-- Window 7 is the scale as a row. -/
theorem iblk7_apply (c : Dev nD) (t : Fin cfg0.N) (j : Fin 128) :
    (iblk m c 7 t : Vec F S1x128 .f32) (ix2 (0 : Fin 1) j) = m ((c : Thread nD τ).loc main_arg6) (ix1 j) := by
  have hi : ∀ t : Fin cfg0.N, win0_7.index t 0 = 0 ∧ win0_7.index t 1 = 0 :=
    (by decide +kernel : ∀ t : Fin grid0.N, win0_7.index t 0 = 0 ∧ win0_7.index t 1 = 0)
  unfold iblk
  rw [View.read_apply]
  show V m c main_call0_v3 _ = m (c.tc.loc main_arg6) (ix1 j)
  rw [V_v3]
  refine (congrArg _ (?_ : _ = ix2 (0 : Fin 1) j)).trans (shapeCast_a_1a_apply _ _ (0 : Fin 1) j)
  funext a
  apply Fin.ext
  match a with
  | ⟨0, _⟩ => show win0_7.index t 0 * 1 + 1 * 0 = 0; rw [(hi t).1]
  | ⟨1, _⟩ => show win0_7.index t 1 * 128 + 1 * j.val = j.val; rw [(hi t).2]; omega

/-- Window 8 is the shift as a row. -/
theorem iblk8_apply (c : Dev nD) (t : Fin cfg0.N) (j : Fin 128) :
    (iblk m c 8 t : Vec F S1x128 .f32) (ix2 (0 : Fin 1) j) = m ((c : Thread nD τ).loc main_arg7) (ix1 j) := by
  have hi : ∀ t : Fin cfg0.N, win0_8.index t 0 = 0 ∧ win0_8.index t 1 = 0 :=
    (by decide +kernel : ∀ t : Fin grid0.N, win0_8.index t 0 = 0 ∧ win0_8.index t 1 = 0)
  unfold iblk
  rw [View.read_apply]
  show V m c main_call0_v4 _ = m (c.tc.loc main_arg7) (ix1 j)
  rw [V_v4]
  refine (congrArg _ (?_ : _ = ix2 (0 : Fin 1) j)).trans (shapeCast_a_1a_apply _ _ (0 : Fin 1) j)
  funext a
  apply Fin.ext
  match a with
  | ⟨0, _⟩ => show win0_8.index t 0 * 1 + 1 * 0 = 0; rw [(hi t).1]
  | ⟨1, _⟩ => show win0_8.index t 1 * 128 + 1 * j.val = j.val; rw [(hi t).2]; omega

/-- Window 10 is the readout bias as a one-by-one matrix. -/
theorem iblk10_apply (c : Dev nD) (t : Fin cfg0.N) :
    (iblk m c 10 t : Vec F S1x1 .f32) (ix2 (0 : Fin 1) (0 : Fin 1)) = m ((c : Thread nD τ).loc main_arg9) (ix1 (0 : Fin 1)) := by
  have hi : ∀ t : Fin cfg0.N, win0_10.index t 0 = 0 ∧ win0_10.index t 1 = 0 :=
    (by decide +kernel : ∀ t : Fin grid0.N, win0_10.index t 0 = 0 ∧ win0_10.index t 1 = 0)
  unfold iblk
  rw [View.read_apply]
  show V m c main_call0_v5 _ = m (c.tc.loc main_arg9) (ix1 (0 : Fin 1))
  rw [V_v5]
  refine (congrArg _ (?_ : _ = ix2 (0 : Fin 1) (0 : Fin 1))).trans (shapeCast_a_1a_apply _ _ (0 : Fin 1) (0 : Fin 1))
  funext a
  apply Fin.ext
  match a with
  | ⟨0, _⟩ => show win0_10.index t 0 * 1 + 1 * 0 = 0; rw [(hi t).1]
  | ⟨1, _⟩ => show win0_10.index t 1 * 1 + 1 * 0 = 0; rw [(hi t).2]

end Cert.KernelIdeal.Hand

/-! ## The features window, at the extended reals -/

namespace Cert.KernelIdeal.Hand

open Cert.KernelIdeal Cert.KernelIdeal.Gen
open Idealize.ShloMosaic Idealize.ShloMosaic.TcCoe Idealize.ShloMosaic.Tactic
open Idealize.SL.Sem
open Idealize.ShloMosaic.StableHlo
open Idealize.ShloMosaic.ValueIdx

/-- Window 2 is the features, whole; the narrowing to bf16 is the identity at the extended reals. -/
theorem iblk2_apply (m : (ℓ : Loc nD τ sig) → Buf (Elt Ideal) ℓ) (c : Dev nD) (t : Fin cfg0.N) (k : Fin 10000) (e : Fin 128) :
    ((iblk m c 2 t : Vec Ideal S10000x128 .bf16) (ix2 k e) : EReal)
      = (m ((c : Thread nD τ).loc main_arg0) : Vec Ideal S10000x128 .f32) (ix2 k e) := by
  have hi : ∀ t : Fin cfg0.N, win0_2.index t 0 = 0 ∧ win0_2.index t 1 = 0 :=
    (by decide +kernel : ∀ t : Fin grid0.N, win0_2.index t 0 = 0 ∧ win0_2.index t 1 = 0)
  unfold iblk
  rw [View.read_apply]
  show (V m c main_call0_v0 : Vec Ideal S10000x128 .bf16) _ = _
  rw [V_v0]
  show (m (c.tc.loc main_arg0) : Vec Ideal S10000x128 .f32) _ = (m (c.tc.loc main_arg0) : Vec Ideal S10000x128 .f32) (ix2 k e)
  congr 1
  funext a
  apply Fin.ext
  match a with
  | ⟨0, _⟩ => show win0_2.index t 0 * 10000 + 1 * k.val = k.val; rw [(hi t).1]; omega
  | ⟨1, _⟩ => show win0_2.index t 1 * 128 + 1 * e.val = e.val; rw [(hi t).2]; omega

end Cert.KernelIdeal.Hand

end
-- ==== Proof.KIRest.lean ====
/-
  The six argument arrays no window stages — the features before their narrowing, and the five vectors before
  their reshaping — are untouched by the host operations before the region and bypass the region itself; and the
  windows whose arrays are argument or result buffers, named by their window index.
-/
import proofs.«123370_g29334626631814_cont_sun_c4_761_10_alg».proof.Proof.KIBlocks
import Idealize.ShloMosaic.Lib.Pipeline.Frame
import Idealize.ShloMosaic.Lib.StableHlo.Run
import Idealize.ShloMosaic.Lib.Pipeline.Value
import Idealize.ShloMosaic.Lib.ValueLayout
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.StableHlo
open Idealize.ShloMosaic.ValueIdx

variable {F : FTy → Type} [FloatOps F] [Named F]

variable (m : (ℓ : Loc nD τ sig) → Buf (Elt F) ℓ)

/-! ## The unwindowed arguments when the region is entered -/

/-- The host operations before the region read these six arrays and write none of them. -/
theorem V_arg0 (c : Dev nD) : V m c main_arg0 = m ((c : Thread nD τ).loc main_arg0) := by
  dsimp only [V, V0, hostOps0]
  after_results
theorem V_arg3 (c : Dev nD) : V m c main_arg3 = m ((c : Thread nD τ).loc main_arg3) := by
  dsimp only [V, V0, hostOps0]
  after_results
theorem V_arg5 (c : Dev nD) : V m c main_arg5 = m ((c : Thread nD τ).loc main_arg5) := by
  dsimp only [V, V0, hostOps0]
  after_results
theorem V_arg6 (c : Dev nD) : V m c main_arg6 = m ((c : Thread nD τ).loc main_arg6) := by
  dsimp only [V, V0, hostOps0]
  after_results
theorem V_arg7 (c : Dev nD) : V m c main_arg7 = m ((c : Thread nD τ).loc main_arg7) := by
  dsimp only [V, V0, hostOps0]
  after_results
theorem V_arg9 (c : Dev nD) : V m c main_arg9 = m ((c : Thread nD τ).loc main_arg9) := by
  dsimp only [V, V0, hostOps0]
  after_results

/-! ## They bypass the region -/

/-- Each is unscoped and is no window's array. -/
theorem mem_rest_arg0 : main_arg0 ∈ Pipeline.restRefs sig spec0 :=
  Pipeline.mem_restRefs_of main_arg0 rfl (by decide)
theorem mem_rest_arg3 : main_arg3 ∈ Pipeline.restRefs sig spec0 :=
  Pipeline.mem_restRefs_of main_arg3 rfl (by decide)
theorem mem_rest_arg5 : main_arg5 ∈ Pipeline.restRefs sig spec0 :=
  Pipeline.mem_restRefs_of main_arg5 rfl (by decide)
theorem mem_rest_arg6 : main_arg6 ∈ Pipeline.restRefs sig spec0 :=
  Pipeline.mem_restRefs_of main_arg6 rfl (by decide)
theorem mem_rest_arg7 : main_arg7 ∈ Pipeline.restRefs sig spec0 :=
  Pipeline.mem_restRefs_of main_arg7 rfl (by decide)
theorem mem_rest_arg9 : main_arg9 ∈ Pipeline.restRefs sig spec0 :=
  Pipeline.mem_restRefs_of main_arg9 rfl (by decide)

/-! ## The windows over argument and result buffers -/

theorem arrRef_0 : Pipeline.arrRef spec0 0 = main_arg1 := rfl
theorem arrRef_1 : Pipeline.arrRef spec0 1 = main_arg1 := rfl
theorem arrRef_3 : Pipeline.arrRef spec0 3 = main_arg2 := rfl
theorem arrRef_5 : Pipeline.arrRef spec0 5 = main_arg4 := rfl
theorem arrRef_9 : Pipeline.arrRef spec0 9 = main_arg8 := rfl
theorem arrRef_11 : Pipeline.arrRef spec0 11 = main_v0 := rfl

end Cert.KernelIdeal.Hand

end
-- ==== Proof.KIFinal0.lean ====
/-
  The output array after the run.  The output window's one block is the whole [10000,1] array and it is written
  back at the last grid point only; so, whatever the proof data, the array ends holding what the last point left in
  the window's staging buffer.
-/
import proofs.«123370_g29334626631814_cont_sun_c4_761_10_alg».proof.Proof.KIState
import Idealize.ShloMosaic.Lib.Pipeline.Value
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The output array ends holding what the last point leaves: the last point is the only one that writes the
    window back, its block is read through zero offsets and covers every index. -/
theorem arrAt11_of (c : Dev nD) (dat : Dat τ (Elt F) Unit ℕ (UR sig nD τ) ℕ cfg0 c) (X : Vec F S10000x1 .f32)
    (h : dat.after 11 tLast = X) : dat.arrAt 11 cfg0.N = X := by
  refine dat.arrAt_eq_of_cover 11 X (fun t hf => ?_) (fun i => ⟨tLast, (flush0_11 tLast).mpr rfl, ?_⟩)
  · have h24 : t.val = 24 := by have := (flush0_11 t).mp hf; have := t.isLt; have := hN; omega
    obtain rfl : t = tLast := Fin.ext h24
    show (cfg0.win 11).cut (grid0.coords tLast) (dat.after 11 tLast) = _
    rw [h]
    have hz' : (fun a => win0_11.index tLast a * main_v0.ty.shape.size a) = fun _ => 0 :=
      funext fun a => by fin_cases a <;> decide +kernel
    exact (Memref.read_access_unit_zero (Elt F) main_v0 hz' (fun a => by rw [congrFun hz' a]; simp) X).symm
  · show i ∈ ((View.whole main_v0).slice (win0_11.rect tLast)).set
    rw [View.set_slice_whole, Rect.mem_set_unit]
    intro a
    have h0 : (i 0 : Nat) < 10000 := (i 0).isLt
    have h1 : (i 1 : Nat) < 1 := (i 1).isLt
    match a with
    | ⟨0, _⟩ =>
      show win0_11.index tLast 0 * win0_11.size 0 ≤ (i 0 : Nat)
        ∧ (i 0 : Nat) < win0_11.index tLast 0 * win0_11.size 0 + win0_11.xsize (grid0.coords tLast) 0
      rw [show win0_11.index tLast 0 * win0_11.size 0 = 0 from by decide +kernel,
        show win0_11.xsize (grid0.coords tLast) 0 = 10000 from by decide +kernel]
      omega
    | ⟨1, _⟩ =>
      show win0_11.index tLast 1 * win0_11.size 1 ≤ (i 1 : Nat)
        ∧ (i 1 : Nat) < win0_11.index tLast 1 * win0_11.size 1 + win0_11.xsize (grid0.coords tLast) 1
      rw [show win0_11.index tLast 1 * win0_11.size 1 = 0 from by decide +kernel,
        show win0_11.xsize (grid0.coords tLast) 1 = 1 from by decide +kernel]
      omega

end Cert.KernelIdeal.Hand

end
-- ==== Proof.KIFrame.lean ====
import proofs.«123370_g29334626631814_cont_sun_c4_761_10_alg».proof.Proof.KIDat
import proofs.«123370_g29334626631814_cont_sun_c4_761_10_alg».proof.Proof.KIRest
import proofs.«123370_g29334626631814_cont_sun_c4_761_10_alg».proof.Proof.KIFinal0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- What the launch hands the region — the two scratch buffers at anything — is the invariant before the first point. -/
theorem hin (c : Dev nD) : (Pipeline.scopedRest spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch buffers back, their contents forgotten. -/
theorem hout (c : Dev nD) : (dats m 0 c).Φ (Fin.last cfg0.N) ⊢ (Pipeline.scopedRest spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last, hN]; decide), PhiS0_eq]
  iintro ⟨%xs, -, H0, H1⟩
  isplitl [H0]
  · iexists _; iexact H0
  iexists _; iexact H1

/-- What a run ends with: each windowed array at what the write-backs leave, every other unscoped buffer as the region
    found it. -/
def RunPost (r : PUnit × MemSt nD τ sig (Elt F)) : Prop :=
  ∀ c : Dev nD, (∀ w, r.2.mem ((spec0 w).arr.view.loc (c.tc : Thread nD τ)) = (dats m 0 c).arrAt w cfg0.N)
    ∧ ∀ b ∈ restRefs, r.2.mem ((c.tc : Thread nD τ).loc b) = V m c b

/-- Every weakly fair execution of the kernel program terminates, faulting nowhere, in such a state. -/
theorem run_main : θ_run defs (onTc (τ := τ) (main (F := F))) (s₀ m ρ) (RunPost m) :=
  run_shared m ρ (dats m) (fun c => (body_obligation m c).loose) (fun _ _ => rfl) (A_eq m) (fun _ => rfl) (fun _ => rfl)
    (fun c w h0 h1 => by fin_cases w <;> first | exact absurd rfl h0 | exact absurd rfl h1 | rfl) (hin m) (hout m)

/-- The argument arrays end as they began: the four the kernel windows are inputs, never written back; the six it does
    not window are bypassed. -/
theorem frame_of_post (r : PUnit × MemSt nD τ sig (Elt F)) (h : RunPost m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  ⟨((h c).2 main_arg0 mem_rest_arg0).trans (V_arg0 m c),
    ((h c).1 0).trans (((dats m 0 c).arrAt_in 0 rfl _).trans ((A_eq m c 0).trans (V_arg1 m c))),
    ((h c).1 3).trans (((dats m 0 c).arrAt_in 3 rfl _).trans ((A_eq m c 3).trans (V_arg2 m c))),
    ((h c).2 main_arg3 mem_rest_arg3).trans (V_arg3 m c),
    ((h c).1 5).trans (((dats m 0 c).arrAt_in 5 rfl _).trans ((A_eq m c 5).trans (V_arg4 m c))),
    ((h c).2 main_arg5 mem_rest_arg5).trans (V_arg5 m c),
    ((h c).2 main_arg6 mem_rest_arg6).trans (V_arg6 m c),
    ((h c).2 main_arg7 mem_rest_arg7).trans (V_arg7 m c),
    ((h c).1 9).trans (((dats m 0 c).arrAt_in 9 rfl _).trans ((A_eq m c 9).trans (V_arg8 m c))),
    ((h c).2 main_arg9 mem_rest_arg9).trans (V_arg9 m c)⟩

/-- The result array ends at the readout the last point stores: its one write-back covers it. -/
theorem final_out (c : Dev nD) : (dats m 0 c).arrAt 11 cfg0.N = outVal m c :=
  arrAt11_of c (dats m 0 c) (outVal m c) (after_11 m c tLast)

end Cert.KernelIdeal.Hand

end
-- ==== Proof.Spec.lean ====
/-
  The two programs as formulas over the extended reals, index by index, over plain `Fin`-indexed families.

  A node's pre-normalisation activations are one row of the adjacency matrix pushed through the two-layer
  perceptron (`mlpRow`).  The reference normalises them with the column mean and the mean of squared deviations
  and divides by a square root (`refOut`); the kernel accumulates column sums and sums of squares over 25 tiles
  of two 200-row blocks, takes variance as the mean of squares less the squared mean, and multiplies by a
  reciprocal square root (`kerOut`).  The constants: the row count as the real 10000 and its reciprocal as the
  rational 1/10000; the variance floor as the float word both programs spell.
-/
import Idealize.ShloMosaic.PureOps.Ideal

noncomputable section

namespace Cert.Gin

open Idealize.ShloMosaic

/-- The variance floor: the float word 0x3727C5AC (the nearest f32 to 1e-5), the same in both programs. -/
def eps : EReal := Ideal.ofBits .f32 0x3727C5AC#32

/-- The row count, as a real. -/
def rows : EReal := ((10000 : ℝ) : EReal)

/-- Its reciprocal, the kernel's named constant. -/
def invRows : EReal := ((1 / 10000 : ℝ) : EReal)

/-- One adjacency row `a` through the network before normalisation: pooled neighbour features, first linear layer,
    rectifier, second linear layer. -/
def mlpRow (h : Fin 10000 → Fin 128 → EReal) (W1 : Fin 128 → Fin 128 → EReal) (b1 : Fin 128 → EReal)
    (W2 : Fin 128 → Fin 128 → EReal) (b2 : Fin 128 → EReal) (a : Fin 10000 → EReal) (j : Fin 128) : EReal :=
  (∑ d : Fin 128, max ((∑ e : Fin 128, (∑ k : Fin 10000, a k * h k e) * W1 e d) + b1 d) 0 * W2 d j) + b2 j

section Normalise

variable (x : Fin 10000 → Fin 128 → EReal) (g be : Fin 128 → EReal) (Wp : Fin 128 → EReal) (bp : EReal)

/-! ### The reference -/

/-- The column mean: the column sum divided by the row count. -/
def refMean (j : Fin 128) : EReal := Ideal.div (∑ i : Fin 10000, x i j) rows

/-- The column variance: the mean of squared deviations from the column mean. -/
def refVar (j : Fin 128) : EReal :=
  Ideal.div (∑ i : Fin 10000, (x i j - refMean x j) * (x i j - refMean x j)) rows

/-- The reference's readout at node `i`. -/
def refOut (i : Fin 10000) : EReal :=
  (∑ j : Fin 128, max (Ideal.div (g j * (x i j - refMean x j)) (Ideal.sqrt (refVar x j + eps)) + be j) 0 * Wp j) + bp

/-! ### The kernel -/

/-- Row `r` of the first 200-row block of tile `t`, and of the second. -/
def rowA (t : Fin 25) (r : Fin 200) : Fin 10000 := ⟨400 * t.val + r.val, by have := t.isLt; have := r.isLt; omega⟩
def rowB (t : Fin 25) (r : Fin 200) : Fin 10000 := ⟨400 * t.val + 200 + r.val, by have := t.isLt; have := r.isLt; omega⟩

/-- What tile `t` adds to a column's running sum of `f`: the sum over its first block plus the sum over its second. -/
def tileSum (f : Fin 10000 → EReal) (t : Fin 25) : EReal :=
  (∑ r : Fin 200, f (rowA t r)) + (∑ r : Fin 200, f (rowB t r))

/-- The running sum after the first `n` tiles. -/
def runSum (f : Fin 10000 → EReal) (n : Nat) : EReal := ∑ t ∈ Finset.univ.filter (fun t : Fin 25 => t.val < n), tileSum f t

/-- The kernel's column sum and column sum of squares after all 25 tiles. -/
def kerSum (j : Fin 128) : EReal := runSum (fun i => x i j) 25
def kerSumSq (j : Fin 128) : EReal := runSum (fun i => x i j * x i j) 25

/-- The kernel's mean, variance, scale and shift. -/
def kerMean (j : Fin 128) : EReal := kerSum x j * invRows
def kerVar (j : Fin 128) : EReal := kerSumSq x j * invRows - kerMean x j * kerMean x j
def kerScale (j : Fin 128) : EReal := g j * Ideal.rsqrt (kerVar x j + eps)
def kerShift (j : Fin 128) : EReal := be j - kerMean x j * kerScale x g j

/-- The kernel's readout at node `i`. -/
def kerOut (i : Fin 10000) : EReal :=
  (∑ j : Fin 128, max (x i j * kerScale x g j + kerShift x g be j) 0 * Wp j) + bp

end Normalise

end Cert.Gin

end
-- ==== Proof.KPayStats.lean ====
/-
  The kernel's payloads read at an index, at the extended reals: the cleared accumulator is zero; the
  accumulator update is a pointwise sum; a tile's contribution holds, in row 0, the column sums of its two
  200-row blocks added, and in row 1 the column sums of their squares added; the readout is, row by row, the
  rectified scale-and-shift of the stored activations against the readout weights, plus the bias.
-/
import proofs.«123370_g29334626631814_cont_sun_c4_761_10_alg».proof.Proof.Gen.KernelIdeal.Skeleton
import proofs.«123370_g29334626631814_cont_sun_c4_761_10_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

noncomputable section

namespace Cert.KernelIdeal.PayRead

open Cert.KernelIdeal Cert.KernelIdeal.Gen Idealize.ShloMosaic Idealize.ShloMosaic.ValueIdx

/-! ### The accumulator's clearing and its update -/

/-- The cleared accumulator is zero everywhere. -/
theorem pay1_apply (a : Fin 8) (j : Fin 128) : k0_pay1 (F := Ideal) (ix2 a j) = 0 := by
  unfold k0_pay1
  rw [shapeCast_self]
  exact Ideal.ofBits_zero_f32

/-- The update adds the tile's contribution to what the accumulator held. -/
theorem pay2_apply (v68 v72 : Vec Ideal S8x128 .f32) (a : Fin 8) (j : Fin 128) :
    k0_pay2 (F := Ideal) v68 v72 (ix2 a j) = v72 (ix2 a j) + v68 (ix2 a j) := by
  unfold k0_pay2
  rw [shapeCast_self]
  rfl

/-! ### A tile's contribution -/

/-- The sum over the 200 rows of a block, read at column `j`. -/
theorem colsum_apply (src : FVec Ideal S200x128 .f32) (hacc : (0x00000000#32 : BitVec 32) = 0x00000000#32)
    (j : Fin 128) :
    multiReduction (F := Ideal) .add [0] S128 src 0x00000000#32 reduces_S200x128_S128 (.inl rfl) hacc (ix1 j)
      = ∑ r : Fin 200, src (ix2 r j) := by
  refine (Ideal.multiReduction_add_single src 0x00000000#32 reduces_S200x128_S128 (.inl rfl) hacc (ix1 j)).trans ?_
  refine Finset.sum_congr rfl fun r _ => congrArg src ?_
  funext a
  refine Fin.ext ?_
  match a with
  | ⟨0, _⟩ => rfl
  | ⟨1, _⟩ => rfl

/-- Two blocks' column sums, each as a one-row matrix, added. -/
theorem stat_row (A B : FVec Ideal S200x128 .f32) (j : Fin 128) :
    addf (shapeCast S1x128 (multiReduction (F := Ideal) .add [0] S128 A 0x00000000#32 reduces_S200x128_S128 (.inl rfl) rfl)
        shapeCasts_S128_S1x128)
      (shapeCast S1x128 (multiReduction (F := Ideal) .add [0] S128 B 0x00000000#32 reduces_S200x128_S128 (.inl rfl) rfl)
        shapeCasts_S128_S1x128) (ix2 (0 : Fin 1) j)
      = (∑ r : Fin 200, A (ix2 r j)) + (∑ r : Fin 200, B (ix2 r j)) := by
  rw [addf_apply, shapeCast_a_1a_apply, shapeCast_a_1a_apply]
  exact congrArg₂ (· + ·) (colsum_apply A rfl j) (colsum_apply B rfl j)

section Concat
variable {α : Type}

/-- Row 0 of the three pieces stacked along the rows is the first piece's one row. -/
theorem concat3_row0 (x₁ x₂ : S1x128.Idx → α) (x₃ : S6x128.Idx → α) (j : Fin 128) :
    concatenate S8x128 0 [⟨S1x128, x₁⟩, ⟨S1x128, x₂⟩, ⟨S6x128, x₃⟩] concatenates_S1x128_S1x128_S6x128_S8x128_d0
        (ix2 (0 : Fin 8) j) = x₁ (ix2 (0 : Fin 1) j) := by
  refine concatenate_apply_piece (0 : Fin S8x128.rank) _ _ (ix2 (0 : Fin 8) j) 0 (by simp) S1x128 x₁ rfl rfl 0 rfl
    (ix2 (0 : Fin 1) j) ?_ ?_
  · intro b hb
    match b with
    | ⟨0, _⟩ => exact absurd rfl hb
    | ⟨1, _⟩ => rfl
  · rfl

/-- Row 1 is the second piece's one row. -/
theorem concat3_row1 (x₁ x₂ : S1x128.Idx → α) (x₃ : S6x128.Idx → α) (j : Fin 128) :
    concatenate S8x128 0 [⟨S1x128, x₁⟩, ⟨S1x128, x₂⟩, ⟨S6x128, x₃⟩] concatenates_S1x128_S1x128_S6x128_S8x128_d0
        (ix2 (1 : Fin 8) j) = x₂ (ix2 (0 : Fin 1) j) := by
  refine concatenate_apply_piece (0 : Fin S8x128.rank) _ _ (ix2 (1 : Fin 8) j) 1 (by simp) S1x128 x₂ rfl rfl 1 rfl
    (ix2 (0 : Fin 1) j) ?_ ?_
  · intro b hb
    match b with
    | ⟨0, _⟩ => exact absurd rfl hb
    | ⟨1, _⟩ => rfl
  · rfl

end Concat

/-- Row 0 of a tile's contribution: the column sums of its two blocks, added. -/
theorem pay9_row0 (v20 v32 : FVec Ideal S200x128 .f32) (v35 : Vec Ideal S128x128 .f32) (v37 : Vec Ideal S1x128 .f32)
    (j : Fin 128) :
    k0_pay9 (F := Ideal) v20 v32 v35 v37 (ix2 (0 : Fin 8) j)
      = (∑ r : Fin 200, v20 (ix2 r j)) + (∑ r : Fin 200, k0_pay6 v32 v35 v37 (ix2 r j)) := by
  unfold k0_pay9
  generalize k0_pay6 v32 v35 v37 = p6
  refine (concat3_row0 _ _ _ j).trans ?_
  exact stat_row v20 p6 j

/-- Row 1: the column sums of the squares of its two blocks, added. -/
theorem pay9_row1 (v20 v32 : FVec Ideal S200x128 .f32) (v35 : Vec Ideal S128x128 .f32) (v37 : Vec Ideal S1x128 .f32)
    (j : Fin 128) :
    k0_pay9 (F := Ideal) v20 v32 v35 v37 (ix2 (1 : Fin 8) j)
      = (∑ r : Fin 200, v20 (ix2 r j) * v20 (ix2 r j))
        + (∑ r : Fin 200, k0_pay6 v32 v35 v37 (ix2 r j) * k0_pay6 v32 v35 v37 (ix2 r j)) := by
  unfold k0_pay9
  generalize k0_pay6 v32 v35 v37 = p6
  refine (concat3_row1 _ _ _ j).trans ?_
  exact stat_row (mulf v20 v20) (mulf p6 p6) j

/-! ### The readout -/

/-- The kernel's named constant is the reciprocal of the row count. -/
theorem inv_named :
    Named.named (F := Ideal) Cert.KernelIdeal.κ "inv_10000" (φ := .f32) 0x38D1B717#32 = Cert.Gin.invRows :=
  IdealRules.named_const.ideal_named_scalar _ _ _ _ rfl

/-- The reciprocal square root of a vector, entry by entry. -/
theorem rsqrt_apply {s : Shape} {φ : FTy} (a : FVec Ideal s φ) (i : s.Idx) : rsqrt a i = Ideal.rsqrt (a i) := rfl

/-- The readout product into the zero matrix: row `p` of the activations against the one column of weights. -/
theorem matmul_readout_apply (l : FVec Ideal S10000x128 .f32) (r : FVec Ideal S128x1 .f32) (p : Fin 10000) (q : Fin 1) :
    matmul (F := Ideal) dot_S10000x128_S128x1_S10000x1_1_0_0_1_n_n none l r (constant S10000x1 .f32 0x00000000#32) (ix2 p q)
      = ∑ k : Fin 128, l (ix2 p k) * r (ix2 k q) := by
  simp only [matmul]
  rw [Ideal.matmul_constant_zero_apply]
  rw [← Equiv.sum_comp (contrEquiv1 dot_S10000x128_S128x1_S10000x1_1_0_0_1_n_n 128 rfl rfl).symm]
  refine Finset.sum_congr rfl fun k _ => ?_
  congr 2
  · funext a
    refine Fin.ext ?_
    match a with
    | ⟨0, _⟩ => rfl
    | ⟨1, _⟩ =>
      exact (DotDims.lhsIdx_val_of_single _ rfl _ _).trans (contrEquiv1_symm_val _ 128 rfl rfl k)
  · funext a
    refine Fin.ext ?_
    match a with
    | ⟨0, _⟩ =>
      exact (DotDims.rhsIdx_val_of_single _ rfl _ _).trans (contrEquiv1_symm_val _ 128 rfl rfl k)
    | ⟨1, _⟩ => rfl

/-- The one entry of a one-by-one matrix. -/
theorem extract00 (v : Vec Ideal S1x1 .f32) :
    extractAt ![0, 0] v inpos_S1x1_p0_0 = v (ix2 (0 : Fin 1) (0 : Fin 1)) := by
  unfold extractAt
  congr 1
  funext a
  refine Fin.ext ?_
  match a with
  | ⟨0, _⟩ => rfl
  | ⟨1, _⟩ => rfl

/-- The column mean, variance, scale and shift the readout computes from the accumulator's two rows. -/
def mu (v80 : Vec Ideal S1x128 .f32) (j : Fin 128) : EReal := v80 (ix2 (0 : Fin 1) j) * Cert.Gin.invRows
def va (v80 v82 : Vec Ideal S1x128 .f32) (j : Fin 128) : EReal :=
  v82 (ix2 (0 : Fin 1) j) * Cert.Gin.invRows - mu v80 j * mu v80 j
def sc (v80 v82 v93 : Vec Ideal S1x128 .f32) (j : Fin 128) : EReal :=
  v93 (ix2 (0 : Fin 1) j) * Ideal.rsqrt (va v80 v82 j + Cert.Gin.eps)
def sh (v80 v82 v93 v96 : Vec Ideal S1x128 .f32) (j : Fin 128) : EReal :=
  v96 (ix2 (0 : Fin 1) j) - mu v80 j * sc v80 v82 v93 j

/-- The readout at row `i`. -/
theorem pay3_apply (v80 v82 v93 v96 : Vec Ideal S1x128 .f32) (v100 : Vec Ideal S10000x128 .f32)
    (v109 : Vec Ideal S128x1 .f32) (v111 : Vec Ideal S1x1 .f32) (i : Fin 10000) :
    k0_pay3 (F := Ideal) v80 v82 v93 v96 v100 v109 v111 (ix2 i (0 : Fin 1))
      = (∑ j : Fin 128, max (v100 (ix2 i j) * sc v80 v82 v93 j + sh v80 v82 v93 v96 j) 0 * v109 (ix2 j (0 : Fin 1)))
        + v111 (ix2 (0 : Fin 1) (0 : Fin 1)) := by
  unfold k0_pay3
  simp only [addf_apply, subf_apply, mulf_apply, maximumf_apply, rsqrt_apply, broadcast_apply, matmul_readout_apply,
    broadcastTo_1b_ab_apply, shapeCast_a_1a_apply, shapeCast_1a_a_apply, inv_named, extract00, Ideal.ofBits_def,
    Ideal.ofBits_zero_f32, mu, va, sc, sh, Cert.Gin.eps]
  congr 1
  exact extract00 v111

end Cert.KernelIdeal.PayRead

end
-- ==== Proof.KPayMlp.lean ====
/-
  The kernel's perceptron payloads read at an index, at the extended reals: a block of 200 adjacency rows pooled
  against the features, through the first linear layer, the rectifier and the second linear layer, is at row `r`
  and feature `j` the specification's perceptron of that adjacency row.  The matrix products accumulate into
  zero, so they are plain sums over the contracted coordinate; the bias rows are read through two shape casts and
  a broadcast down the rows; a change of float format and a shape cast to the same shape are the identity.
-/
import proofs.«123370_g29334626631814_cont_sun_c4_761_10_alg».proof.Proof.Gen.KernelIdeal.Skeleton
import proofs.«123370_g29334626631814_cont_sun_c4_761_10_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayRead

open Cert.KernelIdeal Cert.KernelIdeal.Gen Idealize.ShloMosaic Idealize.ShloMosaic.ValueIdx

/-! ### The two matrix products into zero -/

/-- The neighbour pooling of a block: row `p` of the adjacency block against column `q` of the features. -/
theorem mm_pool_apply (l : S200x10000.Idx → EReal) (r : S10000x128.Idx → EReal) (p : Fin 200) (q : Fin 128) :
    matmul (F := Ideal) (φ₁ := .bf16) (φ₂ := .bf16) dot_S200x10000_S10000x128_S200x128_1_0_0_1_n_n none l r
        (constant (F := Ideal) S200x128 .f32 0x00000000#32) (ix2 p q)
      = ∑ k : Fin 10000, l (ix2 p k) * r (ix2 k q) := by
  simp only [matmul]
  rw [Ideal.matmul_constant_zero_apply]
  rw [← Equiv.sum_comp (contrEquiv1 dot_S200x10000_S10000x128_S200x128_1_0_0_1_n_n 10000 rfl rfl).symm]
  refine Finset.sum_congr rfl fun k _ => ?_
  congr 2
  · funext a
    refine Fin.ext ?_
    match a with
    | ⟨0, _⟩ => rfl
    | ⟨1, _⟩ =>
      exact (DotDims.lhsIdx_val_of_single _ rfl _ _).trans (contrEquiv1_symm_val _ 10000 rfl rfl k)
  · funext a
    refine Fin.ext ?_
    match a with
    | ⟨0, _⟩ =>
      exact (DotDims.rhsIdx_val_of_single _ rfl _ _).trans (contrEquiv1_symm_val _ 10000 rfl rfl k)
    | ⟨1, _⟩ => rfl

/-- A linear layer on a block: row `p` of the activations against column `q` of the weights. -/
theorem mm_layer_apply (l : S200x128.Idx → EReal) (r : S128x128.Idx → EReal) (p : Fin 200) (q : Fin 128) :
    matmul (F := Ideal) (φ₁ := .f32) (φ₂ := .f32) dot_S200x128_S128x128_S200x128_1_0_0_1_n_n none l r
        (constant (F := Ideal) S200x128 .f32 0x00000000#32) (ix2 p q)
      = ∑ k : Fin 128, l (ix2 p k) * r (ix2 k q) := by
  simp only [matmul]
  rw [Ideal.matmul_constant_zero_apply]
  rw [← Equiv.sum_comp (contrEquiv1 dot_S200x128_S128x128_S200x128_1_0_0_1_n_n 128 rfl rfl).symm]
  refine Finset.sum_congr rfl fun k _ => ?_
  congr 2
  · funext a
    refine Fin.ext ?_
    match a with
    | ⟨0, _⟩ => rfl
    | ⟨1, _⟩ =>
      exact (DotDims.lhsIdx_val_of_single _ rfl _ _).trans (contrEquiv1_symm_val _ 128 rfl rfl k)
  · funext a
    refine Fin.ext ?_
    match a with
    | ⟨0, _⟩ =>
      exact (DotDims.rhsIdx_val_of_single _ rfl _ _).trans (contrEquiv1_symm_val _ 128 rfl rfl k)
    | ⟨1, _⟩ => rfl

/-! ### The bias row -/

/-- A one-row matrix flattened, restored and repeated down the 200 rows reads its entry at the column. -/
theorem biasRows_apply {α : Type} (v : S1x128.Idx → α) (r : Fin 200) (j : Fin 128) :
    broadcastTo S200x128 (shapeCast S1x128 (shapeCast S128 v Facts₀.shapeCasts_S1x128_S128) Facts₀.shapeCasts_S128_S1x128)
        Facts₀.broadcasts_S1x128_S200x128 (ix2 r j)
      = v (ix2 (0 : Fin 1) j) :=
  (broadcastTo_apply _ _ (ix2 r j) (ix2 (0 : Fin 1) j) fun a => match a with | ⟨0, _⟩ => rfl | ⟨1, _⟩ => rfl).trans
    ((shapeCast_a_1a_apply _ _ (0 : Fin 1) j).trans (shapeCast_1a_a_apply v _ j))

/-! ### The payloads -/

section Payloads
variable (x1 x2 : Vec Ideal S200x10000 .f32) (x3 : Vec Ideal S10000x128 .bf16) (x4 : Vec Ideal S128x128 .f32)
  (x5 : Vec Ideal S1x128 .f32) (x6 : Vec Ideal S128x128 .f32) (x7 : Vec Ideal S1x128 .f32)

/-- The first layer's pre-activation of a block at row `r`, hidden unit `d`. -/
theorem pay5_apply (r : Fin 200) (d : Fin 128) :
    k0_pay5 (F := Ideal) x2 x3 x4 x5 (ix2 r d)
      = (∑ e : Fin 128, (∑ k : Fin 10000, x2 (ix2 r k) * x3 (ix2 k e)) * x4 (ix2 e d)) + x5 (ix2 (0 : Fin 1) d) := by
  unfold k0_pay5
  rw [addf_apply, mm_layer_apply, biasRows_apply]
  congr 1
  refine Finset.sum_congr rfl fun e _ => ?_
  rw [mm_pool_apply, shapeCast_self]
  rfl

/-- The rectifier and the second layer applied to a first-layer pre-activation `u`. -/
theorem pay6_apply (u : FVec Ideal S200x128 .f32) (r : Fin 200) (j : Fin 128) :
    k0_pay6 (F := Ideal) u x6 x7 (ix2 r j)
      = (∑ d : Fin 128, max (u (ix2 r d)) 0 * x6 (ix2 d j)) + x7 (ix2 (0 : Fin 1) j) := by
  unfold k0_pay6
  rw [addf_apply, mm_layer_apply, biasRows_apply]
  congr 1
  refine Finset.sum_congr rfl fun d _ => ?_
  rw [maximumf_apply, broadcast_apply]
  show max (u (ix2 r d)) (Ideal.ofBits .f32 0x00000000#32) * _ = _
  rw [Ideal.ofBits_zero_f32]

/-- The second block's activations are the specification's perceptron of its adjacency rows. -/
theorem pay6_pay5_apply (r : Fin 200) (j : Fin 128) :
    k0_pay6 (F := Ideal) (k0_pay5 x2 x3 x4 x5) x6 x7 (ix2 r j)
      = Cert.Gin.mlpRow (fun k e => x3 (ix2 k e)) (fun e d => x4 (ix2 e d)) (fun d => x5 (ix2 (0 : Fin 1) d))
          (fun d j => x6 (ix2 d j)) (fun j => x7 (ix2 (0 : Fin 1) j)) (fun k => x2 (ix2 r k)) j := by
  rw [pay6_apply]
  unfold Cert.Gin.mlpRow
  congr 1
  refine Finset.sum_congr rfl fun d _ => ?_
  rw [pay5_apply]

/-- The first block's payload is the same composition: first layer, then rectifier and second layer. -/
theorem pay4_eq : k0_pay4 (F := Ideal) x1 x3 x4 x5 x6 x7 = k0_pay6 (k0_pay5 x1 x3 x4 x5) x6 x7 := rfl

/-- The first block's activations are the specification's perceptron of its adjacency rows. -/
theorem pay4_apply (r : Fin 200) (j : Fin 128) :
    k0_pay4 (F := Ideal) x1 x3 x4 x5 x6 x7 (ix2 r j)
      = Cert.Gin.mlpRow (fun k e => x3 (ix2 k e)) (fun e d => x4 (ix2 e d)) (fun d => x5 (ix2 (0 : Fin 1) d))
          (fun d j => x6 (ix2 d j)) (fun j => x7 (ix2 (0 : Fin 1) j)) (fun k => x1 (ix2 r k)) j := by
  rw [pay4_eq]
  exact pay6_pay5_apply x1 x3 x4 x5 x6 x7 r j

/-- The stored copies are shape casts to the same shape: the identity. -/
theorem pay7_eq (v : FVec Ideal S200x128 .f32) : k0_pay7 (F := Ideal) v = v := shapeCast_self _ _
theorem pay7_apply (v : FVec Ideal S200x128 .f32) (r : Fin 200) (j : Fin 128) :
    k0_pay7 (F := Ideal) v (ix2 r j) = v (ix2 r j) := by rw [pay7_eq]
theorem pay8_eq (v32 : FVec Ideal S200x128 .f32) (v35 : Vec Ideal S128x128 .f32) (v37 : Vec Ideal S1x128 .f32) :
    k0_pay8 (F := Ideal) v32 v35 v37 = k0_pay6 v32 v35 v37 := shapeCast_self _ _
theorem pay8_apply (v32 : FVec Ideal S200x128 .f32) (v35 : Vec Ideal S128x128 .f32) (v37 : Vec Ideal S1x128 .f32)
    (r : Fin 200) (j : Fin 128) :
    k0_pay8 (F := Ideal) v32 v35 v37 (ix2 r j) = k0_pay6 v32 v35 v37 (ix2 r j) := by rw [pay8_eq]

end Payloads

end Cert.KernelIdeal.PayRead

end
-- ==== Proof.KPayLink.lean ====
/-
  The readout payload as the specification's kernel readout: when the two statistics rows hold the column sums
  and the column sums of squares of a family `x`, the scale and shift rows hold `g` and `be`, the stored
  activations are `x`, and the readout weights and bias are `Wp` and `bp`, the payload's mean, variance,
  scale and shift are the specification's, and the payload at row `i` is the specification's readout there.
-/
import proofs.«123370_g29334626631814_cont_sun_c4_761_10_alg».proof.Proof.KPayStats

noncomputable section

namespace Cert.KernelIdeal.PayRead

open Cert.KernelIdeal Cert.KernelIdeal.Gen Idealize.ShloMosaic Idealize.ShloMosaic.ValueIdx

section Link
variable (x : Fin 10000 → Fin 128 → EReal) (g be Wp : Fin 128 → EReal) (bp : EReal)
variable (v80 v82 v93 v96 : Vec Ideal S1x128 .f32)
variable (h80 : ∀ j : Fin 128, v80 (ix2 (0 : Fin 1) j) = Cert.Gin.kerSum x j)
variable (h82 : ∀ j : Fin 128, v82 (ix2 (0 : Fin 1) j) = Cert.Gin.kerSumSq x j)
variable (h93 : ∀ j : Fin 128, v93 (ix2 (0 : Fin 1) j) = g j)
variable (h96 : ∀ j : Fin 128, v96 (ix2 (0 : Fin 1) j) = be j)

include h80 in
theorem mu_eq (j : Fin 128) : mu v80 j = Cert.Gin.kerMean x j := by
  unfold mu Cert.Gin.kerMean
  rw [h80]

include h80 h82 in
theorem va_eq (j : Fin 128) : va v80 v82 j = Cert.Gin.kerVar x j := by
  unfold va Cert.Gin.kerVar
  rw [h82, mu_eq x v80 h80]

include h80 h82 h93 in
theorem sc_eq (j : Fin 128) : sc v80 v82 v93 j = Cert.Gin.kerScale x g j := by
  unfold sc Cert.Gin.kerScale
  rw [h93, va_eq x v80 v82 h80 h82]

include h80 h82 h93 h96 in
theorem sh_eq (j : Fin 128) : sh v80 v82 v93 v96 j = Cert.Gin.kerShift x g be j := by
  unfold sh Cert.Gin.kerShift
  rw [h96, mu_eq x v80 h80, sc_eq x g v80 v82 v93 h80 h82 h93]

include h80 h82 h93 h96 in
/-- The readout payload at row `i` is the specification's kernel readout. -/
theorem pay3_kerOut (v100 : Vec Ideal S10000x128 .f32) (v109 : Vec Ideal S128x1 .f32) (v111 : Vec Ideal S1x1 .f32)
    (h100 : ∀ (i : Fin 10000) (j : Fin 128), v100 (ix2 i j) = x i j)
    (h109 : ∀ j : Fin 128, v109 (ix2 j (0 : Fin 1)) = Wp j)
    (h111 : v111 (ix2 (0 : Fin 1) (0 : Fin 1)) = bp) (i : Fin 10000) :
    k0_pay3 (F := Ideal) v80 v82 v93 v96 v100 v109 v111 (ix2 i (0 : Fin 1)) = Cert.Gin.kerOut x g be Wp bp i := by
  rw [pay3_apply]
  unfold Cert.Gin.kerOut
  rw [h111]
  congr 1
  refine Finset.sum_congr rfl fun j _ => ?_
  rw [h100, h109, sc_eq x g v80 v82 v93 h80 h82 h93, sh_eq x g be v80 v82 v93 v96 h80 h82 h93 h96]

end Link

end Cert.KernelIdeal.PayRead

end
-- ==== Proof.GinTiles.lean ====
/-
  The kernel's tiling covers every row exactly once: rows 400 t + r and 400 t + 200 + r, for t < 25 and r < 200,
  enumerate Fin 10000.  Hence the running sum after all 25 tiles is the full column sum, for any summand
  (the extended reals are an additive commutative monoid, so no finiteness is needed).
-/
import proofs.«123370_g29334626631814_cont_sun_c4_761_10_alg».proof.Proof.Spec

noncomputable section

namespace Cert.Gin

open Idealize.ShloMosaic

/-- One tile: the 400 consecutive rows starting at 400 t, split at 200. -/
theorem tileSum_eq (f : Fin 10000 → EReal) (t : Fin 25) :
    tileSum f t = ∑ y : Fin 400, f (finProdFinEquiv (t, y)) := by
  have h := Fin.sum_univ_add (a := 200) (b := 200) (fun y : Fin (200 + 200) => f (finProdFinEquiv (m := 25) (n := 400) (t, y)))
  unfold tileSum
  refine Eq.trans ?_ h.symm
  congr 1
  · refine Finset.sum_congr rfl (fun r _ => ?_)
    congr 1
    apply Fin.ext
    simp [finProdFinEquiv, rowA]
    omega
  · refine Finset.sum_congr rfl (fun r _ => ?_)
    congr 1
    apply Fin.ext
    simp [finProdFinEquiv, rowB]
    omega

/-- All 25 tiles together: the sum over every row. -/
theorem sum_tiles (f : Fin 10000 → EReal) : (∑ t : Fin 25, tileSum f t) = ∑ i : Fin 10000, f i := by
  have h := Fintype.sum_equiv (finProdFinEquiv (m := 25) (n := 400))
    (fun p => f (finProdFinEquiv (m := 25) (n := 400) p)) f (fun _ => rfl)
  rw [Fintype.sum_prod_type] at h
  rw [← h]
  exact Finset.sum_congr rfl (fun t _ => tileSum_eq f t)

/-- The running sum after all 25 tiles is the sum over every row. -/
theorem runSum_all (f : Fin 10000 → EReal) : runSum f 25 = ∑ i : Fin 10000, f i := by
  unfold runSum
  rw [Finset.filter_true_of_mem (fun t _ => t.isLt)]
  exact sum_tiles f

variable (x : Fin 10000 → Fin 128 → EReal)

theorem kerSum_eq (j : Fin 128) : kerSum x j = ∑ i : Fin 10000, x i j := runSum_all _

theorem kerSumSq_eq (j : Fin 128) : kerSumSq x j = ∑ i : Fin 10000, x i j * x i j := runSum_all _

end Cert.Gin

end
-- ==== Proof.GinRun.lean ====
/-
  The running sum over tiles, one tile at a time: before any tile it is zero, and each further tile adds its
  own two block sums.
-/
import proofs.«123370_g29334626631814_cont_sun_c4_761_10_alg».proof.Proof.Spec

noncomputable section

namespace Cert.Gin

open Idealize.ShloMosaic

/-- Before the first tile the running sum is empty. -/
theorem runSum_zero (f : Fin 10000 → EReal) : runSum f 0 = 0 := by
  unfold runSum
  rw [Finset.filter_false_of_mem (fun t _ => Nat.not_lt_zero _)]
  exact Finset.sum_empty

/-- The tiles before `n + 1` are those before `n` together with tile `n`. -/
theorem runSum_succ (f : Fin 10000 → EReal) (n : Nat) (hn : n < 25) :
    runSum f (n + 1) = runSum f n + tileSum f ⟨n, hn⟩ := by
  unfold runSum
  have hset : Finset.univ.filter (fun t : Fin 25 => t.val < n + 1)
      = insert (⟨n, hn⟩ : Fin 25) (Finset.univ.filter (fun t : Fin 25 => t.val < n)) := by
    ext t
    simp only [Finset.mem_filter, Finset.mem_univ, true_and, Finset.mem_insert]
    constructor
    · intro h
      by_cases e : t.val = n
      · exact Or.inl (Fin.ext e)
      · exact Or.inr (by omega)
    · rintro (h | h)
      · rw [h]; exact Nat.lt_succ_self n
      · omega
  have hnot : (⟨n, hn⟩ : Fin 25) ∉ Finset.univ.filter (fun t : Fin 25 => t.val < n) := by
    simp only [Finset.mem_filter, Finset.mem_univ, true_and]
    exact Nat.lt_irrefl n
  rw [hset, Finset.sum_insert hnot, add_comm]

end Cert.Gin

end
-- ==== Proof.KIValue.lean ====
/-
  The kernel's final value as the specification's kernel readout.  Each point's two stored blocks are the
  perceptron of the adjacency rows 400 t + r and 400 t + 200 + r; assembled over the 25 points they are the
  perceptron of every row; the statistics after point n hold, in rows 0 and 1, the running sums over the first
  n + 1 tiles of the activations and of their squares; and what the last point stores is the specification's
  readout of those activations.  The blocks' contents are taken as hypotheses: each window's block read at an
  index is the corresponding launch array there.
-/
import proofs.«123370_g29334626631814_cont_sun_c4_761_10_alg».proof.Proof.KIState
import proofs.«123370_g29334626631814_cont_sun_c4_761_10_alg».proof.Proof.KPayStats
import proofs.«123370_g29334626631814_cont_sun_c4_761_10_alg».proof.Proof.KPayMlp
import proofs.«123370_g29334626631814_cont_sun_c4_761_10_alg».proof.Proof.KPayLink
import proofs.«123370_g29334626631814_cont_sun_c4_761_10_alg».proof.Proof.GinTiles
import proofs.«123370_g29334626631814_cont_sun_c4_761_10_alg».proof.Proof.GinRun

set_option maxRecDepth 16384

noncomputable section

namespace Cert.KernelIdeal.Hand

open Cert.KernelIdeal Cert.KernelIdeal.Gen
open Idealize.ShloMosaic Idealize.ShloMosaic.ValueIdx
open Idealize.SL Idealize.SL.Sem

/-- The perceptron depends on its six families only through their values. -/
theorem mlpRow_congr {h h' : Fin 10000 → Fin 128 → EReal} {W1 W1' : Fin 128 → Fin 128 → EReal}
    {b1 b1' : Fin 128 → EReal} {W2 W2' : Fin 128 → Fin 128 → EReal} {b2 b2' : Fin 128 → EReal}
    {a a' : Fin 10000 → EReal}
    (e1 : ∀ k e, h k e = h' k e) (e2 : ∀ e d, W1 e d = W1' e d) (e3 : ∀ d, b1 d = b1' d)
    (e4 : ∀ d j, W2 d j = W2' d j) (e5 : ∀ j, b2 j = b2' j) (e6 : ∀ k, a k = a' k) (j : Fin 128) :
    Cert.Gin.mlpRow h W1 b1 W2 b2 a j = Cert.Gin.mlpRow h' W1' b1' W2' b2' a' j := by
  obtain rfl : h = h' := funext fun k => funext fun e => e1 k e
  obtain rfl : W1 = W1' := funext fun e => funext fun d => e2 e d
  obtain rfl : b1 = b1' := funext e3
  obtain rfl : W2 = W2' := funext fun d => funext fun j => e4 d j
  obtain rfl : b2 = b2' := funext e5
  obtain rfl : a = a' := funext e6
  rfl

/-- The activations of every node: the perceptron of its adjacency row. -/
def actX (A : Fin 10000 → Fin 10000 → EReal) (h : Fin 10000 → Fin 128 → EReal) (W1 : Fin 128 → Fin 128 → EReal)
    (b1 : Fin 128 → EReal) (W2 : Fin 128 → Fin 128 → EReal) (b2 : Fin 128 → EReal) :
    Fin 10000 → Fin 128 → EReal := fun i j => Cert.Gin.mlpRow h W1 b1 W2 b2 (A i) j

theorem add_congr' {a a' b b' : EReal} (h1 : a = a') (h2 : b = b') : a + b = a' + b' := by rw [h1, h2]
theorem mul_congr' {a a' b b' : EReal} (h1 : a = a') (h2 : b = b') : a * b = a' * b' := by rw [h1, h2]

theorem lt25 (t : Fin cfg0.N) : t.val < 25 := by have := t.isLt; have := hN; omega

/-- Rows 0 and 1 of the statistics, read at a column. -/
theorem row0_apply (s : Vec Ideal S8x128 .f32) (j : Fin 128) :
    row0 s (ix2 (0 : Fin 1) j) = s (ix2 (0 : Fin 8) j) := by
  unfold row0
  refine congrArg s (funext fun a => Fin.ext ?_)
  match a with
  | ⟨0, _⟩ => rfl
  | ⟨1, _⟩ => show 0 + 1 * j.val = j.val; omega

theorem row1_apply (s : Vec Ideal S8x128 .f32) (j : Fin 128) :
    row1 s (ix2 (0 : Fin 1) j) = s (ix2 (1 : Fin 8) j) := by
  unfold row1
  refine congrArg s (funext fun a => Fin.ext ?_)
  match a with
  | ⟨0, _⟩ => rfl
  | ⟨1, _⟩ => show 0 + 1 * j.val = j.val; omega

section Value
variable (m : (ℓ : Loc nD τ sig) → Buf (Elt Ideal) ℓ) (c : Dev nD)
variable (A : Fin 10000 → Fin 10000 → EReal) (h : Fin 10000 → Fin 128 → EReal) (W1 : Fin 128 → Fin 128 → EReal)
  (b1 : Fin 128 → EReal) (W2 : Fin 128 → Fin 128 → EReal) (b2 g be Wp : Fin 128 → EReal) (bp : EReal)

/-! The blocks' contents. -/
variable
  (hB0 : ∀ (t : Fin cfg0.N) (r : Fin 200) (k : Fin 10000),
    (iblk m c 0 t : Vec Ideal S200x10000 .f32) (ix2 r k) = A (rowA t r) k)
  (hB1 : ∀ (t : Fin cfg0.N) (r : Fin 200) (k : Fin 10000),
    (iblk m c 1 t : Vec Ideal S200x10000 .f32) (ix2 r k) = A (rowB t r) k)
  (hB2 : ∀ (t : Fin cfg0.N) (k : Fin 10000) (e : Fin 128), (iblk m c 2 t : Vec Ideal S10000x128 .bf16) (ix2 k e) = h k e)
  (hB3 : ∀ (t : Fin cfg0.N) (e d : Fin 128), (iblk m c 3 t : Vec Ideal S128x128 .f32) (ix2 e d) = W1 e d)
  (hB4 : ∀ (t : Fin cfg0.N) (d : Fin 128), (iblk m c 4 t : Vec Ideal S1x128 .f32) (ix2 (0 : Fin 1) d) = b1 d)
  (hB5 : ∀ (t : Fin cfg0.N) (d j : Fin 128), (iblk m c 5 t : Vec Ideal S128x128 .f32) (ix2 d j) = W2 d j)
  (hB6 : ∀ (t : Fin cfg0.N) (j : Fin 128), (iblk m c 6 t : Vec Ideal S1x128 .f32) (ix2 (0 : Fin 1) j) = b2 j)

include hB0 hB2 hB3 hB4 hB5 hB6 in
/-- A point's first 200 rows of activations. -/
theorem actA_apply (t : Fin cfg0.N) (r : Fin 200) (j : Fin 128) :
    actA m c t (ix2 r j) = actX A h W1 b1 W2 b2 (rowA t r) j := by
  unfold actA actX
  refine (PayRead.pay4_apply _ _ _ _ _ _ r j).trans ?_
  exact mlpRow_congr (fun k e => hB2 t k e) (fun e d => hB3 t e d) (fun d => hB4 t d) (fun d j => hB5 t d j)
    (fun j => hB6 t j) (fun k => hB0 t r k) j

include hB1 hB2 hB3 hB4 hB5 hB6 in
/-- A point's second 200 rows of activations. -/
theorem actB_apply (t : Fin cfg0.N) (r : Fin 200) (j : Fin 128) :
    k0_pay6 (F := Ideal) (preB m c t) (iblk m c 5 t) (iblk m c 6 t) (ix2 r j) = actX A h W1 b1 W2 b2 (rowB t r) j := by
  unfold preB actX
  refine (PayRead.pay6_pay5_apply _ _ _ _ _ _ r j).trans ?_
  exact mlpRow_congr (fun k e => hB2 t k e) (fun e d => hB3 t e d) (fun d => hB4 t d) (fun d j => hB5 t d j)
    (fun j => hB6 t j) (fun k => hB1 t r k) j

include hB0 hB2 hB3 hB4 hB5 hB6 in
/-- The first stored block. -/
theorem blkA_apply (t : Fin cfg0.N) (r : Fin 200) (j : Fin 128) :
    blkA m c t (ix2 r j) = actX A h W1 b1 W2 b2 (rowA t r) j := by
  unfold blkA
  exact (congrFun (PayRead.pay7_eq (actA m c t)) (ix2 r j)).trans (actA_apply m c A h W1 b1 W2 b2 hB0 hB2 hB3 hB4 hB5 hB6 t r j)

include hB1 hB2 hB3 hB4 hB5 hB6 in
/-- The second stored block. -/
theorem blkB_apply (t : Fin cfg0.N) (r : Fin 200) (j : Fin 128) :
    blkB m c t (ix2 r j) = actX A h W1 b1 W2 b2 (rowB t r) j := by
  unfold blkB
  exact (congrFun (PayRead.pay8_eq (preB m c t) (iblk m c 5 t) (iblk m c 6 t)) (ix2 r j)).trans
    (actB_apply m c A h W1 b1 W2 b2 hB1 hB2 hB3 hB4 hB5 hB6 t r j)

include hB0 hB1 hB2 hB3 hB4 hB5 hB6 in
/-- The assembled activations: every row's perceptron. -/
theorem xfull_apply (i : Fin 10000) (j : Fin 128) : xfull m c (ix2 i j) = actX A h W1 b1 W2 b2 i j := by
  unfold xfull
  beta_reduce
  split
  · refine (blkA_apply m c A h W1 b1 W2 b2 hB0 hB2 hB3 hB4 hB5 hB6 _ _ _).trans ?_
    exact congrArg (fun q => actX A h W1 b1 W2 b2 q j)
      (Fin.ext (show 400 * (i.val / 400) + i.val % 400 = i.val by omega))
  · rename_i hlt
    have hlt' : ¬ i.val % 400 < 200 := hlt
    refine (blkB_apply m c A h W1 b1 W2 b2 hB1 hB2 hB3 hB4 hB5 hB6 _ _ _).trans ?_
    exact congrArg (fun q => actX A h W1 b1 W2 b2 q j)
      (Fin.ext (show 400 * (i.val / 400) + 200 + (i.val % 400 - 200) = i.val by omega))

include hB0 hB1 hB2 hB3 hB4 hB5 hB6 in
/-- Row 0 of a point's update: the tile's sum of a column of activations. -/
theorem upd_row0 (t : Fin cfg0.N) (j : Fin 128) :
    upd m c t (ix2 (0 : Fin 8) j) = Cert.Gin.tileSum (fun i => actX A h W1 b1 W2 b2 i j) ⟨t.val, lt25 t⟩ := by
  unfold upd
  refine (PayRead.pay9_row0 _ _ _ _ j).trans ?_
  unfold Cert.Gin.tileSum
  exact add_congr' (Finset.sum_congr rfl fun r _ => actA_apply m c A h W1 b1 W2 b2 hB0 hB2 hB3 hB4 hB5 hB6 t r j)
    (Finset.sum_congr rfl fun r _ => actB_apply m c A h W1 b1 W2 b2 hB1 hB2 hB3 hB4 hB5 hB6 t r j)

include hB0 hB1 hB2 hB3 hB4 hB5 hB6 in
/-- Row 1 of a point's update: the tile's sum of the squares of a column of activations. -/
theorem upd_row1 (t : Fin cfg0.N) (j : Fin 128) :
    upd m c t (ix2 (1 : Fin 8) j)
      = Cert.Gin.tileSum (fun i => actX A h W1 b1 W2 b2 i j * actX A h W1 b1 W2 b2 i j) ⟨t.val, lt25 t⟩ := by
  unfold upd
  refine (PayRead.pay9_row1 _ _ _ _ j).trans ?_
  unfold Cert.Gin.tileSum
  exact add_congr'
    (Finset.sum_congr rfl fun r _ =>
      mul_congr' (actA_apply m c A h W1 b1 W2 b2 hB0 hB2 hB3 hB4 hB5 hB6 t r j)
        (actA_apply m c A h W1 b1 W2 b2 hB0 hB2 hB3 hB4 hB5 hB6 t r j))
    (Finset.sum_congr rfl fun r _ =>
      mul_congr' (actB_apply m c A h W1 b1 W2 b2 hB1 hB2 hB3 hB4 hB5 hB6 t r j)
        (actB_apply m c A h W1 b1 W2 b2 hB1 hB2 hB3 hB4 hB5 hB6 t r j))

/-- The statistics after point `n`, in a row whose update is a tile sum of `f`: the running sum of `f` over the
    first `n + 1` tiles. -/
theorem stats_run (a : Fin 8) (j : Fin 128) (f : Fin 10000 → EReal)
    (hu : ∀ t : Fin cfg0.N, upd m c t (ix2 a j) = Cert.Gin.tileSum f ⟨t.val, lt25 t⟩) :
    ∀ (n : ℕ) (hn : n < cfg0.N), statsAt m c n hn (ix2 a j) = Cert.Gin.runSum f (n + 1) := by
  intro n
  induction n with
  | zero =>
    intro hn
    have e : statsAt m c 0 hn (ix2 a j) = k0_pay1 (F := Ideal) (ix2 a j) + upd m c ⟨0, hn⟩ (ix2 a j) :=
      PayRead.pay2_apply _ _ a j
    rw [e, PayRead.pay1_apply, hu, Cert.Gin.runSum_succ f 0 (by decide), Cert.Gin.runSum_zero]
  | succ n ih =>
    intro hn
    have e : statsAt m c (n + 1) hn (ix2 a j)
        = statsAt m c n (Nat.lt_of_succ_lt hn) (ix2 a j) + upd m c ⟨n + 1, hn⟩ (ix2 a j) :=
      PayRead.pay2_apply _ _ a j
    rw [e, ih, hu, Cert.Gin.runSum_succ f (n + 1) (lt25 ⟨n + 1, hn⟩)]

include hB0 hB1 hB2 hB3 hB4 hB5 hB6 in
/-- Row 0 of the statistics after point `n`. -/
theorem stats_row0 (j : Fin 128) (n : ℕ) (hn : n < cfg0.N) :
    statsAt m c n hn (ix2 (0 : Fin 8) j) = Cert.Gin.runSum (fun i => actX A h W1 b1 W2 b2 i j) (n + 1) :=
  stats_run m c 0 j _ (fun t => upd_row0 m c A h W1 b1 W2 b2 hB0 hB1 hB2 hB3 hB4 hB5 hB6 t j) n hn

include hB0 hB1 hB2 hB3 hB4 hB5 hB6 in
/-- Row 1 of the statistics after point `n`. -/
theorem stats_row1 (j : Fin 128) (n : ℕ) (hn : n < cfg0.N) :
    statsAt m c n hn (ix2 (1 : Fin 8) j)
      = Cert.Gin.runSum (fun i => actX A h W1 b1 W2 b2 i j * actX A h W1 b1 W2 b2 i j) (n + 1) :=
  stats_run m c 1 j _ (fun t => upd_row1 m c A h W1 b1 W2 b2 hB0 hB1 hB2 hB3 hB4 hB5 hB6 t j) n hn

variable
  (hB7 : ∀ (t : Fin cfg0.N) (j : Fin 128), (iblk m c 7 t : Vec Ideal S1x128 .f32) (ix2 (0 : Fin 1) j) = g j)
  (hB8 : ∀ (t : Fin cfg0.N) (j : Fin 128), (iblk m c 8 t : Vec Ideal S1x128 .f32) (ix2 (0 : Fin 1) j) = be j)
  (hB9 : ∀ (t : Fin cfg0.N) (j : Fin 128), (iblk m c 9 t : Vec Ideal S128x1 .f32) (ix2 j (0 : Fin 1)) = Wp j)
  (hB10 : ∀ t : Fin cfg0.N, (iblk m c 10 t : Vec Ideal S1x1 .f32) (ix2 (0 : Fin 1) (0 : Fin 1)) = bp)

include hB0 hB1 hB2 hB3 hB4 hB5 hB6 hB7 hB8 hB9 hB10 in
/-- What the last point stores: the specification's kernel readout of the activations. -/
theorem outVal_apply (i : Fin 10000) :
    outVal m c (ix2 i (0 : Fin 1)) = Cert.Gin.kerOut (actX A h W1 b1 W2 b2) g be Wp bp i := by
  unfold outVal
  refine PayRead.pay3_kerOut (actX A h W1 b1 W2 b2) g be Wp bp _ _ _ _ ?_ ?_ (hB7 tLast) (hB8 tLast) _ _ _ ?_
    (hB9 tLast) (hB10 tLast) i
  · intro j
    exact (row0_apply _ j).trans (stats_row0 m c A h W1 b1 W2 b2 hB0 hB1 hB2 hB3 hB4 hB5 hB6 j 24 tLast.isLt)
  · intro j
    exact (row1_apply _ j).trans (stats_row1 m c A h W1 b1 W2 b2 hB0 hB1 hB2 hB3 hB4 hB5 hB6 j 24 tLast.isLt)
  · intro i j
    exact xfull_apply m c A h W1 b1 W2 b2 hB0 hB1 hB2 hB3 hB4 hB5 hB6 i j

end Value

end Cert.KernelIdeal.Hand

end
-- ==== Proof.RefReadLayout.lean ====
/-
  The reference's non-pointwise operations read at an index, at the extended reals: each of the three matrix
  products as a sum over one `Fin`-indexed coordinate, the column sum over the rows, and each broadcast as the
  operand at the coordinates the broadcast keeps.
-/
import proofs.«123370_g29334626631814_cont_sun_c4_761_10_alg».proof.Proof.RefTerm
import proofs.«123370_g29334626631814_cont_sun_c4_761_10_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefRead

open Cert.ReferenceIdeal Idealize.ShloMosaic Idealize.ShloMosaic.ValueIdx
open Cert.ReferenceIdeal.Facts₀

/-! ### The three matrix products -/

/-- The neighbour pooling: row `p` of the adjacency matrix against column `q` of the features. -/
theorem dot_pool_apply (l : S10000x10000.Idx → EReal) (r : S10000x128.Idx → EReal) (p : Fin 10000) (q : Fin 128) :
    Host.dotGeneral (F := Ideal) (φ₁ := .f32) (φ₂ := .f32) dot_S10000x10000_S10000x128_S10000x128_1_0_0_1_n_n none l r (ix2 p q)
      = ∑ k : Fin 10000, l (ix2 p k) * r (ix2 k q) := by
  simp only [Host.dotGeneral]
  rw [Ideal.dotGeneral_apply]
  rw [← Equiv.sum_comp (contrEquiv1 dot_S10000x10000_S10000x128_S10000x128_1_0_0_1_n_n 10000 rfl rfl).symm]
  refine Finset.sum_congr rfl fun k _ => ?_
  congr 2
  · funext a
    refine Fin.ext ?_
    match a with
    | ⟨0, _⟩ => rfl
    | ⟨1, _⟩ =>
      exact (DotDims.lhsIdx_val_of_single _ rfl _ _).trans (contrEquiv1_symm_val _ 10000 rfl rfl k)
  · funext a
    refine Fin.ext ?_
    match a with
    | ⟨0, _⟩ =>
      exact (DotDims.rhsIdx_val_of_single _ rfl _ _).trans (contrEquiv1_symm_val _ 10000 rfl rfl k)
    | ⟨1, _⟩ => rfl

/-- A linear layer: row `p` of the activations against column `q` of the weights. -/
theorem dot_layer_apply (l : S10000x128.Idx → EReal) (r : S128x128.Idx → EReal) (p : Fin 10000) (q : Fin 128) :
    Host.dotGeneral (F := Ideal) (φ₁ := .f32) (φ₂ := .f32) dot_S10000x128_S128x128_S10000x128_1_0_0_1_n_n none l r (ix2 p q)
      = ∑ k : Fin 128, l (ix2 p k) * r (ix2 k q) := by
  simp only [Host.dotGeneral]
  rw [Ideal.dotGeneral_apply]
  rw [← Equiv.sum_comp (contrEquiv1 dot_S10000x128_S128x128_S10000x128_1_0_0_1_n_n 128 rfl rfl).symm]
  refine Finset.sum_congr rfl fun k _ => ?_
  congr 2
  · funext a
    refine Fin.ext ?_
    match a with
    | ⟨0, _⟩ => rfl
    | ⟨1, _⟩ =>
      exact (DotDims.lhsIdx_val_of_single _ rfl _ _).trans (contrEquiv1_symm_val _ 128 rfl rfl k)
  · funext a
    refine Fin.ext ?_
    match a with
    | ⟨0, _⟩ =>
      exact (DotDims.rhsIdx_val_of_single _ rfl _ _).trans (contrEquiv1_symm_val _ 128 rfl rfl k)
    | ⟨1, _⟩ => rfl

/-- The readout: row `p` of the activations against the one column of the readout weights. -/
theorem dot_readout_apply (l : S10000x128.Idx → EReal) (r : S128x1.Idx → EReal) (p : Fin 10000) (q : Fin 1) :
    Host.dotGeneral (F := Ideal) (φ₁ := .f32) (φ₂ := .f32) dot_S10000x128_S128x1_S10000x1_1_0_0_1_n_n none l r (ix2 p q)
      = ∑ k : Fin 128, l (ix2 p k) * r (ix2 k q) := by
  simp only [Host.dotGeneral]
  rw [Ideal.dotGeneral_apply]
  rw [← Equiv.sum_comp (contrEquiv1 dot_S10000x128_S128x1_S10000x1_1_0_0_1_n_n 128 rfl rfl).symm]
  refine Finset.sum_congr rfl fun k _ => ?_
  congr 2
  · funext a
    refine Fin.ext ?_
    match a with
    | ⟨0, _⟩ => rfl
    | ⟨1, _⟩ =>
      exact (DotDims.lhsIdx_val_of_single _ rfl _ _).trans (contrEquiv1_symm_val _ 128 rfl rfl k)
  · funext a
    refine Fin.ext ?_
    match a with
    | ⟨0, _⟩ =>
      exact (DotDims.rhsIdx_val_of_single _ rfl _ _).trans (contrEquiv1_symm_val _ 128 rfl rfl k)
    | ⟨1, _⟩ => rfl

/-! ### The column sum -/

/-- The sum over the rows, read at column `j`: the initial value plus the sum of the column's entries. -/
theorem colSum_apply (x : S10000x128.Idx → EReal) (init : S_.Idx → EReal) (j : Fin 128) :
    Host.reduceAdd (F := Ideal) (φ := .f32) x init reducesTo_S10000x128_S128_d0 h_S_ (ix1 j)
      = init ix0 + ∑ k : Fin 10000, x (ix2 k j) := by
  unfold Host.reduceAdd
  rw [Ideal.hostReduceAdd_def]
  have hR : S10000x128.Reduces [0] S128 := by decide
  refine (Ideal.hostReduceAdd_single reducesTo_S10000x128_S128_d0 hR x _ (ix1 j)).trans ?_
  congr 1
  · exact congrArg init (eq_ix0 _)
  · refine Finset.sum_congr rfl fun k _ => congrArg x ?_
    funext a
    refine Fin.ext ?_
    match a with
    | ⟨0, _⟩ => rfl
    | ⟨1, _⟩ => rfl

/-! ### The broadcasts -/

section Broadcasts
variable {α : Type}

/-- A vector of 128 as a one-row matrix. -/
theorem bcast_row_apply (v : S128.Idx → α) (a : Fin 1) (j : Fin 128) :
    broadcastInDim S1x128 ![1] bcast_S128_S1x128_1 v (ix2 a j) = v (ix1 j) :=
  broadcastInDim_apply _ _ v _ (ix1 j) fun b => match b with | ⟨0, _⟩ => rfl

/-- A one-row matrix repeated down the rows. -/
theorem bcast_rows_apply (x : S1x128.Idx → α) (p : Fin 10000) (q : Fin 128) :
    broadcastInDim S10000x128 ![0, 1] bcast_S1x128_S10000x128_0_1 x (ix2 p q) = x (ix2 (0 : Fin 1) q) :=
  broadcastInDim_apply _ _ x _ (ix2 (0 : Fin 1) q) fun b => match b with | ⟨0, _⟩ => rfl | ⟨1, _⟩ => rfl

/-- A scalar over the whole matrix. -/
theorem bcast_scalar_apply (c : S_.Idx → α) (p : Fin 10000) (q : Fin 128) :
    broadcastInDim S10000x128 ![] bcast_S_S10000x128 c (ix2 p q) = c ix0 :=
  broadcastInDim_apply _ _ c _ ix0 fun b => b.elim0

/-- A scalar over a one-row matrix. -/
theorem bcast_scalar_row_apply (c : S_.Idx → α) (a : Fin 1) (q : Fin 128) :
    broadcastInDim S1x128 ![] bcast_S_S1x128 c (ix2 a q) = c ix0 :=
  broadcastInDim_apply _ _ c _ ix0 fun b => b.elim0

/-- A vector of one entry as a one-by-one matrix. -/
theorem bcast_one_apply (v : S1.Idx → α) (a b : Fin 1) :
    broadcastInDim S1x1 ![1] bcast_S1_S1x1_1 v (ix2 a b) = v (ix1 (0 : Fin 1)) :=
  broadcastInDim_apply _ _ v _ (ix1 (0 : Fin 1)) fun c => match c with | ⟨0, _⟩ => rfl

/-- A one-by-one matrix repeated down the rows. -/
theorem bcast_one_rows_apply (x : S1x1.Idx → α) (p : Fin 10000) (b : Fin 1) :
    broadcastInDim S10000x1 ![0, 1] bcast_S1x1_S10000x1_0_1 x (ix2 p b) = x (ix2 (0 : Fin 1) (0 : Fin 1)) :=
  broadcastInDim_apply _ _ x _ (ix2 (0 : Fin 1) (0 : Fin 1)) fun c => match c with | ⟨0, _⟩ => rfl | ⟨1, _⟩ => rfl

end Broadcasts

end Cert.ReferenceIdeal.RefRead

end
-- ==== Proof.RefConsts.lean ====
/-
  The float words the reference spells, as the extended reals they denote: the row count 10000.0 and the
  divisor of the variance built from it (10000 less the integer zero converted), which is positive, so the
  comparison that guards the variance answers with the set bit.
-/
import Idealize.ShloMosaic.PureOps.Ideal
import Idealize.ShloMosaic.PureOps.Ideal.Laws

noncomputable section

namespace Cert.ReferenceIdeal.RefRead

open Idealize.ShloMosaic

/-- The word 0x461C4000 denotes the real 10000. -/
theorem ofBits_10000 : Ideal.ofBits .f32 0x461C4000#32 = ((10000 : ℝ) : EReal) := by
  simp [Ideal.ofBits, Ideal.ieee, -EReal.coe_mul]; norm_num

end Cert.ReferenceIdeal.RefRead

end
-- ==== Proof.RefRead.lean ====
/-
  The reference's staged term read at an index, at the extended reals: the pre-normalisation activations are the
  two-layer perceptron of the specification, the column mean and the column variance are the specification's (the
  variance's divisor is the positive real 10000, so the guarded select keeps the quotient), and the result at node
  `i` is the specification's readout.
-/
import proofs.«123370_g29334626631814_cont_sun_c4_761_10_alg».proof.Proof.RefReadLayout
import proofs.«123370_g29334626631814_cont_sun_c4_761_10_alg».proof.Proof.RefConsts

noncomputable section

namespace Cert.ReferenceIdeal.RefRead

open Cert.ReferenceIdeal Idealize.ShloMosaic Idealize.ShloMosaic.ValueIdx
open Cert.ReferenceIdeal.Facts₀
open Cert.ReferenceIdeal.RefRun (Tn)

/-! ### The small stages -/

/-- A vector repeated down the rows reads its entry at the column. -/
theorem rowsOf_apply (v : Tn Ideal S128) (p : Fin 10000) (q : Fin 128) :
    RefRun.rowsOf (F := Ideal) v (ix2 p q) = v (ix1 q) := by
  unfold RefRun.rowsOf
  exact (bcast_rows_apply _ p q).trans (bcast_row_apply v 0 q)

/-- The rectifier at an entry. -/
theorem relu_apply (x : Tn Ideal S10000x128) (p : Fin 10000) (q : Fin 128) :
    RefRun.relu (F := Ideal) x (ix2 p q) = max (x (ix2 p q)) 0 := by
  unfold RefRun.relu
  rw [maximumf_apply, bcast_scalar_apply, constant_apply, Ideal.ofBits_zero_f32]

/-! ### The perceptron -/

/-- The pre-normalisation activations at node `i`, feature `j`: the specification's perceptron of row `i` of the
    adjacency matrix. -/
theorem feat_apply (h : Tn Ideal S10000x128) (A : Tn Ideal S10000x10000) (W1 : Tn Ideal S128x128) (b1 : Tn Ideal S128)
    (W2 : Tn Ideal S128x128) (b2 : Tn Ideal S128) (i : Fin 10000) (j : Fin 128) :
    RefRun.feat (F := Ideal) h A W1 b1 W2 b2 (ix2 i j)
      = Cert.Gin.mlpRow (fun k e => h (ix2 k e)) (fun e d => W1 (ix2 e d)) (fun d => b1 (ix1 d))
          (fun d j => W2 (ix2 d j)) (fun j => b2 (ix1 j)) (fun k => A (ix2 i k)) j := by
  unfold RefRun.feat Cert.Gin.mlpRow
  rw [addf_apply, dot_layer_apply, rowsOf_apply]
  congr 1
  refine Finset.sum_congr rfl fun d _ => ?_
  rw [relu_apply, addf_apply, dot_layer_apply, rowsOf_apply]
  congr 3
  refine Finset.sum_congr rfl fun e _ => ?_
  rw [dot_pool_apply]

/-! ### The column statistics -/

/-- The column mean at column `j`: the specification's. -/
theorem colMean_apply (x : Tn Ideal S10000x128) (j : Fin 128) :
    RefRun.colMean (F := Ideal) x (ix2 (0 : Fin 1) j) = Cert.Gin.refMean (fun i j => x (ix2 i j)) j := by
  unfold RefRun.colMean Cert.Gin.refMean Cert.Gin.rows
  show Ideal.div _ _ = _
  rw [bcast_row_apply, colSum_apply, constant_apply, Ideal.ofBits_zero_f32, zero_add, bcast_scalar_row_apply,
    constant_apply, ofBits_10000]

/-- The variance's divisor is the row count: 10000 less the integer zero. -/
theorem varDen_apply : RefRun.varDen (F := Ideal) ix0 = Cert.Gin.rows := by
  unfold RefRun.varDen Cert.Gin.rows
  rw [subf_apply, constant_apply, ofBits_10000]
  show ((10000 : ℝ) : EReal) - (((0#32 : BitVec 32).toInt : ℝ) : EReal) = _
  simp

/-- The divisor is above zero, so the guard's bit is set. -/
theorem varGuard_apply :
    cmpf .ogt (RefRun.varDen (F := Ideal)) (constant (F := Ideal) S_ .f32 0x00000000#32) ix0 = 1#1 := by
  rw [cmpf_apply, varDen_apply, constant_apply, Ideal.ofBits_zero_f32, Ideal.cmpf_def]
  unfold Ideal.cmp Cert.Gin.rows
  have h : (0 : EReal) < ((10000 : ℝ) : EReal) := by exact_mod_cast (by norm_num : (0 : ℝ) < 10000)
  simp [h]

/-- The column variance at column `j`: the specification's mean of squared deviations. -/
theorem colVar_apply (x : Tn Ideal S10000x128) (j : Fin 128) :
    RefRun.colVar (F := Ideal) x (ix2 (0 : Fin 1) j) = Cert.Gin.refVar (fun i j => x (ix2 i j)) j := by
  unfold RefRun.colVar
  rw [select_apply, bcast_scalar_row_apply, varGuard_apply, select_one]
  show Ideal.div _ _ = _
  rw [bcast_row_apply, colSum_apply, constant_apply, Ideal.ofBits_zero_f32, zero_add, bcast_scalar_row_apply,
    varDen_apply]
  unfold Cert.Gin.refVar
  congr 1
  refine Finset.sum_congr rfl fun k _ => ?_
  rw [mulf_apply, subf_apply, bcast_rows_apply, colMean_apply]

/-! ### The normalisation and the readout -/

/-- The normalised activations at node `i`, feature `j`. -/
theorem normed_apply (x : Tn Ideal S10000x128) (g be : Tn Ideal S128) (i : Fin 10000) (j : Fin 128) :
    RefRun.normed (F := Ideal) x g be (ix2 i j)
      = Ideal.div (g (ix1 j) * (x (ix2 i j) - Cert.Gin.refMean (fun i j => x (ix2 i j)) j))
          (Ideal.sqrt (Cert.Gin.refVar (fun i j => x (ix2 i j)) j + Cert.Gin.eps)) + be (ix1 j) := by
  unfold RefRun.normed
  rw [addf_apply, rowsOf_apply]
  congr 1
  show Ideal.div _ _ = _
  rw [mulf_apply, rowsOf_apply, subf_apply, bcast_rows_apply, colMean_apply, bcast_rows_apply]
  congr 1
  show Ideal.sqrt _ = _
  rw [addf_apply, colVar_apply, bcast_scalar_row_apply, constant_apply]
  rfl

/-- THE REFERENCE'S RESULT at node `i` is the specification's readout of the perceptron's activations. -/
theorem refOut_read (h : Tn Ideal S10000x128) (A : Tn Ideal S10000x10000) (W1 : Tn Ideal S128x128) (b1 : Tn Ideal S128)
    (W2 : Tn Ideal S128x128) (b2 g be : Tn Ideal S128) (Wp : Tn Ideal S128x1) (bp : Tn Ideal S1) (i : Fin 10000) :
    RefRun.refOut (F := Ideal) h A W1 b1 W2 b2 g be Wp bp (ix2 i (0 : Fin 1))
      = Cert.Gin.refOut
          (fun i' j => Cert.Gin.mlpRow (fun k e => h (ix2 k e)) (fun e d => W1 (ix2 e d)) (fun d => b1 (ix1 d))
            (fun d j => W2 (ix2 d j)) (fun j => b2 (ix1 j)) (fun k => A (ix2 i' k)) j)
          (fun j => g (ix1 j)) (fun j => be (ix1 j)) (fun j => Wp (ix2 j (0 : Fin 1))) (bp (ix1 (0 : Fin 1))) i := by
  have hX : (fun i' j => RefRun.feat (F := Ideal) h A W1 b1 W2 b2 (ix2 i' j))
      = fun i' j => Cert.Gin.mlpRow (fun k e => h (ix2 k e)) (fun e d => W1 (ix2 e d)) (fun d => b1 (ix1 d))
          (fun d j => W2 (ix2 d j)) (fun j => b2 (ix1 j)) (fun k => A (ix2 i' k)) j :=
    funext fun i' => funext fun j => feat_apply h A W1 b1 W2 b2 i' j
  unfold RefRun.refOut Cert.Gin.refOut
  rw [addf_apply, dot_readout_apply, bcast_one_rows_apply, bcast_one_apply]
  congr 1
  refine Finset.sum_congr rfl fun k _ => ?_
  rw [relu_apply, normed_apply, hX, feat_apply]

end Cert.ReferenceIdeal.RefRead

end
-- ==== Proof.GinConsts.lean ====
/-
  The constants as reals: the variance floor is the coercion of a positive real; the row count is a nonzero
  real whose reciprocal is the kernel's named constant.  Also the coercion of a finite sum of reals.
-/
import proofs.«123370_g29334626631814_cont_sun_c4_761_10_alg».proof.Proof.Spec

noncomputable section

namespace Cert.Gin

open Idealize.ShloMosaic

/-- The variance floor as a real: (2^23 + 2606508) · 2^(-40). -/
def epsR : ℝ := 10995116 * (2 : ℝ) ^ (-40 : Int)

theorem epsR_pos : 0 < epsR := by
  unfold epsR; positivity

theorem eps_eq : eps = ((epsR : ℝ) : EReal) := by
  unfold eps epsR
  simp [Ideal.ofBits, Ideal.ieee, -EReal.coe_mul]

theorem eps_real : ∃ e : ℝ, 0 < e ∧ eps = (e : EReal) := ⟨epsR, epsR_pos, eps_eq⟩

/-- A finite sum of coerced reals is the coercion of the real sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- Division by the row count is multiplication by its reciprocal. -/
theorem div_rows (a : EReal) : Ideal.div a rows = a * invRows := by
  unfold rows invRows
  exact Ideal.div_coe (by norm_num) a

/-- The maximum of two coerced reals. -/
theorem coe_max' (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

end Cert.Gin

end
-- ==== Proof.GinReal.lean ====
/-
  The real-variable identities.  With n = 10000, s = Σ x_i, q = Σ x_i², μ = s/n:
  the mean of squared deviations (1/n) Σ (x_i − μ)² equals q/n − μ², and is nonnegative;
  and for σ ≠ 0 (indeed any σ), g (x − μ) (1/σ) + b = x (g σ⁻¹) + (b − μ (g σ⁻¹)).
-/
import Idealize.ShloMosaic.PureOps.Ideal

noncomputable section

namespace Cert.Gin

/-- The column mean of a real family. -/
def muR (x : Fin 10000 → Fin 128 → ℝ) (j : Fin 128) : ℝ := (∑ i : Fin 10000, x i j) * (1 / 10000)

/-- The mean of squared deviations from the column mean. -/
def varR (x : Fin 10000 → Fin 128 → ℝ) (j : Fin 128) : ℝ :=
  (∑ i : Fin 10000, (x i j - muR x j) * (x i j - muR x j)) * (1 / 10000)

theorem varR_nonneg (x : Fin 10000 → Fin 128 → ℝ) (j : Fin 128) : 0 ≤ varR x j := by
  unfold varR
  exact mul_nonneg (Finset.sum_nonneg (fun i _ => mul_self_nonneg _)) (by norm_num)

/-- The mean of squared deviations is the mean of squares less the squared mean. -/
theorem varR_eq (x : Fin 10000 → Fin 128 → ℝ) (j : Fin 128) :
    varR x j = (∑ i : Fin 10000, x i j * x i j) * (1 / 10000) - muR x j * muR x j := by
  have hs : (∑ i : Fin 10000, x i j) = 10000 * muR x j := by unfold muR; ring
  unfold varR
  have h1 : ∀ i : Fin 10000, (x i j - muR x j) * (x i j - muR x j)
      = x i j * x i j - (2 * muR x j) * x i j + muR x j * muR x j := fun i => by ring
  rw [Finset.sum_congr rfl (fun i _ => h1 i), Finset.sum_add_distrib, Finset.sum_sub_distrib,
    ← Finset.mul_sum, Finset.sum_const, Finset.card_univ, Fintype.card_fin, hs]
  simp only [nsmul_eq_mul, Nat.cast_ofNat]
  ring

/-- Scaling then shifting: the reference's normalised value is the kernel's scale-and-shift form. -/
theorem affine_eq (g x m s b : ℝ) :
    g * (x - m) * (1 / s) + b = x * (g * s⁻¹) + (b - m * (g * s⁻¹)) := by
  rw [one_div]; ring

end Cert.Gin

end
-- ==== Proof.GinAlgebra.lean ====
/-
  With finite data the kernel's readout equals the reference's.  Every quantity is the coercion of a real:
  the tile sums are the full column sums, so both means are μ = s/n; both variances are the one real
  v = (1/n) Σ (x_i − μ)² = q/n − μ² ≥ 0; the floor is a positive real e, so σ = √(v + e) > 0, the square root
  and the reciprocal square root take their real branches, and division by σ is multiplication by 1/σ.
  Then g (x − μ)/σ + b = x (g/σ) + (b − μ (g/σ)) term by term.
-/
import proofs.«123370_g29334626631814_cont_sun_c4_761_10_alg».proof.Proof.GinConsts
import proofs.«123370_g29334626631814_cont_sun_c4_761_10_alg».proof.Proof.GinTiles
import proofs.«123370_g29334626631814_cont_sun_c4_761_10_alg».proof.Proof.GinReal

noncomputable section

namespace Cert.Gin

open Idealize.ShloMosaic

theorem sqrt_coe_pos {r : ℝ} (h : 0 < r) : Ideal.sqrt (r : EReal) = ((Real.sqrt r : ℝ) : EReal) := by
  rw [Ideal.sqrt_coe, if_neg (not_lt.mpr h.le)]

theorem rsqrt_coe_pos {r : ℝ} (h : 0 < r) :
    Ideal.rsqrt (r : EReal) = (((Real.sqrt r)⁻¹ : ℝ) : EReal) := by
  rw [Ideal.rsqrt_coe, if_neg (not_lt.mpr h.le), if_neg h.ne']

variable (x : Fin 10000 → Fin 128 → ℝ) (g be : Fin 128 → ℝ)

/-- The standard deviation with the floor under the root. -/
def sigR (j : Fin 128) : ℝ := Real.sqrt (varR x j + epsR)

theorem radicand_pos (j : Fin 128) : 0 < varR x j + epsR := by
  have h1 := varR_nonneg x j
  have h2 := epsR_pos
  linarith

theorem sigR_pos (j : Fin 128) : 0 < sigR x j := Real.sqrt_pos.mpr (radicand_pos x j)

theorem refMean_coe (j : Fin 128) :
    refMean (fun i j => ((x i j : ℝ) : EReal)) j = ((muR x j : ℝ) : EReal) := by
  simp only [refMean, div_rows, coe_sum, invRows, muR, ← EReal.coe_mul]

theorem kerMean_coe (j : Fin 128) :
    kerMean (fun i j => ((x i j : ℝ) : EReal)) j = ((muR x j : ℝ) : EReal) := by
  simp only [kerMean, kerSum_eq, coe_sum, invRows, muR, ← EReal.coe_mul]

theorem refVar_coe (j : Fin 128) :
    refVar (fun i j => ((x i j : ℝ) : EReal)) j = ((varR x j : ℝ) : EReal) := by
  simp only [refVar, refMean_coe, div_rows, ← EReal.coe_sub, ← EReal.coe_mul, coe_sum, invRows, varR]

theorem kerVar_coe (j : Fin 128) :
    kerVar (fun i j => ((x i j : ℝ) : EReal)) j = ((varR x j : ℝ) : EReal) := by
  rw [varR_eq]
  simp only [kerVar, kerMean_coe, kerSumSq_eq, ← EReal.coe_sub, ← EReal.coe_mul, coe_sum, invRows]

/-- The reference's normalised value, as a real. -/
theorem refTerm_coe (i : Fin 10000) (j : Fin 128) :
    Ideal.div ((g j : EReal) * (((x i j : ℝ) : EReal) - refMean (fun i j => ((x i j : ℝ) : EReal)) j))
        (Ideal.sqrt (refVar (fun i j => ((x i j : ℝ) : EReal)) j + eps)) + (be j : EReal)
      = ((g j * (x i j - muR x j) * (1 / sigR x j) + be j : ℝ) : EReal) := by
  rw [refMean_coe, refVar_coe, eps_eq, ← EReal.coe_add, sqrt_coe_pos (radicand_pos x j)]
  change Ideal.div _ ((sigR x j : ℝ) : EReal) + _ = _
  rw [Ideal.div_coe (sigR_pos x j).ne']
  simp only [← EReal.coe_sub, ← EReal.coe_mul, ← EReal.coe_add]

theorem kerScale_coe (j : Fin 128) :
    kerScale (fun i j => ((x i j : ℝ) : EReal)) (fun j => (g j : EReal)) j
      = ((g j * (sigR x j)⁻¹ : ℝ) : EReal) := by
  simp only [kerScale, kerVar_coe, eps_eq, ← EReal.coe_add]
  rw [rsqrt_coe_pos (radicand_pos x j), ← EReal.coe_mul]
  rfl

theorem kerShift_coe (j : Fin 128) :
    kerShift (fun i j => ((x i j : ℝ) : EReal)) (fun j => (g j : EReal)) (fun j => (be j : EReal)) j
      = ((be j - muR x j * (g j * (sigR x j)⁻¹) : ℝ) : EReal) := by
  simp only [kerShift, kerScale_coe, kerMean_coe, ← EReal.coe_mul, ← EReal.coe_sub]

/-- The kernel's scale-and-shift value is the reference's normalised value. -/
theorem kerTerm_eq_refTerm (i : Fin 10000) (j : Fin 128) :
    ((x i j : ℝ) : EReal) * kerScale (fun i j => ((x i j : ℝ) : EReal)) (fun j => (g j : EReal)) j
        + kerShift (fun i j => ((x i j : ℝ) : EReal)) (fun j => (g j : EReal)) (fun j => (be j : EReal)) j
      = Ideal.div ((g j : EReal) * (((x i j : ℝ) : EReal) - refMean (fun i j => ((x i j : ℝ) : EReal)) j))
          (Ideal.sqrt (refVar (fun i j => ((x i j : ℝ) : EReal)) j + eps)) + (be j : EReal) := by
  rw [refTerm_coe, kerScale_coe, kerShift_coe, ← EReal.coe_mul, ← EReal.coe_add, affine_eq]

theorem kerOut_eq_refOut (Wp : Fin 128 → ℝ) (bp : ℝ) (i : Fin 10000) :
    kerOut (fun i j => ((x i j : ℝ) : EReal)) (fun j => (g j : EReal)) (fun j => (be j : EReal))
        (fun j => (Wp j : EReal)) (bp : EReal) i
      = refOut (fun i j => ((x i j : ℝ) : EReal)) (fun j => (g j : EReal)) (fun j => (be j : EReal))
        (fun j => (Wp j : EReal)) (bp : EReal) i := by
  simp only [kerOut, refOut, kerTerm_eq_refTerm]

end Cert.Gin

end
-- ==== Proof.GinMlp.lean ====
/-
  The pre-normalisation activations are finite when the inputs are: sums, products and maxima with zero of
  coerced reals are coerced reals, so one adjacency row through the two-layer perceptron is the coercion of
  the same formula read over the reals.
-/
import proofs.«123370_g29334626631814_cont_sun_c4_761_10_alg».proof.Proof.GinConsts

noncomputable section

namespace Cert.Gin

open Idealize.ShloMosaic

/-- The maximum of a coerced real with zero. -/
theorem coe_max_zero (a : ℝ) : max (a : EReal) 0 = ((max a 0 : ℝ) : EReal) := by
  have h := coe_max' a 0
  rwa [EReal.coe_zero] at h

/-- The same formula over the reals. -/
def mlpRowR (h : Fin 10000 → Fin 128 → ℝ) (W1 : Fin 128 → Fin 128 → ℝ) (b1 : Fin 128 → ℝ)
    (W2 : Fin 128 → Fin 128 → ℝ) (b2 : Fin 128 → ℝ) (a : Fin 10000 → ℝ) (j : Fin 128) : ℝ :=
  (∑ d : Fin 128, max ((∑ e : Fin 128, (∑ k : Fin 10000, a k * h k e) * W1 e d) + b1 d) 0 * W2 d j) + b2 j

theorem mlpRow_coe (h : Fin 10000 → Fin 128 → ℝ) (W1 : Fin 128 → Fin 128 → ℝ) (b1 : Fin 128 → ℝ)
    (W2 : Fin 128 → Fin 128 → ℝ) (b2 : Fin 128 → ℝ) (a : Fin 10000 → ℝ) (j : Fin 128) :
    mlpRow (fun k e => (h k e : EReal)) (fun e d => (W1 e d : EReal)) (fun d => (b1 d : EReal))
        (fun d j => (W2 d j : EReal)) (fun j => (b2 j : EReal)) (fun k => (a k : EReal)) j
      = ((mlpRowR h W1 b1 W2 b2 a j : ℝ) : EReal) := by
  simp only [mlpRow, mlpRowR, ← EReal.coe_mul, coe_sum, ← EReal.coe_add, coe_max_zero]

theorem mlpRow_real (h : Fin 10000 → Fin 128 → ℝ) (W1 : Fin 128 → Fin 128 → ℝ) (b1 : Fin 128 → ℝ)
    (W2 : Fin 128 → Fin 128 → ℝ) (b2 : Fin 128 → ℝ) (a : Fin 10000 → ℝ) (j : Fin 128) :
    ∃ r : ℝ, mlpRow (fun k e => (h k e : EReal)) (fun e d => (W1 e d : EReal)) (fun d => (b1 d : EReal))
        (fun d j => (W2 d j : EReal)) (fun j => (b2 j : EReal)) (fun k => (a k : EReal)) j = (r : EReal) :=
  ⟨_, mlpRow_coe h W1 b1 W2 b2 a j⟩

end Cert.Gin

end
-- ==== Proof.GinClose.lean ====
/-
  With finite data the kernel's readout of the perceptron's activations equals the reference's: the activations
  of finite inputs are finite, so the equality of the two readouts on finite activations applies.
-/
import proofs.«123370_g29334626631814_cont_sun_c4_761_10_alg».proof.Proof.GinAlgebra
import proofs.«123370_g29334626631814_cont_sun_c4_761_10_alg».proof.Proof.GinMlp

noncomputable section

namespace Cert.Gin

open Idealize.ShloMosaic

/-- A family of extended reals that are all reals is the coercion of a real family. -/
theorem exists_real2 {ι κ : Type} (a : ι → κ → EReal) (h : ∀ i k, ∃ r : ℝ, a i k = (r : EReal)) :
    ∃ a' : ι → κ → ℝ, a = fun i k => ((a' i k : ℝ) : EReal) :=
  ⟨fun i k => (a i k).toReal, funext fun i => funext fun k => by
    obtain ⟨r, hr⟩ := h i k
    show a i k = (((a i k).toReal : ℝ) : EReal)
    rw [hr, EReal.toReal_coe]⟩

theorem exists_real1 {ι : Type} (a : ι → EReal) (h : ∀ i, ∃ r : ℝ, a i = (r : EReal)) :
    ∃ a' : ι → ℝ, a = fun i => ((a' i : ℝ) : EReal) :=
  ⟨fun i => (a i).toReal, funext fun i => by
    obtain ⟨r, hr⟩ := h i
    show a i = (((a i).toReal : ℝ) : EReal)
    rw [hr, EReal.toReal_coe]⟩

/-- The two readouts agree on the perceptron's activations of finite inputs. -/
theorem kerOut_eq_refOut_mlp (A : Fin 10000 → Fin 10000 → EReal) (h : Fin 10000 → Fin 128 → EReal)
    (W1 : Fin 128 → Fin 128 → EReal) (b1 : Fin 128 → EReal) (W2 : Fin 128 → Fin 128 → EReal)
    (b2 g be Wp : Fin 128 → EReal) (bp : EReal)
    (fA : ∀ i k, ∃ r : ℝ, A i k = (r : EReal)) (fh : ∀ k e, ∃ r : ℝ, h k e = (r : EReal))
    (fW1 : ∀ e d, ∃ r : ℝ, W1 e d = (r : EReal)) (fb1 : ∀ d, ∃ r : ℝ, b1 d = (r : EReal))
    (fW2 : ∀ d j, ∃ r : ℝ, W2 d j = (r : EReal)) (fb2 : ∀ j, ∃ r : ℝ, b2 j = (r : EReal))
    (fg : ∀ j, ∃ r : ℝ, g j = (r : EReal)) (fbe : ∀ j, ∃ r : ℝ, be j = (r : EReal))
    (fWp : ∀ j, ∃ r : ℝ, Wp j = (r : EReal)) (fbp : ∃ r : ℝ, bp = (r : EReal)) (i : Fin 10000) :
    kerOut (fun i j => mlpRow h W1 b1 W2 b2 (A i) j) g be Wp bp i
      = refOut (fun i j => mlpRow h W1 b1 W2 b2 (A i) j) g be Wp bp i := by
  obtain ⟨A', rfl⟩ := exists_real2 A fA
  obtain ⟨h', rfl⟩ := exists_real2 h fh
  obtain ⟨W1', rfl⟩ := exists_real2 W1 fW1
  obtain ⟨b1', rfl⟩ := exists_real1 b1 fb1
  obtain ⟨W2', rfl⟩ := exists_real2 W2 fW2
  obtain ⟨b2', rfl⟩ := exists_real1 b2 fb2
  obtain ⟨g', rfl⟩ := exists_real1 g fg
  obtain ⟨be', rfl⟩ := exists_real1 be fbe
  obtain ⟨Wp', rfl⟩ := exists_real1 Wp fWp
  obtain ⟨bp', rfl⟩ := fbp
  have hX : (fun (i : Fin 10000) (j : Fin 128) =>
        mlpRow (fun k e => ((h' k e : ℝ) : EReal)) (fun e d => ((W1' e d : ℝ) : EReal)) (fun d => ((b1' d : ℝ) : EReal))
          (fun d j => ((W2' d j : ℝ) : EReal)) (fun j => ((b2' j : ℝ) : EReal))
          ((fun i k => ((A' i k : ℝ) : EReal)) i) j)
      = fun i j => ((mlpRowR h' W1' b1' W2' b2' (A' i) j : ℝ) : EReal) :=
    funext fun i => funext fun j => mlpRow_coe h' W1' b1' W2' b2' (A' i) j
  rw [hX]
  exact kerOut_eq_refOut (fun i j => mlpRowR h' W1' b1' W2' b2' (A' i) j) g' be' Wp' bp' i

end Cert.Gin

end
-- ==== Proof.KIValueEq.lean ====
/-
  The closing equation on values: under the precondition that every entry of the ten argument arrays is a real,
  what the kernel's last point stores into the output is, entry by entry, the reference's result on the same
  arrays.  The kernel's value is the specification's kernel readout of the perceptron's activations of the
  argument arrays; the reference's result is the specification's reference readout of the same activations; and
  the two readouts agree on finite data.
-/
import proofs.«123370_g29334626631814_cont_sun_c4_761_10_alg».proof.Proof.KIValue
import proofs.«123370_g29334626631814_cont_sun_c4_761_10_alg».proof.Proof.KIBlocks
import proofs.«123370_g29334626631814_cont_sun_c4_761_10_alg».proof.Proof.RefRead
import proofs.«123370_g29334626631814_cont_sun_c4_761_10_alg».proof.Proof.GinClose

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

/-- The kernel's final value is the reference's result. -/
theorem outVal_eq_refOut (m : (ℓ : Loc nD τ sig) → Buf (Elt Ideal) ℓ) (c : Dev nD)
    (hfin : (∀ i, ∃ r : ℝ, (m ((c : Thread nD τ).loc main_arg0) : Vec Ideal S10000x128 .f32) i = (r : EReal))
      ∧ (∀ i, ∃ r : ℝ, (m ((c : Thread nD τ).loc main_arg1) : Vec Ideal S10000x10000 .f32) i = (r : EReal))
      ∧ (∀ i, ∃ r : ℝ, (m ((c : Thread nD τ).loc main_arg2) : Vec Ideal S128x128 .f32) i = (r : EReal))
      ∧ (∀ i, ∃ r : ℝ, (m ((c : Thread nD τ).loc main_arg3) : Vec Ideal S128 .f32) i = (r : EReal))
      ∧ (∀ i, ∃ r : ℝ, (m ((c : Thread nD τ).loc main_arg4) : Vec Ideal S128x128 .f32) i = (r : EReal))
      ∧ (∀ i, ∃ r : ℝ, (m ((c : Thread nD τ).loc main_arg5) : Vec Ideal S128 .f32) i = (r : EReal))
      ∧ (∀ i, ∃ r : ℝ, (m ((c : Thread nD τ).loc main_arg6) : Vec Ideal S128 .f32) i = (r : EReal))
      ∧ (∀ i, ∃ r : ℝ, (m ((c : Thread nD τ).loc main_arg7) : Vec Ideal S128 .f32) i = (r : EReal))
      ∧ (∀ i, ∃ r : ℝ, (m ((c : Thread nD τ).loc main_arg8) : Vec Ideal S128x1 .f32) i = (r : EReal))
      ∧ (∀ i, ∃ r : ℝ, (m ((c : Thread nD τ).loc main_arg9) : Vec Ideal S1 .f32) i = (r : EReal)))
    (y : S10000x1.Idx) :
    outVal m c y
      = Cert.ReferenceIdeal.RefRun.refOut (F := Ideal)
          (m ((c : Thread nD τ).loc main_arg0) : Vec Ideal S10000x128 .f32) (m ((c : Thread nD τ).loc main_arg1) : Vec Ideal S10000x10000 .f32)
          (m ((c : Thread nD τ).loc main_arg2) : Vec Ideal S128x128 .f32) (m ((c : Thread nD τ).loc main_arg3) : Vec Ideal S128 .f32)
          (m ((c : Thread nD τ).loc main_arg4) : Vec Ideal S128x128 .f32) (m ((c : Thread nD τ).loc main_arg5) : Vec Ideal S128 .f32)
          (m ((c : Thread nD τ).loc main_arg6) : Vec Ideal S128 .f32) (m ((c : Thread nD τ).loc main_arg7) : Vec Ideal S128 .f32)
          (m ((c : Thread nD τ).loc main_arg8) : Vec Ideal S128x1 .f32) (m ((c : Thread nD τ).loc main_arg9) : Vec Ideal S1 .f32) y := by
  obtain ⟨f0, f1, f2, f3, f4, f5, f6, f7, f8, f9⟩ := hfin
  obtain ⟨i, rfl⟩ : ∃ i : Fin 10000, y = ix2 i (0 : Fin 1) :=
    ⟨y 0, (eq_ix2 y).trans (congrArg (ix2 (y 0)) (Fin.ext (by have := idx2_lt1 y; show (y 1).val = 0; omega)))⟩
  refine (outVal_apply m c
    (fun i k => (m ((c : Thread nD τ).loc main_arg1) : Vec Ideal S10000x10000 .f32) (ix2 i k))
    (fun k e => (m ((c : Thread nD τ).loc main_arg0) : Vec Ideal S10000x128 .f32) (ix2 k e))
    (fun e d => (m ((c : Thread nD τ).loc main_arg2) : Vec Ideal S128x128 .f32) (ix2 e d))
    (fun d => (m ((c : Thread nD τ).loc main_arg3) : Vec Ideal S128 .f32) (ix1 d))
    (fun d j => (m ((c : Thread nD τ).loc main_arg4) : Vec Ideal S128x128 .f32) (ix2 d j))
    (fun j => (m ((c : Thread nD τ).loc main_arg5) : Vec Ideal S128 .f32) (ix1 j))
    (fun j => (m ((c : Thread nD τ).loc main_arg6) : Vec Ideal S128 .f32) (ix1 j))
    (fun j => (m ((c : Thread nD τ).loc main_arg7) : Vec Ideal S128 .f32) (ix1 j))
    (fun j => (m ((c : Thread nD τ).loc main_arg8) : Vec Ideal S128x1 .f32) (ix2 j (0 : Fin 1)))
    ((m ((c : Thread nD τ).loc main_arg9) : Vec Ideal S1 .f32) (ix1 (0 : Fin 1)))
    (iblk0_apply m c) (iblk1_apply m c) (iblk2_apply m c) (iblk3_apply m c) (iblk4_apply m c) (iblk5_apply m c)
    (iblk6_apply m c) (iblk7_apply m c) (iblk8_apply m c) (iblk9_apply m c) (iblk10_apply m c) i).trans ?_
  refine Eq.trans ?_ (Cert.ReferenceIdeal.RefRead.refOut_read _ _ _ _ _ _ _ _ _ _ i).symm
  exact Cert.Gin.kerOut_eq_refOut_mlp _ _ _ _ _ _ _ _ _ _
    (fun i k => f1 (ix2 i k)) (fun k e => f0 (ix2 k e)) (fun e d => f2 (ix2 e d)) (fun d => f3 (ix1 d))
    (fun d j => f4 (ix2 d j)) (fun j => f5 (ix1 j)) (fun j => f6 (ix1 j)) (fun j => f7 (ix1 j))
    (fun j => f8 (ix2 j (0 : Fin 1))) (f9 (ix1 (0 : Fin 1))) i

end Cert.KernelIdeal.Hand

end
-- ==== Proof.FiniteInputs.lean ====
/-
  The precondition decoded: the printed test is a conjunction, one conjunct per argument array, each saying that
  every entry's absolute value is strictly below the word of positive infinity.  At the extended reals that word is
  the top element, the absolute value of either infinity is the top element, so a strict comparison that holds
  leaves only the reals: every entry of every argument array is a real number.
-/
import proofs.«123370_g29334626631814_cont_sun_c4_761_10_alg».proof.Defs
import proofs.«123370_g29334626631814_cont_sun_c4_761_10_alg».proof.Proof.Gen.Pre_finite_inputs
import Idealize.ShloMosaic.Lib.ReduceAll
import Idealize.ShloMosaic.Lib.ValueIdx
import Idealize.ShloMosaic.PureOps.Ideal.Laws

noncomputable section

namespace Cert.Proof.Finite

open Idealize.ShloMosaic Idealize.ShloMosaic.ValueIdx Cert.Pre_finite_inputs

/-- The scalar shape has one index. -/
instance : Subsingleton S_.Idx := ⟨fun _ _ => funext fun d => d.elim0⟩

/-- The word 0x7F800000 denotes the top element. -/
theorem ofBits_inf : Ideal.ofBits .f32 0x7F800000#32 = ⊤ := by
  simp [Ideal.ofBits, Ideal.ieee]

/-- An extended real whose absolute value is strictly below the top element is a real. -/
theorem real_of_abs_lt_top (x : EReal) (h : Ideal.cmp .olt (max x (-x)) ⊤ = 1#1) : ∃ r : ℝ, x = (r : EReal) := by
  induction x using EReal.rec with
  | bot => simp [Ideal.cmp] at h
  | top => simp [Ideal.cmp] at h
  | coe r => exact ⟨r, rfl⟩

/-- ONE ARRAY, any shape: if the conjunction over all entries of "the absolute value is below the word of positive
    infinity" came out set, every entry is a real. -/
theorem finite_of_all {s : Shape} {axes : List (Fin s.rank)} (x : s.Idx → EReal)
    (hb : S_.BroadcastsInDim s (![] : Fin 0 → Fin s.rank)) (hr : s.ReducesTo axes S_) (hu : 0 < S_.numel)
    (h : Host.reduce IntOp.andi
        (cmpf .olt (Host.absf (F := Ideal) (φ := .f32) x)
          (broadcastInDim s ![] hb (constant (F := Ideal) S_ .f32 0x7F800000#32)))
        (constantI S_ 1 1#1) hr hu ix0 = 1#1) :
    ∀ i, ∃ r : ℝ, x i = (r : EReal) := by
  intro i
  have e := Host.reduce_andi_all _ _ hr hu ix0 h i
  have e' : Ideal.cmp .olt (max (x i) (-(x i))) (Ideal.ofBits .f32 0x7F800000#32) = 1#1 := e
  rw [ofBits_inf] at e'
  exact real_of_abs_lt_top (x i) e'

/-- THE PRECONDITION DECODED: every entry of each of the ten argument arrays is a real. -/
theorem finite_of_pre (a0 : S10000x128.Idx → EReal) (a1 : S10000x10000.Idx → EReal) (a2 : S128x128.Idx → EReal)
    (a3 : S128.Idx → EReal) (a4 : S128x128.Idx → EReal) (a5 a6 a7 : S128.Idx → EReal) (a8 : S128x1.Idx → EReal)
    (a9 : S1.Idx → EReal)
    (h : Cert.Pre_finite_inputs.fn (F := Ideal) a0 a1 a2 a3 a4 a5 a6 a7 a8 a9 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, ∃ r : ℝ, a7 i = (r : EReal)) ∧ (∀ i, ∃ r : ℝ, a8 i = (r : EReal))
      ∧ (∀ i, ∃ r : ℝ, a9 i = (r : EReal)) := by
  have h0 := congrFun h ix0
  dsimp only [fn, fn_part1, fn_part2, andi] at h0
  simp only [IntOp.andi_eq_one] at h0
  obtain ⟨⟨⟨⟨⟨⟨⟨⟨⟨e0, e1⟩, e2⟩, e3⟩, e4⟩, e5⟩, e6⟩, e7⟩, e8⟩, e9⟩ := h0
  exact ⟨finite_of_all a0 _ _ _ e0, finite_of_all a1 _ _ _ e1, finite_of_all a2 _ _ _ e2, finite_of_all a3 _ _ _ e3,
    finite_of_all a4 _ _ _ e4, finite_of_all a5 _ _ _ e5, finite_of_all a6 _ _ _ e6, finite_of_all a7 _ _ _ e7,
    finite_of_all a8 _ _ _ e8, finite_of_all a9 _ _ _ e9⟩

/-! ### The real-valued form -/

/-- A family of extended reals that are all reals is the coercion of its real parts. -/
theorem eq_coe_toReal {ι : Type} (a : ι → EReal) (h : ∀ i, ∃ r : ℝ, a i = (r : EReal)) :
    a = fun i => (((a i).toReal : ℝ) : EReal) :=
  funext fun i => by obtain ⟨r, hr⟩ := h i; rw [hr, EReal.toReal_coe]

/-- The same by choice: a real-valued family whose coercion the array is. -/
theorem exists_real_family {ι : Type} (a : ι → EReal) (h : ∀ i, ∃ r : ℝ, a i = (r : EReal)) :
    ∃ a' : ι → ℝ, a = fun i => ((a' i : ℝ) : EReal) :=
  ⟨fun i => (a i).toReal, eq_coe_toReal a h⟩

/-- THE PRECONDITION, real-valued: each argument array is the coercion of its real parts. -/
theorem coe_toReal_of_pre (a0 : S10000x128.Idx → EReal) (a1 : S10000x10000.Idx → EReal) (a2 : S128x128.Idx → EReal)
    (a3 : S128.Idx → EReal) (a4 : S128x128.Idx → EReal) (a5 a6 a7 : S128.Idx → EReal) (a8 : S128x1.Idx → EReal)
    (a9 : S1.Idx → EReal)
    (h : Cert.Pre_finite_inputs.fn (F := Ideal) a0 a1 a2 a3 a4 a5 a6 a7 a8 a9 = fun _ => 1#1) :
    (a0 = fun i => (((a0 i).toReal : ℝ) : EReal)) ∧ (a1 = fun i => (((a1 i).toReal : ℝ) : EReal))
      ∧ (a2 = fun i => (((a2 i).toReal : ℝ) : EReal)) ∧ (a3 = fun i => (((a3 i).toReal : ℝ) : EReal))
      ∧ (a4 = fun i => (((a4 i).toReal : ℝ) : EReal)) ∧ (a5 = fun i => (((a5 i).toReal : ℝ) : EReal))
      ∧ (a6 = fun i => (((a6 i).toReal : ℝ) : EReal)) ∧ (a7 = fun i => (((a7 i).toReal : ℝ) : EReal))
      ∧ (a8 = fun i => (((a8 i).toReal : ℝ) : EReal)) ∧ (a9 = fun i => (((a9 i).toReal : ℝ) : EReal)) := by
  obtain ⟨f0, f1, f2, f3, f4, f5, f6, f7, f8, f9⟩ := finite_of_pre a0 a1 a2 a3 a4 a5 a6 a7 a8 a9 h
  exact ⟨eq_coe_toReal a0 f0, eq_coe_toReal a1 f1, eq_coe_toReal a2 f2, eq_coe_toReal a3 f3, eq_coe_toReal a4 f4,
    eq_coe_toReal a5 f5, eq_coe_toReal a6 f6, eq_coe_toReal a7 f7, eq_coe_toReal a8 f8, eq_coe_toReal a9 f9⟩

end Cert.Proof.Finite

end
-- ==== Proof.lean ====
/-
  The certificate of the fused graph-convolution kernel against its plain reference.

  Both programs compute, for every node, the readout of a batch-normalised two-layer perceptron applied to the
  sum of the node's neighbours' features.  The kernel walks the adjacency matrix in 25 points of two 200-row
  blocks, keeps the pre-normalisation activations and their column sums and sums of squares in scratch, and
  normalises at the last point with variance  E[x²] − E[x]²  and a reciprocal square root; the reference
  normalises with the mean of squared deviations and a quotient by the square root.  Over the reals the two
  agree because the inputs are finite (the variance identity and the rearrangement of the affine map both need
  it) and the kernel's reciprocal of the row count is the named rational 1/10000.

  The kernel's run (Proof/KI*.lean at the ideal values, Proof/K*.lean word for word): the adjacency matrix reaches
  the body through two windows on one buffer, whose share is dealt to them in halves; between points the
  activations scratch holds the earlier points' blocks in their rows and the statistics scratch the sums so far;
  the last point stores the readout, which is the one block written back.  The reference's run: one straight line
  of 63 host operations, its result a staged term of the arguments (Proof/RefRun.lean, Proof/RefTerm.lean).  Both
  values are read index by index as the formulas of Proof/Spec.lean (Proof/KPay*.lean, Proof/KIValue*.lean,
  Proof/RefRead*.lean), which agree on finite data (Proof/Gin*.lean); the precondition says the data are finite
  (Proof/FiniteInputs.lean).
-/
import proofs.«123370_g29334626631814_cont_sun_c4_761_10_alg».proof.Defs
import proofs.«123370_g29334626631814_cont_sun_c4_761_10_alg».proof.Proof.Gen.Kernel
import proofs.«123370_g29334626631814_cont_sun_c4_761_10_alg».proof.Proof.Gen.KernelIdeal
import proofs.«123370_g29334626631814_cont_sun_c4_761_10_alg».proof.Proof.Gen.ReferenceIdeal
import proofs.«123370_g29334626631814_cont_sun_c4_761_10_alg».proof.Proof.Gen.Pre_finite_inputs
import proofs.«123370_g29334626631814_cont_sun_c4_761_10_alg».proof.Proof.Preserves
import proofs.«123370_g29334626631814_cont_sun_c4_761_10_alg».proof.Proof.RefTerm
import proofs.«123370_g29334626631814_cont_sun_c4_761_10_alg».proof.Proof.KFrame
import proofs.«123370_g29334626631814_cont_sun_c4_761_10_alg».proof.Proof.KIFrame
import proofs.«123370_g29334626631814_cont_sun_c4_761_10_alg».proof.Proof.KIValueEq
import proofs.«123370_g29334626631814_cont_sun_c4_761_10_alg».proof.Proof.FiniteInputs
import Idealize.ShloMosaic.Adequacy
import Idealize.ShloMosaic.Init

noncomputable section

namespace Cert.Proof

open Idealize.ShloMosaic Idealize.SL.Sem

/-- The kernel terminates, faults nowhere and leaves its arguments as they were, word for word. -/
theorem frame_k : Cert.frame_Kernel := fun m ρ _ =>
  (θ_run Cert.Kernel.defs _ _).mono (fun r h c => Cert.Kernel.Hand.frame_of_post m r h c)
    (Cert.Kernel.Hand.run_main (F := Bits) m ρ)

/-- The same of its idealisation, at the ideal values. -/
theorem frame_ki : Cert.frame_KernelIdeal := fun m ρ _ =>
  (θ_run Cert.KernelIdeal.defs _ _).mono (fun r h c => Cert.KernelIdeal.Hand.frame_of_post m r h c)
    (Cert.KernelIdeal.Hand.run_main (F := Ideal) m ρ)

/-- The reference terminates, faults nowhere and leaves its arguments as they were: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- From memories that agree on the arguments, finite by the precondition, the kernel's result array — the readout the
    last point stores — and the reference's result are one array of extended reals. -/
theorem algebraic : Cert.algebraic_KernelIdeal_ReferenceIdeal := by
  intro m ρ m' ρ' hpre hagree
  refine ⟨fun c => Cert.KernelIdeal.Hand.outVal m c, ?_, ?_⟩
  · exact (θ_run Cert.KernelIdeal.defs _ _).mono
      (fun r h c => ⟨((h c).1 11).trans (Cert.KernelIdeal.Hand.final_out m c), Cert.KernelIdeal.Hand.frame_of_post m r h c⟩)
      (Cert.KernelIdeal.Hand.run_main (F := Ideal) m ρ)
  · refine (θ_run Cert.ReferenceIdeal.defs _ _).mono (fun r h c => ⟨(h c).1.trans ?_, (h c).2⟩)
      (Cert.ReferenceIdeal.RefRun.run (F := Ideal) m' ρ')
    obtain ⟨e0, e1, e2, e3, e4, e5, e6, e7, e8, e9⟩ := hagree c
    rw [e0, e1, e2, e3, e4, e5, e6, e7, e8, e9]
    funext y
    exact (Cert.KernelIdeal.Hand.outVal_eq_refOut m c (Cert.Proof.Finite.finite_of_pre _ _ _ _ _ _ _ _ _ _ (hpre c)) y).symm

theorem claim : Cert.Claim := ⟨Cert.Kernel.Gen.facts, Cert.KernelIdeal.Gen.facts, Cert.ReferenceIdeal.Gen.facts, Cert.Pre_finite_inputs.Gen.facts,
  frame_k, frame_ki, frame_ri, Cert.Proof.Bridge.preserves, algebraic⟩

end Cert.Proof

end
